-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v335) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S6x32x32 : Shape := ⟨3, ![6, 32, 32]⟩
abbrev S6x32 : Shape := ⟨2, ![6, 32]⟩
abbrev S224x16 : Shape := ⟨2, ![224, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S6x32x32 : S_.BroadcastsInDim S6x32x32 (![] : Fin 0 → Fin S6x32x32.rank)
  reducesTo_S6x32x32_S_d0_1_2 : S6x32x32.ReducesTo [0, 1, 2] S_
  bcast_S_S6x32 : S_.BroadcastsInDim S6x32 (![] : Fin 0 → Fin S6x32.rank)
  reducesTo_S6x32_S_d0_1 : S6x32.ReducesTo [0, 1] S_
  bcast_S_S224x16 : S_.BroadcastsInDim S224x16 (![] : Fin 0 → Fin S224x16.rank)
  reducesTo_S224x16_S_d0_1 : S224x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S6x32 .f32) (main_arg6 : FVec F S224x16 .f32) (main_arg7 : FVec F S16 .f32) (main_v13 : IVec S_ 1) (main_v16 : IVec S6x32x32 1) : IVec S_ 1 :=
  let main_c_5 : IVec S_ 1 := constantI S_ 1 1#1
  let main_v17 : IVec S_ 1 := (fun x v => Host.reduce IntOp.andi x v reducesTo_S6x32x32_S_d0_1_2 h_S_) main_v16 main_c_5
  let main_v18 : IVec S_ 1 := andi main_v13 main_v17
  let main_v19 : FVec F S6x32 .f32 := Host.absf main_arg5
  let main_cst_6 : FVec F S_ .f32 := constant S_ .f32 0x7F800000#32
  let main_v20 : FVec F S6x32 .f32 := broadcastInDim S6x32 ![] bcast_S_S6x32 main_cst_6
  let main_v21 : IVec S6x32 1 := cmpf .olt main_v19 main_v20
  let main_c_7 : IVec S_ 1 := constantI S_ 1 1#1
  let main_v22 : IVec S_ 1 := (fun x v => Host.reduce IntOp.andi x v reducesTo_S6x32_S_d0_1 h_S_) main_v21 main_c_7
  let main_v23 : IVec S_ 1 := andi main_v18 main_v22
  let main_v24 : FVec F S224x16 .f32 := Host.absf main_arg6
  let main_cst_8 : FVec F S_ .f32 := constant S_ .f32 0x7F800000#32
  let main_v25 : FVec F S224x16 .f32 := broadcastInDim S224x16 ![] bcast_S_S224x16 main_cst_8
  let main_v26 : IVec S224x16 1 := cmpf .olt main_v24 main_v25
  let main_c_9 : IVec S_ 1 := constantI S_ 1 1#1
  let main_v27 : IVec S_ 1 := (fun x v => Host.reduce IntOp.andi x v reducesTo_S224x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x32 .f32) (main_arg3 : FVec F S32 .f32) (main_arg4 : FVec F S6x32x32 .f32) (main_arg5 : FVec F S6x32 .f32) (main_arg6 : FVec F S224x16 .f32) (main_arg7 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S6x32x32 .f32 := Host.absf main_arg4
  let main_cst_4 : FVec F S_ .f32 := constant S_ .f32 0x7F800000#32
  let main_v15 : FVec F S6x32x32 .f32 := broadcastInDim S6x32x32 ![] bcast_S_S6x32x32 main_cst_4
  let main_v16 : IVec S6x32x32 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S6x32x32 : Shape := ⟨3, ![6, 32, 32]⟩
abbrev S6x32 : Shape := ⟨2, ![6, 32]⟩
abbrev S224x16 : Shape := ⟨2, ![224, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S1x32 : Shape := ⟨2, ![1, 32]⟩
abbrev S100000x32 : Shape := ⟨2, ![100000, 32]⟩
abbrev S10000x128 : Shape := ⟨2, ![10000, 128]⟩
abbrev S10000x32 : Shape := ⟨2, ![10000, 32]⟩
abbrev S10000 : Shape := ⟨1, ![10000]⟩
abbrev S10000x1 : Shape := ⟨2, ![10000, 1]⟩
abbrev S3300000x32 : Shape := ⟨2, ![3300000, 32]⟩
abbrev S1x32x32 : Shape := ⟨3, ![1, 32, 32]⟩
abbrev S32x32 : Shape := ⟨2, ![32, 32]⟩
abbrev S1x16 : Shape := ⟨2, ![1, 16]⟩
abbrev S100000x16 : Shape := ⟨2, ![100000, 16]⟩
abbrev S2000x32 : Shape := ⟨2, ![2000, 32]⟩
abbrev S2000x16 : Shape := ⟨2, ![2000, 16]⟩
abbrev S2000 : Shape := ⟨1, ![2000]⟩
abbrev S2000x1 : Shape := ⟨2, ![2000, 1]⟩
abbrev S2000x224 : Shape := ⟨2, ![2000, 224]⟩

abbrev nBuf : Space → Nat
  | .hbm => 184
  | .vmem => 60
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S6x32x32, .f32⟩
  | 5 => ⟨S6x32, .f32⟩
  | 6 => ⟨S224x16, .f32⟩
  | 7 => ⟨S16, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S1x32, .f32⟩
  | 49 => ⟨S100000x32, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000x32, .f32⟩
  | 59 => ⟨S3300000x1, .f32⟩
  | 60 => ⟨S3300000x32, .f32⟩
  | 61 => ⟨S3300000x32, .f32⟩
  | 62 => ⟨S_, .f32⟩
  | 63 => ⟨S100000x32, .f32⟩
  | 64 => ⟨S3300000x1, .i32⟩
  | 65 => ⟨S100000x32, .f32⟩
  | 66 => ⟨S1x32x32, .f32⟩
  | 67 => ⟨S32x32, .f32⟩
  | 68 => ⟨S1x32, .f32⟩
  | 69 => ⟨S32, .f32⟩
  | 70 => ⟨S1x32, .f32⟩
  | 71 => ⟨S100000x32, .f32⟩
  | 72 => ⟨S_, .i32⟩
  | 73 => ⟨S3300000, .i32⟩
  | 74 => ⟨S3300000, .i1⟩
  | 75 => ⟨S_, .i32⟩
  | 76 => ⟨S3300000, .i32⟩
  | 77 => ⟨S3300000, .i32⟩
  | 78 => ⟨S3300000, .i32⟩
  | 79 => ⟨S3300000x1, .i32⟩
  | 80 => ⟨S3300000x32, .f32⟩
  | 81 => ⟨S3300000x1, .f32⟩
  | 82 => ⟨S3300000x32, .f32⟩
  | 83 => ⟨S3300000x32, .f32⟩
  | 84 => ⟨S_, .f32⟩
  | 85 => ⟨S100000x32, .f32⟩
  | 86 => ⟨S3300000x1, .i32⟩
  | 87 => ⟨S100000x32, .f32⟩
  | 88 => ⟨S1x32x32, .f32⟩
  | 89 => ⟨S32x32, .f32⟩
  | 90 => ⟨S1x32, .f32⟩
  | 91 => ⟨S32, .f32⟩
  | 92 => ⟨S1x32, .f32⟩
  | 93 => ⟨S100000x32, .f32⟩
  | 94 => ⟨S_, .i32⟩
  | 95 => ⟨S3300000, .i32⟩
  | 96 => ⟨S3300000, .i1⟩
  | 97 => ⟨S_, .i32⟩
  | 98 => ⟨S3300000, .i32⟩
  | 99 => ⟨S3300000, .i32⟩
  | 100 => ⟨S3300000, .i32⟩
  | 101 => ⟨S3300000x1, .i32⟩
  | 102 => ⟨S3300000x32, .f32⟩
  | 103 => ⟨S3300000x1, .f32⟩
  | 104 => ⟨S3300000x32, .f32⟩
  | 105 => ⟨S3300000x32, .f32⟩
  | 106 => ⟨S_, .f32⟩
  | 107 => ⟨S100000x32, .f32⟩
  | 108 => ⟨S3300000x1, .i32⟩
  | 109 => ⟨S100000x32, .f32⟩
  | 110 => ⟨S1x32x32, .f32⟩
  | 111 => ⟨S32x32, .f32⟩
  | 112 => ⟨S1x32, .f32⟩
  | 113 => ⟨S32, .f32⟩
  | 114 => ⟨S1x32, .f32⟩
  | 115 => ⟨S100000x32, .f32⟩
  | 116 => ⟨S_, .i32⟩
  | 117 => ⟨S3300000, .i32⟩
  | 118 => ⟨S3300000, .i1⟩
  | 119 => ⟨S_, .i32⟩
  | 120 => ⟨S3300000, .i32⟩
  | 121 => ⟨S3300000, .i32⟩
  | 122 => ⟨S3300000, .i32⟩
  | 123 => ⟨S3300000x1, .i32⟩
  | 124 => ⟨S3300000x32, .f32⟩
  | 125 => ⟨S3300000x1, .f32⟩
  | 126 => ⟨S3300000x32, .f32⟩
  | 127 => ⟨S3300000x32, .f32⟩
  | _ => ⟨S100000x128, .f32⟩

abbrev hbmTy0_1 (i : Nat) : BufTy := match i % 128 with
  | 0 => ⟨S_, .f32⟩
  | 1 => ⟨S100000x32, .f32⟩
  | 2 => ⟨S3300000x1, .i32⟩
  | 3 => ⟨S100000x32, .f32⟩
  | 4 => ⟨S1x32x32, .f32⟩
  | 5 => ⟨S32x32, .f32⟩
  | 6 => ⟨S1x32, .f32⟩
  | 7 => ⟨S32, .f32⟩
  | 8 => ⟨S1x32, .f32⟩
  | 9 => ⟨S100000x32, .f32⟩
  | 10 => ⟨S_, .i32⟩
  | 11 => ⟨S3300000, .i32⟩
  | 12 => ⟨S3300000, .i1⟩
  | 13 => ⟨S_, .i32⟩
  | 14 => ⟨S3300000, .i32⟩
  | 15 => ⟨S3300000, .i32⟩
  | 16 => ⟨S3300000, .i32⟩
  | 17 => ⟨S3300000x1, .i32⟩
  | 18 => ⟨S3300000x32, .f32⟩
  | 19 => ⟨S3300000x1, .f32⟩
  | 20 => ⟨S3300000x32, .f32⟩
  | 21 => ⟨S3300000x32, .f32⟩
  | 22 => ⟨S_, .f32⟩
  | 23 => ⟨S100000x32, .f32⟩
  | 24 => ⟨S3300000x1, .i32⟩
  | 25 => ⟨S100000x32, .f32⟩
  | 26 => ⟨S1x32x32, .f32⟩
  | 27 => ⟨S32x32, .f32⟩
  | 28 => ⟨S1x32, .f32⟩
  | 29 => ⟨S32, .f32⟩
  | 30 => ⟨S1x32, .f32⟩
  | 31 => ⟨S100000x32, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000x32, .f32⟩
  | 41 => ⟨S3300000x1, .f32⟩
  | 42 => ⟨S3300000x32, .f32⟩
  | 43 => ⟨S3300000x32, .f32⟩
  | 44 => ⟨S_, .f32⟩
  | 45 => ⟨S100000x32, .f32⟩
  | 46 => ⟨S3300000x1, .i32⟩
  | 47 => ⟨S100000x32, .f32⟩
  | 48 => ⟨S1x32x32, .f32⟩
  | 49 => ⟨S32x32, .f32⟩
  | 50 => ⟨S1x32, .f32⟩
  | 51 => ⟨S32, .f32⟩
  | 52 => ⟨S1x32, .f32⟩
  | 53 => ⟨S100000x32, .f32⟩
  | 54 => ⟨S1x16, .f32⟩
  | 55 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S1x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S32x32, .f32⟩
  | .local _ .vmem, ⟨9, _⟩ => ⟨S1x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S10000x32, .f32⟩
  | .local _ .vmem, ⟨14, _⟩ => ⟨S32x32, .f32⟩
  | .local _ .vmem, ⟨15, _⟩ => ⟨S1x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S32x32, .f32⟩
  | .local _ .vmem, ⟨21, _⟩ => ⟨S1x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x32, .f32⟩
  | .local _ .vmem, ⟨26, _⟩ => ⟨S32x32, .f32⟩
  | .local _ .vmem, ⟨27, _⟩ => ⟨S1x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S32x32, .f32⟩
  | .local _ .vmem, ⟨33, _⟩ => ⟨S1x32, .f32⟩
  | .local _ .vmem, ⟨34, _⟩ => ⟨S10000x32, .f32⟩
  | .local _ .vmem, ⟨35, _⟩ => ⟨S10000x32, .f32⟩
  | .local _ .vmem, ⟨36, _⟩ => ⟨S10000x32, .f32⟩
  | .local _ .vmem, ⟨37, _⟩ => ⟨S10000x32, .f32⟩
  | .local _ .vmem, ⟨38, _⟩ => ⟨S32x32, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | .local _ .vmem, ⟨42, _⟩ => ⟨S2000x32, .f32⟩
  | .local _ .vmem, ⟨43, _⟩ => ⟨S2000x32, .f32⟩
  | .local _ .vmem, ⟨44, _⟩ => ⟨S2000x32, .f32⟩
  | .local _ .vmem, ⟨45, _⟩ => ⟨S2000x32, .f32⟩
  | .local _ .vmem, ⟨46, _⟩ => ⟨S2000x32, .f32⟩
  | .local _ .vmem, ⟨47, _⟩ => ⟨S2000x32, .f32⟩
  | .local _ .vmem, ⟨48, _⟩ => ⟨S2000x32, .f32⟩
  | .local _ .vmem, ⟨49, _⟩ => ⟨S2000x32, .f32⟩
  | .local _ .vmem, ⟨50, _⟩ => ⟨S2000x32, .f32⟩
  | .local _ .vmem, ⟨51, _⟩ => ⟨S2000x32, .f32⟩
  | .local _ .vmem, ⟨52, _⟩ => ⟨S2000x32, .f32⟩
  | .local _ .vmem, ⟨53, _⟩ => ⟨S2000x32, .f32⟩
  | .local _ .vmem, ⟨54, _⟩ => ⟨S2000x32, .f32⟩
  | .local _ .vmem, ⟨55, _⟩ => ⟨S2000x32, .f32⟩
  | .local _ .vmem, ⟨56, _⟩ => ⟨S224x16, .f32⟩
  | .local _ .vmem, ⟨57, _⟩ => ⟨S1x16, .f32⟩
  | .local _ .vmem, ⟨58, _⟩ => ⟨S2000x16, .f32⟩
  | .local _ .vmem, ⟨59, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_14 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_c_15 : Ref sig .tc := ⟨.hbm, 116, rfl⟩
abbrev main_v89 : Ref sig .tc := ⟨.hbm, 117, rfl⟩
abbrev main_v90 : Ref sig .tc := ⟨.hbm, 118, rfl⟩
abbrev main_c_16 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_cst_17 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_18 : Ref sig .tc := ⟨.hbm, 138, rfl⟩
abbrev main_v108 : Ref sig .tc := ⟨.hbm, 139, rfl⟩
abbrev main_v109 : Ref sig .tc := ⟨.hbm, 140, rfl⟩
abbrev main_c_19 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_20 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_21 : Ref sig .tc := ⟨.hbm, 160, rfl⟩
abbrev main_v127 : Ref sig .tc := ⟨.hbm, 161, rfl⟩
abbrev main_v128 : Ref sig .tc := ⟨.hbm, 162, rfl⟩
abbrev main_c_22 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_23 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc7_stg3_0 : Ref sig .tc := ⟨.vmem, 48, rfl⟩
abbrev cc7_stg3_1 : Ref sig .tc := ⟨.vmem, 49, rfl⟩
abbrev cc7_stg4_0 : Ref sig .tc := ⟨.vmem, 50, rfl⟩
abbrev cc7_stg4_1 : Ref sig .tc := ⟨.vmem, 51, rfl⟩
abbrev cc7_stg5_0 : Ref sig .tc := ⟨.vmem, 52, rfl⟩
abbrev cc7_stg5_1 : Ref sig .tc := ⟨.vmem, 53, rfl⟩
abbrev cc7_stg6_0 : Ref sig .tc := ⟨.vmem, 54, rfl⟩
abbrev cc7_stg6_1 : Ref sig .tc := ⟨.vmem, 55, rfl⟩
abbrev cc7_stg7_0 : Ref sig .tc := ⟨.vmem, 56, rfl⟩
abbrev cc7_stg8_0 : Ref sig .tc := ⟨.vmem, 57, rfl⟩
abbrev cc7_stg9_0 : Ref sig .tc := ⟨.vmem, 58, rfl⟩
abbrev cc7_stg9_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47
abbrev cc7_sem3_0 : DmaSem sig := 48
abbrev cc7_sem3_1 : DmaSem sig := 49
abbrev cc7_sem4_0 : DmaSem sig := 50
abbrev cc7_sem4_1 : DmaSem sig := 51
abbrev cc7_sem5_0 : DmaSem sig := 52
abbrev cc7_sem5_1 : DmaSem sig := 53
abbrev cc7_sem6_0 : DmaSem sig := 54
abbrev cc7_sem6_1 : DmaSem sig := 55
abbrev cc7_sem7_0 : DmaSem sig := 56
abbrev cc7_sem8_0 : DmaSem sig := 57
abbrev cc7_sem9_0 : DmaSem sig := 58
abbrev cc7_sem9_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x32 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S2000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S2000x32 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 2 → Memref sig .tc .vmem S2000x32 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S2000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev stage7_7 : Fin 1 → Memref sig .tc .vmem S224x16 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x16 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 2 → Memref sig .tc .vmem S2000x16 .f32 := fun | 0 => Memref.whole cc7_stg9_0 | 1 => Memref.whole cc7_stg9_1 | ⟨_ + 2, h⟩ => absurd h (Nat.not_lt.2 (Nat.le_add_left _ _))
abbrev sem7_9 : Fin 2 → DmaSem sig := fun | 0 => cc7_sem9_0 | 1 => cc7_sem9_1 | ⟨_ + 2, h⟩ => absurd h (Nat.not_lt.2 (Nat.le_add_left _ _))
abbrev reads7_9 : Fin grid7.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  broadcasts_S10000x1_S10000x32 : S10000x1.Broadcasts S10000x32
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  slices_S6x32x32_S1x32x32_0_0_0 : S6x32x32.Slices ![0, 0, 0] S1x32x32
  shapeCasts_S1x32x32_S32x32 : S1x32x32.ShapeCasts S32x32
  slices_S6x32_S1x32_0_0 : S6x32.Slices ![0, 0] S1x32
  shapeCasts_S1x32_S32 : S1x32.ShapeCasts S32
  shapeCasts_S10000x32_S10000x32 : S10000x32.ShapeCasts S10000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S6x32x32_S1x32x32_1_0_0 : S6x32x32.Slices ![1, 0, 0] S1x32x32
  slices_S6x32_S1x32_1_0 : S6x32.Slices ![1, 0] S1x32
  slices_S6x32x32_S1x32x32_2_0_0 : S6x32x32.Slices ![2, 0, 0] S1x32x32
  slices_S6x32_S1x32_2_0 : S6x32.Slices ![2, 0] S1x32
  slices_S6x32x32_S1x32x32_3_0_0 : S6x32x32.Slices ![3, 0, 0] S1x32x32
  slices_S6x32_S1x32_3_0 : S6x32.Slices ![3, 0] S1x32
  slices_S6x32x32_S1x32x32_4_0_0 : S6x32x32.Slices ![4, 0, 0] S1x32x32
  slices_S6x32_S1x32_4_0 : S6x32.Slices ![4, 0] S1x32
  slices_S6x32x32_S1x32x32_5_0_0 : S6x32x32.Slices ![5, 0, 0] S1x32x32
  slices_S6x32_S1x32_5_0 : S6x32.Slices ![5, 0] S1x32
  shapeCasts_S16_S1x16 : S16.ShapeCasts S1x16
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  reduces_S2000x32_S2000 : S2000x32.Reduces [1] S2000
  shapeCasts_S2000_S2000x1 : S2000.ShapeCasts S2000x1
  broadcasts_S2000x1_S2000x32 : S2000x1.Broadcasts S2000x32
  concatenates_S2000x32_S2000x32_S2000x32_S2000x32_S2000x32_S2000x32_S2000x32_S2000x224_d1 : Shape.Concatenates [S2000x32, S2000x32, S2000x32, S2000x32, S2000x32, S2000x32, S2000x32] S2000x224 1
  inb_S224x16_S224x16_0_0 : ∀ a, (![0, 0] : Fin 2 → Nat) a + S224x16.size a ≤ S224x16.size a
  h_S224x16 : 0 < S224x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S2000x16_S2000x16_0_0 : ∀ a, (![0, 0] : Fin 2 → Nat) a + S2000x16.size a ≤ S2000x16.size a
  h_S2000x16 : 0 < S2000x16.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x32_S10000x32_1_0_0_1_n_n_wf : DotDims.WF S10000x128 S128x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S2000x224_S224x16_S2000x16_1_0_0_1_n_n_wf : DotDims.WF S2000x224 S224x16 S2000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x32.size a ≤ S100000x32.size a
  hwx0_3 : ∀ i : grid0.Coords, EltTy.bits .f32 = 32 ∨ (Rect.block (s := S100000x32) S10000x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32.size a ≤ S32x32.size a
  hwx1_1 : ∀ i : grid1.Coords, EltTy.bits .f32 = 32 ∨ (Rect.block (s := S32x32) S32x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x32.size a ≤ S100000x32.size a
  hwx4_3 : ∀ i : grid4.Coords, EltTy.bits .f32 = 32 ∨ (Rect.block (s := S100000x32) S10000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x32.size a ≤ S100000x32.size a
  hwx5_3 : ∀ i : grid5.Coords, EltTy.bits .f32 = 32 ∨ (Rect.block (s := S100000x32) S10000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x32.size a ≤ S100000x32.size a
  hwx6_0 : ∀ i : grid6.Coords, EltTy.bits .f32 = 32 ∨ (Rect.block (s := S100000x32) S10000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x32.size a ≤ S100000x32.size a
  hwx6_3 : ∀ i : grid6.Coords, EltTy.bits .f32 = 32 ∨ (Rect.block (s := S100000x32) S10000x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x32.size a ≤ S100000x32.size a
  hwx7_0 : ∀ i : grid7.Coords, EltTy.bits .f32 = 32 ∨ (Rect.block (s := S100000x32) S2000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x32.size a ≤ S100000x32.size a
  hwx7_1 : ∀ i : grid7.Coords, EltTy.bits .f32 = 32 ∨ (Rect.block (s := S100000x32) S2000x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x32.size a ≤ S100000x32.size a
  hwx7_2 : ∀ i : grid7.Coords, EltTy.bits .f32 = 32 ∨ (Rect.block (s := S100000x32) S2000x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x32.size a ≤ S100000x32.size a
  hwx7_3 : ∀ i : grid7.Coords, EltTy.bits .f32 = 32 ∨ (Rect.block (s := S100000x32) S2000x32.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x32.size a ≤ S100000x32.size a
  hwx7_4 : ∀ i : grid7.Coords, EltTy.bits .f32 = 32 ∨ (Rect.block (s := S100000x32) S2000x32.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S2000x32.size a ≤ S100000x32.size a
  hwx7_5 : ∀ i : grid7.Coords, EltTy.bits .f32 = 32 ∨ (Rect.block (s := S100000x32) S2000x32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S2000x32.size a ≤ S100000x32.size a
  hwx7_6 : ∀ i : grid7.Coords, EltTy.bits .f32 = 32 ∨ (Rect.block (s := S100000x32) S2000x32.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S224x16.size a ≤ S224x16.size a
  hwx7_7 : ∀ i : grid7.Coords, EltTy.bits .f32 = 32 ∨ (Rect.block (s := S224x16) S224x16.size (cc7_transform_7 i) (hinb7_7 i)).WholeWords (EltTy.packing .f32)
  hstage7_8 : ∀ j, (stage7_8 j).IsWhole
  nbuf7_8 : grid7.bufCount reads7_8 true = 1
  hreads7_8 : ∀ i i' : grid7.Coords, (∀ a, reads7_8 a = true → i a = i' a) → cc7_transform_8 i = cc7_transform_8 i'
  hinb7_8 : ∀ (i : grid7.Coords) a, (cc7_transform_8 i a + 1) * S1x16.size a ≤ S1x16.size a
  hwx7_8 : ∀ i : grid7.Coords, EltTy.bits .f32 = 32 ∨ (Rect.block (s := S1x16) S1x16.size (cc7_transform_8 i) (hinb7_8 i)).WholeWords (EltTy.packing .f32)
  hstage7_9 : ∀ j, (stage7_9 j).IsWhole
  nbuf7_9 : grid7.bufCount reads7_9 false = 2
  hreads7_9 : ∀ i i' : grid7.Coords, (∀ a, reads7_9 a = true → i a = i' a) → cc7_transform_9 i = cc7_transform_9 i'
  hinb7_9 : ∀ (i : grid7.Coords) a, (cc7_transform_9 i a + 1) * S2000x16.size a ≤ S100000x16.size a
  hwx7_9 : ∀ i : grid7.Coords, EltTy.bits .f32 = 32 ∨ (Rect.block (s := S100000x16) S2000x16.size (cc7_transform_9 i) (hinb7_9 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S2000x224_S224x16_S2000x16_1_0_0_1_n_n : DotDims S2000x224 S224x16 S2000x16 where
  lhsContracting := [1]
  rhsContracting := [0]
  lhsNonContracting := [0]
  rhsNonContracting := [1]
  lhsBatch := []
  rhsBatch := []
  wf := dot_S2000x224_S224x16_S2000x16_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S10000x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v44) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S32x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v82) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v87) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v101) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v106) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S10000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v120) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v125) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v126) S10000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v139) S10000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v141) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v144) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v145) S10000x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v31) S2000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v50) S2000x32.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v69) S2000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v88) S2000x32.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v107) S2000x32.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v126) S2000x32.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v145) S2000x32.size cc7_transform_6 reads7_6 false false 2 stage7_6 sem7_6
    hrank7 hreads7_6 hinb7_6 nbuf7_6 (Memref.isWhole_whole _) hwx7_6 hstage7_6

abbrev win7_7 : Pipeline.Window sig grid7 :=
  Pipeline.Window.ofSpec (Memref.whole main_arg6) S224x16.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v146) S1x16.size cc7_transform_8 reads7_8 false true 1 stage7_8 sem7_8
    hrank7 hreads7_8 hinb7_8 nbuf7_8 (Memref.isWhole_whole _) hwx7_8 hstage7_8

abbrev win7_9 : Pipeline.Window sig grid7 :=
  Pipeline.Window.ofSpec (Memref.whole main_v147) S2000x16.size cc7_transform_9 reads7_9 true false 2 stage7_9 sem7_9
    hrank7 hreads7_9 hinb7_9 nbuf7_9 (Memref.isWhole_whole _) hwx7_9 hstage7_9

abbrev win7 : Fin 10 → Pipeline.Window sig grid7 := fun | 0 => win7_0 | 1 => win7_1 | 2 => win7_2 | 3 => win7_3 | 4 => win7_4 | 5 => win7_5 | 6 => win7_6 | 7 => win7_7 | 8 => win7_8 | 9 => win7_9 | ⟨_ + 10, h⟩ => absurd h (Nat.not_lt.2 (Nat.le_add_left _ _))
abbrev spec7 : Fin 10 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S6x32x32 : Shape := ⟨3, ![6, 32, 32]⟩
abbrev S6x32 : Shape := ⟨2, ![6, 32]⟩
abbrev S224x16 : Shape := ⟨2, ![224, 16]⟩
abbrev S16 : Shape := ⟨1, ![16]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S1x32 : Shape := ⟨2, ![1, 32]⟩
abbrev S100000x1 : Shape := ⟨2, ![100000, 1]⟩
abbrev S1x32x32 : Shape := ⟨3, ![1, 32, 32]⟩
abbrev S32x32 : Shape := ⟨2, ![32, 32]⟩
abbrev S3300000x32 : Shape := ⟨2, ![3300000, 32]⟩
abbrev S100000x224 : Shape := ⟨2, ![100000, 224]⟩
abbrev S100000x16 : Shape := ⟨2, ![100000, 16]⟩
abbrev S1x16 : Shape := ⟨2, ![1, 16]⟩

abbrev nBuf : Space → Nat
  | .hbm => 429
  | .vmem => 0
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S6x32x32, .f32⟩
  | 5 => ⟨S6x32, .f32⟩
  | 6 => ⟨S224x16, .f32⟩
  | 7 => ⟨S16, .f32⟩
  | 8 => ⟨S1x3200000, .i32⟩
  | 9 => ⟨S3200000, .i32⟩
  | 10 => ⟨S1x3200000, .i32⟩
  | 11 => ⟨S3200000, .i32⟩
  | 12 => ⟨S100000, .i32⟩
  | 13 => ⟨S3300000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x32, .f32⟩
  | 49 => ⟨S1x32, .f32⟩
  | 50 => ⟨S100000x32, .f32⟩
  | 51 => ⟨S100000x32, .f32⟩
  | 52 => ⟨S_, .f32⟩
  | 53 => ⟨S100000x32, .f32⟩
  | 54 => ⟨S100000x32, .f32⟩
  | 55 => ⟨S_, .f32⟩
  | 56 => ⟨S100000, .f32⟩
  | 57 => ⟨S100000x1, .f32⟩
  | 58 => ⟨S_, .f32⟩
  | 59 => ⟨S100000, .f32⟩
  | 60 => ⟨S100000x1, .f32⟩
  | 61 => ⟨S100000x32, .f32⟩
  | 62 => ⟨S100000x32, .f32⟩
  | 63 => ⟨S_, .f32⟩
  | 64 => ⟨S100000x32, .f32⟩
  | 65 => ⟨S100000x32, .f32⟩
  | 66 => ⟨S100000x1, .f32⟩
  | 67 => ⟨S_, .f32⟩
  | 68 => ⟨S100000x1, .f32⟩
  | 69 => ⟨S100000x1, .f32⟩
  | 70 => ⟨S100000x32, .f32⟩
  | 71 => ⟨S100000x32, .f32⟩
  | 72 => ⟨S_, .f32⟩
  | 73 => ⟨S100000x32, .f32⟩
  | 74 => ⟨S100000x32, .f32⟩
  | 75 => ⟨S1x32x32, .f32⟩
  | 76 => ⟨S32x32, .f32⟩
  | 77 => ⟨S1x32, .f32⟩
  | 78 => ⟨S32, .f32⟩
  | 79 => ⟨S_, .i32⟩
  | 80 => ⟨S3300000, .i32⟩
  | 81 => ⟨S3300000, .i1⟩
  | 82 => ⟨S_, .i32⟩
  | 83 => ⟨S3300000, .i32⟩
  | 84 => ⟨S3300000, .i32⟩
  | 85 => ⟨S3300000, .i32⟩
  | 86 => ⟨S3300000x1, .i32⟩
  | 87 => ⟨S3300000x32, .f32⟩
  | 88 => ⟨S3300000x1, .f32⟩
  | 89 => ⟨S3300000x32, .f32⟩
  | 90 => ⟨S3300000x32, .f32⟩
  | 91 => ⟨S_, .f32⟩
  | 92 => ⟨S100000x32, .f32⟩
  | 93 => ⟨S3300000x1, .i32⟩
  | 94 => ⟨S100000x32, .f32⟩
  | 95 => ⟨S100000x32, .f32⟩
  | 96 => ⟨S1x32, .f32⟩
  | 97 => ⟨S100000x32, .f32⟩
  | 98 => ⟨S100000x32, .f32⟩
  | 99 => ⟨S1x32x32, .f32⟩
  | 100 => ⟨S32x32, .f32⟩
  | 101 => ⟨S1x32, .f32⟩
  | 102 => ⟨S32, .f32⟩
  | 103 => ⟨S_, .i32⟩
  | 104 => ⟨S3300000, .i32⟩
  | 105 => ⟨S3300000, .i1⟩
  | 106 => ⟨S_, .i32⟩
  | 107 => ⟨S3300000, .i32⟩
  | 108 => ⟨S3300000, .i32⟩
  | 109 => ⟨S3300000, .i32⟩
  | 110 => ⟨S3300000x1, .i32⟩
  | 111 => ⟨S3300000x32, .f32⟩
  | 112 => ⟨S3300000x1, .f32⟩
  | 113 => ⟨S3300000x32, .f32⟩
  | 114 => ⟨S3300000x32, .f32⟩
  | 115 => ⟨S_, .f32⟩
  | 116 => ⟨S100000x32, .f32⟩
  | 117 => ⟨S3300000x1, .i32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S1x32x32, .f32⟩
  | 124 => ⟨S32x32, .f32⟩
  | 125 => ⟨S1x32, .f32⟩
  | 126 => ⟨S32, .f32⟩
  | 127 => ⟨S_, .i32⟩
  | _ => ⟨S100000x128, .f32⟩

abbrev hbmTy0_1 (i : Nat) : BufTy := match i % 128 with
  | 0 => ⟨S3300000, .i32⟩
  | 1 => ⟨S3300000, .i1⟩
  | 2 => ⟨S_, .i32⟩
  | 3 => ⟨S3300000, .i32⟩
  | 4 => ⟨S3300000, .i32⟩
  | 5 => ⟨S3300000, .i32⟩
  | 6 => ⟨S3300000x1, .i32⟩
  | 7 => ⟨S3300000x32, .f32⟩
  | 8 => ⟨S3300000x1, .f32⟩
  | 9 => ⟨S3300000x32, .f32⟩
  | 10 => ⟨S3300000x32, .f32⟩
  | 11 => ⟨S_, .f32⟩
  | 12 => ⟨S100000x32, .f32⟩
  | 13 => ⟨S3300000x1, .i32⟩
  | 14 => ⟨S100000x32, .f32⟩
  | 15 => ⟨S100000x32, .f32⟩
  | 16 => ⟨S1x32, .f32⟩
  | 17 => ⟨S100000x32, .f32⟩
  | 18 => ⟨S100000x32, .f32⟩
  | 19 => ⟨S1x32x32, .f32⟩
  | 20 => ⟨S32x32, .f32⟩
  | 21 => ⟨S1x32, .f32⟩
  | 22 => ⟨S32, .f32⟩
  | 23 => ⟨S_, .i32⟩
  | 24 => ⟨S3300000, .i32⟩
  | 25 => ⟨S3300000, .i1⟩
  | 26 => ⟨S_, .i32⟩
  | 27 => ⟨S3300000, .i32⟩
  | 28 => ⟨S3300000, .i32⟩
  | 29 => ⟨S3300000, .i32⟩
  | 30 => ⟨S3300000x1, .i32⟩
  | 31 => ⟨S3300000x32, .f32⟩
  | 32 => ⟨S3300000x1, .f32⟩
  | 33 => ⟨S3300000x32, .f32⟩
  | 34 => ⟨S3300000x32, .f32⟩
  | 35 => ⟨S_, .f32⟩
  | 36 => ⟨S100000x32, .f32⟩
  | 37 => ⟨S3300000x1, .i32⟩
  | 38 => ⟨S100000x32, .f32⟩
  | 39 => ⟨S100000x32, .f32⟩
  | 40 => ⟨S1x32, .f32⟩
  | 41 => ⟨S100000x32, .f32⟩
  | 42 => ⟨S100000x32, .f32⟩
  | 43 => ⟨S1x32x32, .f32⟩
  | 44 => ⟨S32x32, .f32⟩
  | 45 => ⟨S1x32, .f32⟩
  | 46 => ⟨S32, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000x32, .f32⟩
  | 56 => ⟨S3300000x1, .f32⟩
  | 57 => ⟨S3300000x32, .f32⟩
  | 58 => ⟨S3300000x32, .f32⟩
  | 59 => ⟨S_, .f32⟩
  | 60 => ⟨S100000x32, .f32⟩
  | 61 => ⟨S3300000x1, .i32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S1x32x32, .f32⟩
  | 68 => ⟨S32x32, .f32⟩
  | 69 => ⟨S1x32, .f32⟩
  | 70 => ⟨S32, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000x32, .f32⟩
  | 80 => ⟨S3300000x1, .f32⟩
  | 81 => ⟨S3300000x32, .f32⟩
  | 82 => ⟨S3300000x32, .f32⟩
  | 83 => ⟨S_, .f32⟩
  | 84 => ⟨S100000x32, .f32⟩
  | 85 => ⟨S3300000x1, .i32⟩
  | 86 => ⟨S100000x32, .f32⟩
  | 87 => ⟨S100000x32, .f32⟩
  | 88 => ⟨S1x32, .f32⟩
  | 89 => ⟨S100000x32, .f32⟩
  | 90 => ⟨S100000x32, .f32⟩
  | 91 => ⟨S_, .f32⟩
  | 92 => ⟨S100000, .f32⟩
  | 93 => ⟨S100000x1, .f32⟩
  | 94 => ⟨S_, .f32⟩
  | 95 => ⟨S100000, .f32⟩
  | 96 => ⟨S100000x1, .f32⟩
  | 97 => ⟨S100000x32, .f32⟩
  | 98 => ⟨S100000x32, .f32⟩
  | 99 => ⟨S_, .f32⟩
  | 100 => ⟨S100000x32, .f32⟩
  | 101 => ⟨S100000x32, .f32⟩
  | 102 => ⟨S100000x1, .f32⟩
  | 103 => ⟨S_, .f32⟩
  | 104 => ⟨S100000x1, .f32⟩
  | 105 => ⟨S100000x1, .f32⟩
  | 106 => ⟨S100000x32, .f32⟩
  | 107 => ⟨S100000x32, .f32⟩
  | 108 => ⟨S_, .f32⟩
  | 109 => ⟨S100000x32, .f32⟩
  | 110 => ⟨S100000x32, .f32⟩
  | 111 => ⟨S_, .f32⟩
  | 112 => ⟨S100000, .f32⟩
  | 113 => ⟨S100000x1, .f32⟩
  | 114 => ⟨S_, .f32⟩
  | 115 => ⟨S100000, .f32⟩
  | 116 => ⟨S100000x1, .f32⟩
  | 117 => ⟨S100000x32, .f32⟩
  | 118 => ⟨S100000x32, .f32⟩
  | 119 => ⟨S_, .f32⟩
  | 120 => ⟨S100000x32, .f32⟩
  | 121 => ⟨S100000x32, .f32⟩
  | 122 => ⟨S100000x1, .f32⟩
  | 123 => ⟨S_, .f32⟩
  | 124 => ⟨S100000x1, .f32⟩
  | 125 => ⟨S100000x1, .f32⟩
  | 126 => ⟨S100000x32, .f32⟩
  | 127 => ⟨S100000x32, .f32⟩
  | _ => ⟨S100000x128, .f32⟩

abbrev hbmTy0_2 (i : Nat) : BufTy := match i % 128 with
  | 0 => ⟨S_, .f32⟩
  | 1 => ⟨S100000x32, .f32⟩
  | 2 => ⟨S100000x32, .f32⟩
  | 3 => ⟨S100000x32, .f32⟩
  | 4 => ⟨S_, .f32⟩
  | 5 => ⟨S100000, .f32⟩
  | 6 => ⟨S100000x1, .f32⟩
  | 7 => ⟨S_, .f32⟩
  | 8 => ⟨S100000, .f32⟩
  | 9 => ⟨S100000x1, .f32⟩
  | 10 => ⟨S100000x32, .f32⟩
  | 11 => ⟨S100000x32, .f32⟩
  | 12 => ⟨S_, .f32⟩
  | 13 => ⟨S100000x32, .f32⟩
  | 14 => ⟨S100000x32, .f32⟩
  | 15 => ⟨S100000x1, .f32⟩
  | 16 => ⟨S_, .f32⟩
  | 17 => ⟨S100000x1, .f32⟩
  | 18 => ⟨S100000x1, .f32⟩
  | 19 => ⟨S100000x32, .f32⟩
  | 20 => ⟨S100000x32, .f32⟩
  | 21 => ⟨S_, .f32⟩
  | 22 => ⟨S100000x32, .f32⟩
  | 23 => ⟨S100000x32, .f32⟩
  | 24 => ⟨S_, .f32⟩
  | 25 => ⟨S100000, .f32⟩
  | 26 => ⟨S100000x1, .f32⟩
  | 27 => ⟨S_, .f32⟩
  | 28 => ⟨S100000, .f32⟩
  | 29 => ⟨S100000x1, .f32⟩
  | 30 => ⟨S100000x32, .f32⟩
  | 31 => ⟨S100000x32, .f32⟩
  | 32 => ⟨S_, .f32⟩
  | 33 => ⟨S100000x32, .f32⟩
  | 34 => ⟨S100000x32, .f32⟩
  | 35 => ⟨S100000x1, .f32⟩
  | 36 => ⟨S_, .f32⟩
  | 37 => ⟨S100000x1, .f32⟩
  | 38 => ⟨S100000x1, .f32⟩
  | 39 => ⟨S100000x32, .f32⟩
  | 40 => ⟨S100000x32, .f32⟩
  | 41 => ⟨S_, .f32⟩
  | 42 => ⟨S100000x32, .f32⟩
  | 43 => ⟨S100000x32, .f32⟩
  | 44 => ⟨S100000x32, .f32⟩
  | 45 => ⟨S_, .f32⟩
  | 46 => ⟨S100000, .f32⟩
  | 47 => ⟨S100000x1, .f32⟩
  | 48 => ⟨S_, .f32⟩
  | 49 => ⟨S100000, .f32⟩
  | 50 => ⟨S100000x1, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x1, .f32⟩
  | 57 => ⟨S_, .f32⟩
  | 58 => ⟨S100000x1, .f32⟩
  | 59 => ⟨S100000x1, .f32⟩
  | 60 => ⟨S100000x32, .f32⟩
  | 61 => ⟨S100000x32, .f32⟩
  | 62 => ⟨S_, .f32⟩
  | 63 => ⟨S100000x32, .f32⟩
  | 64 => ⟨S100000x32, .f32⟩
  | 65 => ⟨S_, .f32⟩
  | 66 => ⟨S100000, .f32⟩
  | 67 => ⟨S100000x1, .f32⟩
  | 68 => ⟨S_, .f32⟩
  | 69 => ⟨S100000, .f32⟩
  | 70 => ⟨S100000x1, .f32⟩
  | 71 => ⟨S100000x32, .f32⟩
  | 72 => ⟨S100000x32, .f32⟩
  | 73 => ⟨S_, .f32⟩
  | 74 => ⟨S100000x32, .f32⟩
  | 75 => ⟨S100000x32, .f32⟩
  | 76 => ⟨S100000x1, .f32⟩
  | 77 => ⟨S_, .f32⟩
  | 78 => ⟨S100000x1, .f32⟩
  | 79 => ⟨S100000x1, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S100000x32, .f32⟩
  | 86 => ⟨S_, .f32⟩
  | 87 => ⟨S100000, .f32⟩
  | 88 => ⟨S100000x1, .f32⟩
  | 89 => ⟨S_, .f32⟩
  | 90 => ⟨S100000, .f32⟩
  | 91 => ⟨S100000x1, .f32⟩
  | 92 => ⟨S100000x32, .f32⟩
  | 93 => ⟨S100000x32, .f32⟩
  | 94 => ⟨S_, .f32⟩
  | 95 => ⟨S100000x32, .f32⟩
  | 96 => ⟨S100000x32, .f32⟩
  | 97 => ⟨S100000x1, .f32⟩
  | 98 => ⟨S_, .f32⟩
  | 99 => ⟨S100000x1, .f32⟩
  | 100 => ⟨S100000x1, .f32⟩
  | 101 => ⟨S100000x32, .f32⟩
  | 102 => ⟨S100000x32, .f32⟩
  | 103 => ⟨S_, .f32⟩
  | 104 => ⟨S100000x32, .f32⟩
  | 105 => ⟨S100000x32, .f32⟩
  | 106 => ⟨S_, .f32⟩
  | 107 => ⟨S100000, .f32⟩
  | 108 => ⟨S100000x1, .f32⟩
  | 109 => ⟨S_, .f32⟩
  | 110 => ⟨S100000, .f32⟩
  | 111 => ⟨S100000x1, .f32⟩
  | 112 => ⟨S100000x32, .f32⟩
  | 113 => ⟨S100000x32, .f32⟩
  | 114 => ⟨S_, .f32⟩
  | 115 => ⟨S100000x32, .f32⟩
  | 116 => ⟨S100000x32, .f32⟩
  | 117 => ⟨S100000x1, .f32⟩
  | 118 => ⟨S_, .f32⟩
  | 119 => ⟨S100000x1, .f32⟩
  | 120 => ⟨S100000x1, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x32, .f32⟩
  | 127 => ⟨S_, .f32⟩
  | _ => ⟨S100000x128, .f32⟩

abbrev hbmTy0_3 (i : Nat) : BufTy := match i % 128 with
  | 0 => ⟨S100000, .f32⟩
  | 1 => ⟨S100000x1, .f32⟩
  | 2 => ⟨S_, .f32⟩
  | 3 => ⟨S100000, .f32⟩
  | 4 => ⟨S100000x1, .f32⟩
  | 5 => ⟨S100000x32, .f32⟩
  | 6 => ⟨S100000x32, .f32⟩
  | 7 => ⟨S_, .f32⟩
  | 8 => ⟨S100000x32, .f32⟩
  | 9 => ⟨S100000x32, .f32⟩
  | 10 => ⟨S100000x1, .f32⟩
  | 11 => ⟨S_, .f32⟩
  | 12 => ⟨S100000x1, .f32⟩
  | 13 => ⟨S100000x1, .f32⟩
  | 14 => ⟨S100000x32, .f32⟩
  | 15 => ⟨S100000x32, .f32⟩
  | 16 => ⟨S_, .f32⟩
  | 17 => ⟨S100000x32, .f32⟩
  | 18 => ⟨S100000x32, .f32⟩
  | 19 => ⟨S_, .f32⟩
  | 20 => ⟨S100000, .f32⟩
  | 21 => ⟨S100000x1, .f32⟩
  | 22 => ⟨S_, .f32⟩
  | 23 => ⟨S100000, .f32⟩
  | 24 => ⟨S100000x1, .f32⟩
  | 25 => ⟨S100000x32, .f32⟩
  | 26 => ⟨S100000x32, .f32⟩
  | 27 => ⟨S_, .f32⟩
  | 28 => ⟨S100000x32, .f32⟩
  | 29 => ⟨S100000x32, .f32⟩
  | 30 => ⟨S100000x1, .f32⟩
  | 31 => ⟨S_, .f32⟩
  | 32 => ⟨S100000x1, .f32⟩
  | 33 => ⟨S100000x1, .f32⟩
  | 34 => ⟨S100000x32, .f32⟩
  | 35 => ⟨S100000x32, .f32⟩
  | 36 => ⟨S_, .f32⟩
  | 37 => ⟨S100000x32, .f32⟩
  | 38 => ⟨S100000x32, .f32⟩
  | 39 => ⟨S100000x32, .f32⟩
  | 40 => ⟨S100000x224, .f32⟩
  | 41 => ⟨S100000x16, .f32⟩
  | 42 => ⟨S1x16, .f32⟩
  | 43 => ⟨S100000x16, .f32⟩
  | 44 => ⟨S100000x16, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_c_14 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_16 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_c_17 : Ref sig .tc := ⟨.hbm, 127, rfl⟩
abbrev main_v96 : Ref sig .tc := ⟨.hbm, 128, rfl⟩
abbrev main_v97 : Ref sig .tc := ⟨.hbm, 129, rfl⟩
abbrev main_c_18 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_19 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_c_20 : Ref sig .tc := ⟨.hbm, 151, rfl⟩
abbrev main_v117 : Ref sig .tc := ⟨.hbm, 152, rfl⟩
abbrev main_v118 : Ref sig .tc := ⟨.hbm, 153, rfl⟩
abbrev main_c_21 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_cst_22 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_c_23 : Ref sig .tc := ⟨.hbm, 175, rfl⟩
abbrev main_v138 : Ref sig .tc := ⟨.hbm, 176, rfl⟩
abbrev main_v139 : Ref sig .tc := ⟨.hbm, 177, rfl⟩
abbrev main_c_24 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_cst_25 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_c_26 : Ref sig .tc := ⟨.hbm, 199, rfl⟩
abbrev main_v159 : Ref sig .tc := ⟨.hbm, 200, rfl⟩
abbrev main_v160 : Ref sig .tc := ⟨.hbm, 201, rfl⟩
abbrev main_c_27 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_cst_28 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_cst_29 : Ref sig .tc := ⟨.hbm, 219, rfl⟩
abbrev main_v176 : Ref sig .tc := ⟨.hbm, 220, rfl⟩
abbrev main_v177 : Ref sig .tc := ⟨.hbm, 221, rfl⟩
abbrev main_cst_30 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_cst_31 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_cst_32 : Ref sig .tc := ⟨.hbm, 231, rfl⟩
abbrev main_v185 : Ref sig .tc := ⟨.hbm, 232, rfl⟩
abbrev main_v186 : Ref sig .tc := ⟨.hbm, 233, rfl⟩
abbrev main_v187 : Ref sig .tc := ⟨.hbm, 234, rfl⟩
abbrev main_v188 : Ref sig .tc := ⟨.hbm, 235, rfl⟩
abbrev main_cst_33 : Ref sig .tc := ⟨.hbm, 236, rfl⟩
abbrev main_v189 : Ref sig .tc := ⟨.hbm, 237, rfl⟩
abbrev main_v190 : Ref sig .tc := ⟨.hbm, 238, rfl⟩
abbrev main_cst_34 : Ref sig .tc := ⟨.hbm, 239, rfl⟩
abbrev main_v191 : Ref sig .tc := ⟨.hbm, 240, rfl⟩
abbrev main_v192 : Ref sig .tc := ⟨.hbm, 241, rfl⟩
abbrev main_cst_35 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_cst_36 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_cst_37 : Ref sig .tc := ⟨.hbm, 251, rfl⟩
abbrev main_v200 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_cst_38 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_cst_39 : Ref sig .tc := ⟨.hbm, 260, rfl⟩
abbrev main_v207 : Ref sig .tc := ⟨.hbm, 261, rfl⟩
abbrev main_v208 : Ref sig .tc := ⟨.hbm, 262, rfl⟩
abbrev main_cst_40 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_cst_41 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_cst_42 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_cst_43 : Ref sig .tc := ⟨.hbm, 277, rfl⟩
abbrev main_v220 : Ref sig .tc := ⟨.hbm, 278, rfl⟩
abbrev main_v221 : Ref sig .tc := ⟨.hbm, 279, rfl⟩
abbrev main_cst_44 : Ref sig .tc := ⟨.hbm, 280, rfl⟩
abbrev main_v222 : Ref sig .tc := ⟨.hbm, 281, rfl⟩
abbrev main_v223 : Ref sig .tc := ⟨.hbm, 282, rfl⟩
abbrev main_cst_45 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_cst_46 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_cst_47 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_cst_48 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_cst_49 : Ref sig .tc := ⟨.hbm, 301, rfl⟩
abbrev main_v238 : Ref sig .tc := ⟨.hbm, 302, rfl⟩
abbrev main_v239 : Ref sig .tc := ⟨.hbm, 303, rfl⟩
abbrev main_cst_50 : Ref sig .tc := ⟨.hbm, 304, rfl⟩
abbrev main_v240 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_cst_51 : Ref sig .tc := ⟨.hbm, 309, rfl⟩
abbrev main_v244 : Ref sig .tc := ⟨.hbm, 310, rfl⟩
abbrev main_v245 : Ref sig .tc := ⟨.hbm, 311, rfl⟩
abbrev main_v246 : Ref sig .tc := ⟨.hbm, 312, rfl⟩
abbrev main_cst_52 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_cst_53 : Ref sig .tc := ⟨.hbm, 318, rfl⟩
abbrev main_v251 : Ref sig .tc := ⟨.hbm, 319, rfl⟩
abbrev main_v252 : Ref sig .tc := ⟨.hbm, 320, rfl⟩
abbrev main_cst_54 : Ref sig .tc := ⟨.hbm, 321, rfl⟩
abbrev main_v253 : Ref sig .tc := ⟨.hbm, 322, rfl⟩
abbrev main_v254 : Ref sig .tc := ⟨.hbm, 323, rfl⟩
abbrev main_cst_55 : Ref sig .tc := ⟨.hbm, 324, rfl⟩
abbrev main_v255 : Ref sig .tc := ⟨.hbm, 325, rfl⟩
abbrev main_v256 : Ref sig .tc := ⟨.hbm, 326, rfl⟩
abbrev main_v257 : Ref sig .tc := ⟨.hbm, 327, rfl⟩
abbrev main_v258 : Ref sig .tc := ⟨.hbm, 328, rfl⟩
abbrev main_cst_56 : Ref sig .tc := ⟨.hbm, 329, rfl⟩
abbrev main_v259 : Ref sig .tc := ⟨.hbm, 330, rfl⟩
abbrev main_v260 : Ref sig .tc := ⟨.hbm, 331, rfl⟩
abbrev main_v261 : Ref sig .tc := ⟨.hbm, 332, rfl⟩
abbrev main_cst_57 : Ref sig .tc := ⟨.hbm, 333, rfl⟩
abbrev main_v262 : Ref sig .tc := ⟨.hbm, 334, rfl⟩
abbrev main_v263 : Ref sig .tc := ⟨.hbm, 335, rfl⟩
abbrev main_v264 : Ref sig .tc := ⟨.hbm, 336, rfl⟩
abbrev main_v265 : Ref sig .tc := ⟨.hbm, 337, rfl⟩
abbrev main_cst_58 : Ref sig .tc := ⟨.hbm, 338, rfl⟩
abbrev main_v266 : Ref sig .tc := ⟨.hbm, 339, rfl⟩
abbrev main_v267 : Ref sig .tc := ⟨.hbm, 340, rfl⟩
abbrev main_v268 : Ref sig .tc := ⟨.hbm, 341, rfl⟩
abbrev main_cst_59 : Ref sig .tc := ⟨.hbm, 342, rfl⟩
abbrev main_v269 : Ref sig .tc := ⟨.hbm, 343, rfl⟩
abbrev main_v270 : Ref sig .tc := ⟨.hbm, 344, rfl⟩
abbrev main_cst_60 : Ref sig .tc := ⟨.hbm, 345, rfl⟩
abbrev main_v271 : Ref sig .tc := ⟨.hbm, 346, rfl⟩
abbrev main_v272 : Ref sig .tc := ⟨.hbm, 347, rfl⟩
abbrev main_v273 : Ref sig .tc := ⟨.hbm, 348, rfl⟩
abbrev main_v274 : Ref sig .tc := ⟨.hbm, 349, rfl⟩
abbrev main_cst_61 : Ref sig .tc := ⟨.hbm, 350, rfl⟩
abbrev main_v275 : Ref sig .tc := ⟨.hbm, 351, rfl⟩
abbrev main_v276 : Ref sig .tc := ⟨.hbm, 352, rfl⟩
abbrev main_v277 : Ref sig .tc := ⟨.hbm, 353, rfl⟩
abbrev main_cst_62 : Ref sig .tc := ⟨.hbm, 354, rfl⟩
abbrev main_v278 : Ref sig .tc := ⟨.hbm, 355, rfl⟩
abbrev main_v279 : Ref sig .tc := ⟨.hbm, 356, rfl⟩
abbrev main_v280 : Ref sig .tc := ⟨.hbm, 357, rfl⟩
abbrev main_v281 : Ref sig .tc := ⟨.hbm, 358, rfl⟩
abbrev main_cst_63 : Ref sig .tc := ⟨.hbm, 359, rfl⟩
abbrev main_v282 : Ref sig .tc := ⟨.hbm, 360, rfl⟩
abbrev main_v283 : Ref sig .tc := ⟨.hbm, 361, rfl⟩
abbrev main_cst_64 : Ref sig .tc := ⟨.hbm, 362, rfl⟩
abbrev main_v284 : Ref sig .tc := ⟨.hbm, 363, rfl⟩
abbrev main_v285 : Ref sig .tc := ⟨.hbm, 364, rfl⟩
abbrev main_cst_65 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_cst_66 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_cst_67 : Ref sig .tc := ⟨.hbm, 374, rfl⟩
abbrev main_v293 : Ref sig .tc := ⟨.hbm, 375, rfl⟩
abbrev main_v294 : Ref sig .tc := ⟨.hbm, 376, rfl⟩
abbrev main_v295 : Ref sig .tc := ⟨.hbm, 377, rfl⟩
abbrev main_v296 : Ref sig .tc := ⟨.hbm, 378, rfl⟩
abbrev main_cst_68 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_cst_69 : Ref sig .tc := ⟨.hbm, 383, rfl⟩
abbrev main_v300 : Ref sig .tc := ⟨.hbm, 384, rfl⟩
abbrev main_v301 : Ref sig .tc := ⟨.hbm, 385, rfl⟩
abbrev main_cst_70 : Ref sig .tc := ⟨.hbm, 386, rfl⟩
abbrev main_v302 : Ref sig .tc := ⟨.hbm, 387, rfl⟩
abbrev main_v303 : Ref sig .tc := ⟨.hbm, 388, rfl⟩
abbrev main_v304 : Ref sig .tc := ⟨.hbm, 389, rfl⟩
abbrev main_v305 : Ref sig .tc := ⟨.hbm, 390, rfl⟩
abbrev main_cst_71 : Ref sig .tc := ⟨.hbm, 391, rfl⟩
abbrev main_v306 : Ref sig .tc := ⟨.hbm, 392, rfl⟩
abbrev main_v307 : Ref sig .tc := ⟨.hbm, 393, rfl⟩
abbrev main_v308 : Ref sig .tc := ⟨.hbm, 394, rfl⟩
abbrev main_cst_72 : Ref sig .tc := ⟨.hbm, 395, rfl⟩
abbrev main_v309 : Ref sig .tc := ⟨.hbm, 396, rfl⟩
abbrev main_v310 : Ref sig .tc := ⟨.hbm, 397, rfl⟩
abbrev main_v311 : Ref sig .tc := ⟨.hbm, 398, rfl⟩
abbrev main_v312 : Ref sig .tc := ⟨.hbm, 399, rfl⟩
abbrev main_cst_73 : Ref sig .tc := ⟨.hbm, 400, rfl⟩
abbrev main_v313 : Ref sig .tc := ⟨.hbm, 401, rfl⟩
abbrev main_v314 : Ref sig .tc := ⟨.hbm, 402, rfl⟩
abbrev main_cst_74 : Ref sig .tc := ⟨.hbm, 403, rfl⟩
abbrev main_v315 : Ref sig .tc := ⟨.hbm, 404, rfl⟩
abbrev main_v316 : Ref sig .tc := ⟨.hbm, 405, rfl⟩
abbrev main_cst_75 : Ref sig .tc := ⟨.hbm, 406, rfl⟩
abbrev main_v317 : Ref sig .tc := ⟨.hbm, 407, rfl⟩
abbrev main_v318 : Ref sig .tc := ⟨.hbm, 408, rfl⟩
abbrev main_v319 : Ref sig .tc := ⟨.hbm, 409, rfl⟩
abbrev main_v320 : Ref sig .tc := ⟨.hbm, 410, rfl⟩
abbrev main_cst_76 : Ref sig .tc := ⟨.hbm, 411, rfl⟩
abbrev main_v321 : Ref sig .tc := ⟨.hbm, 412, rfl⟩
abbrev main_v322 : Ref sig .tc := ⟨.hbm, 413, rfl⟩
abbrev main_v323 : Ref sig .tc := ⟨.hbm, 414, rfl⟩
abbrev main_cst_77 : Ref sig .tc := ⟨.hbm, 415, rfl⟩
abbrev main_v324 : Ref sig .tc := ⟨.hbm, 416, rfl⟩
abbrev main_v325 : Ref sig .tc := ⟨.hbm, 417, rfl⟩
abbrev main_v326 : Ref sig .tc := ⟨.hbm, 418, rfl⟩
abbrev main_v327 : Ref sig .tc := ⟨.hbm, 419, rfl⟩
abbrev main_cst_78 : Ref sig .tc := ⟨.hbm, 420, rfl⟩
abbrev main_v328 : Ref sig .tc := ⟨.hbm, 421, rfl⟩
abbrev main_v329 : Ref sig .tc := ⟨.hbm, 422, rfl⟩
abbrev main_v330 : Ref sig .tc := ⟨.hbm, 423, rfl⟩
abbrev main_v331 : Ref sig .tc := ⟨.hbm, 424, rfl⟩
abbrev main_v332 : Ref sig .tc := ⟨.hbm, 425, rfl⟩
abbrev main_v333 : Ref sig .tc := ⟨.hbm, 426, rfl⟩
abbrev main_v334 : Ref sig .tc := ⟨.hbm, 427, rfl⟩
abbrev main_v335 : Ref sig .tc := ⟨.hbm, 428, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S_S100000x1 : S_.BroadcastsInDim S100000x1 (![] : Fin 0 → Fin S100000x1.rank)
  slices_S6x32x32_S1x32x32_0_0_0 : S6x32x32.Slices ![0, 0, 0] S1x32x32
  shapeCasts_S1x32x32_S32x32 : S1x32x32.ShapeCasts S32x32
  slices_S6x32_S1x32_0_0 : S6x32.Slices ![0, 0] S1x32
  shapeCasts_S1x32_S32 : S1x32.ShapeCasts S32
  bcast_S3300000x1_S3300000x32_0_1 : S3300000x1.BroadcastsInDim S3300000x32 (![0, 1] : Fin 2 → Fin S3300000x32.rank)
  slices_S6x32x32_S1x32x32_1_0_0 : S6x32x32.Slices ![1, 0, 0] S1x32x32
  slices_S6x32_S1x32_1_0 : S6x32.Slices ![1, 0] S1x32
  slices_S6x32x32_S1x32x32_2_0_0 : S6x32x32.Slices ![2, 0, 0] S1x32x32
  slices_S6x32_S1x32_2_0 : S6x32.Slices ![2, 0] S1x32
  slices_S6x32x32_S1x32x32_3_0_0 : S6x32x32.Slices ![3, 0, 0] S1x32x32
  slices_S6x32_S1x32_3_0 : S6x32.Slices ![3, 0] S1x32
  slices_S6x32x32_S1x32x32_4_0_0 : S6x32x32.Slices ![4, 0, 0] S1x32x32
  slices_S6x32_S1x32_4_0 : S6x32.Slices ![4, 0] S1x32
  slices_S6x32x32_S1x32x32_5_0_0 : S6x32x32.Slices ![5, 0, 0] S1x32x32
  slices_S6x32_S1x32_5_0 : S6x32.Slices ![5, 0] S1x32
  concatenates_S100000x32_S100000x32_S100000x32_S100000x32_S100000x32_S100000x32_S100000x32_S100000x224_d1 : Shape.Concatenates [S100000x32, S100000x32, S100000x32, S100000x32, S100000x32, S100000x32, S100000x32] S100000x224 1
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x32_S100000x32_1_0_0_1_n_n_wf : DotDims.WF S100000x128 S128x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x224_S224x16_S100000x16_1_0_0_1_n_n_wf : DotDims.WF S100000x224 S224x16 S100000x16 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x224_S224x16_S100000x16_1_0_0_1_n_n : DotDims S100000x224 S224x16 S100000x16 where
  lhsContracting := [1]
  rhsContracting := [0]
  lhsNonContracting := [0]
  rhsNonContracting := [1]
  lhsBatch := []
  rhsBatch := []
  wf := dot_S100000x224_S224x16_S100000x16_1_0_0_1_n_n_wf

class Facts : Prop extends Facts₀ where

variable [Facts]
-- ==== Proof.KRun.lean ====
/-
  The kernel program's run with its result named: every weakly fair execution ends with the result buffer holding
  the last boundary's contents `W18` at that buffer, and the arguments as launched. (The fold `W18` through the
  host stretches and the eight regions is read in the modules that import this one.)
-/
import proofs.«148936_j3496103379547_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The frame run, with the result buffer read against the final thread state as every argument is. -/
theorem run_named : θ_run defs (onTc (τ := τ) (main (F := F))) ⟨m, fun _ => 0, ρ⟩ (fun r => ∀ c : Dev nD,
      r.2.mem ((c.tc : Thread nD τ).loc main_v147) = W18 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v147 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c)⟩)

end Cert.KernelIdeal.KRun

end
-- ==== Proof.Spec.lean ====
/-
  The mathematics of the graph network, stated once, over plain functions of coordinates on the extended reals.

  A row of 32 features is normalised to [-1, 1] by its own minimum and maximum (`mynorm`); a dense layer is a
  sum of products over the input features plus a bias (`lin`). The network: `dense0` (a dense layer on 128
  features, the positive part, then the normalisation), six times a plain dense layer on 32 features (`layer`)
  applied to a neighbourhood aggregate, and a last dense layer on 224 features (`final`): the seven feature
  maps, the later five replaced by differences of normalised maps, laid side by side (`cat7`).

  Both programs are shown to compute these functions of the argument arrays; the aggregation between the layers
  is carried as one function of arrays and never opened.
-/
import Idealize.ShloMosaic.PureOps.Ideal
import Idealize.ShloMosaic.Lib.ValueIdx

noncomputable section

open scoped BigOperators

namespace Cert.Spec

open Idealize.ShloMosaic Idealize.ShloMosaic.ValueIdx

/-- A rank-2 array read by its two coordinates. -/
def un2 {A B : Nat} (X : (⟨2, ![A, B]⟩ : Shape).Idx → EReal) (r : Fin A) (k : Fin B) : EReal := X (ix2 r k)
/-- A rank-1 array read by its coordinate. -/
def un1 {A : Nat} (X : (⟨1, ![A]⟩ : Shape).Idx → EReal) (k : Fin A) : EReal := X (ix1 k)
/-- The one row of a 1×B array. -/
def unRow {B : Nat} (X : (⟨2, ![1, B]⟩ : Shape).Idx → EReal) (k : Fin B) : EReal := X (ix2 (0 : Fin 1) k)
/-- A function of two coordinates as a rank-2 array. -/
def of2 {A B : Nat} (f : Fin A → Fin B → EReal) : (⟨2, ![A, B]⟩ : Shape).Idx → EReal := fun i => f (i 0) (i 1)

theorem of2_ix2 {A B : Nat} (f : Fin A → Fin B → EReal) (r : Fin A) (k : Fin B) : of2 f (ix2 r k) = f r k := rfl

/-- The least of a row's 32 entries (a fold of `min` from +∞). -/
def rowMin (g : Fin 32 → EReal) : EReal := (Finset.univ : Finset (Fin 32)).fold min (Ideal.ofBits .f32 0x7F800000#32) g
/-- The greatest of a row's 32 entries (a fold of `max` from −∞). -/
def rowMax (g : Fin 32 → EReal) : EReal := (Finset.univ : Finset (Fin 32)).fold max (Ideal.ofBits .f32 0xFF800000#32) g

/-- The row normalised by its own range: 2 (g j − min) / (max − min + ε) − 1. -/
def mynorm (g : Fin 32 → EReal) (j : Fin 32) : EReal :=
  Ideal.div (Ideal.ofBits .f32 0x40000000#32 * (g j - rowMin g))
      ((rowMax g - rowMin g) + Ideal.ofBits .f32 0x322BCC77#32)
    - Ideal.ofBits .f32 0x3F800000#32

/-- One output feature of a dense layer: ∑ₖ a k · w k j + b j. -/
def lin {K N : Nat} (a : Fin K → EReal) (w : Fin K → Fin N → EReal) (b : Fin N → EReal) (j : Fin N) : EReal :=
  (∑ k : Fin K, a k * w k j) + b j

/-- The first layer at node `r`: the dense layer's positive part, normalised. -/
def dense0 (x : Fin 100000 → Fin 128 → EReal) (w : Fin 128 → Fin 32 → EReal) (b : Fin 32 → EReal)
    (r : Fin 100000) (j : Fin 32) : EReal :=
  mynorm (fun j' => max (lin (x r) w b j') (Ideal.ofBits .f32 0x00000000#32)) j

/-- A middle layer at node `r`. -/
def layer (a : Fin 100000 → Fin 32 → EReal) (w : Fin 32 → Fin 32 → EReal) (b : Fin 32 → EReal)
    (r : Fin 100000) (j : Fin 32) : EReal :=
  lin (a r) w b j

/-- Seven rows of 32 laid side by side: entry `k` is entry `k % 32` of row `k / 32`. -/
def cat7 (p : Fin 7 → Fin 32 → EReal) (k : Fin 224) : EReal :=
  p ⟨k.val / 32, by have := k.isLt; omega⟩ ⟨k.val % 32, Nat.mod_lt _ (by decide)⟩

/-- The seven pieces of the last layer's input at one node, from the node's seven feature rows. -/
def pieces (y0 y1 y2 y3 y4 y5 y6 : Fin 32 → EReal) : Fin 7 → Fin 32 → EReal :=
  ![y0, y1, fun k => mynorm y2 k - mynorm y0 k, fun k => mynorm y3 k - mynorm y1 k,
    fun k => mynorm y4 k - mynorm y2 k, fun k => mynorm y5 k - mynorm y3 k, fun k => mynorm y6 k - mynorm y4 k]

/-- The last layer at node `r`. -/
def final (x0 x1 x2 x3 x4 x5 x6 : Fin 100000 → Fin 32 → EReal) (w : Fin 224 → Fin 16 → EReal) (b : Fin 16 → EReal)
    (r : Fin 100000) (j : Fin 16) : EReal :=
  lin (cat7 (pieces (x0 r) (x1 r) (x2 r) (x3 r) (x4 r) (x5 r) (x6 r))) w b j

end Cert.Spec

end
-- ==== Proof.Net.lean ====
/-
  The network as ONE function of the argument arrays, shared by the two programs.

  The edge list enters only through three arrays computed from it before the first layer (the source and the
  destination of every edge with the self-loops appended, and the symmetric degree normalisation of every edge);
  the network is stated over those three as parameters (`g5`, `g6`, `g29`), so that the aggregation
  `aggT` — gather the source rows, scale each by its edge's normalisation, add into the destination rows — is
  one function of arrays that is never opened. `xT k` is the feature map after layer `k`; `net` the result.
-/
import proofs.«148936_j3496103379547_2_alg».proof.Proof.Spec
import proofs.«148936_j3496103379547_2_alg».proof.Proof.Gen.ReferenceIdeal
import Idealize.ShloMosaic.Lib.Pipeline.Value

noncomputable section

namespace Cert.Net

open Cert.ReferenceIdeal Cert.ReferenceIdeal.Gen Idealize.ShloMosaic Idealize.ShloMosaic.TcCoe
open Cert.Spec

/-- The arrays' types. -/
abbrev IE := IVec S3300000 32
abbrev FE := FVec Ideal S3300000 .f32
abbrev FX := FVec Ideal S100000x32 .f32

/-- The neighbourhood aggregate of a feature map: row `g6 e` of the result is the sum over the edges `e` into it of
    row `g5 e` of `x` (a negative index read from the end) scaled by `g29 e`. -/
def aggT (g5 g6 : IE) (g29 : FE) (x : FX) : FX :=
  Host.scatterAdd (F := Ideal) scatter_S100000x32_S3300000x1_S3300000x32_1_0_0_1
    (broadcastInDim S100000x32 ![] bcast_S_S100000x32 (constant S_ .f32 0x00000000#32))
    (broadcastInDim S3300000x1 ![0] bcast_S3300000_S3300000x1_0 g6)
    (mulf
      (Host.gather gather_S100000x32_S3300000x1_S3300000x32_1_0_n_n_0_1_132 x
        (broadcastInDim S3300000x1 ![0] bcast_S3300000_S3300000x1_0
          (select (cmpi .slt g5 (broadcastInDim S3300000 ![] bcast_S_S3300000 (constantI S_ 32 0#32)))
            (addi g5 (broadcastInDim S3300000 ![] bcast_S_S3300000 (constantI S_ 32 100000#32))) g5)))
      (broadcastInDim S3300000x32 ![0, 1] bcast_S3300000x1_S3300000x32_0_1
        (broadcastInDim S3300000x1 ![0] bcast_S3300000_S3300000x1_0 g29)))

variable (g5 g6 : IE) (g29 : FE)
variable (x : FVec Ideal S100000x128 .f32) (w1 : FVec Ideal S128x32 .f32)
  (b1 : FVec Ideal S32 .f32) (cw : FVec Ideal S6x32x32 .f32) (cb : FVec Ideal S6x32 .f32)

/-- The feature map after the first layer. -/
def x0T : FX := of2 (dense0 (un2 x) (un2 w1) (un1 b1))
/-- The feature map after middle layer 1: the layer (slice 0 of the stacked weights and biases) of the aggregate of the map before. -/
def x1T : FX :=
  of2 (layer (un2 (aggT g5 g6 g29 (x0T x w1 b1))) (un2 (shapeCast S32x32 (extractStridedSlice S1x32x32 ![0, 0, 0] cw slices_S6x32x32_S1x32x32_0_0_0) shapeCasts_S1x32x32_S32x32)) (un1 (shapeCast S32 (extractStridedSlice S1x32 ![0, 0] cb slices_S6x32_S1x32_0_0) shapeCasts_S1x32_S32)))
/-- The feature map after middle layer 2: the layer (slice 1 of the stacked weights and biases) of the aggregate of the map before. -/
def x2T : FX :=
  of2 (layer (un2 (aggT g5 g6 g29 (x1T g5 g6 g29 x w1 b1 cw cb))) (un2 (shapeCast S32x32 (extractStridedSlice S1x32x32 ![1, 0, 0] cw slices_S6x32x32_S1x32x32_1_0_0) shapeCasts_S1x32x32_S32x32)) (un1 (shapeCast S32 (extractStridedSlice S1x32 ![1, 0] cb slices_S6x32_S1x32_1_0) shapeCasts_S1x32_S32)))
/-- The feature map after middle layer 3: the layer (slice 2 of the stacked weights and biases) of the aggregate of the map before. -/
def x3T : FX :=
  of2 (layer (un2 (aggT g5 g6 g29 (x2T g5 g6 g29 x w1 b1 cw cb))) (un2 (shapeCast S32x32 (extractStridedSlice S1x32x32 ![2, 0, 0] cw slices_S6x32x32_S1x32x32_2_0_0) shapeCasts_S1x32x32_S32x32)) (un1 (shapeCast S32 (extractStridedSlice S1x32 ![2, 0] cb slices_S6x32_S1x32_2_0) shapeCasts_S1x32_S32)))
/-- The feature map after middle layer 4: the layer (slice 3 of the stacked weights and biases) of the aggregate of the map before. -/
def x4T : FX :=
  of2 (layer (un2 (aggT g5 g6 g29 (x3T g5 g6 g29 x w1 b1 cw cb))) (un2 (shapeCast S32x32 (extractStridedSlice S1x32x32 ![3, 0, 0] cw slices_S6x32x32_S1x32x32_3_0_0) shapeCasts_S1x32x32_S32x32)) (un1 (shapeCast S32 (extractStridedSlice S1x32 ![3, 0] cb slices_S6x32_S1x32_3_0) shapeCasts_S1x32_S32)))
/-- The feature map after middle layer 5: the layer (slice 4 of the stacked weights and biases) of the aggregate of the map before. -/
def x5T : FX :=
  of2 (layer (un2 (aggT g5 g6 g29 (x4T g5 g6 g29 x w1 b1 cw cb))) (un2 (shapeCast S32x32 (extractStridedSlice S1x32x32 ![4, 0, 0] cw slices_S6x32x32_S1x32x32_4_0_0) shapeCasts_S1x32x32_S32x32)) (un1 (shapeCast S32 (extractStridedSlice S1x32 ![4, 0] cb slices_S6x32_S1x32_4_0) shapeCasts_S1x32_S32)))
/-- The feature map after middle layer 6: the layer (slice 5 of the stacked weights and biases) of the aggregate of the map before. -/
def x6T : FX :=
  of2 (layer (un2 (aggT g5 g6 g29 (x5T g5 g6 g29 x w1 b1 cw cb))) (un2 (shapeCast S32x32 (extractStridedSlice S1x32x32 ![5, 0, 0] cw slices_S6x32x32_S1x32x32_5_0_0) shapeCasts_S1x32x32_S32x32)) (un1 (shapeCast S32 (extractStridedSlice S1x32 ![5, 0] cb slices_S6x32_S1x32_5_0) shapeCasts_S1x32_S32)))

/-- The network's result. -/
def net (w7 : FVec Ideal S224x16 .f32) (b7 : FVec Ideal S16 .f32) : FVec Ideal S100000x16 .f32 :=
  of2 (final (un2 (x0T x w1 b1)) (un2 (x1T g5 g6 g29 x w1 b1 cw cb)) (un2 (x2T g5 g6 g29 x w1 b1 cw cb)) (un2 (x3T g5 g6 g29 x w1 b1 cw cb))
    (un2 (x4T g5 g6 g29 x w1 b1 cw cb)) (un2 (x5T g5 g6 g29 x w1 b1 cw cb)) (un2 (x6T g5 g6 g29 x w1 b1 cw cb)) (un2 w7) (un1 b7))

/-- The network's result depends on its ten arrays only. -/
theorem net_congr {g5 g5' g6 g6' : IE} {g29 g29' : FE} {x x' : FVec Ideal S100000x128 .f32} {w1 w1' : FVec Ideal S128x32 .f32}
    {b1 b1' : FVec Ideal S32 .f32} {cw cw' : FVec Ideal S6x32x32 .f32} {cb cb' : FVec Ideal S6x32 .f32}
    {w7 w7' : FVec Ideal S224x16 .f32} {b7 b7' : FVec Ideal S16 .f32}
    (h5 : g5 = g5') (h6 : g6 = g6') (h29 : g29 = g29') (hx : x = x') (hw1 : w1 = w1') (hb1 : b1 = b1') (hcw : cw = cw') (hcb : cb = cb')
    (hw7 : w7 = w7') (hb7 : b7 = b7') :
    net g5 g6 g29 x w1 b1 cw cb w7 b7 = net g5' g6' g29' x' w1' b1' cw' cb' w7' b7' := by
  subst h5 h6 h29 hx hw1 hb1 hcw hcb hw7 hb7; rfl

/-- The one row of a vector recast as a 1×B array is the vector. -/
theorem unRow_shapeCast {B : Nat} (v : (⟨1, ![B]⟩ : Shape).Idx → EReal) (hn : (⟨1, ![B]⟩ : Shape).ShapeCasts (⟨2, ![1, B]⟩ : Shape)) :
    unRow (shapeCast (⟨2, ![1, B]⟩ : Shape) v hn) = un1 v := by
  funext k
  unfold unRow un1
  exact (shapeCast_addUnit_apply ![B] v hn (ValueIdx.ix2 (0 : Fin 1) k)).trans
    (congrArg v (funext fun a => by fin_cases a; rfl))

end Cert.Net

end
-- ==== Proof.LibSsa.lean ====
import Idealize.ShloMosaic.Lib.StableHlo.Run

/-!
# Reading a straight line of host operations one operation at a time

A line of host operations in which every operation writes one buffer, no buffer is written twice and no
operation reads a buffer written at or after its own place, leaves contents that satisfy every operation's own
equation: the result buffer of operation `k` holds the operation's function of what the line leaves in its
operand buffers. `Writes ops W` records which buffer each operation writes (operation `k` at most the `k`-th
reference of `W`); the lemmas `read_nullary` … `read_reshape` read one operation, given its place `k`, that its
result is not written later (`∉ W.drop (k + 1)`) and that its operands are not written at or after `k`
(`∉ W.drop k`) — both decided on the list of references.
-/

namespace Cert.Ssa

open Idealize.ShloMosaic Idealize.ShloMosaic.TcCoe Idealize.ShloMosaic.StableHlo

variable {τ : Topo} {sig : RefSig} {Val : EltTy → Type}

/-- The fold over two lines one after the other is the second's fold over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operation `k` of the line writes at most the `k`-th reference of the list, and the two have one length. -/
def Writes : List (HloOp τ sig Val) → List (Ref sig .tc) → Prop
  | [], [] => True
  | op :: ops, w :: W => op.writes ⊆ {Proc.devRef .tc w} ∧ Writes ops W
  | [], _ :: _ => False
  | _ :: _, [] => False

theorem Writes.append {l₁ l₂ : List (HloOp τ sig Val)} {W₁ W₂ : List (Ref sig .tc)}
    (h₁ : Writes l₁ W₁) (h₂ : Writes l₂ W₂) : Writes (l₁ ++ l₂) (W₁ ++ W₂) := by
  induction l₁ generalizing W₁ with
  | nil =>
    cases W₁ with
    | nil => exact h₂
    | cons w W => exact False.elim h₁
  | cons op l ih =>
    cases W₁ with
    | nil => exact False.elim h₁
    | cons w W => exact ⟨h₁.1, ih h₁.2⟩

theorem Writes.drop {ops : List (HloOp τ sig Val)} {W : List (Ref sig .tc)} (h : Writes ops W) (n : Nat) :
    Writes (ops.drop n) (W.drop n) := by
  induction n generalizing ops W with
  | zero => exact h
  | succ n ih =>
    cases ops with
    | nil =>
      cases W with
      | nil => exact h
      | cons w W => exact False.elim h
    | cons op l =>
      cases W with
      | nil => exact False.elim h
      | cons w W => exact ih h.2

/-- A buffer outside the list keeps its contents through the line. -/
theorem Writes.keep {ops : List (HloOp τ sig Val)} {W : List (Ref sig .tc)} (h : Writes ops W)
    {r : Ref sig .tc} (hr : r ∉ W) (V : Valuation τ sig Val) :
    after ops V (Proc.devRef .tc r) = V (Proc.devRef .tc r) := by
  induction ops generalizing W V with
  | nil => rfl
  | cons op l ih =>
    cases W with
    | nil => exact False.elim h
    | cons w W =>
      have hw : Proc.devRef (τ := τ) .tc r ∉ op.writes := fun hm =>
        hr (List.mem_cons.mpr (Or.inl (Proc.devRef_injective _ (Finset.mem_singleton.mp (h.1 hm)))))
      rw [after_cons, ih h.2 (fun hm => hr (List.mem_cons_of_mem _ hm)), op.result_of_not_mem V hw]

/-- The line's contents at a buffer not written after place `k`: operation `k`'s result over the contents
    the operations before it leave. -/
theorem read_at {ops : List (HloOp τ sig Val)} {W : List (Ref sig .tc)} (h : Writes ops W) (k : Nat)
    {op : HloOp τ sig Val} (hop : ops[k]? = some op) (V : Valuation τ sig Val) {r : Ref sig .tc}
    (hr : r ∉ W.drop (k + 1)) :
    after ops V (Proc.devRef .tc r) = op.result (after (ops.take k) V) (Proc.devRef .tc r) := by
  obtain ⟨hk, rfl⟩ := List.getElem?_eq_some_iff.mp hop
  have hsplit : ops.take k ++ ops[k] :: ops.drop (k + 1) = ops := by
    rw [List.getElem_cons_drop]; exact List.take_append_drop k ops
  refine (congrArg (fun l => after l V (Proc.devRef .tc r)) hsplit.symm).trans ?_
  show after (ops.take k ++ ops[k] :: ops.drop (k + 1)) V (Proc.devRef .tc r) = _
  rw [after_append, after_cons, (h.drop (k + 1)).keep hr]

/-- The line's contents at a buffer not written at or after place `k`: what the operations before `k` leave. -/
theorem read_before {ops : List (HloOp τ sig Val)} {W : List (Ref sig .tc)} (h : Writes ops W) (k : Nat)
    (V : Valuation τ sig Val) {r : Ref sig .tc} (hr : r ∉ W.drop k) :
    after ops V (Proc.devRef .tc r) = after (ops.take k) V (Proc.devRef .tc r) := by
  refine (congrArg (fun l => after l V (Proc.devRef .tc r)) (List.take_append_drop k ops).symm).trans ?_
  show after (ops.take k ++ ops.drop k) V (Proc.devRef .tc r) = _
  rw [after_append, (h.drop k).keep hr]

section Builders

variable {ops : List (HloOp τ sig Val)} {W : List (Ref sig .tc)} (h : Writes ops W) (k : Nat)
include h

theorem read_nullary (y : Ref sig .tc) (v : y.ty.Contents Val) (hy)
    (hop : ops[k]? = some (nullary (τ := τ) y v hy)) (V : Valuation τ sig Val) (hy' : y ∉ W.drop (k + 1)) :
    after ops V (Proc.devRef .tc y) = v := by
  rw [read_at h k hop V hy', nullary_result]

theorem read_unary (x y : Ref sig .tc) (f : x.ty.Contents Val → y.ty.Contents Val) (hx hy)
    (hop : ops[k]? = some (unary (τ := τ) x y f hx hy)) (V : Valuation τ sig Val)
    (hy' : y ∉ W.drop (k + 1)) (hx' : x ∉ W.drop k) :
    after ops V (Proc.devRef .tc y) = f (after ops V (Proc.devRef .tc x)) := by
  rw [read_at h k hop V hy', unary_result, read_before h k V hx']

theorem read_binary (a b y : Ref sig .tc) (f : a.ty.Contents Val → b.ty.Contents Val → y.ty.Contents Val) (ha hb hy)
    (hop : ops[k]? = some (binary (τ := τ) a b y f ha hb hy)) (V : Valuation τ sig Val)
    (hy' : y ∉ W.drop (k + 1)) (ha' : a ∉ W.drop k) (hb' : b ∉ W.drop k) :
    after ops V (Proc.devRef .tc y) = f (after ops V (Proc.devRef .tc a)) (after ops V (Proc.devRef .tc b)) := by
  rw [read_at h k hop V hy', binary_result, read_before h k V ha', read_before h k V hb']

theorem read_ternary (c a b y : Ref sig .tc)
    (f : c.ty.Contents Val → a.ty.Contents Val → b.ty.Contents Val → y.ty.Contents Val) (hc ha hb hy)
    (hop : ops[k]? = some (ternary (τ := τ) c a b y f hc ha hb hy)) (V : Valuation τ sig Val)
    (hy' : y ∉ W.drop (k + 1)) (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [read_at h k hop V hy', ternary_result, read_before h k V hc', read_before h k V ha', read_before h k V hb']

theorem read_reshape (x y : Ref sig .tc) (he : x.ty.elt = y.ty.elt) (hn : x.ty.shape.ShapeCasts y.ty.shape) (hx hy)
    (hop : ops[k]? = some (reshape (τ := τ) (Val := Val) x y he hn hx hy)) (V : Valuation τ sig Val)
    (hy' : y ∉ W.drop (k + 1)) (hx' : x ∉ W.drop k) :
    after ops V (Proc.devRef .tc y) = fun i => he ▸ shapeCast y.ty.shape (after ops V (Proc.devRef .tc x)) hn i := by
  rw [read_at h k hop V hy', reshape_result, read_before h k V hx']

end Builders

end Cert.Ssa
-- ==== Proof.KKeep.lean ====
/-
  Which buffers each host stretch of the kernel program writes, and the consequence used throughout the chain:
  a buffer that a stretch does not write, and that is not an array of a region, holds after the stretch (the
  region) what it held before. One lemma per boundary; the chain composes them.
-/
import proofs.«148936_j3496103379547_2_alg».proof.Proof.Gen.KernelIdeal.Frame
import proofs.«148936_j3496103379547_2_alg».proof.Proof.LibSsa

set_option maxRecDepth 16384

noncomputable section

namespace Cert.KernelIdeal.KKeep

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The buffer each operation of `hostOps0` writes, in order. -/
abbrev wr0 : List (Ref sig .tc) := [main_v0, main_v1, main_v2, main_v3, main_v4, main_v5, main_v6, main_cst, main_v7, main_cst_0, main_v8, main_v9, main_v10, main_cst_1, main_v11, main_v12, main_v13, main_cst_2]
theorem writes0 : Cert.Ssa.Writes (hostOps0 : List (HloOp τ sig (Elt F))) wr0 := by
  simp only [Cert.Ssa.Writes, nullary_writes, unary_writes, binary_writes, ternary_writes, reshape_writes, Finset.Subset.refl, and_self]
/-- A buffer `hostOps0` does not write holds after it what it held before. -/
theorem keep_h0 (c : Dev nD) (b : Ref sig .tc) (hb : b ∉ wr0) :
    W1 m ρ c (Proc.devRef .tc b) = W0 m ρ c (Proc.devRef .tc b) :=
  (writes0 (F := F)).keep hb _

/-- The buffer each operation of `hostOps0_1` writes, in order. -/
abbrev wr0_1 : List (Ref sig .tc) := [main_call0_v0, main_call0_v1, main_v14]
theorem writes0_1 : Cert.Ssa.Writes (hostOps0_1 : List (HloOp τ sig (Elt F))) wr0_1 := by
  simp only [Cert.Ssa.Writes, nullary_writes, unary_writes, binary_writes, ternary_writes, reshape_writes, Finset.Subset.refl, and_self]
/-- A buffer `hostOps0_1` does not write holds after it what it held before. -/
theorem keep_h0_1 (c : Dev nD) (b : Ref sig .tc) (hb : b ∉ wr0_1) :
    W2 m ρ c (Proc.devRef .tc b) = W1 m ρ c (Proc.devRef .tc b) :=
  (writes0_1 (F := F)).keep hb _

/-- The buffer each operation of `hostOps0_2` writes, in order. -/
abbrev wr0_2 : List (Ref sig .tc) := [main_c, main_v15, main_v16, main_c_3, main_v17, main_v18, main_v19, main_v20, main_v21, main_c_4, main_v22, main_v23, main_c_5, main_v24, main_v25, main_v26, main_v27, main_v28, main_v29, main_v30]
theorem writes0_2 : Cert.Ssa.Writes (hostOps0_2 : List (HloOp τ sig (Elt F))) wr0_2 := by
  simp only [Cert.Ssa.Writes, nullary_writes, unary_writes, binary_writes, ternary_writes, reshape_writes, Finset.Subset.refl, and_self]
/-- A buffer `hostOps0_2` does not write holds after it what it held before. -/
theorem keep_h0_2 (c : Dev nD) (b : Ref sig .tc) (hb : b ∉ wr0_2) :
    W3 m ρ c (Proc.devRef .tc b) = W2 m ρ c (Proc.devRef .tc b) :=
  (writes0_2 (F := F)).keep hb _

/-- The buffer each operation of `hostOps1` writes, in order. -/
abbrev wr1 : List (Ref sig .tc) := [main_c_6, main_v32, main_v33, main_c_7, main_v34, main_v35, main_v36, main_v37, main_v38, main_v39, main_v40, main_v41, main_cst_8, main_v42, main_v43, main_v44, main_v45, main_v46, main_v47, main_v48, main_v49]
theorem writes1 : Cert.Ssa.Writes (hostOps1 : List (HloOp τ sig (Elt F))) wr1 := by
  simp only [Cert.Ssa.Writes, nullary_writes, unary_writes, binary_writes, ternary_writes, reshape_writes, Finset.Subset.refl, and_self]
/-- A buffer `hostOps1` does not write holds after it what it held before. -/
theorem keep_h1 (c : Dev nD) (b : Ref sig .tc) (hb : b ∉ wr1) :
    W5 m ρ c (Proc.devRef .tc b) = W4 m ρ c (Proc.devRef .tc b) :=
  (writes1 (F := F)).keep hb _

/-- The buffer each operation of `hostOps2` writes, in order. -/
abbrev wr2 : List (Ref sig .tc) := [main_c_9, main_v51, main_v52, main_c_10, main_v53, main_v54, main_v55, main_v56, main_v57, main_v58, main_v59, main_v60, main_cst_11, main_v61, main_v62, main_v63, main_v64, main_v65, main_v66, main_v67, main_v68]
theorem writes2 : Cert.Ssa.Writes (hostOps2 : List (HloOp τ sig (Elt F))) wr2 := by
  simp only [Cert.Ssa.Writes, nullary_writes, unary_writes, binary_writes, ternary_writes, reshape_writes, Finset.Subset.refl, and_self]
/-- A buffer `hostOps2` does not write holds after it what it held before. -/
theorem keep_h2 (c : Dev nD) (b : Ref sig .tc) (hb : b ∉ wr2) :
    W7 m ρ c (Proc.devRef .tc b) = W6 m ρ c (Proc.devRef .tc b) :=
  (writes2 (F := F)).keep hb _

/-- The buffer each operation of `hostOps3` writes, in order. -/
abbrev wr3 : List (Ref sig .tc) := [main_c_12, main_v70, main_v71, main_c_13, main_v72, main_v73, main_v74, main_v75, main_v76, main_v77, main_v78, main_v79, main_cst_14, main_v80, main_v81, main_v82, main_v83, main_v84, main_v85, main_v86, main_v87]
theorem writes3 : Cert.Ssa.Writes (hostOps3 : List (HloOp τ sig (Elt F))) wr3 := by
  simp only [Cert.Ssa.Writes, nullary_writes, unary_writes, binary_writes, ternary_writes, reshape_writes, Finset.Subset.refl, and_self]
/-- A buffer `hostOps3` does not write holds after it what it held before. -/
theorem keep_h3 (c : Dev nD) (b : Ref sig .tc) (hb : b ∉ wr3) :
    W9 m ρ c (Proc.devRef .tc b) = W8 m ρ c (Proc.devRef .tc b) :=
  (writes3 (F := F)).keep hb _

/-- The buffer each operation of `hostOps4` writes, in order. -/
abbrev wr4 : List (Ref sig .tc) := [main_c_15, main_v89, main_v90, main_c_16, main_v91, main_v92, main_v93, main_v94, main_v95, main_v96, main_v97, main_v98, main_cst_17, main_v99, main_v100, main_v101, main_v102, main_v103, main_v104, main_v105, main_v106]
theorem writes4 : Cert.Ssa.Writes (hostOps4 : List (HloOp τ sig (Elt F))) wr4 := by
  simp only [Cert.Ssa.Writes, nullary_writes, unary_writes, binary_writes, ternary_writes, reshape_writes, Finset.Subset.refl, and_self]
/-- A buffer `hostOps4` does not write holds after it what it held before. -/
theorem keep_h4 (c : Dev nD) (b : Ref sig .tc) (hb : b ∉ wr4) :
    W11 m ρ c (Proc.devRef .tc b) = W10 m ρ c (Proc.devRef .tc b) :=
  (writes4 (F := F)).keep hb _

/-- The buffer each operation of `hostOps5` writes, in order. -/
abbrev wr5 : List (Ref sig .tc) := [main_c_18, main_v108, main_v109, main_c_19, main_v110, main_v111, main_v112, main_v113, main_v114, main_v115, main_v116, main_v117, main_cst_20, main_v118, main_v119, main_v120, main_v121, main_v122, main_v123, main_v124, main_v125]
theorem writes5 : Cert.Ssa.Writes (hostOps5 : List (HloOp τ sig (Elt F))) wr5 := by
  simp only [Cert.Ssa.Writes, nullary_writes, unary_writes, binary_writes, ternary_writes, reshape_writes, Finset.Subset.refl, and_self]
/-- A buffer `hostOps5` does not write holds after it what it held before. -/
theorem keep_h5 (c : Dev nD) (b : Ref sig .tc) (hb : b ∉ wr5) :
    W13 m ρ c (Proc.devRef .tc b) = W12 m ρ c (Proc.devRef .tc b) :=
  (writes5 (F := F)).keep hb _

/-- The buffer each operation of `hostOps6` writes, in order. -/
abbrev wr6 : List (Ref sig .tc) := [main_c_21, main_v127, main_v128, main_c_22, main_v129, main_v130, main_v131, main_v132, main_v133, main_v134, main_v135, main_v136, main_cst_23, main_v137, main_v138, main_v139, main_v140, main_v141, main_v142, main_v143, main_v144]
theorem writes6 : Cert.Ssa.Writes (hostOps6 : List (HloOp τ sig (Elt F))) wr6 := by
  simp only [Cert.Ssa.Writes, nullary_writes, unary_writes, binary_writes, ternary_writes, reshape_writes, Finset.Subset.refl, and_self]
/-- A buffer `hostOps6` does not write holds after it what it held before. -/
theorem keep_h6 (c : Dev nD) (b : Ref sig .tc) (hb : b ∉ wr6) :
    W15 m ρ c (Proc.devRef .tc b) = W14 m ρ c (Proc.devRef .tc b) :=
  (writes6 (F := F)).keep hb _

/-- The buffer each operation of `hostOps7` writes, in order. -/
abbrev wr7 : List (Ref sig .tc) := [main_v146]
theorem writes7 : Cert.Ssa.Writes (hostOps7 : List (HloOp τ sig (Elt F))) wr7 := by
  simp only [Cert.Ssa.Writes, nullary_writes, unary_writes, binary_writes, ternary_writes, reshape_writes, Finset.Subset.refl, and_self]
/-- A buffer `hostOps7` does not write holds after it what it held before. -/
theorem keep_h7 (c : Dev nD) (b : Ref sig .tc) (hb : b ∉ wr7) :
    W17 m ρ c (Proc.devRef .tc b) = W16 m ρ c (Proc.devRef .tc b) :=
  (writes7 (F := F)).keep hb _

/-- A buffer that is not an array of region 0 holds at its exit what it held at its entry. -/
theorem keep_r0 (c : Dev nD) (b : Ref sig .tc) (hb : ∀ w, Pipeline.arrRef spec0 w ≠ b) :
    W4 m ρ c (Proc.devRef .tc b) = W3 m ρ c (Proc.devRef .tc b) :=
  W4_of_ne m ρ c b hb

/-- A buffer that is not an array of region 1 holds at its exit what it held at its entry. -/
theorem keep_r1 (c : Dev nD) (b : Ref sig .tc) (hb : ∀ w, Pipeline.arrRef spec1 w ≠ b) :
    W6 m ρ c (Proc.devRef .tc b) = W5 m ρ c (Proc.devRef .tc b) :=
  W6_of_ne m ρ c b hb

/-- A buffer that is not an array of region 2 holds at its exit what it held at its entry. -/
theorem keep_r2 (c : Dev nD) (b : Ref sig .tc) (hb : ∀ w, Pipeline.arrRef spec2 w ≠ b) :
    W8 m ρ c (Proc.devRef .tc b) = W7 m ρ c (Proc.devRef .tc b) :=
  W8_of_ne m ρ c b hb

/-- A buffer that is not an array of region 3 holds at its exit what it held at its entry. -/
theorem keep_r3 (c : Dev nD) (b : Ref sig .tc) (hb : ∀ w, Pipeline.arrRef spec3 w ≠ b) :
    W10 m ρ c (Proc.devRef .tc b) = W9 m ρ c (Proc.devRef .tc b) :=
  W10_of_ne m ρ c b hb

/-- A buffer that is not an array of region 4 holds at its exit what it held at its entry. -/
theorem keep_r4 (c : Dev nD) (b : Ref sig .tc) (hb : ∀ w, Pipeline.arrRef spec4 w ≠ b) :
    W12 m ρ c (Proc.devRef .tc b) = W11 m ρ c (Proc.devRef .tc b) :=
  W12_of_ne m ρ c b hb

/-- A buffer that is not an array of region 5 holds at its exit what it held at its entry. -/
theorem keep_r5 (c : Dev nD) (b : Ref sig .tc) (hb : ∀ w, Pipeline.arrRef spec5 w ≠ b) :
    W14 m ρ c (Proc.devRef .tc b) = W13 m ρ c (Proc.devRef .tc b) :=
  W14_of_ne m ρ c b hb

/-- A buffer that is not an array of region 6 holds at its exit what it held at its entry. -/
theorem keep_r6 (c : Dev nD) (b : Ref sig .tc) (hb : ∀ w, Pipeline.arrRef spec6 w ≠ b) :
    W16 m ρ c (Proc.devRef .tc b) = W15 m ρ c (Proc.devRef .tc b) :=
  W16_of_ne m ρ c b hb

/-- A buffer that is not an array of region 7 holds at its exit what it held at its entry. -/
theorem keep_r7 (c : Dev nD) (b : Ref sig .tc) (hb : ∀ w, Pipeline.arrRef spec7 w ≠ b) :
    W18 m ρ c (Proc.devRef .tc b) = W17 m ρ c (Proc.devRef .tc b) :=
  W18_of_ne m ρ c b hb

/-- Through one middle layer (the stretch before region `p` and the region): from `W(2p+2)` to `W(2p+4)`. -/
theorem keep_l1 (c : Dev nD) (b : Ref sig .tc) (hb : b ∉ wr1) (hr : ∀ w, Pipeline.arrRef spec1 w ≠ b) :
    W6 m ρ c (Proc.devRef .tc b) = W4 m ρ c (Proc.devRef .tc b) :=
  (keep_r1 m ρ c b hr).trans (keep_h1 m ρ c b hb)
theorem keep_l2 (c : Dev nD) (b : Ref sig .tc) (hb : b ∉ wr2) (hr : ∀ w, Pipeline.arrRef spec2 w ≠ b) :
    W8 m ρ c (Proc.devRef .tc b) = W6 m ρ c (Proc.devRef .tc b) :=
  (keep_r2 m ρ c b hr).trans (keep_h2 m ρ c b hb)
theorem keep_l3 (c : Dev nD) (b : Ref sig .tc) (hb : b ∉ wr3) (hr : ∀ w, Pipeline.arrRef spec3 w ≠ b) :
    W10 m ρ c (Proc.devRef .tc b) = W8 m ρ c (Proc.devRef .tc b) :=
  (keep_r3 m ρ c b hr).trans (keep_h3 m ρ c b hb)
theorem keep_l4 (c : Dev nD) (b : Ref sig .tc) (hb : b ∉ wr4) (hr : ∀ w, Pipeline.arrRef spec4 w ≠ b) :
    W12 m ρ c (Proc.devRef .tc b) = W10 m ρ c (Proc.devRef .tc b) :=
  (keep_r4 m ρ c b hr).trans (keep_h4 m ρ c b hb)
theorem keep_l5 (c : Dev nD) (b : Ref sig .tc) (hb : b ∉ wr5) (hr : ∀ w, Pipeline.arrRef spec5 w ≠ b) :
    W14 m ρ c (Proc.devRef .tc b) = W12 m ρ c (Proc.devRef .tc b) :=
  (keep_r5 m ρ c b hr).trans (keep_h5 m ρ c b hb)
theorem keep_l6 (c : Dev nD) (b : Ref sig .tc) (hb : b ∉ wr6) (hr : ∀ w, Pipeline.arrRef spec6 w ≠ b) :
    W16 m ρ c (Proc.devRef .tc b) = W14 m ρ c (Proc.devRef .tc b) :=
  (keep_r6 m ρ c b hr).trans (keep_h6 m ρ c b hb)

/-- From the launch to region 0's exit. -/
theorem keep_04 (c : Dev nD) (b : Ref sig .tc) (h0 : b ∉ wr0) (h1 : b ∉ wr0_1) (h2 : b ∉ wr0_2) (hr : ∀ w, Pipeline.arrRef spec0 w ≠ b) :
    W4 m ρ c (Proc.devRef .tc b) = W0 m ρ c (Proc.devRef .tc b) :=
  (keep_r0 m ρ c b hr).trans ((keep_h0_2 m ρ c b h2).trans ((keep_h0_1 m ρ c b h1).trans (keep_h0 m ρ c b h0)))

/-- The launch contents are the memory. -/
theorem W0_eq (c : Dev nD) (b : Ref sig .tc) : W0 m ρ c (Proc.devRef .tc b) = m ((c : Thread nD τ).loc b) := rfl

end Cert.KernelIdeal.KKeep

end
-- ==== Proof.KChainKeep.lean ====
/-
  The chain through the kernel program, part one: what is kept.

  The network's parameters on the device are three arrays computed from the edge list before the first layer and the
  argument arrays as launched. Every stretch of host operations and every region writes only its own results, so
  each of these, and each layer's feature map once its region has written it, is found unchanged by every later
  reader. One equation per buffer and boundary.
-/
import proofs.«148936_j3496103379547_2_alg».proof.Proof.Gen.KernelIdeal.Frame
import proofs.«148936_j3496103379547_2_alg».proof.Proof.Net
import proofs.«148936_j3496103379547_2_alg».proof.Proof.KKeep
import Idealize.ShloMosaic.Lib.StableHlo.Run

set_option maxRecDepth 16384

noncomputable section

namespace Cert.KernelIdeal.KChain

open Cert.KernelIdeal Cert.KernelIdeal.Gen Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The parameters of the chain

The three arrays computed from the edge list, as the stretches before the first layer leave them, and the argument
arrays as launched. -/

abbrev G5 (c : Dev nD) := W1 m ρ c (Proc.devRef .tc main_v5)
abbrev G6 (c : Dev nD) := W1 m ρ c (Proc.devRef .tc main_v6)
abbrev G29 (c : Dev nD) := W3 m ρ c (Proc.devRef .tc main_v29)
abbrev A0 (c : Dev nD) := m ((c : Thread nD τ).loc main_arg0)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)
abbrev A6 (c : Dev nD) := m ((c : Thread nD τ).loc main_arg6)
abbrev A7 (c : Dev nD) := m ((c : Thread nD τ).loc main_arg7)

/-! ## What the first layer's region finds: the arguments as launched -/

theorem arg0_at3 (c : Dev nD) : W3 m ρ c (Proc.devRef .tc main_arg0) = A0 m c :=
  (keep_h0_2 m ρ c main_arg0 (by decide)).trans ((keep_h0_1 m ρ c main_arg0 (by decide)).trans (keep_h0 m ρ c main_arg0 (by decide)))
theorem arg2_at3 (c : Dev nD) : W3 m ρ c (Proc.devRef .tc main_arg2) = A2 m c :=
  (keep_h0_2 m ρ c main_arg2 (by decide)).trans ((keep_h0_1 m ρ c main_arg2 (by decide)).trans (keep_h0 m ρ c main_arg2 (by decide)))
theorem arg3_at3 (c : Dev nD) : W3 m ρ c (Proc.devRef .tc main_arg3) = A3 m c :=
  (keep_h0_2 m ρ c main_arg3 (by decide)).trans ((keep_h0_1 m ρ c main_arg3 (by decide)).trans (keep_h0 m ρ c main_arg3 (by decide)))

/-! ## The edge-list arrays and the later layers' arguments, kept from the first layer's exit on -/

theorem v5_at4 (c : Dev nD) : W4 m ρ c (Proc.devRef .tc main_v5) = G5 m ρ c :=
  (keep_r0 m ρ c main_v5 (by decide)).trans ((keep_h0_2 m ρ c main_v5 (by decide)).trans (keep_h0_1 m ρ c main_v5 (by decide)))
theorem v6_at4 (c : Dev nD) : W4 m ρ c (Proc.devRef .tc main_v6) = G6 m ρ c :=
  (keep_r0 m ρ c main_v6 (by decide)).trans ((keep_h0_2 m ρ c main_v6 (by decide)).trans (keep_h0_1 m ρ c main_v6 (by decide)))
theorem v29_at4 (c : Dev nD) : W4 m ρ c (Proc.devRef .tc main_v29) = G29 m ρ c :=
  keep_r0 m ρ c main_v29 (by decide)
theorem arg4_at4 (c : Dev nD) : W4 m ρ c (Proc.devRef .tc main_arg4) = A4 m c :=
  keep_04 m ρ c main_arg4 (by decide) (by decide) (by decide) (by decide)
theorem arg5_at4 (c : Dev nD) : W4 m ρ c (Proc.devRef .tc main_arg5) = A5 m c :=
  keep_04 m ρ c main_arg5 (by decide) (by decide) (by decide) (by decide)
theorem arg6_at4 (c : Dev nD) : W4 m ρ c (Proc.devRef .tc main_arg6) = A6 m c :=
  keep_04 m ρ c main_arg6 (by decide) (by decide) (by decide) (by decide)
theorem arg7_at4 (c : Dev nD) : W4 m ρ c (Proc.devRef .tc main_arg7) = A7 m c :=
  keep_04 m ρ c main_arg7 (by decide) (by decide) (by decide) (by decide)
theorem v5_at6 (c : Dev nD) : W6 m ρ c (Proc.devRef .tc main_v5) = G5 m ρ c :=
  (keep_l1 m ρ c main_v5 (by decide) (by decide)).trans (v5_at4 m ρ c)
theorem v5_at8 (c : Dev nD) : W8 m ρ c (Proc.devRef .tc main_v5) = G5 m ρ c :=
  (keep_l2 m ρ c main_v5 (by decide) (by decide)).trans (v5_at6 m ρ c)
theorem v5_at10 (c : Dev nD) : W10 m ρ c (Proc.devRef .tc main_v5) = G5 m ρ c :=
  (keep_l3 m ρ c main_v5 (by decide) (by decide)).trans (v5_at8 m ρ c)
theorem v5_at12 (c : Dev nD) : W12 m ρ c (Proc.devRef .tc main_v5) = G5 m ρ c :=
  (keep_l4 m ρ c main_v5 (by decide) (by decide)).trans (v5_at10 m ρ c)
theorem v5_at14 (c : Dev nD) : W14 m ρ c (Proc.devRef .tc main_v5) = G5 m ρ c :=
  (keep_l5 m ρ c main_v5 (by decide) (by decide)).trans (v5_at12 m ρ c)
theorem v6_at6 (c : Dev nD) : W6 m ρ c (Proc.devRef .tc main_v6) = G6 m ρ c :=
  (keep_l1 m ρ c main_v6 (by decide) (by decide)).trans (v6_at4 m ρ c)
theorem v6_at8 (c : Dev nD) : W8 m ρ c (Proc.devRef .tc main_v6) = G6 m ρ c :=
  (keep_l2 m ρ c main_v6 (by decide) (by decide)).trans (v6_at6 m ρ c)
theorem v6_at10 (c : Dev nD) : W10 m ρ c (Proc.devRef .tc main_v6) = G6 m ρ c :=
  (keep_l3 m ρ c main_v6 (by decide) (by decide)).trans (v6_at8 m ρ c)
theorem v6_at12 (c : Dev nD) : W12 m ρ c (Proc.devRef .tc main_v6) = G6 m ρ c :=
  (keep_l4 m ρ c main_v6 (by decide) (by decide)).trans (v6_at10 m ρ c)
theorem v6_at14 (c : Dev nD) : W14 m ρ c (Proc.devRef .tc main_v6) = G6 m ρ c :=
  (keep_l5 m ρ c main_v6 (by decide) (by decide)).trans (v6_at12 m ρ c)
theorem v29_at6 (c : Dev nD) : W6 m ρ c (Proc.devRef .tc main_v29) = G29 m ρ c :=
  (keep_l1 m ρ c main_v29 (by decide) (by decide)).trans (v29_at4 m ρ c)
theorem v29_at8 (c : Dev nD) : W8 m ρ c (Proc.devRef .tc main_v29) = G29 m ρ c :=
  (keep_l2 m ρ c main_v29 (by decide) (by decide)).trans (v29_at6 m ρ c)
theorem v29_at10 (c : Dev nD) : W10 m ρ c (Proc.devRef .tc main_v29) = G29 m ρ c :=
  (keep_l3 m ρ c main_v29 (by decide) (by decide)).trans (v29_at8 m ρ c)
theorem v29_at12 (c : Dev nD) : W12 m ρ c (Proc.devRef .tc main_v29) = G29 m ρ c :=
  (keep_l4 m ρ c main_v29 (by decide) (by decide)).trans (v29_at10 m ρ c)
theorem v29_at14 (c : Dev nD) : W14 m ρ c (Proc.devRef .tc main_v29) = G29 m ρ c :=
  (keep_l5 m ρ c main_v29 (by decide) (by decide)).trans (v29_at12 m ρ c)
theorem arg4_at6 (c : Dev nD) : W6 m ρ c (Proc.devRef .tc main_arg4) = A4 m c :=
  (keep_l1 m ρ c main_arg4 (by decide) (by decide)).trans (arg4_at4 m ρ c)
theorem arg4_at8 (c : Dev nD) : W8 m ρ c (Proc.devRef .tc main_arg4) = A4 m c :=
  (keep_l2 m ρ c main_arg4 (by decide) (by decide)).trans (arg4_at6 m ρ c)
theorem arg4_at10 (c : Dev nD) : W10 m ρ c (Proc.devRef .tc main_arg4) = A4 m c :=
  (keep_l3 m ρ c main_arg4 (by decide) (by decide)).trans (arg4_at8 m ρ c)
theorem arg4_at12 (c : Dev nD) : W12 m ρ c (Proc.devRef .tc main_arg4) = A4 m c :=
  (keep_l4 m ρ c main_arg4 (by decide) (by decide)).trans (arg4_at10 m ρ c)
theorem arg4_at14 (c : Dev nD) : W14 m ρ c (Proc.devRef .tc main_arg4) = A4 m c :=
  (keep_l5 m ρ c main_arg4 (by decide) (by decide)).trans (arg4_at12 m ρ c)
theorem arg5_at6 (c : Dev nD) : W6 m ρ c (Proc.devRef .tc main_arg5) = A5 m c :=
  (keep_l1 m ρ c main_arg5 (by decide) (by decide)).trans (arg5_at4 m ρ c)
theorem arg5_at8 (c : Dev nD) : W8 m ρ c (Proc.devRef .tc main_arg5) = A5 m c :=
  (keep_l2 m ρ c main_arg5 (by decide) (by decide)).trans (arg5_at6 m ρ c)
theorem arg5_at10 (c : Dev nD) : W10 m ρ c (Proc.devRef .tc main_arg5) = A5 m c :=
  (keep_l3 m ρ c main_arg5 (by decide) (by decide)).trans (arg5_at8 m ρ c)
theorem arg5_at12 (c : Dev nD) : W12 m ρ c (Proc.devRef .tc main_arg5) = A5 m c :=
  (keep_l4 m ρ c main_arg5 (by decide) (by decide)).trans (arg5_at10 m ρ c)
theorem arg5_at14 (c : Dev nD) : W14 m ρ c (Proc.devRef .tc main_arg5) = A5 m c :=
  (keep_l5 m ρ c main_arg5 (by decide) (by decide)).trans (arg5_at12 m ρ c)
theorem arg6_at6 (c : Dev nD) : W6 m ρ c (Proc.devRef .tc main_arg6) = A6 m c :=
  (keep_l1 m ρ c main_arg6 (by decide) (by decide)).trans (arg6_at4 m ρ c)
theorem arg6_at8 (c : Dev nD) : W8 m ρ c (Proc.devRef .tc main_arg6) = A6 m c :=
  (keep_l2 m ρ c main_arg6 (by decide) (by decide)).trans (arg6_at6 m ρ c)
theorem arg6_at10 (c : Dev nD) : W10 m ρ c (Proc.devRef .tc main_arg6) = A6 m c :=
  (keep_l3 m ρ c main_arg6 (by decide) (by decide)).trans (arg6_at8 m ρ c)
theorem arg6_at12 (c : Dev nD) : W12 m ρ c (Proc.devRef .tc main_arg6) = A6 m c :=
  (keep_l4 m ρ c main_arg6 (by decide) (by decide)).trans (arg6_at10 m ρ c)
theorem arg6_at14 (c : Dev nD) : W14 m ρ c (Proc.devRef .tc main_arg6) = A6 m c :=
  (keep_l5 m ρ c main_arg6 (by decide) (by decide)).trans (arg6_at12 m ρ c)
theorem arg6_at16 (c : Dev nD) : W16 m ρ c (Proc.devRef .tc main_arg6) = A6 m c :=
  (keep_l6 m ρ c main_arg6 (by decide) (by decide)).trans (arg6_at14 m ρ c)
theorem arg7_at6 (c : Dev nD) : W6 m ρ c (Proc.devRef .tc main_arg7) = A7 m c :=
  (keep_l1 m ρ c main_arg7 (by decide) (by decide)).trans (arg7_at4 m ρ c)
theorem arg7_at8 (c : Dev nD) : W8 m ρ c (Proc.devRef .tc main_arg7) = A7 m c :=
  (keep_l2 m ρ c main_arg7 (by decide) (by decide)).trans (arg7_at6 m ρ c)
theorem arg7_at10 (c : Dev nD) : W10 m ρ c (Proc.devRef .tc main_arg7) = A7 m c :=
  (keep_l3 m ρ c main_arg7 (by decide) (by decide)).trans (arg7_at8 m ρ c)
theorem arg7_at12 (c : Dev nD) : W12 m ρ c (Proc.devRef .tc main_arg7) = A7 m c :=
  (keep_l4 m ρ c main_arg7 (by decide) (by decide)).trans (arg7_at10 m ρ c)
theorem arg7_at14 (c : Dev nD) : W14 m ρ c (Proc.devRef .tc main_arg7) = A7 m c :=
  (keep_l5 m ρ c main_arg7 (by decide) (by decide)).trans (arg7_at12 m ρ c)
theorem arg7_at16 (c : Dev nD) : W16 m ρ c (Proc.devRef .tc main_arg7) = A7 m c :=
  (keep_l6 m ρ c main_arg7 (by decide) (by decide)).trans (arg7_at14 m ρ c)
theorem arg6_at17 (c : Dev nD) : W17 m ρ c (Proc.devRef .tc main_arg6) = A6 m c :=
  (keep_h7 m ρ c main_arg6 (by decide)).trans (arg6_at16 m ρ c)

/-! ## Each layer's feature map, kept from its region's exit to the last region's entry -/

theorem v31_at6 (c : Dev nD) : W6 m ρ c (Proc.devRef .tc main_v31) = W4 m ρ c (Proc.devRef .tc main_v31) :=
  keep_l1 m ρ c main_v31 (by decide) (by decide)
theorem v31_at8 (c : Dev nD) : W8 m ρ c (Proc.devRef .tc main_v31) = W4 m ρ c (Proc.devRef .tc main_v31) :=
  (keep_l2 m ρ c main_v31 (by decide) (by decide)).trans (v31_at6 m ρ c)
theorem v31_at10 (c : Dev nD) : W10 m ρ c (Proc.devRef .tc main_v31) = W4 m ρ c (Proc.devRef .tc main_v31) :=
  (keep_l3 m ρ c main_v31 (by decide) (by decide)).trans (v31_at8 m ρ c)
theorem v31_at12 (c : Dev nD) : W12 m ρ c (Proc.devRef .tc main_v31) = W4 m ρ c (Proc.devRef .tc main_v31) :=
  (keep_l4 m ρ c main_v31 (by decide) (by decide)).trans (v31_at10 m ρ c)
theorem v31_at14 (c : Dev nD) : W14 m ρ c (Proc.devRef .tc main_v31) = W4 m ρ c (Proc.devRef .tc main_v31) :=
  (keep_l5 m ρ c main_v31 (by decide) (by decide)).trans (v31_at12 m ρ c)
theorem v31_at16 (c : Dev nD) : W16 m ρ c (Proc.devRef .tc main_v31) = W4 m ρ c (Proc.devRef .tc main_v31) :=
  (keep_l6 m ρ c main_v31 (by decide) (by decide)).trans (v31_at14 m ρ c)
theorem v31_at17 (c : Dev nD) : W17 m ρ c (Proc.devRef .tc main_v31) = W4 m ρ c (Proc.devRef .tc main_v31) :=
  (keep_h7 m ρ c main_v31 (by decide)).trans (v31_at16 m ρ c)
theorem v50_at8 (c : Dev nD) : W8 m ρ c (Proc.devRef .tc main_v50) = W6 m ρ c (Proc.devRef .tc main_v50) :=
  keep_l2 m ρ c main_v50 (by decide) (by decide)
theorem v50_at10 (c : Dev nD) : W10 m ρ c (Proc.devRef .tc main_v50) = W6 m ρ c (Proc.devRef .tc main_v50) :=
  (keep_l3 m ρ c main_v50 (by decide) (by decide)).trans (v50_at8 m ρ c)
theorem v50_at12 (c : Dev nD) : W12 m ρ c (Proc.devRef .tc main_v50) = W6 m ρ c (Proc.devRef .tc main_v50) :=
  (keep_l4 m ρ c main_v50 (by decide) (by decide)).trans (v50_at10 m ρ c)
theorem v50_at14 (c : Dev nD) : W14 m ρ c (Proc.devRef .tc main_v50) = W6 m ρ c (Proc.devRef .tc main_v50) :=
  (keep_l5 m ρ c main_v50 (by decide) (by decide)).trans (v50_at12 m ρ c)
theorem v50_at16 (c : Dev nD) : W16 m ρ c (Proc.devRef .tc main_v50) = W6 m ρ c (Proc.devRef .tc main_v50) :=
  (keep_l6 m ρ c main_v50 (by decide) (by decide)).trans (v50_at14 m ρ c)
theorem v50_at17 (c : Dev nD) : W17 m ρ c (Proc.devRef .tc main_v50) = W6 m ρ c (Proc.devRef .tc main_v50) :=
  (keep_h7 m ρ c main_v50 (by decide)).trans (v50_at16 m ρ c)
theorem v69_at10 (c : Dev nD) : W10 m ρ c (Proc.devRef .tc main_v69) = W8 m ρ c (Proc.devRef .tc main_v69) :=
  keep_l3 m ρ c main_v69 (by decide) (by decide)
theorem v69_at12 (c : Dev nD) : W12 m ρ c (Proc.devRef .tc main_v69) = W8 m ρ c (Proc.devRef .tc main_v69) :=
  (keep_l4 m ρ c main_v69 (by decide) (by decide)).trans (v69_at10 m ρ c)
theorem v69_at14 (c : Dev nD) : W14 m ρ c (Proc.devRef .tc main_v69) = W8 m ρ c (Proc.devRef .tc main_v69) :=
  (keep_l5 m ρ c main_v69 (by decide) (by decide)).trans (v69_at12 m ρ c)
theorem v69_at16 (c : Dev nD) : W16 m ρ c (Proc.devRef .tc main_v69) = W8 m ρ c (Proc.devRef .tc main_v69) :=
  (keep_l6 m ρ c main_v69 (by decide) (by decide)).trans (v69_at14 m ρ c)
theorem v69_at17 (c : Dev nD) : W17 m ρ c (Proc.devRef .tc main_v69) = W8 m ρ c (Proc.devRef .tc main_v69) :=
  (keep_h7 m ρ c main_v69 (by decide)).trans (v69_at16 m ρ c)
theorem v88_at12 (c : Dev nD) : W12 m ρ c (Proc.devRef .tc main_v88) = W10 m ρ c (Proc.devRef .tc main_v88) :=
  keep_l4 m ρ c main_v88 (by decide) (by decide)
theorem v88_at14 (c : Dev nD) : W14 m ρ c (Proc.devRef .tc main_v88) = W10 m ρ c (Proc.devRef .tc main_v88) :=
  (keep_l5 m ρ c main_v88 (by decide) (by decide)).trans (v88_at12 m ρ c)
theorem v88_at16 (c : Dev nD) : W16 m ρ c (Proc.devRef .tc main_v88) = W10 m ρ c (Proc.devRef .tc main_v88) :=
  (keep_l6 m ρ c main_v88 (by decide) (by decide)).trans (v88_at14 m ρ c)
theorem v88_at17 (c : Dev nD) : W17 m ρ c (Proc.devRef .tc main_v88) = W10 m ρ c (Proc.devRef .tc main_v88) :=
  (keep_h7 m ρ c main_v88 (by decide)).trans (v88_at16 m ρ c)
theorem v107_at14 (c : Dev nD) : W14 m ρ c (Proc.devRef .tc main_v107) = W12 m ρ c (Proc.devRef .tc main_v107) :=
  keep_l5 m ρ c main_v107 (by decide) (by decide)
theorem v107_at16 (c : Dev nD) : W16 m ρ c (Proc.devRef .tc main_v107) = W12 m ρ c (Proc.devRef .tc main_v107) :=
  (keep_l6 m ρ c main_v107 (by decide) (by decide)).trans (v107_at14 m ρ c)
theorem v107_at17 (c : Dev nD) : W17 m ρ c (Proc.devRef .tc main_v107) = W12 m ρ c (Proc.devRef .tc main_v107) :=
  (keep_h7 m ρ c main_v107 (by decide)).trans (v107_at16 m ρ c)
theorem v126_at16 (c : Dev nD) : W16 m ρ c (Proc.devRef .tc main_v126) = W14 m ρ c (Proc.devRef .tc main_v126) :=
  keep_l6 m ρ c main_v126 (by decide) (by decide)
theorem v126_at17 (c : Dev nD) : W17 m ρ c (Proc.devRef .tc main_v126) = W14 m ρ c (Proc.devRef .tc main_v126) :=
  (keep_h7 m ρ c main_v126 (by decide)).trans (v126_at16 m ρ c)
theorem v145_at17 (c : Dev nD) : W17 m ρ c (Proc.devRef .tc main_v145) = W16 m ρ c (Proc.devRef .tc main_v145) :=
  keep_h7 m ρ c main_v145 (by decide)

end Cert.KernelIdeal.KChain

end
-- ==== Proof.KChainReads.lean ====
/-
  The chain through the kernel program, part two: what each stretch of host operations computes for the region
  after it. Before a middle layer: the neighbourhood aggregate of the feature map before (gather the source rows,
  scale by the edge's normalisation, add into the destination rows), and that layer's slice of the stacked weights
  and of the stacked biases. Before the first and the last layer: the bias vector recast as a row.
-/
import proofs.«148936_j3496103379547_2_alg».proof.Proof.Gen.KernelIdeal.Frame
import proofs.«148936_j3496103379547_2_alg».proof.Proof.Net
import proofs.«148936_j3496103379547_2_alg».proof.Proof.KKeep
import Idealize.ShloMosaic.Lib.StableHlo.Run

set_option maxRecDepth 16384

noncomputable section

namespace Cert.KernelIdeal.KChain

open Cert.KernelIdeal Cert.KernelIdeal.Gen Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## What the stretch before each middle layer's region leaves in the three arrays the region reads

The aggregate is the neighbourhood aggregation of the feature map before, over the edge-list arrays the stretch
finds; the weight and the bias row are slices of the stacked arguments, recast. -/

set_option maxHeartbeats 4000000 in
theorem agg_1 (c : Dev nD) : W5 m ρ c (Proc.devRef .tc main_v44)
    = Cert.Net.aggT (W4 m ρ c (Proc.devRef .tc main_v5)) (W4 m ρ c (Proc.devRef .tc main_v6)) (W4 m ρ c (Proc.devRef .tc main_v29)) (W4 m ρ c (Proc.devRef .tc main_v31)) := by
  show StableHlo.after hostOps1 (W4 m ρ c) (Proc.devRef .tc main_v44) = _
  after_results_simp
  rfl

set_option maxHeartbeats 4000000 in
theorem wgt_1 (c : Dev nD) : W5 m ρ c (Proc.devRef .tc main_v46)
    = shapeCast S32x32 (extractStridedSlice S1x32x32 ![0, 0, 0] (W4 m ρ c (Proc.devRef .tc main_arg4)) slices_S6x32x32_S1x32x32_0_0_0) shapeCasts_S1x32x32_S32x32 := by
  show StableHlo.after hostOps1 (W4 m ρ c) (Proc.devRef .tc main_v46) = _
  after_results_simp
  rfl

set_option maxHeartbeats 4000000 in
theorem bias_1 (c : Dev nD) : W5 m ρ c (Proc.devRef .tc main_v49)
    = shapeCast S1x32 (shapeCast S32 (extractStridedSlice S1x32 ![0, 0] (W4 m ρ c (Proc.devRef .tc main_arg5)) slices_S6x32_S1x32_0_0) shapeCasts_S1x32_S32) shapeCasts_S32_S1x32 := by
  show StableHlo.after hostOps1 (W4 m ρ c) (Proc.devRef .tc main_v49) = _
  after_results_simp
  rfl

set_option maxHeartbeats 4000000 in
theorem agg_2 (c : Dev nD) : W7 m ρ c (Proc.devRef .tc main_v63)
    = Cert.Net.aggT (W6 m ρ c (Proc.devRef .tc main_v5)) (W6 m ρ c (Proc.devRef .tc main_v6)) (W6 m ρ c (Proc.devRef .tc main_v29)) (W6 m ρ c (Proc.devRef .tc main_v50)) := by
  show StableHlo.after hostOps2 (W6 m ρ c) (Proc.devRef .tc main_v63) = _
  after_results_simp
  rfl

set_option maxHeartbeats 4000000 in
theorem wgt_2 (c : Dev nD) : W7 m ρ c (Proc.devRef .tc main_v65)
    = shapeCast S32x32 (extractStridedSlice S1x32x32 ![1, 0, 0] (W6 m ρ c (Proc.devRef .tc main_arg4)) slices_S6x32x32_S1x32x32_1_0_0) shapeCasts_S1x32x32_S32x32 := by
  show StableHlo.after hostOps2 (W6 m ρ c) (Proc.devRef .tc main_v65) = _
  after_results_simp
  rfl

set_option maxHeartbeats 4000000 in
theorem bias_2 (c : Dev nD) : W7 m ρ c (Proc.devRef .tc main_v68)
    = shapeCast S1x32 (shapeCast S32 (extractStridedSlice S1x32 ![1, 0] (W6 m ρ c (Proc.devRef .tc main_arg5)) slices_S6x32_S1x32_1_0) shapeCasts_S1x32_S32) shapeCasts_S32_S1x32 := by
  show StableHlo.after hostOps2 (W6 m ρ c) (Proc.devRef .tc main_v68) = _
  after_results_simp
  rfl

set_option maxHeartbeats 4000000 in
theorem agg_3 (c : Dev nD) : W9 m ρ c (Proc.devRef .tc main_v82)
    = Cert.Net.aggT (W8 m ρ c (Proc.devRef .tc main_v5)) (W8 m ρ c (Proc.devRef .tc main_v6)) (W8 m ρ c (Proc.devRef .tc main_v29)) (W8 m ρ c (Proc.devRef .tc main_v69)) := by
  show StableHlo.after hostOps3 (W8 m ρ c) (Proc.devRef .tc main_v82) = _
  after_results_simp
  rfl

set_option maxHeartbeats 4000000 in
theorem wgt_3 (c : Dev nD) : W9 m ρ c (Proc.devRef .tc main_v84)
    = shapeCast S32x32 (extractStridedSlice S1x32x32 ![2, 0, 0] (W8 m ρ c (Proc.devRef .tc main_arg4)) slices_S6x32x32_S1x32x32_2_0_0) shapeCasts_S1x32x32_S32x32 := by
  show StableHlo.after hostOps3 (W8 m ρ c) (Proc.devRef .tc main_v84) = _
  after_results_simp
  rfl

set_option maxHeartbeats 4000000 in
theorem bias_3 (c : Dev nD) : W9 m ρ c (Proc.devRef .tc main_v87)
    = shapeCast S1x32 (shapeCast S32 (extractStridedSlice S1x32 ![2, 0] (W8 m ρ c (Proc.devRef .tc main_arg5)) slices_S6x32_S1x32_2_0) shapeCasts_S1x32_S32) shapeCasts_S32_S1x32 := by
  show StableHlo.after hostOps3 (W8 m ρ c) (Proc.devRef .tc main_v87) = _
  after_results_simp
  rfl

set_option maxHeartbeats 4000000 in
theorem agg_4 (c : Dev nD) : W11 m ρ c (Proc.devRef .tc main_v101)
    = Cert.Net.aggT (W10 m ρ c (Proc.devRef .tc main_v5)) (W10 m ρ c (Proc.devRef .tc main_v6)) (W10 m ρ c (Proc.devRef .tc main_v29)) (W10 m ρ c (Proc.devRef .tc main_v88)) := by
  show StableHlo.after hostOps4 (W10 m ρ c) (Proc.devRef .tc main_v101) = _
  after_results_simp
  rfl

set_option maxHeartbeats 4000000 in
theorem wgt_4 (c : Dev nD) : W11 m ρ c (Proc.devRef .tc main_v103)
    = shapeCast S32x32 (extractStridedSlice S1x32x32 ![3, 0, 0] (W10 m ρ c (Proc.devRef .tc main_arg4)) slices_S6x32x32_S1x32x32_3_0_0) shapeCasts_S1x32x32_S32x32 := by
  show StableHlo.after hostOps4 (W10 m ρ c) (Proc.devRef .tc main_v103) = _
  after_results_simp
  rfl

set_option maxHeartbeats 4000000 in
theorem bias_4 (c : Dev nD) : W11 m ρ c (Proc.devRef .tc main_v106)
    = shapeCast S1x32 (shapeCast S32 (extractStridedSlice S1x32 ![3, 0] (W10 m ρ c (Proc.devRef .tc main_arg5)) slices_S6x32_S1x32_3_0) shapeCasts_S1x32_S32) shapeCasts_S32_S1x32 := by
  show StableHlo.after hostOps4 (W10 m ρ c) (Proc.devRef .tc main_v106) = _
  after_results_simp
  rfl

set_option maxHeartbeats 4000000 in
theorem agg_5 (c : Dev nD) : W13 m ρ c (Proc.devRef .tc main_v120)
    = Cert.Net.aggT (W12 m ρ c (Proc.devRef .tc main_v5)) (W12 m ρ c (Proc.devRef .tc main_v6)) (W12 m ρ c (Proc.devRef .tc main_v29)) (W12 m ρ c (Proc.devRef .tc main_v107)) := by
  show StableHlo.after hostOps5 (W12 m ρ c) (Proc.devRef .tc main_v120) = _
  after_results_simp
  rfl

set_option maxHeartbeats 4000000 in
theorem wgt_5 (c : Dev nD) : W13 m ρ c (Proc.devRef .tc main_v122)
    = shapeCast S32x32 (extractStridedSlice S1x32x32 ![4, 0, 0] (W12 m ρ c (Proc.devRef .tc main_arg4)) slices_S6x32x32_S1x32x32_4_0_0) shapeCasts_S1x32x32_S32x32 := by
  show StableHlo.after hostOps5 (W12 m ρ c) (Proc.devRef .tc main_v122) = _
  after_results_simp
  rfl

set_option maxHeartbeats 4000000 in
theorem bias_5 (c : Dev nD) : W13 m ρ c (Proc.devRef .tc main_v125)
    = shapeCast S1x32 (shapeCast S32 (extractStridedSlice S1x32 ![4, 0] (W12 m ρ c (Proc.devRef .tc main_arg5)) slices_S6x32_S1x32_4_0) shapeCasts_S1x32_S32) shapeCasts_S32_S1x32 := by
  show StableHlo.after hostOps5 (W12 m ρ c) (Proc.devRef .tc main_v125) = _
  after_results_simp
  rfl

set_option maxHeartbeats 4000000 in
theorem agg_6 (c : Dev nD) : W15 m ρ c (Proc.devRef .tc main_v139)
    = Cert.Net.aggT (W14 m ρ c (Proc.devRef .tc main_v5)) (W14 m ρ c (Proc.devRef .tc main_v6)) (W14 m ρ c (Proc.devRef .tc main_v29)) (W14 m ρ c (Proc.devRef .tc main_v126)) := by
  show StableHlo.after hostOps6 (W14 m ρ c) (Proc.devRef .tc main_v139) = _
  after_results_simp
  rfl

set_option maxHeartbeats 4000000 in
theorem wgt_6 (c : Dev nD) : W15 m ρ c (Proc.devRef .tc main_v141)
    = shapeCast S32x32 (extractStridedSlice S1x32x32 ![5, 0, 0] (W14 m ρ c (Proc.devRef .tc main_arg4)) slices_S6x32x32_S1x32x32_5_0_0) shapeCasts_S1x32x32_S32x32 := by
  show StableHlo.after hostOps6 (W14 m ρ c) (Proc.devRef .tc main_v141) = _
  after_results_simp
  rfl

set_option maxHeartbeats 4000000 in
theorem bias_6 (c : Dev nD) : W15 m ρ c (Proc.devRef .tc main_v144)
    = shapeCast S1x32 (shapeCast S32 (extractStridedSlice S1x32 ![5, 0] (W14 m ρ c (Proc.devRef .tc main_arg5)) slices_S6x32_S1x32_5_0) shapeCasts_S1x32_S32) shapeCasts_S32_S1x32 := by
  show StableHlo.after hostOps6 (W14 m ρ c) (Proc.devRef .tc main_v144) = _
  after_results_simp
  rfl

/-! ## The bias rows of the first and the last layer: the argument vector recast as a row -/

set_option maxHeartbeats 4000000 in
theorem v30_at3 (c : Dev nD) : W3 m ρ c (Proc.devRef .tc main_v30)
    = shapeCast S1x32 (W2 m ρ c (Proc.devRef .tc main_arg3)) shapeCasts_S32_S1x32 := by
  show StableHlo.after hostOps0_2 (W2 m ρ c) (Proc.devRef .tc main_v30) = shapeCast S1x32 (W2 m ρ c (Proc.devRef .tc main_arg3)) shapeCasts_S32_S1x32
  generalize W2 m ρ c = X
  after_results_simp
  rfl

set_option maxHeartbeats 4000000 in
theorem v146_at17 (c : Dev nD) : W17 m ρ c (Proc.devRef .tc main_v146)
    = shapeCast S1x16 (W16 m ρ c (Proc.devRef .tc main_arg7)) shapeCasts_S16_S1x16 := by
  show StableHlo.after hostOps7 (W16 m ρ c) (Proc.devRef .tc main_v146) = _
  after_results_simp
  rfl

end Cert.KernelIdeal.KChain

end
-- ==== Proof.KDense0Pay.lean ====
/-
  The first dense layer's block computation read at an index.

  One block of 10000 rows: the product of the block's rows with the 128×32 weight, plus the bias row, the positive
  part, and then each row normalised to [-1, 1] by its own minimum and maximum. Read at row `p`, feature `q` this is
  `Spec.mynorm` of the row's positive parts of `Spec.lin`. The steps: the two keep-dims column forms of the layout
  operations, the two row reductions as folds over the row, the matrix product as a sum over the input features, and
  the payload as the normalisation of the positive part.
-/
import proofs.«148936_j3496103379547_2_alg».proof.Proof.Spec
import proofs.«148936_j3496103379547_2_alg».proof.Proof.Gen.KernelIdeal.Skeleton
import Idealize.ShloMosaic.Lib.ValueLayout
import Idealize.ShloMosaic.PureOps.Ideal.Laws

noncomputable section

open scoped BigOperators

namespace Cert.KernelIdeal.KDense0

open Idealize.ShloMosaic Idealize.ShloMosaic.ValueIdx Idealize.SL.Sem
open Cert.KernelIdeal

/-! ## Two layout operations read at an index: the column forms -/

/-- A vector `[a]` cast to a column `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two row reductions read as folds over the row -/

/-- The index over row `p` with coordinate `k` inserted on the reduced axis is `(p, k)`. -/
theorem lift_row (h : S10000x32.Reduces [1] S10000) (p : Fin 10000) (k : Fin 32) :
    h.lift (ix1 p) k = ix2 p k := by
  funext a
  refine Fin.ext ?_
  match a with
  | ⟨0, _⟩ => rfl
  | ⟨1, _⟩ => rfl

/-- The minimum over axis 1 from +∞, at row `p`: the least entry of the row. -/
theorem rowMin_at (y : FVec Ideal S10000x32 .f32) (h : S10000x32.Reduces [1] S10000) (hφ : FKind.Formats .f32)
    (hacc : (0x7F800000#32 : BitVec 32) = FKind.minimumf.neutral .f32 hφ) (p : Fin 10000) :
    multiReduction (F := Ideal) .minimumf [1] S10000 y 0x7F800000#32 h hφ hacc (ix1 p)
      = Spec.rowMin (fun j => y (ix2 p j)) := by
  refine (multiReduction_minimumf_eq_fold y _ h hφ hacc (ix1 p)).trans ?_
  refine (h.fold_filter_drop_single _ _ y (ix1 p)).trans ?_
  have e : (y ∘ h.lift (ix1 p)) = fun j : Fin 32 => y (ix2 p j) := funext fun k => congrArg y (lift_row h p k)
  rw [e]
  rfl

/-- The maximum over axis 1 from −∞, at row `p`: the greatest entry of the row. -/
theorem rowMax_at (y : FVec Ideal S10000x32 .f32) (h : S10000x32.Reduces [1] S10000) (hφ : FKind.Formats .f32)
    (hacc : (0xFF800000#32 : BitVec 32) = FKind.maximumf.neutral .f32 hφ) (p : Fin 10000) :
    multiReduction (F := Ideal) .maximumf [1] S10000 y 0xFF800000#32 h hφ hacc (ix1 p)
      = Spec.rowMax (fun j => y (ix2 p j)) := by
  refine (multiReduction_maximumf_eq_fold y _ h hφ hacc (ix1 p)).trans ?_
  refine (h.fold_filter_drop_single _ _ y (ix1 p)).trans ?_
  have e : (y ∘ h.lift (ix1 p)) = fun j : Fin 32 => y (ix2 p j) := funext fun k => congrArg y (lift_row h p k)
  rw [e]
  rfl

/-! ## The matrix product read at an index -/

theorem lhs_row (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs_col (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
theorem rhs_row (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
theorem rhs_col (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The product into a zero accumulator, at `(p, q)`: the sum over the 128 input features. -/
theorem matmul_at (a : FVec Ideal S10000x128 .bf16) (w : FVec Ideal S128x32 .bf16) (p : Fin 10000) (q : Fin 32) :
    matmul (F := Ideal) dot_S10000x128_S128x32_S10000x32_1_0_0_1_n_n none a w (constant (F := Ideal) S10000x32 .f32 0x00000000#32) (ix2 p q)
      = ∑ k : Fin 128, a (ix2 p k) * w (ix2 k q) := by
  refine (Ideal.matmul_constant_zero_apply dot_S10000x128_S128x32_S10000x32_1_0_0_1_n_n none a w (ix2 p q)).trans ?_
  rw [← Equiv.sum_comp (contrEquiv1 dot_S10000x128_S128x32_S10000x32_1_0_0_1_n_n 128 rfl rfl).symm]
  refine Finset.sum_congr rfl fun k _ => ?_
  have hk := contrEquiv1_symm_val dot_S10000x128_S128x32_S10000x32_1_0_0_1_n_n 128 rfl rfl k
  have el : dot_S10000x128_S128x32_S10000x32_1_0_0_1_n_n.lhsIdx (ix2 p q) ((contrEquiv1 dot_S10000x128_S128x32_S10000x32_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x32_S10000x32_1_0_0_1_n_n.rhsIdx (ix2 p q) ((contrEquiv1 dot_S10000x128_S128x32_S10000x32_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The payload in two stages -/

/-- The positive part of the dense layer on a block of 10000 rows. -/
def reluBlock (v0 : Vec Ideal S10000x128 .f32) (v2 : Vec Ideal S128x32 .f32) (v5 : Vec Ideal S1x32 .f32) : FVec Ideal S10000x32 .f32 :=
  maximumf
    (addf
      (matmul dot_S10000x128_S128x32_S10000x32_1_0_0_1_n_n none (truncf .bf16 v0 Gen.bitsLt_bf16_f32) (truncf .bf16 v2 Gen.bitsLt_bf16_f32)
        (constant S10000x32 .f32 0x00000000#32))
      (broadcastTo S10000x32 (shapeCast S1x32 v5 Gen.shapeCasts_S1x32_S1x32) Gen.broadcasts_S1x32_S10000x32))
    (broadcast S10000x32 (Scalar.ofBits .f32 0x00000000#32))

/-- The rows' minima, as a column. -/
def minCol (y : FVec Ideal S10000x32 .f32) : FVec Ideal S10000x1 .f32 :=
  shapeCast S10000x1 (multiReduction .minimumf [1] S10000 y 0x7F800000#32 Gen.reduces_S10000x32_S10000 (.inl rfl) rfl) Gen.shapeCasts_S10000_S10000x1
/-- The rows' maxima, as a column. -/
def maxCol (y : FVec Ideal S10000x32 .f32) : FVec Ideal S10000x1 .f32 :=
  shapeCast S10000x1 (multiReduction .maximumf [1] S10000 y 0xFF800000#32 Gen.reduces_S10000x32_S10000 (.inl rfl) rfl) Gen.shapeCasts_S10000_S10000x1

/-- The row-wise normalisation of a block, as the kernel's operations spell it. -/
def normBlock (y : FVec Ideal S10000x32 .f32) : FVec Ideal S10000x32 .f32 :=
  subf
    (divf
      (mulf (broadcast S10000x32 (Scalar.ofBits .f32 0x40000000#32)) (subf y (broadcastTo S10000x32 (minCol y) Gen.broadcasts_S10000x1_S10000x32)))
      (broadcastTo S10000x32 (addf (subf (maxCol y) (minCol y)) (broadcast S10000x1 (Scalar.ofBits .f32 0x322BCC77#32))) Gen.broadcasts_S10000x1_S10000x32))
    (broadcast S10000x32 (Scalar.ofBits .f32 0x3F800000#32))

theorem minCol_at (y : FVec Ideal S10000x32 .f32) (p : Fin 10000) (u : Fin 1) :
    minCol y (ix2 p u) = Spec.rowMin (fun j => y (ix2 p j)) :=
  (shapeCast_a_a1_apply _ Gen.shapeCasts_S10000_S10000x1 p u).trans (rowMin_at y _ _ _ p)
theorem maxCol_at (y : FVec Ideal S10000x32 .f32) (p : Fin 10000) (u : Fin 1) :
    maxCol y (ix2 p u) = Spec.rowMax (fun j => y (ix2 p j)) :=
  (shapeCast_a_a1_apply _ Gen.shapeCasts_S10000_S10000x1 p u).trans (rowMax_at y _ _ _ p)

/-- The payload is the normalisation of the positive part. -/
theorem pay_eq (v0 : Vec Ideal S10000x128 .f32) (v2 : Vec Ideal S128x32 .f32) (v5 : Vec Ideal S1x32 .f32) :
    Gen.k0_pay1 (F := Ideal) v0 v2 v5 = normBlock (reluBlock v0 v2 v5) := rfl

/-- The positive part at `(p, q)`. -/
theorem reluBlock_at (v0 : Vec Ideal S10000x128 .f32) (v2 : Vec Ideal S128x32 .f32) (v5 : Vec Ideal S1x32 .f32) (p : Fin 10000) (q : Fin 32) :
    reluBlock v0 v2 v5 (ix2 p q)
      = max (Spec.lin (fun k => v0 (ix2 p k)) (fun k j => v2 (ix2 k j)) (fun j => v5 (ix2 (0 : Fin 1) j)) q) (Ideal.ofBits .f32 0x00000000#32) := by
  unfold reluBlock
  show max (matmul (F := Ideal) dot_S10000x128_S128x32_S10000x32_1_0_0_1_n_n none (truncf .bf16 v0 Gen.bitsLt_bf16_f32) (truncf .bf16 v2 Gen.bitsLt_bf16_f32)
        (constant (F := Ideal) S10000x32 .f32 0x00000000#32) (ix2 p q)
      + broadcastTo S10000x32 (shapeCast S1x32 v5 Gen.shapeCasts_S1x32_S1x32) Gen.broadcasts_S1x32_S10000x32 (ix2 p q)) (Ideal.ofBits .f32 0x00000000#32) = _
  rw [matmul_at, broadcastTo_1b_ab_apply, shapeCast_self]
  rfl

/-- A scalar constant at the extended reals is the value its word encodes. -/
theorem scalar_ofBits (b : BitVec 32) : Scalar.ofBits (F := Ideal) .f32 b = Ideal.ofBits .f32 b := rfl

/-- The normalisation at `(p, q)`: the row's own minimum and maximum. -/
theorem normBlock_at (y : FVec Ideal S10000x32 .f32) (p : Fin 10000) (q : Fin 32) :
    normBlock y (ix2 p q) = Spec.mynorm (fun j => y (ix2 p j)) q := by
  unfold normBlock
  simp only [subf_apply, divf_apply, mulf_apply, broadcast_apply]
  rw [broadcastTo_a1_ab_apply, broadcastTo_a1_ab_apply]
  simp only [subf_apply, addf_apply, broadcast_apply, minCol_at, maxCol_at, scalar_ofBits]
  unfold Spec.mynorm
  rfl

/-- THE PAYLOAD AT AN INDEX: the first layer on the block's row `p`, feature `q`. -/
theorem pay_at (v0 : Vec Ideal S10000x128 .f32) (v2 : Vec Ideal S128x32 .f32) (v5 : Vec Ideal S1x32 .f32) (p : Fin 10000) (q : Fin 32) :
    Gen.k0_pay1 (F := Ideal) v0 v2 v5 (ix2 p q)
      = Spec.mynorm (fun j' => max (Spec.lin (fun k => v0 (ix2 p k)) (fun k j => v2 (ix2 k j)) (fun j => v5 (ix2 (0 : Fin 1) j)) j') (Ideal.ofBits .f32 0x00000000#32)) q := by
  rw [pay_eq, normBlock_at]
  exact congrArg (fun g => Spec.mynorm g q) (funext fun j' => reluBlock_at v0 v2 v5 p j')

end Cert.KernelIdeal.KDense0

end
-- ==== Proof.KDense0.lean ====
/-
  Region 0, the first dense layer: the output array after the region's ten grid points.

  Grid point `t` reads rows `10000 t … 10000 t + 9999` of the 100000×128 input, the whole 128×32 weight and the whole
  1×32 bias row, and writes rows `10000 t … 10000 t + 9999` of the 100000×32 output. What it writes is block `t` of ONE
  function of the three arrays: the dense layer's positive part, each row normalised by its own minimum and maximum
  (`Spec.dense0`). Row `r` lies in the block of point `r / 10000`, so the ten blocks cover the array and the array
  ends holding that function.
-/
import proofs.«148936_j3496103379547_2_alg».proof.Proof.Gen.KernelIdeal.Frame
import proofs.«148936_j3496103379547_2_alg».proof.Proof.KDense0Pay
import Idealize.ShloMosaic.Lib.Pipeline.Value

noncomputable section

namespace Cert.KernelIdeal.KDense0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer of the whole array, from the three arrays the region reads. -/
def layer0 (c : Dev nD) : S100000x32.Idx → EReal :=
  Spec.of2 (Spec.dense0 (Spec.un2 (V c main_arg0)) (Spec.un2 (V c main_arg2)) (Spec.unRow (V c main_v30)))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One block: when the three blocks the body reads are rows of `X0` (row `p` of the block being row `r` of the
    array), all of `X2` and all of `X5`, the payload at `(p, q)` is the first layer at `(r, q)`. -/
theorem pay_block (X0 : S100000x128.Idx → EReal) (X2 : S128x32.Idx → EReal) (X5 : S1x32.Idx → EReal)
    (b0 : Vec Ideal S10000x128 .f32) (b1 : Vec Ideal S128x32 .f32) (b2 : Vec Ideal S1x32 .f32)
    (r : Fin 100000) (p : Fin 10000) (q : Fin 32)
    (h0 : ∀ k : Fin 128, b0 (ix2 p k) = X0 (ix2 r k))
    (h1 : ∀ (k : Fin 128) (j : Fin 32), b1 (ix2 k j) = X2 (ix2 k j))
    (h2 : ∀ j : Fin 32, b2 (ix2 (0 : Fin 1) j) = X5 (ix2 (0 : Fin 1) j)) :
    k0_pay1 (F := Ideal) b0 b1 b2 (ix2 p q)
      = Spec.of2 (Spec.dense0 (Spec.un2 X0) (Spec.un2 X2) (Spec.unRow X5)) (ix2 r q) := by
  rw [pay_at]
  show _ = Spec.mynorm (fun j' => max (Spec.lin (fun k => X0 (ix2 r k)) (fun k j => X2 (ix2 k j)) (fun j => X5 (ix2 (0 : Fin 1) j)) j')
    (Ideal.ofBits .f32 0x00000000#32)) q
  simp only [h0, h1, h2]

/-- WHAT POINT `t` WRITES BACK is block `t` of the first layer of the arrays as the region finds them. -/
theorem flushed_eq (c : Dev nD) (t : Fin cfg0.N) :
    (dat0 V c).flushed 3 t = ((cfg0.win 3).blk t).view.read (Elt Ideal) (layer0 V c) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x32) hz, View.ld_unit_zero (S := S1x32) hz]
  funext j
  obtain ⟨p, q, rfl⟩ : ∃ (p : Fin 10000) (q : Fin 32), j = ix2 p q := ⟨j 0, j 1, eq_ix2 j⟩
  obtain ⟨e00, e01, e10, e11, e20, e21, e30, e31⟩ := idx_facts t
  have hN : cfg0.N = 10 := N_0
  have ht : t.val < 10 := by have := t.isLt; omega
  have hp : p.val < 10000 := p.isLt
  show k0_pay1 (iblk0 V c 0 t) (iblk0 V c 1 t) (iblk0 V c 2 t) (ix2 p q) = layer0 V c (((cfg0.win 3).blk t).view.emb (ix2 p q))
  have hemb : ((cfg0.win 3).blk t).view.emb (ix2 p q) = ix2 (⟨t.val * 10000 + p.val, by omega⟩ : Fin 100000) q := by
    funext a; apply Fin.ext
    match a with
    | ⟨0, _⟩ => show win0_3.index t (0 : Fin 2) * 10000 + 1 * p.val = t.val * 10000 + p.val; rw [e30]; omega
    | ⟨1, _⟩ => show win0_3.index t (1 : Fin 2) * 32 + 1 * q.val = q.val; rw [e31]; omega
  rw [hemb]
  unfold layer0
  refine pay_block (V c main_arg0) (V c main_arg2) (V c main_v30) _ _ _ _ p q ?_ ?_ ?_
  · intro k
    show V c main_arg0 (((cfg0.win 0).blk t).view.emb (ix2 p k)) = V c main_arg0 (ix2 _ k)
    refine congrArg (V c main_arg0) (funext fun a => Fin.ext ?_)
    match a with
    | ⟨0, _⟩ => show win0_0.index t (0 : Fin 2) * 10000 + 1 * p.val = t.val * 10000 + p.val; rw [e00]; omega
    | ⟨1, _⟩ => show win0_0.index t (1 : Fin 2) * 128 + 1 * k.val = k.val; rw [e01]; omega
  · intro k j
    show V c main_arg2 (((cfg0.win 1).blk t).view.emb (ix2 k j)) = V c main_arg2 (ix2 k j)
    refine congrArg (V c main_arg2) (funext fun a => Fin.ext ?_)
    match a with
    | ⟨0, _⟩ => show win0_1.index t (0 : Fin 2) * 128 + 1 * k.val = k.val; rw [e10]; omega
    | ⟨1, _⟩ => show win0_1.index t (1 : Fin 2) * 32 + 1 * j.val = j.val; rw [e11]; omega
  · intro j
    show V c main_v30 (((cfg0.win 2).blk t).view.emb (ix2 (0 : Fin 1) j)) = V c main_v30 (ix2 (0 : Fin 1) j)
    refine congrArg (V c main_v30) (funext fun a => Fin.ext ?_)
    match a with
    | ⟨0, _⟩ => show win0_2.index t (0 : Fin 2) * 1 + 1 * 0 = 0; rw [e20]
    | ⟨1, _⟩ => show win0_2.index t (1 : Fin 2) * 32 + 1 * j.val = j.val; rw [e21]; omega

/-- An index of the array is in point `t`'s block iff each coordinate is in the block's range on its axis. -/
theorem mem_blk (t : Fin cfg0.N) (i : S100000x32.Idx) :
    i ∈ ((cfg0.win 3).blk t).view.set ↔ ∀ a : Fin 2, win0_3.index t a * S10000x32.size a ≤ (i a).val ∧ (i a).val < win0_3.index t a * S10000x32.size a + S10000x32.size a := by
  show i ∈ ((View.whole main_v31).slice (win0_3.rect t)).set ↔ _
  rw [View.set_slice_whole, Rect.mem_set_unit]
  exact Iff.rfl

/-- Row `r` of the array is in the block of point `r / 10000`: the ten blocks cover the array. -/
theorem cover (i : S100000x32.Idx) :
    ∃ t : Fin cfg0.N, (cfg0.win 3).flush t = true ∧ i ∈ ((cfg0.win 3).blk t).view.set := by
  have hN : cfg0.N = 10 := N_0
  have hi0 : (i 0).val < 100000 := (i 0).isLt
  have hi1 : (i 1).val < 32 := (i 1).isLt
  obtain ⟨t, ht⟩ : ∃ t : Fin cfg0.N, t.val = (i 0).val / 10000 := ⟨⟨(i 0).val / 10000, by omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 10000 ≤ (i 0).val ∧ (i 0).val < win0_3.index t (0 : Fin 2) * 10000 + 10000
    rw [e30]; omega
  | ⟨1, _⟩ =>
    show win0_3.index t (1 : Fin 2) * 32 ≤ (i 1).val ∧ (i 1).val < win0_3.index t (1 : Fin 2) * 32 + 32
    rw [e31]; omega

/-- THE ARRAY after the region: the first layer of the arrays the region reads, as it finds them. -/
theorem final (c : Dev nD) :
    (dat0 (F := Ideal) V c).arrAt 3 cfg0.N
      = Spec.of2 (Spec.dense0 (Spec.un2 (V c main_arg0)) (Spec.un2 (V c main_arg2)) (Spec.unRow (V c main_v30))) :=
  (dat0 V c).arrAt_eq_of_cover 3 (layer0 V c) (fun t _ => flushed_eq V c t) cover

end Cert.KernelIdeal.KDense0

end
-- ==== Proof.KLayerPay.lean ====
/-
  The arithmetic a middle layer's kernel does on one block, read entry by entry: the block of the aggregate times
  the weight, into a zero accumulator, plus the bias row repeated over the block's rows. On the extended reals the
  narrowing of the operands before the product is the identity, so entry (p, q) is the dense layer
  ∑ₖ a(p, k) · w(k, q) + b(q) of the specification.
-/
import proofs.«148936_j3496103379547_2_alg».proof.Proof.Spec
import proofs.«148936_j3496103379547_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KLayerPay

open Cert.KernelIdeal Cert.KernelIdeal.Gen Idealize.ShloMosaic Idealize.ShloMosaic.ValueIdx Idealize.SL.Sem

/-- The block product's entry (p, q) is the sum over the 32 input features k of a(p, k) · w(k, q). -/
theorem matmul_apply (a : FVec Ideal S10000x32 .bf16) (w : FVec Ideal S32x32 .bf16) (p : Fin 10000) (q : Fin 32) :
    matmul (F := Ideal) dot_S10000x32_S32x32_S10000x32_1_0_0_1_n_n none a w (constant (F := Ideal) S10000x32 .f32 0x00000000#32) (ix2 p q)
      = ∑ k : Fin 32, a (ix2 p k) * w (ix2 k q) := by
  refine (Ideal.matmul_constant_zero_apply dot_S10000x32_S32x32_S10000x32_1_0_0_1_n_n none a w (ix2 p q)).trans ?_
  rw [← Equiv.sum_comp (ValueIdx.contrEquiv1 dot_S10000x32_S32x32_S10000x32_1_0_0_1_n_n 32 rfl rfl).symm]
  refine Finset.sum_congr rfl fun k _ => ?_
  have hk := ValueIdx.contrEquiv1_symm_val dot_S10000x32_S32x32_S10000x32_1_0_0_1_n_n 32 rfl rfl k
  have el : dot_S10000x32_S32x32_S10000x32_1_0_0_1_n_n.lhsIdx (ix2 p q) ((ValueIdx.contrEquiv1 dot_S10000x32_S32x32_S10000x32_1_0_0_1_n_n 32 rfl rfl).symm k) = ix2 p k := funext fun ax => Fin.ext (by
    match ax with
    | ⟨0, _⟩ =>
      show (dot_S10000x32_S32x32_S10000x32_1_0_0_1_n_n.lhsIdx (ix2 p q) _ 0).val = p.val
      unfold DotDims.lhsIdx
      rw [dif_neg (show ¬(0 : Fin S10000x32.rank) ∈ dot_S10000x32_S32x32_S10000x32_1_0_0_1_n_n.lhsBatch by decide), dif_pos (show (0 : Fin S10000x32.rank) ∈ dot_S10000x32_S32x32_S10000x32_1_0_0_1_n_n.lhsNonContracting by decide)]
      rfl
    | ⟨1, _⟩ => exact (dot_S10000x32_S32x32_S10000x32_1_0_0_1_n_n.lhsIdx_val_of_single rfl (ix2 p q) _).trans hk)
  have er : dot_S10000x32_S32x32_S10000x32_1_0_0_1_n_n.rhsIdx (ix2 p q) ((ValueIdx.contrEquiv1 dot_S10000x32_S32x32_S10000x32_1_0_0_1_n_n 32 rfl rfl).symm k) = ix2 k q := funext fun ax => Fin.ext (by
    match ax with
    | ⟨0, _⟩ => exact (dot_S10000x32_S32x32_S10000x32_1_0_0_1_n_n.rhsIdx_val_of_single rfl (ix2 p q) _).trans hk
    | ⟨1, _⟩ =>
      show (dot_S10000x32_S32x32_S10000x32_1_0_0_1_n_n.rhsIdx (ix2 p q) _ 1).val = q.val
      unfold DotDims.rhsIdx
      rw [dif_neg (show ¬(1 : Fin S32x32.rank) ∈ dot_S10000x32_S32x32_S10000x32_1_0_0_1_n_n.rhsBatch by decide), dif_pos (show (1 : Fin S32x32.rank) ∈ dot_S10000x32_S32x32_S10000x32_1_0_0_1_n_n.rhsNonContracting by decide)]
      rfl)
  rw [el, er]

/-- The first middle layer's block arithmetic at entry (p, q) is the dense layer of row p of the block. -/
theorem pay1 (v0 : Vec Ideal S10000x32 .f32) (v3 : Vec Ideal S32x32 .f32) (v7 : Vec Ideal S1x32 .f32) (p : Fin 10000) (q : Fin 32) :
    Gen.k1_pay1 (F := Ideal) v0 v3 v7 (ix2 p q)
      = Spec.lin (fun k => v0 (ix2 p k)) (fun k j => v3 (ix2 k j)) (fun j => v7 (ix2 (0 : Fin 1) j)) q := by
  unfold Gen.k1_pay1
  rw [addf_apply, shapeCast_self, shapeCast_self, shapeCast_self]
  refine congrArg₂ (· + ·) ?_ ?_
  · exact matmul_apply v0 v3 p q
  · exact broadcastTo_1b_ab_apply v7 broadcasts_S1x32_S10000x32 p q

/-- The other five middle layers' kernels have the same text. -/
theorem pay2 (v0 : Vec Ideal S10000x32 .f32) (v3 : Vec Ideal S32x32 .f32) (v7 : Vec Ideal S1x32 .f32) (p : Fin 10000) (q : Fin 32) :
    Gen.k2_pay1 (F := Ideal) v0 v3 v7 (ix2 p q)
      = Spec.lin (fun k => v0 (ix2 p k)) (fun k j => v3 (ix2 k j)) (fun j => v7 (ix2 (0 : Fin 1) j)) q :=
  pay1 v0 v3 v7 p q
theorem pay3 (v0 : Vec Ideal S10000x32 .f32) (v3 : Vec Ideal S32x32 .f32) (v7 : Vec Ideal S1x32 .f32) (p : Fin 10000) (q : Fin 32) :
    Gen.k3_pay1 (F := Ideal) v0 v3 v7 (ix2 p q)
      = Spec.lin (fun k => v0 (ix2 p k)) (fun k j => v3 (ix2 k j)) (fun j => v7 (ix2 (0 : Fin 1) j)) q :=
  pay1 v0 v3 v7 p q
theorem pay4 (v0 : Vec Ideal S10000x32 .f32) (v3 : Vec Ideal S32x32 .f32) (v7 : Vec Ideal S1x32 .f32) (p : Fin 10000) (q : Fin 32) :
    Gen.k4_pay1 (F := Ideal) v0 v3 v7 (ix2 p q)
      = Spec.lin (fun k => v0 (ix2 p k)) (fun k j => v3 (ix2 k j)) (fun j => v7 (ix2 (0 : Fin 1) j)) q :=
  pay1 v0 v3 v7 p q
theorem pay5 (v0 : Vec Ideal S10000x32 .f32) (v3 : Vec Ideal S32x32 .f32) (v7 : Vec Ideal S1x32 .f32) (p : Fin 10000) (q : Fin 32) :
    Gen.k5_pay1 (F := Ideal) v0 v3 v7 (ix2 p q)
      = Spec.lin (fun k => v0 (ix2 p k)) (fun k j => v3 (ix2 k j)) (fun j => v7 (ix2 (0 : Fin 1) j)) q :=
  pay1 v0 v3 v7 p q
theorem pay6 (v0 : Vec Ideal S10000x32 .f32) (v3 : Vec Ideal S32x32 .f32) (v7 : Vec Ideal S1x32 .f32) (p : Fin 10000) (q : Fin 32) :
    Gen.k6_pay1 (F := Ideal) v0 v3 v7 (ix2 p q)
      = Spec.lin (fun k => v0 (ix2 p k)) (fun k j => v3 (ix2 k j)) (fun j => v7 (ix2 (0 : Fin 1) j)) q :=
  pay1 v0 v3 v7 p q

end Cert.KernelIdeal.KLayerPay

end
-- ==== Proof.KLayer1.lean ====
/-
  Middle layer 1 on the device: the grid's ten points each take a block of 10000 rows of the aggregate, the whole
  weight and the whole bias row, and write back the dense layer of the block's rows. The ten blocks tile the
  100000 rows (row r is in the block of point r / 10000), so the output array ends holding the dense layer of
  every row of the aggregate.
-/
import proofs.«148936_j3496103379547_2_alg».proof.Proof.Spec
import proofs.«148936_j3496103379547_2_alg».proof.Proof.Gen.KernelIdeal.Frame
import proofs.«148936_j3496103379547_2_alg».proof.Proof.KLayerPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KLayer1

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole aggregate, as an array: what the output array ends holding. -/
abbrev layerArr (c : Dev nD) : S100000x32.Idx → EReal :=
  Spec.of2 (Spec.layer (Spec.un2 (V c main_v44 : S100000x32.Idx → EReal)) (Spec.un2 (V c main_v46 : S32x32.Idx → EReal))
    (Spec.unRow (V c main_v49 : S1x32.Idx → EReal)))

/-- The printed block maps over the grid: the aggregate's and the output's block row is the point, the weight and
    the bias are taken whole. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the aggregate's block at point t is row 10000 t + p of the aggregate. -/
theorem agg_block (c : Dev nD) (t : Fin cfg1.N) (p : Fin 10000) (k : Fin 32) (r : Fin 100000) (hr : r.val = t.val * 10000 + p.val) :
    (iblk1 V c 0 t : Vec Ideal S10000x32 .f32) (ix2 p k) = (V c main_v44 : S100000x32.Idx → EReal) (ix2 r k) := by
  obtain ⟨e0, e1, -⟩ := block_index t
  show (V c main_v44 : S100000x32.Idx → EReal) (((cfg1.win 0).blk t).view.emb (ix2 p k)) = _
  refine congrArg (V c main_v44 : S100000x32.Idx → EReal) (funext fun a => Fin.ext ?_)
  match a with
  | ⟨0, _⟩ => show win1_0.index t (0 : Fin 2) * 10000 + 1 * p.val = r.val; rw [e0, hr]; omega
  | ⟨1, _⟩ => show win1_0.index t (1 : Fin 2) * 32 + 1 * k.val = k.val; rw [e1]; omega

/-- The weight's block at every point is the weight. -/
theorem weight_block (c : Dev nD) (t : Fin cfg1.N) (k : Fin 32) (j : Fin 32) :
    (iblk1 V c 1 t : Vec Ideal S32x32 .f32) (ix2 k j) = (V c main_v46 : S32x32.Idx → EReal) (ix2 k j) := by
  obtain ⟨-, -, e0, e1, -⟩ := block_index t
  show (V c main_v46 : S32x32.Idx → EReal) (((cfg1.win 1).blk t).view.emb (ix2 k j)) = _
  refine congrArg (V c main_v46 : S32x32.Idx → EReal) (funext fun a => Fin.ext ?_)
  match a with
  | ⟨0, _⟩ => show win1_1.index t (0 : Fin 2) * 32 + 1 * k.val = k.val; rw [e0]; omega
  | ⟨1, _⟩ => show win1_1.index t (1 : Fin 2) * 32 + 1 * j.val = j.val; rw [e1]; omega

/-- The bias row's block at every point is the bias row. -/
theorem bias_block (c : Dev nD) (t : Fin cfg1.N) (j : Fin 32) :
    (iblk1 V c 2 t : Vec Ideal S1x32 .f32) (ix2 (0 : Fin 1) j) = (V c main_v49 : S1x32.Idx → EReal) (ix2 (0 : Fin 1) j) := by
  obtain ⟨-, -, -, -, e0, e1, -⟩ := block_index t
  show (V c main_v49 : S1x32.Idx → EReal) (((cfg1.win 2).blk t).view.emb (ix2 (0 : Fin 1) j)) = _
  refine congrArg (V c main_v49 : S1x32.Idx → EReal) (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 32 + 1 * j.val = j.val; rw [e1]; omega

/-- Entry (p, q) of the output's block at point t is entry (10000 t + p, q) of the output array. -/
theorem out_block (t : Fin cfg1.N) (p : Fin 10000) (q : Fin 32) (r : Fin 100000) (hr : r.val = t.val * 10000 + p.val) :
    (((cfg1.win 3).blk t).view.emb (ix2 p q) : S100000x32.Idx) = ix2 r q := by
  obtain ⟨-, -, -, -, -, -, e0, e1⟩ := block_index t
  refine funext fun a => Fin.ext ?_
  match a with
  | ⟨0, _⟩ => show win1_3.index t (0 : Fin 2) * 10000 + 1 * p.val = r.val; rw [e0, hr]; omega
  | ⟨1, _⟩ => show win1_3.index t (1 : Fin 2) * 32 + 1 * q.val = q.val; rw [e1]; omega

/-- A dense layer's entry depends on its three operands entry by entry. -/
theorem lin_congr {K N : Nat} {a a' : Fin K → EReal} {w w' : Fin K → Fin N → EReal} {b b' : Fin N → EReal}
    (ha : ∀ k, a k = a' k) (hw : ∀ k j, w k j = w' k j) (hb : ∀ j, b j = b' j) (j : Fin N) :
    Spec.lin a w b j = Spec.lin a' w' b' j := by
  rw [show a = a' from funext ha, show w = w' from funext fun k => funext (hw k), show b = b' from funext hb]

/-- What point t writes back is block t of the layer of the whole aggregate. -/
theorem flushed_eq (c : Dev nD) (t : Fin cfg1.N) :
    (dat1 V c).flushed 3 t = ((cfg1.win 3).blk t).view.read (Elt Ideal) (layerArr V c) := by
  show (cfg1.win 3).cut (grid1.coords t) ((dat1 V c).after 3 t) = _
  rw [after1_3]
  unfold out1_3
  rw [View.canon_unit_zero zero_offsets]
  simp only [View.ld_unit_zero (S := S10000x32) zero_offsets, View.ld_unit_zero (S := S32x32) zero_offsets,
    View.ld_unit_zero (S := S1x32) zero_offsets]
  have ht : t.val < 10 := by have hN : grid1.N = 10 := N_1; have hlt : t.val < grid1.N := t.isLt; omega
  have key : ∀ j : S10000x32.Idx,
      k1_pay1 (F := Ideal) (iblk1 V c 0 t) (iblk1 V c 1 t) (iblk1 V c 2 t) j
        = layerArr V c (((cfg1.win 3).blk t).view.emb j) := by
    intro j
    obtain ⟨p, q, rfl⟩ : ∃ (p : Fin 10000) (q : Fin 32), j = ix2 p q := ⟨j 0, j 1, eq_ix2 j⟩
    have hp : p.val < 10000 := p.isLt
    refine (KLayerPay.pay1 (iblk1 V c 0 t) (iblk1 V c 1 t) (iblk1 V c 2 t) p q).trans ?_
    refine Eq.trans ?_ (congrArg (layerArr V c) (out_block t p q ⟨t.val * 10000 + p.val, by omega⟩ rfl)).symm
    exact lin_congr (fun k => agg_block V c t p k ⟨t.val * 10000 + p.val, by omega⟩ rfl) (weight_block V c t) (bias_block V c t) q
  funext j
  exact key j

/-- An index of the output array is in point t's block iff each coordinate is in the block's range on its axis. -/
theorem mem_block (t : Fin cfg1.N) (i : S100000x32.Idx) :
    i ∈ ((cfg1.win 3).blk t).view.set ↔ ∀ a : Fin 2, win1_3.index t a * S10000x32.size a ≤ (i a).val ∧ (i a).val < win1_3.index t a * S10000x32.size a + S10000x32.size a := by
  show i ∈ ((View.whole main_v50).slice (win1_3.rect t)).set ↔ _
  rw [View.set_slice_whole, Rect.mem_set_unit]
  exact Iff.rfl

/-- Every row is in the block of the point r / 10000. -/
theorem covered (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : grid1.N = 10 := N_1
  let t : Fin cfg1.N := ⟨(i 0).val / 10000, by show (i 0).val / 10000 < grid1.N; omega⟩
  have htv : t.val = (i 0).val / 10000 := rfl
  obtain ⟨-, -, -, -, -, -, e0, e1⟩ := block_index t
  refine ⟨t, flush1_3 t, ?_⟩
  rw [mem_block]
  intro a
  match a with
  | ⟨0, _⟩ => show win1_3.index t (0 : Fin 2) * 10000 ≤ (i 0).val ∧ (i 0).val < win1_3.index t (0 : Fin 2) * 10000 + 10000; rw [e0, htv]; omega
  | ⟨1, _⟩ => show win1_3.index t (1 : Fin 2) * 32 ≤ (i 1).val ∧ (i 1).val < win1_3.index t (1 : Fin 2) * 32 + 32; rw [e1]; omega

/-- The output array after the region: the dense layer of every row of the aggregate the region found. -/
theorem final (c : Dev nD) :
    (dat1 (F := Ideal) V c).arrAt 3 cfg1.N
      = Spec.of2 (Spec.layer (Spec.un2 (V c main_v44 : S100000x32.Idx → EReal)) (Spec.un2 (V c main_v46 : S32x32.Idx → EReal))
          (Spec.unRow (V c main_v49 : S1x32.Idx → EReal))) :=
  (dat1 V c).arrAt_eq_of_cover 3 (layerArr V c) (fun t _ => flushed_eq V c t) (covered)

end Cert.KernelIdeal.KLayer1

end
-- ==== Proof.KLayer2.lean ====
/-
  Middle layer 2 on the device: the grid's ten points each take a block of 10000 rows of the aggregate, the whole
  weight and the whole bias row, and write back the dense layer of the block's rows. The ten blocks tile the
  100000 rows (row r is in the block of point r / 10000), so the output array ends holding the dense layer of
  every row of the aggregate.
-/
import proofs.«148936_j3496103379547_2_alg».proof.Proof.Spec
import proofs.«148936_j3496103379547_2_alg».proof.Proof.Gen.KernelIdeal.Frame
import proofs.«148936_j3496103379547_2_alg».proof.Proof.KLayerPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KLayer2

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole aggregate, as an array: what the output array ends holding. -/
abbrev layerArr (c : Dev nD) : S100000x32.Idx → EReal :=
  Spec.of2 (Spec.layer (Spec.un2 (V c main_v63 : S100000x32.Idx → EReal)) (Spec.un2 (V c main_v65 : S32x32.Idx → EReal))
    (Spec.unRow (V c main_v68 : S1x32.Idx → EReal)))

/-- The printed block maps over the grid: the aggregate's and the output's block row is the point, the weight and
    the bias are taken whole. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row p of the aggregate's block at point t is row 10000 t + p of the aggregate. -/
theorem agg_block (c : Dev nD) (t : Fin cfg2.N) (p : Fin 10000) (k : Fin 32) (r : Fin 100000) (hr : r.val = t.val * 10000 + p.val) :
    (iblk2 V c 0 t : Vec Ideal S10000x32 .f32) (ix2 p k) = (V c main_v63 : S100000x32.Idx → EReal) (ix2 r k) := by
  obtain ⟨e0, e1, -⟩ := block_index t
  show (V c main_v63 : S100000x32.Idx → EReal) (((cfg2.win 0).blk t).view.emb (ix2 p k)) = _
  refine congrArg (V c main_v63 : S100000x32.Idx → EReal) (funext fun a => Fin.ext ?_)
  match a with
  | ⟨0, _⟩ => show win2_0.index t (0 : Fin 2) * 10000 + 1 * p.val = r.val; rw [e0, hr]; omega
  | ⟨1, _⟩ => show win2_0.index t (1 : Fin 2) * 32 + 1 * k.val = k.val; rw [e1]; omega

/-- The weight's block at every point is the weight. -/
theorem weight_block (c : Dev nD) (t : Fin cfg2.N) (k : Fin 32) (j : Fin 32) :
    (iblk2 V c 1 t : Vec Ideal S32x32 .f32) (ix2 k j) = (V c main_v65 : S32x32.Idx → EReal) (ix2 k j) := by
  obtain ⟨-, -, e0, e1, -⟩ := block_index t
  show (V c main_v65 : S32x32.Idx → EReal) (((cfg2.win 1).blk t).view.emb (ix2 k j)) = _
  refine congrArg (V c main_v65 : S32x32.Idx → EReal) (funext fun a => Fin.ext ?_)
  match a with
  | ⟨0, _⟩ => show win2_1.index t (0 : Fin 2) * 32 + 1 * k.val = k.val; rw [e0]; omega
  | ⟨1, _⟩ => show win2_1.index t (1 : Fin 2) * 32 + 1 * j.val = j.val; rw [e1]; omega

/-- The bias row's block at every point is the bias row. -/
theorem bias_block (c : Dev nD) (t : Fin cfg2.N) (j : Fin 32) :
    (iblk2 V c 2 t : Vec Ideal S1x32 .f32) (ix2 (0 : Fin 1) j) = (V c main_v68 : S1x32.Idx → EReal) (ix2 (0 : Fin 1) j) := by
  obtain ⟨-, -, -, -, e0, e1, -⟩ := block_index t
  show (V c main_v68 : S1x32.Idx → EReal) (((cfg2.win 2).blk t).view.emb (ix2 (0 : Fin 1) j)) = _
  refine congrArg (V c main_v68 : S1x32.Idx → EReal) (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 32 + 1 * j.val = j.val; rw [e1]; omega

/-- Entry (p, q) of the output's block at point t is entry (10000 t + p, q) of the output array. -/
theorem out_block (t : Fin cfg2.N) (p : Fin 10000) (q : Fin 32) (r : Fin 100000) (hr : r.val = t.val * 10000 + p.val) :
    (((cfg2.win 3).blk t).view.emb (ix2 p q) : S100000x32.Idx) = ix2 r q := by
  obtain ⟨-, -, -, -, -, -, e0, e1⟩ := block_index t
  refine funext fun a => Fin.ext ?_
  match a with
  | ⟨0, _⟩ => show win2_3.index t (0 : Fin 2) * 10000 + 1 * p.val = r.val; rw [e0, hr]; omega
  | ⟨1, _⟩ => show win2_3.index t (1 : Fin 2) * 32 + 1 * q.val = q.val; rw [e1]; omega

/-- A dense layer's entry depends on its three operands entry by entry. -/
theorem lin_congr {K N : Nat} {a a' : Fin K → EReal} {w w' : Fin K → Fin N → EReal} {b b' : Fin N → EReal}
    (ha : ∀ k, a k = a' k) (hw : ∀ k j, w k j = w' k j) (hb : ∀ j, b j = b' j) (j : Fin N) :
    Spec.lin a w b j = Spec.lin a' w' b' j := by
  rw [show a = a' from funext ha, show w = w' from funext fun k => funext (hw k), show b = b' from funext hb]

/-- What point t writes back is block t of the layer of the whole aggregate. -/
theorem flushed_eq (c : Dev nD) (t : Fin cfg2.N) :
    (dat2 V c).flushed 3 t = ((cfg2.win 3).blk t).view.read (Elt Ideal) (layerArr V c) := by
  show (cfg2.win 3).cut (grid2.coords t) ((dat2 V c).after 3 t) = _
  rw [after2_3]
  unfold out2_3
  rw [View.canon_unit_zero zero_offsets]
  simp only [View.ld_unit_zero (S := S10000x32) zero_offsets, View.ld_unit_zero (S := S32x32) zero_offsets,
    View.ld_unit_zero (S := S1x32) zero_offsets]
  have ht : t.val < 10 := by have hN : grid2.N = 10 := N_2; have hlt : t.val < grid2.N := t.isLt; omega
  have key : ∀ j : S10000x32.Idx,
      k2_pay1 (F := Ideal) (iblk2 V c 0 t) (iblk2 V c 1 t) (iblk2 V c 2 t) j
        = layerArr V c (((cfg2.win 3).blk t).view.emb j) := by
    intro j
    obtain ⟨p, q, rfl⟩ : ∃ (p : Fin 10000) (q : Fin 32), j = ix2 p q := ⟨j 0, j 1, eq_ix2 j⟩
    have hp : p.val < 10000 := p.isLt
    refine (KLayerPay.pay2 (iblk2 V c 0 t) (iblk2 V c 1 t) (iblk2 V c 2 t) p q).trans ?_
    refine Eq.trans ?_ (congrArg (layerArr V c) (out_block t p q ⟨t.val * 10000 + p.val, by omega⟩ rfl)).symm
    exact lin_congr (fun k => agg_block V c t p k ⟨t.val * 10000 + p.val, by omega⟩ rfl) (weight_block V c t) (bias_block V c t) q
  funext j
  exact key j

/-- An index of the output array is in point t's block iff each coordinate is in the block's range on its axis. -/
theorem mem_block (t : Fin cfg2.N) (i : S100000x32.Idx) :
    i ∈ ((cfg2.win 3).blk t).view.set ↔ ∀ a : Fin 2, win2_3.index t a * S10000x32.size a ≤ (i a).val ∧ (i a).val < win2_3.index t a * S10000x32.size a + S10000x32.size a := by
  show i ∈ ((View.whole main_v69).slice (win2_3.rect t)).set ↔ _
  rw [View.set_slice_whole, Rect.mem_set_unit]
  exact Iff.rfl

/-- Every row is in the block of the point r / 10000. -/
theorem covered (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : grid2.N = 10 := N_2
  let t : Fin cfg2.N := ⟨(i 0).val / 10000, by show (i 0).val / 10000 < grid2.N; omega⟩
  have htv : t.val = (i 0).val / 10000 := rfl
  obtain ⟨-, -, -, -, -, -, e0, e1⟩ := block_index t
  refine ⟨t, flush2_3 t, ?_⟩
  rw [mem_block]
  intro a
  match a with
  | ⟨0, _⟩ => show win2_3.index t (0 : Fin 2) * 10000 ≤ (i 0).val ∧ (i 0).val < win2_3.index t (0 : Fin 2) * 10000 + 10000; rw [e0, htv]; omega
  | ⟨1, _⟩ => show win2_3.index t (1 : Fin 2) * 32 ≤ (i 1).val ∧ (i 1).val < win2_3.index t (1 : Fin 2) * 32 + 32; rw [e1]; omega

/-- The output array after the region: the dense layer of every row of the aggregate the region found. -/
theorem final (c : Dev nD) :
    (dat2 (F := Ideal) V c).arrAt 3 cfg2.N
      = Spec.of2 (Spec.layer (Spec.un2 (V c main_v63 : S100000x32.Idx → EReal)) (Spec.un2 (V c main_v65 : S32x32.Idx → EReal))
          (Spec.unRow (V c main_v68 : S1x32.Idx → EReal))) :=
  (dat2 V c).arrAt_eq_of_cover 3 (layerArr V c) (fun t _ => flushed_eq V c t) (covered)

end Cert.KernelIdeal.KLayer2

end
-- ==== Proof.KLayer3.lean ====
/-
  Middle layer 3 on the device: the grid's ten points each take a block of 10000 rows of the aggregate, the whole
  weight and the whole bias row, and write back the dense layer of the block's rows. The ten blocks tile the
  100000 rows (row r is in the block of point r / 10000), so the output array ends holding the dense layer of
  every row of the aggregate.
-/
import proofs.«148936_j3496103379547_2_alg».proof.Proof.Spec
import proofs.«148936_j3496103379547_2_alg».proof.Proof.Gen.KernelIdeal.Frame
import proofs.«148936_j3496103379547_2_alg».proof.Proof.KLayerPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KLayer3

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole aggregate, as an array: what the output array ends holding. -/
abbrev layerArr (c : Dev nD) : S100000x32.Idx → EReal :=
  Spec.of2 (Spec.layer (Spec.un2 (V c main_v82 : S100000x32.Idx → EReal)) (Spec.un2 (V c main_v84 : S32x32.Idx → EReal))
    (Spec.unRow (V c main_v87 : S1x32.Idx → EReal)))

/-- The printed block maps over the grid: the aggregate's and the output's block row is the point, the weight and
    the bias are taken whole. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row p of the aggregate's block at point t is row 10000 t + p of the aggregate. -/
theorem agg_block (c : Dev nD) (t : Fin cfg3.N) (p : Fin 10000) (k : Fin 32) (r : Fin 100000) (hr : r.val = t.val * 10000 + p.val) :
    (iblk3 V c 0 t : Vec Ideal S10000x32 .f32) (ix2 p k) = (V c main_v82 : S100000x32.Idx → EReal) (ix2 r k) := by
  obtain ⟨e0, e1, -⟩ := block_index t
  show (V c main_v82 : S100000x32.Idx → EReal) (((cfg3.win 0).blk t).view.emb (ix2 p k)) = _
  refine congrArg (V c main_v82 : S100000x32.Idx → EReal) (funext fun a => Fin.ext ?_)
  match a with
  | ⟨0, _⟩ => show win3_0.index t (0 : Fin 2) * 10000 + 1 * p.val = r.val; rw [e0, hr]; omega
  | ⟨1, _⟩ => show win3_0.index t (1 : Fin 2) * 32 + 1 * k.val = k.val; rw [e1]; omega

/-- The weight's block at every point is the weight. -/
theorem weight_block (c : Dev nD) (t : Fin cfg3.N) (k : Fin 32) (j : Fin 32) :
    (iblk3 V c 1 t : Vec Ideal S32x32 .f32) (ix2 k j) = (V c main_v84 : S32x32.Idx → EReal) (ix2 k j) := by
  obtain ⟨-, -, e0, e1, -⟩ := block_index t
  show (V c main_v84 : S32x32.Idx → EReal) (((cfg3.win 1).blk t).view.emb (ix2 k j)) = _
  refine congrArg (V c main_v84 : S32x32.Idx → EReal) (funext fun a => Fin.ext ?_)
  match a with
  | ⟨0, _⟩ => show win3_1.index t (0 : Fin 2) * 32 + 1 * k.val = k.val; rw [e0]; omega
  | ⟨1, _⟩ => show win3_1.index t (1 : Fin 2) * 32 + 1 * j.val = j.val; rw [e1]; omega

/-- The bias row's block at every point is the bias row. -/
theorem bias_block (c : Dev nD) (t : Fin cfg3.N) (j : Fin 32) :
    (iblk3 V c 2 t : Vec Ideal S1x32 .f32) (ix2 (0 : Fin 1) j) = (V c main_v87 : S1x32.Idx → EReal) (ix2 (0 : Fin 1) j) := by
  obtain ⟨-, -, -, -, e0, e1, -⟩ := block_index t
  show (V c main_v87 : S1x32.Idx → EReal) (((cfg3.win 2).blk t).view.emb (ix2 (0 : Fin 1) j)) = _
  refine congrArg (V c main_v87 : S1x32.Idx → EReal) (funext fun a => Fin.ext ?_)
  match a with
  | ⟨0, _⟩ => show win3_2.index t (0 : Fin 2) * 1 + 1 * (0 : Fin 1).val = (0 : Fin 1).val; rw [e0]; rfl
  | ⟨1, _⟩ => show win3_2.index t (1 : Fin 2) * 32 + 1 * j.val = j.val; rw [e1]; omega

/-- Entry (p, q) of the output's block at point t is entry (10000 t + p, q) of the output array. -/
theorem out_block (t : Fin cfg3.N) (p : Fin 10000) (q : Fin 32) (r : Fin 100000) (hr : r.val = t.val * 10000 + p.val) :
    (((cfg3.win 3).blk t).view.emb (ix2 p q) : S100000x32.Idx) = ix2 r q := by
  obtain ⟨-, -, -, -, -, -, e0, e1⟩ := block_index t
  refine funext fun a => Fin.ext ?_
  match a with
  | ⟨0, _⟩ => show win3_3.index t (0 : Fin 2) * 10000 + 1 * p.val = r.val; rw [e0, hr]; omega
  | ⟨1, _⟩ => show win3_3.index t (1 : Fin 2) * 32 + 1 * q.val = q.val; rw [e1]; omega

/-- A dense layer's entry depends on its three operands entry by entry. -/
theorem lin_congr {K N : Nat} {a a' : Fin K → EReal} {w w' : Fin K → Fin N → EReal} {b b' : Fin N → EReal}
    (ha : ∀ k, a k = a' k) (hw : ∀ k j, w k j = w' k j) (hb : ∀ j, b j = b' j) (j : Fin N) :
    Spec.lin a w b j = Spec.lin a' w' b' j := by
  rw [show a = a' from funext ha, show w = w' from funext fun k => funext (hw k), show b = b' from funext hb]

/-- What point t writes back is block t of the layer of the whole aggregate. -/
theorem flushed_eq (c : Dev nD) (t : Fin cfg3.N) :
    (dat3 V c).flushed 3 t = ((cfg3.win 3).blk t).view.read (Elt Ideal) (layerArr V c) := by
  show (cfg3.win 3).cut (grid3.coords t) ((dat3 V c).after 3 t) = _
  rw [after3_3]
  unfold out3_3
  rw [View.canon_unit_zero zero_offsets]
  simp only [View.ld_unit_zero (S := S10000x32) zero_offsets, View.ld_unit_zero (S := S32x32) zero_offsets,
    View.ld_unit_zero (S := S1x32) zero_offsets]
  have ht : t.val < 10 := by have hN : grid3.N = 10 := N_3; have hlt : t.val < grid3.N := t.isLt; omega
  have key : ∀ j : S10000x32.Idx,
      k3_pay1 (F := Ideal) (iblk3 V c 0 t) (iblk3 V c 1 t) (iblk3 V c 2 t) j
        = layerArr V c (((cfg3.win 3).blk t).view.emb j) := by
    intro j
    obtain ⟨p, q, rfl⟩ : ∃ (p : Fin 10000) (q : Fin 32), j = ix2 p q := ⟨j 0, j 1, eq_ix2 j⟩
    have hp : p.val < 10000 := p.isLt
    refine (KLayerPay.pay3 (iblk3 V c 0 t) (iblk3 V c 1 t) (iblk3 V c 2 t) p q).trans ?_
    refine Eq.trans ?_ (congrArg (layerArr V c) (out_block t p q ⟨t.val * 10000 + p.val, by omega⟩ rfl)).symm
    exact lin_congr (fun k => agg_block V c t p k ⟨t.val * 10000 + p.val, by omega⟩ rfl) (weight_block V c t) (bias_block V c t) q
  funext j
  exact key j

/-- An index of the output array is in point t's block iff each coordinate is in the block's range on its axis. -/
theorem mem_block (t : Fin cfg3.N) (i : S100000x32.Idx) :
    i ∈ ((cfg3.win 3).blk t).view.set ↔ ∀ a : Fin 2, win3_3.index t a * S10000x32.size a ≤ (i a).val ∧ (i a).val < win3_3.index t a * S10000x32.size a + S10000x32.size a := by
  show i ∈ ((View.whole main_v88).slice (win3_3.rect t)).set ↔ _
  rw [View.set_slice_whole, Rect.mem_set_unit]
  exact Iff.rfl

/-- Every row is in the block of the point r / 10000. -/
theorem covered (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : grid3.N = 10 := N_3
  let t : Fin cfg3.N := ⟨(i 0).val / 10000, by show (i 0).val / 10000 < grid3.N; omega⟩
  have htv : t.val = (i 0).val / 10000 := rfl
  obtain ⟨-, -, -, -, -, -, e0, e1⟩ := block_index t
  refine ⟨t, flush3_3 t, ?_⟩
  rw [mem_block]
  intro a
  match a with
  | ⟨0, _⟩ => show win3_3.index t (0 : Fin 2) * 10000 ≤ (i 0).val ∧ (i 0).val < win3_3.index t (0 : Fin 2) * 10000 + 10000; rw [e0, htv]; omega
  | ⟨1, _⟩ => show win3_3.index t (1 : Fin 2) * 32 ≤ (i 1).val ∧ (i 1).val < win3_3.index t (1 : Fin 2) * 32 + 32; rw [e1]; omega

/-- The output array after the region: the dense layer of every row of the aggregate the region found. -/
theorem final (c : Dev nD) :
    (dat3 (F := Ideal) V c).arrAt 3 cfg3.N
      = Spec.of2 (Spec.layer (Spec.un2 (V c main_v82 : S100000x32.Idx → EReal)) (Spec.un2 (V c main_v84 : S32x32.Idx → EReal))
          (Spec.unRow (V c main_v87 : S1x32.Idx → EReal))) :=
  (dat3 V c).arrAt_eq_of_cover 3 (layerArr V c) (fun t _ => flushed_eq V c t) (covered)

end Cert.KernelIdeal.KLayer3

end
-- ==== Proof.KLayer4.lean ====
/-
  Middle layer 4 on the device: the grid's ten points each take a block of 10000 rows of the aggregate, the whole
  weight and the whole bias row, and write back the dense layer of the block's rows. The ten blocks tile the
  100000 rows (row r is in the block of point r / 10000), so the output array ends holding the dense layer of
  every row of the aggregate.
-/
import proofs.«148936_j3496103379547_2_alg».proof.Proof.Spec
import proofs.«148936_j3496103379547_2_alg».proof.Proof.Gen.KernelIdeal.Frame
import proofs.«148936_j3496103379547_2_alg».proof.Proof.KLayerPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KLayer4

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole aggregate, as an array: what the output array ends holding. -/
abbrev layerArr (c : Dev nD) : S100000x32.Idx → EReal :=
  Spec.of2 (Spec.layer (Spec.un2 (V c main_v101 : S100000x32.Idx → EReal)) (Spec.un2 (V c main_v103 : S32x32.Idx → EReal))
    (Spec.unRow (V c main_v106 : S1x32.Idx → EReal)))

/-- The printed block maps over the grid: the aggregate's and the output's block row is the point, the weight and
    the bias are taken whole. -/
theorem block_index : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- Row p of the aggregate's block at point t is row 10000 t + p of the aggregate. -/
theorem agg_block (c : Dev nD) (t : Fin cfg4.N) (p : Fin 10000) (k : Fin 32) (r : Fin 100000) (hr : r.val = t.val * 10000 + p.val) :
    (iblk4 V c 0 t : Vec Ideal S10000x32 .f32) (ix2 p k) = (V c main_v101 : S100000x32.Idx → EReal) (ix2 r k) := by
  obtain ⟨e0, e1, -⟩ := block_index t
  show (V c main_v101 : S100000x32.Idx → EReal) (((cfg4.win 0).blk t).view.emb (ix2 p k)) = _
  refine congrArg (V c main_v101 : S100000x32.Idx → EReal) (funext fun a => Fin.ext ?_)
  match a with
  | ⟨0, _⟩ => show win4_0.index t (0 : Fin 2) * 10000 + 1 * p.val = r.val; rw [e0, hr]; omega
  | ⟨1, _⟩ => show win4_0.index t (1 : Fin 2) * 32 + 1 * k.val = k.val; rw [e1]; omega

/-- The weight's block at every point is the weight. -/
theorem weight_block (c : Dev nD) (t : Fin cfg4.N) (k : Fin 32) (j : Fin 32) :
    (iblk4 V c 1 t : Vec Ideal S32x32 .f32) (ix2 k j) = (V c main_v103 : S32x32.Idx → EReal) (ix2 k j) := by
  obtain ⟨-, -, e0, e1, -⟩ := block_index t
  show (V c main_v103 : S32x32.Idx → EReal) (((cfg4.win 1).blk t).view.emb (ix2 k j)) = _
  refine congrArg (V c main_v103 : S32x32.Idx → EReal) (funext fun a => Fin.ext ?_)
  match a with
  | ⟨0, _⟩ => show win4_1.index t (0 : Fin 2) * 32 + 1 * k.val = k.val; rw [e0]; omega
  | ⟨1, _⟩ => show win4_1.index t (1 : Fin 2) * 32 + 1 * j.val = j.val; rw [e1]; omega

/-- The bias row's block at every point is the bias row. -/
theorem bias_block (c : Dev nD) (t : Fin cfg4.N) (j : Fin 32) :
    (iblk4 V c 2 t : Vec Ideal S1x32 .f32) (ix2 (0 : Fin 1) j) = (V c main_v106 : S1x32.Idx → EReal) (ix2 (0 : Fin 1) j) := by
  obtain ⟨-, -, -, -, e0, e1, -⟩ := block_index t
  show (V c main_v106 : S1x32.Idx → EReal) (((cfg4.win 2).blk t).view.emb (ix2 (0 : Fin 1) j)) = _
  refine congrArg (V c main_v106 : S1x32.Idx → EReal) (funext fun a => Fin.ext ?_)
  match a with
  | ⟨0, _⟩ => show win4_2.index t (0 : Fin 2) * 1 + 1 * (0 : Fin 1).val = (0 : Fin 1).val; rw [e0]; rfl
  | ⟨1, _⟩ => show win4_2.index t (1 : Fin 2) * 32 + 1 * j.val = j.val; rw [e1]; omega

/-- Entry (p, q) of the output's block at point t is entry (10000 t + p, q) of the output array. -/
theorem out_block (t : Fin cfg4.N) (p : Fin 10000) (q : Fin 32) (r : Fin 100000) (hr : r.val = t.val * 10000 + p.val) :
    (((cfg4.win 3).blk t).view.emb (ix2 p q) : S100000x32.Idx) = ix2 r q := by
  obtain ⟨-, -, -, -, -, -, e0, e1⟩ := block_index t
  refine funext fun a => Fin.ext ?_
  match a with
  | ⟨0, _⟩ => show win4_3.index t (0 : Fin 2) * 10000 + 1 * p.val = r.val; rw [e0, hr]; omega
  | ⟨1, _⟩ => show win4_3.index t (1 : Fin 2) * 32 + 1 * q.val = q.val; rw [e1]; omega

/-- A dense layer's entry depends on its three operands entry by entry. -/
theorem lin_congr {K N : Nat} {a a' : Fin K → EReal} {w w' : Fin K → Fin N → EReal} {b b' : Fin N → EReal}
    (ha : ∀ k, a k = a' k) (hw : ∀ k j, w k j = w' k j) (hb : ∀ j, b j = b' j) (j : Fin N) :
    Spec.lin a w b j = Spec.lin a' w' b' j := by
  rw [show a = a' from funext ha, show w = w' from funext fun k => funext (hw k), show b = b' from funext hb]

/-- What point t writes back is block t of the layer of the whole aggregate. -/
theorem flushed_eq (c : Dev nD) (t : Fin cfg4.N) :
    (dat4 V c).flushed 3 t = ((cfg4.win 3).blk t).view.read (Elt Ideal) (layerArr V c) := by
  show (cfg4.win 3).cut (grid4.coords t) ((dat4 V c).after 3 t) = _
  rw [after4_3]
  unfold out4_3
  rw [View.canon_unit_zero zero_offsets]
  simp only [View.ld_unit_zero (S := S10000x32) zero_offsets, View.ld_unit_zero (S := S32x32) zero_offsets,
    View.ld_unit_zero (S := S1x32) zero_offsets]
  have ht : t.val < 10 := by have hN : grid4.N = 10 := N_4; have hlt : t.val < grid4.N := t.isLt; omega
  have key : ∀ j : S10000x32.Idx,
      k4_pay1 (F := Ideal) (iblk4 V c 0 t) (iblk4 V c 1 t) (iblk4 V c 2 t) j
        = layerArr V c (((cfg4.win 3).blk t).view.emb j) := by
    intro j
    obtain ⟨p, q, rfl⟩ : ∃ (p : Fin 10000) (q : Fin 32), j = ix2 p q := ⟨j 0, j 1, eq_ix2 j⟩
    have hp : p.val < 10000 := p.isLt
    refine (KLayerPay.pay4 (iblk4 V c 0 t) (iblk4 V c 1 t) (iblk4 V c 2 t) p q).trans ?_
    refine Eq.trans ?_ (congrArg (layerArr V c) (out_block t p q ⟨t.val * 10000 + p.val, by omega⟩ rfl)).symm
    exact lin_congr (fun k => agg_block V c t p k ⟨t.val * 10000 + p.val, by omega⟩ rfl) (weight_block V c t) (bias_block V c t) q
  funext j
  exact key j

/-- An index of the output array is in point t's block iff each coordinate is in the block's range on its axis. -/
theorem mem_block (t : Fin cfg4.N) (i : S100000x32.Idx) :
    i ∈ ((cfg4.win 3).blk t).view.set ↔ ∀ a : Fin 2, win4_3.index t a * S10000x32.size a ≤ (i a).val ∧ (i a).val < win4_3.index t a * S10000x32.size a + S10000x32.size a := by
  show i ∈ ((View.whole main_v107).slice (win4_3.rect t)).set ↔ _
  rw [View.set_slice_whole, Rect.mem_set_unit]
  exact Iff.rfl

/-- Every row is in the block of the point r / 10000. -/
theorem covered (i : S100000x32.Idx) :
    ∃ t : Fin cfg4.N, (cfg4.win 3).flush t = true ∧ i ∈ ((cfg4.win 3).blk t).view.set := by
  have hi0 : (i 0).val < 100000 := (i 0).isLt
  have hi1 : (i 1).val < 32 := (i 1).isLt
  have hN : grid4.N = 10 := N_4
  let t : Fin cfg4.N := ⟨(i 0).val / 10000, by show (i 0).val / 10000 < grid4.N; omega⟩
  have htv : t.val = (i 0).val / 10000 := rfl
  obtain ⟨-, -, -, -, -, -, e0, e1⟩ := block_index t
  refine ⟨t, flush4_3 t, ?_⟩
  rw [mem_block]
  intro a
  match a with
  | ⟨0, _⟩ => show win4_3.index t (0 : Fin 2) * 10000 ≤ (i 0).val ∧ (i 0).val < win4_3.index t (0 : Fin 2) * 10000 + 10000; rw [e0, htv]; omega
  | ⟨1, _⟩ => show win4_3.index t (1 : Fin 2) * 32 ≤ (i 1).val ∧ (i 1).val < win4_3.index t (1 : Fin 2) * 32 + 32; rw [e1]; omega

/-- The output array after the region: the dense layer of every row of the aggregate the region found. -/
theorem final (c : Dev nD) :
    (dat4 (F := Ideal) V c).arrAt 3 cfg4.N
      = Spec.of2 (Spec.layer (Spec.un2 (V c main_v101 : S100000x32.Idx → EReal)) (Spec.un2 (V c main_v103 : S32x32.Idx → EReal))
          (Spec.unRow (V c main_v106 : S1x32.Idx → EReal))) :=
  (dat4 V c).arrAt_eq_of_cover 3 (layerArr V c) (fun t _ => flushed_eq V c t) (covered)

end Cert.KernelIdeal.KLayer4

end
-- ==== Proof.KLayer5.lean ====
/-
  Middle layer 5 on the device: the grid's ten points each take a block of 10000 rows of the aggregate, the whole
  weight and the whole bias row, and write back the dense layer of the block's rows. The ten blocks tile the
  100000 rows (row r is in the block of point r / 10000), so the output array ends holding the dense layer of
  every row of the aggregate.
-/
import proofs.«148936_j3496103379547_2_alg».proof.Proof.Spec
import proofs.«148936_j3496103379547_2_alg».proof.Proof.Gen.KernelIdeal.Frame
import proofs.«148936_j3496103379547_2_alg».proof.Proof.KLayerPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KLayer5

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole aggregate, as an array: what the output array ends holding. -/
abbrev layerArr (c : Dev nD) : S100000x32.Idx → EReal :=
  Spec.of2 (Spec.layer (Spec.un2 (V c main_v120 : S100000x32.Idx → EReal)) (Spec.un2 (V c main_v122 : S32x32.Idx → EReal))
    (Spec.unRow (V c main_v125 : S1x32.Idx → EReal)))

/-- The printed block maps over the grid: the aggregate's and the output's block row is the point, the weight and
    the bias are taken whole. -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Row p of the aggregate's block at point t is row 10000 t + p of the aggregate. -/
theorem agg_block (c : Dev nD) (t : Fin cfg5.N) (p : Fin 10000) (k : Fin 32) (r : Fin 100000) (hr : r.val = t.val * 10000 + p.val) :
    (iblk5 V c 0 t : Vec Ideal S10000x32 .f32) (ix2 p k) = (V c main_v120 : S100000x32.Idx → EReal) (ix2 r k) := by
  obtain ⟨e0, e1, -⟩ := block_index t
  show (V c main_v120 : S100000x32.Idx → EReal) (((cfg5.win 0).blk t).view.emb (ix2 p k)) = _
  refine congrArg (V c main_v120 : S100000x32.Idx → EReal) (funext fun a => Fin.ext ?_)
  match a with
  | ⟨0, _⟩ => show win5_0.index t (0 : Fin 2) * 10000 + 1 * p.val = r.val; rw [e0, hr]; omega
  | ⟨1, _⟩ => show win5_0.index t (1 : Fin 2) * 32 + 1 * k.val = k.val; rw [e1]; omega

/-- The weight's block at every point is the weight. -/
theorem weight_block (c : Dev nD) (t : Fin cfg5.N) (k : Fin 32) (j : Fin 32) :
    (iblk5 V c 1 t : Vec Ideal S32x32 .f32) (ix2 k j) = (V c main_v122 : S32x32.Idx → EReal) (ix2 k j) := by
  obtain ⟨-, -, e0, e1, -⟩ := block_index t
  show (V c main_v122 : S32x32.Idx → EReal) (((cfg5.win 1).blk t).view.emb (ix2 k j)) = _
  refine congrArg (V c main_v122 : S32x32.Idx → EReal) (funext fun a => Fin.ext ?_)
  match a with
  | ⟨0, _⟩ => show win5_1.index t (0 : Fin 2) * 32 + 1 * k.val = k.val; rw [e0]; omega
  | ⟨1, _⟩ => show win5_1.index t (1 : Fin 2) * 32 + 1 * j.val = j.val; rw [e1]; omega

/-- The bias row's block at every point is the bias row. -/
theorem bias_block (c : Dev nD) (t : Fin cfg5.N) (j : Fin 32) :
    (iblk5 V c 2 t : Vec Ideal S1x32 .f32) (ix2 (0 : Fin 1) j) = (V c main_v125 : S1x32.Idx → EReal) (ix2 (0 : Fin 1) j) := by
  obtain ⟨-, -, -, -, e0, e1, -⟩ := block_index t
  show (V c main_v125 : S1x32.Idx → EReal) (((cfg5.win 2).blk t).view.emb (ix2 (0 : Fin 1) j)) = _
  refine congrArg (V c main_v125 : S1x32.Idx → EReal) (funext fun a => Fin.ext ?_)
  match a with
  | ⟨0, _⟩ => show win5_2.index t (0 : Fin 2) * 1 + 1 * (0 : Fin 1).val = (0 : Fin 1).val; rw [e0]; rfl
  | ⟨1, _⟩ => show win5_2.index t (1 : Fin 2) * 32 + 1 * j.val = j.val; rw [e1]; omega

/-- Entry (p, q) of the output's block at point t is entry (10000 t + p, q) of the output array. -/
theorem out_block (t : Fin cfg5.N) (p : Fin 10000) (q : Fin 32) (r : Fin 100000) (hr : r.val = t.val * 10000 + p.val) :
    (((cfg5.win 3).blk t).view.emb (ix2 p q) : S100000x32.Idx) = ix2 r q := by
  obtain ⟨-, -, -, -, -, -, e0, e1⟩ := block_index t
  refine funext fun a => Fin.ext ?_
  match a with
  | ⟨0, _⟩ => show win5_3.index t (0 : Fin 2) * 10000 + 1 * p.val = r.val; rw [e0, hr]; omega
  | ⟨1, _⟩ => show win5_3.index t (1 : Fin 2) * 32 + 1 * q.val = q.val; rw [e1]; omega

/-- A dense layer's entry depends on its three operands entry by entry. -/
theorem lin_congr {K N : Nat} {a a' : Fin K → EReal} {w w' : Fin K → Fin N → EReal} {b b' : Fin N → EReal}
    (ha : ∀ k, a k = a' k) (hw : ∀ k j, w k j = w' k j) (hb : ∀ j, b j = b' j) (j : Fin N) :
    Spec.lin a w b j = Spec.lin a' w' b' j := by
  rw [show a = a' from funext ha, show w = w' from funext fun k => funext (hw k), show b = b' from funext hb]

/-- What point t writes back is block t of the layer of the whole aggregate. -/
theorem flushed_eq (c : Dev nD) (t : Fin cfg5.N) :
    (dat5 V c).flushed 3 t = ((cfg5.win 3).blk t).view.read (Elt Ideal) (layerArr V c) := by
  show (cfg5.win 3).cut (grid5.coords t) ((dat5 V c).after 3 t) = _
  rw [after5_3]
  unfold out5_3
  rw [View.canon_unit_zero zero_offsets]
  simp only [View.ld_unit_zero (S := S10000x32) zero_offsets, View.ld_unit_zero (S := S32x32) zero_offsets,
    View.ld_unit_zero (S := S1x32) zero_offsets]
  have ht : t.val < 10 := by have hN : grid5.N = 10 := N_5; have hlt : t.val < grid5.N := t.isLt; omega
  have key : ∀ j : S10000x32.Idx,
      k5_pay1 (F := Ideal) (iblk5 V c 0 t) (iblk5 V c 1 t) (iblk5 V c 2 t) j
        = layerArr V c (((cfg5.win 3).blk t).view.emb j) := by
    intro j
    obtain ⟨p, q, rfl⟩ : ∃ (p : Fin 10000) (q : Fin 32), j = ix2 p q := ⟨j 0, j 1, eq_ix2 j⟩
    have hp : p.val < 10000 := p.isLt
    refine (KLayerPay.pay5 (iblk5 V c 0 t) (iblk5 V c 1 t) (iblk5 V c 2 t) p q).trans ?_
    refine Eq.trans ?_ (congrArg (layerArr V c) (out_block t p q ⟨t.val * 10000 + p.val, by omega⟩ rfl)).symm
    exact lin_congr (fun k => agg_block V c t p k ⟨t.val * 10000 + p.val, by omega⟩ rfl) (weight_block V c t) (bias_block V c t) q
  funext j
  exact key j

/-- An index of the output array is in point t's block iff each coordinate is in the block's range on its axis. -/
theorem mem_block (t : Fin cfg5.N) (i : S100000x32.Idx) :
    i ∈ ((cfg5.win 3).blk t).view.set ↔ ∀ a : Fin 2, win5_3.index t a * S10000x32.size a ≤ (i a).val ∧ (i a).val < win5_3.index t a * S10000x32.size a + S10000x32.size a := by
  show i ∈ ((View.whole main_v126).slice (win5_3.rect t)).set ↔ _
  rw [View.set_slice_whole, Rect.mem_set_unit]
  exact Iff.rfl

/-- Every row is in the block of the point r / 10000. -/
theorem covered (i : S100000x32.Idx) :
    ∃ t : Fin cfg5.N, (cfg5.win 3).flush t = true ∧ i ∈ ((cfg5.win 3).blk t).view.set := by
  have hi0 : (i 0).val < 100000 := (i 0).isLt
  have hi1 : (i 1).val < 32 := (i 1).isLt
  have hN : grid5.N = 10 := N_5
  let t : Fin cfg5.N := ⟨(i 0).val / 10000, by show (i 0).val / 10000 < grid5.N; omega⟩
  have htv : t.val = (i 0).val / 10000 := rfl
  obtain ⟨-, -, -, -, -, -, e0, e1⟩ := block_index t
  refine ⟨t, flush5_3 t, ?_⟩
  rw [mem_block]
  intro a
  match a with
  | ⟨0, _⟩ => show win5_3.index t (0 : Fin 2) * 10000 ≤ (i 0).val ∧ (i 0).val < win5_3.index t (0 : Fin 2) * 10000 + 10000; rw [e0, htv]; omega
  | ⟨1, _⟩ => show win5_3.index t (1 : Fin 2) * 32 ≤ (i 1).val ∧ (i 1).val < win5_3.index t (1 : Fin 2) * 32 + 32; rw [e1]; omega

/-- The output array after the region: the dense layer of every row of the aggregate the region found. -/
theorem final (c : Dev nD) :
    (dat5 (F := Ideal) V c).arrAt 3 cfg5.N
      = Spec.of2 (Spec.layer (Spec.un2 (V c main_v120 : S100000x32.Idx → EReal)) (Spec.un2 (V c main_v122 : S32x32.Idx → EReal))
          (Spec.unRow (V c main_v125 : S1x32.Idx → EReal))) :=
  (dat5 V c).arrAt_eq_of_cover 3 (layerArr V c) (fun t _ => flushed_eq V c t) (covered)

end Cert.KernelIdeal.KLayer5

end
-- ==== Proof.KLayer6.lean ====
/-
  Middle layer 6 on the device: the grid's ten points each take a block of 10000 rows of the aggregate, the whole
  weight and the whole bias row, and write back the dense layer of the block's rows. The ten blocks tile the
  100000 rows (row r is in the block of point r / 10000), so the output array ends holding the dense layer of
  every row of the aggregate.
-/
import proofs.«148936_j3496103379547_2_alg».proof.Proof.Spec
import proofs.«148936_j3496103379547_2_alg».proof.Proof.Gen.KernelIdeal.Frame
import proofs.«148936_j3496103379547_2_alg».proof.Proof.KLayerPay
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KLayer6

open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole aggregate, as an array: what the output array ends holding. -/
abbrev layerArr (c : Dev nD) : S100000x32.Idx → EReal :=
  Spec.of2 (Spec.layer (Spec.un2 (V c main_v139 : S100000x32.Idx → EReal)) (Spec.un2 (V c main_v141 : S32x32.Idx → EReal))
    (Spec.unRow (V c main_v144 : S1x32.Idx → EReal)))

/-- The printed block maps over the grid: the aggregate's and the output's block row is the point, the weight and
    the bias are taken whole. -/
theorem block_index : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row p of the aggregate's block at point t is row 10000 t + p of the aggregate. -/
theorem agg_block (c : Dev nD) (t : Fin cfg6.N) (p : Fin 10000) (k : Fin 32) (r : Fin 100000) (hr : r.val = t.val * 10000 + p.val) :
    (iblk6 V c 0 t : Vec Ideal S10000x32 .f32) (ix2 p k) = (V c main_v139 : S100000x32.Idx → EReal) (ix2 r k) := by
  obtain ⟨e0, e1, -⟩ := block_index t
  show (V c main_v139 : S100000x32.Idx → EReal) (((cfg6.win 0).blk t).view.emb (ix2 p k)) = _
  refine congrArg (V c main_v139 : S100000x32.Idx → EReal) (funext fun a => Fin.ext ?_)
  match a with
  | ⟨0, _⟩ => show win6_0.index t (0 : Fin 2) * 10000 + 1 * p.val = r.val; rw [e0, hr]; omega
  | ⟨1, _⟩ => show win6_0.index t (1 : Fin 2) * 32 + 1 * k.val = k.val; rw [e1]; omega

/-- The weight's block at every point is the weight. -/
theorem weight_block (c : Dev nD) (t : Fin cfg6.N) (k : Fin 32) (j : Fin 32) :
    (iblk6 V c 1 t : Vec Ideal S32x32 .f32) (ix2 k j) = (V c main_v141 : S32x32.Idx → EReal) (ix2 k j) := by
  obtain ⟨-, -, e0, e1, -⟩ := block_index t
  show (V c main_v141 : S32x32.Idx → EReal) (((cfg6.win 1).blk t).view.emb (ix2 k j)) = _
  refine congrArg (V c main_v141 : S32x32.Idx → EReal) (funext fun a => Fin.ext ?_)
  match a with
  | ⟨0, _⟩ => show win6_1.index t (0 : Fin 2) * 32 + 1 * k.val = k.val; rw [e0]; omega
  | ⟨1, _⟩ => show win6_1.index t (1 : Fin 2) * 32 + 1 * j.val = j.val; rw [e1]; omega

/-- The bias row's block at every point is the bias row. -/
theorem bias_block (c : Dev nD) (t : Fin cfg6.N) (j : Fin 32) :
    (iblk6 V c 2 t : Vec Ideal S1x32 .f32) (ix2 (0 : Fin 1) j) = (V c main_v144 : S1x32.Idx → EReal) (ix2 (0 : Fin 1) j) := by
  obtain ⟨-, -, -, -, e0, e1, -⟩ := block_index t
  show (V c main_v144 : S1x32.Idx → EReal) (((cfg6.win 2).blk t).view.emb (ix2 (0 : Fin 1) j)) = _
  refine congrArg (V c main_v144 : S1x32.Idx → EReal) (funext fun a => Fin.ext ?_)
  match a with
  | ⟨0, _⟩ => show win6_2.index t (0 : Fin 2) * 1 + 1 * (0 : Fin 1).val = (0 : Fin 1).val; rw [e0]; rfl
  | ⟨1, _⟩ => show win6_2.index t (1 : Fin 2) * 32 + 1 * j.val = j.val; rw [e1]; omega

/-- Entry (p, q) of the output's block at point t is entry (10000 t + p, q) of the output array. -/
theorem out_block (t : Fin cfg6.N) (p : Fin 10000) (q : Fin 32) (r : Fin 100000) (hr : r.val = t.val * 10000 + p.val) :
    (((cfg6.win 3).blk t).view.emb (ix2 p q) : S100000x32.Idx) = ix2 r q := by
  obtain ⟨-, -, -, -, -, -, e0, e1⟩ := block_index t
  refine funext fun a => Fin.ext ?_
  match a with
  | ⟨0, _⟩ => show win6_3.index t (0 : Fin 2) * 10000 + 1 * p.val = r.val; rw [e0, hr]; omega
  | ⟨1, _⟩ => show win6_3.index t (1 : Fin 2) * 32 + 1 * q.val = q.val; rw [e1]; omega

/-- A dense layer's entry depends on its three operands entry by entry. -/
theorem lin_congr {K N : Nat} {a a' : Fin K → EReal} {w w' : Fin K → Fin N → EReal} {b b' : Fin N → EReal}
    (ha : ∀ k, a k = a' k) (hw : ∀ k j, w k j = w' k j) (hb : ∀ j, b j = b' j) (j : Fin N) :
    Spec.lin a w b j = Spec.lin a' w' b' j := by
  rw [show a = a' from funext ha, show w = w' from funext fun k => funext (hw k), show b = b' from funext hb]

/-- What point t writes back is block t of the layer of the whole aggregate. -/
theorem flushed_eq (c : Dev nD) (t : Fin cfg6.N) :
    (dat6 V c).flushed 3 t = ((cfg6.win 3).blk t).view.read (Elt Ideal) (layerArr V c) := by
  show (cfg6.win 3).cut (grid6.coords t) ((dat6 V c).after 3 t) = _
  rw [after6_3]
  unfold out6_3
  rw [View.canon_unit_zero zero_offsets]
  simp only [View.ld_unit_zero (S := S10000x32) zero_offsets, View.ld_unit_zero (S := S32x32) zero_offsets,
    View.ld_unit_zero (S := S1x32) zero_offsets]
  have ht : t.val < 10 := by have hN : grid6.N = 10 := N_6; have hlt : t.val < grid6.N := t.isLt; omega
  have key : ∀ j : S10000x32.Idx,
      k6_pay1 (F := Ideal) (iblk6 V c 0 t) (iblk6 V c 1 t) (iblk6 V c 2 t) j
        = layerArr V c (((cfg6.win 3).blk t).view.emb j) := by
    intro j
    obtain ⟨p, q, rfl⟩ : ∃ (p : Fin 10000) (q : Fin 32), j = ix2 p q := ⟨j 0, j 1, eq_ix2 j⟩
    have hp : p.val < 10000 := p.isLt
    refine (KLayerPay.pay6 (iblk6 V c 0 t) (iblk6 V c 1 t) (iblk6 V c 2 t) p q).trans ?_
    refine Eq.trans ?_ (congrArg (layerArr V c) (out_block t p q ⟨t.val * 10000 + p.val, by omega⟩ rfl)).symm
    exact lin_congr (fun k => agg_block V c t p k ⟨t.val * 10000 + p.val, by omega⟩ rfl) (weight_block V c t) (bias_block V c t) q
  funext j
  exact key j

/-- An index of the output array is in point t's block iff each coordinate is in the block's range on its axis. -/
theorem mem_block (t : Fin cfg6.N) (i : S100000x32.Idx) :
    i ∈ ((cfg6.win 3).blk t).view.set ↔ ∀ a : Fin 2, win6_3.index t a * S10000x32.size a ≤ (i a).val ∧ (i a).val < win6_3.index t a * S10000x32.size a + S10000x32.size a := by
  show i ∈ ((View.whole main_v145).slice (win6_3.rect t)).set ↔ _
  rw [View.set_slice_whole, Rect.mem_set_unit]
  exact Iff.rfl

/-- Every row is in the block of the point r / 10000. -/
theorem covered (i : S100000x32.Idx) :
    ∃ t : Fin cfg6.N, (cfg6.win 3).flush t = true ∧ i ∈ ((cfg6.win 3).blk t).view.set := by
  have hi0 : (i 0).val < 100000 := (i 0).isLt
  have hi1 : (i 1).val < 32 := (i 1).isLt
  have hN : grid6.N = 10 := N_6
  let t : Fin cfg6.N := ⟨(i 0).val / 10000, by show (i 0).val / 10000 < grid6.N; omega⟩
  have htv : t.val = (i 0).val / 10000 := rfl
  obtain ⟨-, -, -, -, -, -, e0, e1⟩ := block_index t
  refine ⟨t, flush6_3 t, ?_⟩
  rw [mem_block]
  intro a
  match a with
  | ⟨0, _⟩ => show win6_3.index t (0 : Fin 2) * 10000 ≤ (i 0).val ∧ (i 0).val < win6_3.index t (0 : Fin 2) * 10000 + 10000; rw [e0, htv]; omega
  | ⟨1, _⟩ => show win6_3.index t (1 : Fin 2) * 32 ≤ (i 1).val ∧ (i 1).val < win6_3.index t (1 : Fin 2) * 32 + 32; rw [e1]; omega

/-- The output array after the region: the dense layer of every row of the aggregate the region found. -/
theorem final (c : Dev nD) :
    (dat6 (F := Ideal) V c).arrAt 3 cfg6.N
      = Spec.of2 (Spec.layer (Spec.un2 (V c main_v139 : S100000x32.Idx → EReal)) (Spec.un2 (V c main_v141 : S32x32.Idx → EReal))
          (Spec.unRow (V c main_v144 : S1x32.Idx → EReal))) :=
  (dat6 V c).arrAt_eq_of_cover 3 (layerArr V c) (fun t _ => flushed_eq V c t) (covered)

end Cert.KernelIdeal.KLayer6

end
-- ==== Proof.KFinalPayRow.lean ====
/-
  A row's least and greatest entry, and the column forms of a shape cast and a broadcast, read at an index.

  A reduction of an [a, 32] array along its 32 lanes by minimum from +∞ (by maximum from −∞) is, at row `p`, the
  fold `Spec.rowMin` (`Spec.rowMax`) of the row. A vector of `a` entries cast to a column [a, 1] reads entry `p` at
  (p, 0); a column [a, 1] broadcast along the lanes to [a, b] reads its entry `p` at every (p, c).
-/
import proofs.«148936_j3496103379547_2_alg».proof.Proof.Spec
import Idealize.ShloMosaic.Lib.Pipeline.Value
import Idealize.ShloMosaic.PureOps.Ideal.Laws
import Idealize.ShloMosaic.PureOps.Reduce

noncomputable section

namespace Cert.KernelIdeal.KFinal

open Idealize.ShloMosaic Idealize.ShloMosaic.ValueIdx

/-! ## The column forms of a shape cast and of a broadcast -/

section Layout
variable {α : Type}

/-- A vector cast to a column: entry `p` at (p, 0). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column broadcast along the lanes: its entry `p` at every (p, c). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's minimum and maximum -/

/-- The reduced index `p` with lane `k` put back is (p, k). -/
theorem lift_lane {a : ℕ} (h : (⟨2, ![a, 32]⟩ : Shape).Reduces [1] (⟨1, ![a]⟩ : Shape)) (p : Fin a)
    (k : Fin ((⟨2, ![a, 32]⟩ : Shape).size 1)) : h.lift (ix1 p) k = ix2 p (⟨k.val, k.isLt⟩ : Fin 32) := by
  funext c; apply Fin.ext
  fin_cases c <;> rfl

/-- A minimum reduction over one axis at the ideal values: the fold of `min` from the initial value over that axis. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The lanes' minimum from +∞, at row `p`, is `Spec.rowMin` of the row. -/
theorem rowMin_apply {a : ℕ} (x : FVec Ideal ⟨2, ![a, 32]⟩ .f32) (h : (⟨2, ![a, 32]⟩ : Shape).Reduces [1] (⟨1, ![a]⟩ : Shape))
    (hφ : FKind.Formats .f32) (hacc : (0x7F800000#32 : BitVec 32) = 0x7F800000#32) (p : Fin a) :
    multiReduction (F := Ideal) .minimumf [1] (⟨1, ![a]⟩ : Shape) x 0x7F800000#32 h hφ hacc (ix1 p)
      = Spec.rowMin (fun k => x (ix2 p k)) := by
  refine (multiReduction_minimumf_single x _ h hφ hacc (ix1 p)).trans ?_
  have hf : (x ∘ h.lift (ix1 p)) = fun k : Fin 32 => x (ix2 p k) := funext fun k => congrArg x (lift_lane h p k)
  exact congrArg (fun f => Finset.fold min (Ideal.ofBits .f32 0x7F800000#32) f (Finset.univ : Finset (Fin 32))) hf

/-- The lanes' maximum from −∞, at row `p`, is `Spec.rowMax` of the row. -/
theorem rowMax_apply {a : ℕ} (x : FVec Ideal ⟨2, ![a, 32]⟩ .f32) (h : (⟨2, ![a, 32]⟩ : Shape).Reduces [1] (⟨1, ![a]⟩ : Shape))
    (hφ : FKind.Formats .f32) (hacc : (0xFF800000#32 : BitVec 32) = 0xFF800000#32) (p : Fin a) :
    multiReduction (F := Ideal) .maximumf [1] (⟨1, ![a]⟩ : Shape) x 0xFF800000#32 h hφ hacc (ix1 p)
      = Spec.rowMax (fun k => x (ix2 p k)) := by
  refine (Ideal.multiReduction_maximumf_single x _ h hφ hacc (ix1 p)).trans ?_
  have hf : (x ∘ h.lift (ix1 p)) = fun k : Fin 32 => x (ix2 p k) := funext fun k => congrArg x (lift_lane h p k)
  exact congrArg (fun f => Finset.fold max (Ideal.ofBits .f32 0xFF800000#32) f (Finset.univ : Finset (Fin 32))) hf

end Cert.KernelIdeal.KFinal

end
-- ==== Proof.KFinalPayNorm.lean ====
/-
  A block's normalisation read at an index. Per row of a [2000, 32] block: the least and the greatest of the 32 lanes,
  then 2 (x − min) / (max − min + ε) − 1 at every lane — `Spec.mynorm` of the row. The printed program spells the
  same normalisation several times, some of them cut across three parts of the body: each spelling is this one.
-/
import proofs.«148936_j3496103379547_2_alg».proof.Proof.Spec
import proofs.«148936_j3496103379547_2_alg».proof.Proof.Gen.KernelIdeal.Skeleton
import proofs.«148936_j3496103379547_2_alg».proof.Proof.KFinalPayRow

noncomputable section

namespace Cert.KernelIdeal.KFinal

open Cert.KernelIdeal Cert.KernelIdeal.Gen Idealize.ShloMosaic Idealize.ShloMosaic.ValueIdx

/-- The pointwise part at (p, k), over any two columns `mn`, `mx` and any three scalars. -/
theorem norm_arith (v : FVec Ideal S2000x32 .f32) (mn mx : FVec Ideal S2000x1 .f32) (c2 ce c1 : Ideal .f32)
    (h : S2000x1.Broadcasts S2000x32) (p : Fin 2000) (k : Fin 32) :
    (subf (divf (mulf (broadcast S2000x32 c2) (subf v (broadcastTo S2000x32 mn h)))
        (broadcastTo S2000x32 (addf (subf mx mn) (broadcast S2000x1 ce)) h)) (broadcast S2000x32 c1) : FVec Ideal S2000x32 .f32) (ix2 p k)
      = Ideal.div (c2 * (v (ix2 p k) - mn (ix2 p (0 : Fin 1)))) ((mx (ix2 p (0 : Fin 1)) - mn (ix2 p (0 : Fin 1))) + ce) - c1 := by
  show Ideal.div (c2 * (v (ix2 p k) - broadcastTo S2000x32 mn h (ix2 p k)))
      (broadcastTo S2000x32 (addf (subf mx mn) (broadcast S2000x1 ce)) h (ix2 p k)) - c1 = _
  rw [broadcastTo_a1_ab_apply, broadcastTo_a1_ab_apply]
  rfl

/-- The normalisation of a block at (p, k) is `Spec.mynorm` of row `p` at lane `k`. -/
theorem norm_apply (v : FVec Ideal S2000x32 .f32) (p : Fin 2000) (k : Fin 32) :
    k7_pay14 (F := Ideal) v (ix2 p k) = Spec.mynorm (fun c => v (ix2 p c)) k := by
  unfold k7_pay14
  refine (norm_arith v _ _ _ _ _ _ p k).trans ?_
  rw [shapeCast_a_a1_apply, shapeCast_a_a1_apply, rowMin_apply, rowMax_apply]
  rfl

/-! ## The other spellings -/

theorem pay15_eq (v : FVec Ideal S2000x32 .f32) : k7_pay15 (F := Ideal) v = k7_pay14 v := rfl

theorem pay9_eq (x : Vec Ideal S2000x32 .f32) : k7_pay9 (F := Ideal) x = k7_pay14 (k7_pay2 x) := rfl

theorem pay13_eq (x : Vec Ideal S2000x32 .f32) :
    k7_pay13 (F := Ideal) (k7_pay10 x) (k7_pay11 x) (k7_pay12 x) = k7_pay14 (k7_pay3 x) := rfl

/-- The seven loaded blocks pass through a shape cast to their own shape. -/
theorem pay2_eq (x : Vec Ideal S2000x32 .f32) : k7_pay2 (F := Ideal) x = x := shapeCast_self _ _
theorem pay3_eq (x : Vec Ideal S2000x32 .f32) : k7_pay3 (F := Ideal) x = x := shapeCast_self _ _
theorem pay4_eq (x : Vec Ideal S2000x32 .f32) : k7_pay4 (F := Ideal) x = x := shapeCast_self _ _
theorem pay5_eq (x : Vec Ideal S2000x32 .f32) : k7_pay5 (F := Ideal) x = x := shapeCast_self _ _
theorem pay6_eq (x : Vec Ideal S2000x32 .f32) : k7_pay6 (F := Ideal) x = x := shapeCast_self _ _
theorem pay7_eq (x : Vec Ideal S2000x32 .f32) : k7_pay7 (F := Ideal) x = x := shapeCast_self _ _
theorem pay8_eq (x : Vec Ideal S2000x32 .f32) : k7_pay8 (F := Ideal) x = x := shapeCast_self _ _

/-- The last part of the body: the fifth block's normalisation finished, the sixth's and seventh's taken, the five
    differences, and the seven pieces laid side by side. -/
theorem pay19_eq (v1 v3 v11 v13 v28 v43 v58 v73 v9 : FVec Ideal S2000x32 .f32) :
    k7_pay19 (F := Ideal) v1 v3 v11 v13 v28 v43 v58 v73 (k7_pay16 v9) (k7_pay17 v9) (k7_pay18 v9)
      = truncf .bf16 (concatenate S2000x224 1
          [⟨S2000x32, v1⟩, ⟨S2000x32, v3⟩, ⟨S2000x32, subf v58 v28⟩, ⟨S2000x32, subf v73 v43⟩,
           ⟨S2000x32, subf (k7_pay14 v9) v58⟩, ⟨S2000x32, subf (k7_pay14 v11) v73⟩, ⟨S2000x32, subf (k7_pay14 v13) (k7_pay14 v9)⟩]
          concatenates_S2000x32_S2000x32_S2000x32_S2000x32_S2000x32_S2000x32_S2000x32_S2000x224_d1) bitsLt_bf16_f32 := rfl

end Cert.KernelIdeal.KFinal

end
-- ==== Proof.KFinalPayCat.lean ====
/-
  Seven [a, 32] arrays laid side by side along the lanes, read at an index: entry (p, k) of the [a, 224] result is
  entry (p, k % 32) of piece k / 32 — `Spec.cat7` of the seven rows.
-/
import proofs.«148936_j3496103379547_2_alg».proof.Proof.Spec
import Idealize.ShloMosaic.Lib.Pipeline.Value

noncomputable section

namespace Cert.KernelIdeal.KFinal

open Idealize.ShloMosaic Idealize.ShloMosaic.ValueIdx

/-- Row `p` of piece `n` of seven arrays is piece `n` of the seven rows. -/
theorem row_of_pieces {a : ℕ} (y0 y1 y2 y3 y4 y5 y6 : (⟨2, ![a, 32]⟩ : Shape).Idx → EReal) (p : Fin a) (n : Fin 7) (c : Fin 32) :
    (![y0, y1, y2, y3, y4, y5, y6] n) (ix2 p c)
      = (![fun c => y0 (ix2 p c), fun c => y1 (ix2 p c), fun c => y2 (ix2 p c), fun c => y3 (ix2 p c),
          fun c => y4 (ix2 p c), fun c => y5 (ix2 p c), fun c => y6 (ix2 p c)] : Fin 7 → Fin 32 → EReal) n c := by
  fin_cases n <;> rfl

/-- The concatenation of seven [a, 32] arrays along axis 1 at (p, k). -/
theorem concat7_apply {a : ℕ} (y0 y1 y2 y3 y4 y5 y6 : (⟨2, ![a, 32]⟩ : Shape).Idx → EReal)
    (h : Shape.Concatenates [(⟨2, ![a, 32]⟩ : Shape), ⟨2, ![a, 32]⟩, ⟨2, ![a, 32]⟩, ⟨2, ![a, 32]⟩, ⟨2, ![a, 32]⟩, ⟨2, ![a, 32]⟩, ⟨2, ![a, 32]⟩]
      (⟨2, ![a, 224]⟩ : Shape) 1) (p : Fin a) (k : Fin 224) :
    concatenate (⟨2, ![a, 224]⟩ : Shape) 1
        [⟨(⟨2, ![a, 32]⟩ : Shape), y0⟩, ⟨(⟨2, ![a, 32]⟩ : Shape), y1⟩, ⟨(⟨2, ![a, 32]⟩ : Shape), y2⟩, ⟨(⟨2, ![a, 32]⟩ : Shape), y3⟩,
         ⟨(⟨2, ![a, 32]⟩ : Shape), y4⟩, ⟨(⟨2, ![a, 32]⟩ : Shape), y5⟩, ⟨(⟨2, ![a, 32]⟩ : Shape), y6⟩] h (ix2 p k)
      = Spec.cat7 ![fun c => y0 (ix2 p c), fun c => y1 (ix2 p c), fun c => y2 (ix2 p c), fun c => y3 (ix2 p c),
          fun c => y4 (ix2 p c), fun c => y5 (ix2 p c), fun c => y6 (ix2 p c)] k := by
  have hk := k.isLt
  have e := concatenate_ofFn_apply (t := (⟨2, ![a, 224]⟩ : Shape)) (s₁ := (⟨2, ![a, 32]⟩ : Shape)) (1 : Fin 2)
    (![y0, y1, y2, y3, y4, y5, y6] : Fin 7 → ((⟨2, ![a, 32]⟩ : Shape).Idx → EReal)) h rfl 32 rfl (ix2 p k)
    (⟨k.val / 32, by omega⟩ : Fin 7) rfl (ix2 p (⟨k.val % 32, Nat.mod_lt _ (by decide)⟩ : Fin 32)) rfl
    (fun b hb => by
      match b with
      | ⟨0, _⟩ => rfl
      | ⟨1, _⟩ => exact absurd rfl hb)
  exact e.trans (row_of_pieces y0 y1 y2 y3 y4 y5 y6 p _ _)

end Cert.KernelIdeal.KFinal

end
-- ==== Proof.KFinalPayDense.lean ====
/-
  The last dense layer's arithmetic read at an index: a product of a [2000, 224] block with the [224, 16] weight,
  accumulated from zero, plus the bias row broadcast down the rows, is at (p, q) the sum over the 224 input features
  of the block's entry (p, k) times the weight's entry (k, q), plus the bias' entry q.
-/
import proofs.«148936_j3496103379547_2_alg».proof.Proof.Spec
import proofs.«148936_j3496103379547_2_alg».proof.Proof.Gen.KernelIdeal.Skeleton
import Idealize.ShloMosaic.Lib.ValueLayout
import Idealize.ShloMosaic.PureOps.Ideal.Laws

noncomputable section

namespace Cert.KernelIdeal.KFinal

open Cert.KernelIdeal Cert.KernelIdeal.Gen Idealize.ShloMosaic Idealize.ShloMosaic.ValueIdx
open scoped BigOperators

/-- The left operand's row coordinate is the output's row. -/
theorem lhs_row (i : S2000x16.Idx) (z : dot_S2000x224_S224x16_S2000x16_1_0_0_1_n_n.contr.Idx) :
    (dot_S2000x224_S224x16_S2000x16_1_0_0_1_n_n.lhsIdx i z 0).val = (i 0).val := by
  unfold DotDims.lhsIdx
  rw [dif_neg (show ¬(0 : Fin S2000x224.rank) ∈ dot_S2000x224_S224x16_S2000x16_1_0_0_1_n_n.lhsBatch by decide), dif_pos (show (0 : Fin S2000x224.rank) ∈ dot_S2000x224_S224x16_S2000x16_1_0_0_1_n_n.lhsNonContracting by decide)]
  rfl

/-- The right operand's column coordinate is the output's column. -/
theorem rhs_col (i : S2000x16.Idx) (z : dot_S2000x224_S224x16_S2000x16_1_0_0_1_n_n.contr.Idx) :
    (dot_S2000x224_S224x16_S2000x16_1_0_0_1_n_n.rhsIdx i z 1).val = (i 1).val := by
  unfold DotDims.rhsIdx
  rw [dif_neg (show ¬(1 : Fin S224x16.rank) ∈ dot_S2000x224_S224x16_S2000x16_1_0_0_1_n_n.rhsBatch by decide), dif_pos (show (1 : Fin S224x16.rank) ∈ dot_S2000x224_S224x16_S2000x16_1_0_0_1_n_n.rhsNonContracting by decide)]
  rfl

/-- The product accumulated from zero, at (p, q): the sum over the contracted axis. -/
theorem matmul_zero_apply (l : FVec Ideal S2000x224 .bf16) (r : FVec Ideal S224x16 .bf16) (p : Fin 2000) (q : Fin 16) :
    matmul dot_S2000x224_S224x16_S2000x16_1_0_0_1_n_n none l r (constant (F := Ideal) S2000x16 .f32 0x00000000#32) (ix2 p q)
      = ∑ k : Fin 224, l (ix2 p k) * r (ix2 k q) := by
  simp only [matmul]
  rw [Ideal.matmul_constant_zero_apply, ← Equiv.sum_comp (contrEquiv1 dot_S2000x224_S224x16_S2000x16_1_0_0_1_n_n 224 rfl rfl).symm]
  refine Finset.sum_congr rfl fun k _ => ?_
  have hk := contrEquiv1_symm_val dot_S2000x224_S224x16_S2000x16_1_0_0_1_n_n 224 rfl rfl k
  have el : dot_S2000x224_S224x16_S2000x16_1_0_0_1_n_n.lhsIdx (ix2 p q) ((contrEquiv1 dot_S2000x224_S224x16_S2000x16_1_0_0_1_n_n 224 rfl rfl).symm k) = ix2 p k := funext fun a => Fin.ext (by
    match a with
    | ⟨0, _⟩ => exact lhs_row _ _
    | ⟨1, _⟩ => exact (dot_S2000x224_S224x16_S2000x16_1_0_0_1_n_n.lhsIdx_val_of_single rfl _ _).trans hk)
  have er : dot_S2000x224_S224x16_S2000x16_1_0_0_1_n_n.rhsIdx (ix2 p q) ((contrEquiv1 dot_S2000x224_S224x16_S2000x16_1_0_0_1_n_n 224 rfl rfl).symm k) = ix2 k q := funext fun a => Fin.ext (by
    match a with
    | ⟨0, _⟩ => exact (dot_S2000x224_S224x16_S2000x16_1_0_0_1_n_n.rhsIdx_val_of_single rfl _ _).trans hk
    | ⟨1, _⟩ => exact rhs_col _ _)
  rw [el, er]

/-- The stored value's arithmetic at (p, q). -/
theorem dense_apply (l : FVec Ideal S2000x224 .bf16) (r : FVec Ideal S224x16 .bf16) (b : Vec Ideal S1x16 .f32) (p : Fin 2000) (q : Fin 16) :
    k7_pay1 (F := Ideal) l r b (ix2 p q) = (∑ k : Fin 224, l (ix2 p k) * r (ix2 k q)) + b (ix2 (0 : Fin 1) q) := by
  unfold k7_pay1
  show matmul dot_S2000x224_S224x16_S2000x16_1_0_0_1_n_n none l r (constant (F := Ideal) S2000x16 .f32 0x00000000#32) (ix2 p q)
      + broadcastTo S2000x16 (shapeCast S1x16 b shapeCasts_S1x16_S1x16) broadcasts_S1x16_S2000x16 (ix2 p q) = _
  rw [matmul_zero_apply, shapeCast_self, broadcastTo_1b_ab_apply]

end Cert.KernelIdeal.KFinal

end
-- ==== Proof.KFinalPay.lean ====
/-
  The value the last kernel stores, at an index. From seven [2000, 32] blocks, the [224, 16] weight and the bias row:
  the seven blocks' rows at `p`, the later five replaced by differences of normalised rows, laid side by side
  (`Spec.cat7 (Spec.pieces …)`), through the dense layer `Spec.lin` at output feature `q`.
-/
import proofs.«148936_j3496103379547_2_alg».proof.Proof.Spec
import proofs.«148936_j3496103379547_2_alg».proof.Proof.Gen.KernelIdeal.Skeleton
import proofs.«148936_j3496103379547_2_alg».proof.Proof.KFinalPayNorm
import proofs.«148936_j3496103379547_2_alg».proof.Proof.KFinalPayCat
import proofs.«148936_j3496103379547_2_alg».proof.Proof.KFinalPayDense

noncomputable section

namespace Cert.KernelIdeal.KFinal

open Cert.KernelIdeal Cert.KernelIdeal.Gen Idealize.ShloMosaic Idealize.ShloMosaic.ValueIdx
open scoped BigOperators

/-- The dense layer's input at (p, k): entry `k` of the seven pieces of row `p` laid side by side. -/
theorem input_apply (x0 x1 x2 x3 x4 x5 x6 : Vec Ideal S2000x32 .f32) (p : Fin 2000) (k : Fin 224) :
    (k7_pay19 (F := Ideal) (k7_pay2 x0) (k7_pay3 x1) (k7_pay7 x5) (k7_pay8 x6) (k7_pay9 x0) (k7_pay13 (k7_pay10 x1) (k7_pay11 x1) (k7_pay12 x1)) (k7_pay14 (k7_pay4 x2)) (k7_pay15 (k7_pay5 x3)) (k7_pay16 (k7_pay6 x4)) (k7_pay17 (k7_pay6 x4)) (k7_pay18 (k7_pay6 x4))) (ix2 p k)
      = Spec.cat7 (Spec.pieces (fun k => x0 (ix2 p k)) (fun k => x1 (ix2 p k)) (fun k => x2 (ix2 p k)) (fun k => x3 (ix2 p k)) (fun k => x4 (ix2 p k)) (fun k => x5 (ix2 p k)) (fun k => x6 (ix2 p k))) k := by
  rw [pay9_eq, pay13_eq, pay15_eq, pay2_eq, pay3_eq, pay4_eq, pay5_eq, pay6_eq, pay7_eq, pay8_eq, pay19_eq]
  refine (concat7_apply _ _ _ _ _ _ _ concatenates_S2000x32_S2000x32_S2000x32_S2000x32_S2000x32_S2000x32_S2000x32_S2000x224_d1 p k).trans (congrArg (fun P => Spec.cat7 P k) ?_)
  unfold Spec.pieces
  simp only [subf_apply, norm_apply]

/-- The stored value at (p, q). -/
theorem payload_apply (x0 x1 x2 x3 x4 x5 x6 : Vec Ideal S2000x32 .f32) (x7 : Vec Ideal S224x16 .f32) (x8 : Vec Ideal S1x16 .f32)
    (p : Fin 2000) (q : Fin 16) :
    (k7_pay1 (F := Ideal) (k7_pay19 (k7_pay2 x0) (k7_pay3 x1) (k7_pay7 x5) (k7_pay8 x6) (k7_pay9 x0) (k7_pay13 (k7_pay10 x1) (k7_pay11 x1) (k7_pay12 x1)) (k7_pay14 (k7_pay4 x2)) (k7_pay15 (k7_pay5 x3)) (k7_pay16 (k7_pay6 x4)) (k7_pay17 (k7_pay6 x4)) (k7_pay18 (k7_pay6 x4))) (k7_pay20 x7) x8) (ix2 p q)
      = Spec.lin (Spec.cat7 (Spec.pieces (fun k => x0 (ix2 p k)) (fun k => x1 (ix2 p k)) (fun k => x2 (ix2 p k)) (fun k => x3 (ix2 p k)) (fun k => x4 (ix2 p k)) (fun k => x5 (ix2 p k)) (fun k => x6 (ix2 p k))))
          (fun k j => x7 (ix2 k j)) (fun j => x8 (ix2 (0 : Fin 1) j)) q := by
  rw [dense_apply]
  unfold Spec.lin
  refine congrArg (· + x8 (ix2 (0 : Fin 1) q)) (Finset.sum_congr rfl fun k _ => ?_)
  rw [input_apply]
  rfl

end Cert.KernelIdeal.KFinal

end
-- ==== Proof.KFinal.lean ====
/-
  The last kernel's output array. Each of the 50 grid points writes back one block of 2000 rows; the block a point
  `t` writes is rows 2000 t … 2000 t + 1999 of ONE function of the arrays the region finds: the last layer
  (`Spec.final`) of the seven feature maps, the weight and the bias row. The 50 blocks cover the 100000 rows, so the
  array ends holding that function.
-/
import proofs.«148936_j3496103379547_2_alg».proof.Proof.Spec
import proofs.«148936_j3496103379547_2_alg».proof.Proof.Gen.KernelIdeal.Frame
import proofs.«148936_j3496103379547_2_alg».proof.Proof.KFinalPay
import Idealize.ShloMosaic.Lib.Pipeline.Value

noncomputable section

namespace Cert.KernelIdeal.KFinal

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The last layer of the arrays as the region finds them, as an array of 100000 rows of 16. -/
abbrev result (c : Dev nD) : S100000x16.Idx → EReal :=
  Spec.of2 (Spec.final (Spec.un2 (V c main_v31)) (Spec.un2 (V c main_v50)) (Spec.un2 (V c main_v69)) (Spec.un2 (V c main_v88)) (Spec.un2 (V c main_v107)) (Spec.un2 (V c main_v126)) (Spec.un2 (V c main_v145)) (Spec.un2 (V c main_arg6)) (Spec.unRow (V c main_v146)))

/-- The printed index maps over the grid: a feature map's block row is the point, its block column 0; the weight and
    the bias are whole. -/
theorem index_in : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_5.index t (0 : Fin 2) = t.val ∧ win7_5.index t (1 : Fin 2) = 0
    ∧ win7_6.index t (0 : Fin 2) = t.val ∧ win7_6.index t (1 : Fin 2) = 0
    ∧ win7_7.index t (0 : Fin 2) = 0 ∧ win7_7.index t (1 : Fin 2) = 0
    ∧ win7_8.index t (0 : Fin 2) = 0 ∧ win7_8.index t (1 : Fin 2) = 0 :=
  (by decide +kernel : ∀ t : Fin grid7.N, _)

/-- The output's block row is the point, its block column 0. -/
theorem index_out : ∀ t : Fin cfg7.N, win7_9.index t (0 : Fin 2) = t.val ∧ win7_9.index t (1 : Fin 2) = 0 :=
  (by decide +kernel : ∀ t : Fin grid7.N, _)

/-- What point `t` writes back is block `t` of `result`. -/
theorem flushed_eq (c : Dev nD) (t : Fin cfg7.N) :
    (dat7 (F := Ideal) V c).flushed 9 t = ((cfg7.win 9).blk t).view.read (Elt Ideal) (result V c) := by
  show (cfg7.win 9).cut (grid7.coords t) ((dat7 (F := Ideal) V c).after 9 t) = _
  rw [after7_9]
  unfold out7_9
  rw [View.canon_unit_zero zero_offsets]
  simp only [View.ld_unit_zero (S := S2000x32) zero_offsets, View.ld_unit_zero (S := S224x16) zero_offsets,
    View.ld_unit_zero (S := S1x16) zero_offsets]
  obtain ⟨a0, b0, a1, b1, a2, b2, a3, b3, a4, b4, a5, b5, a6, b6, a7, b7, a8, b8⟩ := index_in t
  obtain ⟨a9, b9⟩ := index_out t
  have ht : t.val < 50 := lt_of_lt_of_eq t.isLt N_7
  funext j
  obtain ⟨p, q, rfl⟩ : ∃ (p : Fin 2000) (q : Fin 16), j = ix2 p q := ⟨j 0, j 1, eq_ix2 j⟩
  have hp : p.val < 2000 := p.isLt
  let r : Fin 100000 := ⟨t.val * 2000 + p.val, by omega⟩
  refine (payload_apply (iblk7 V c 0 t) (iblk7 V c 1 t) (iblk7 V c 2 t) (iblk7 V c 3 t) (iblk7 V c 4 t) (iblk7 V c 5 t)
    (iblk7 V c 6 t) (iblk7 V c 7 t) (iblk7 V c 8 t) p q).trans ?_
  have hi : ((cfg7.win 9).blk t).view.emb (ix2 p q) = ix2 r q := funext fun a => Fin.ext (by
    match a with
    | ⟨0, _⟩ => show win7_9.index t (0 : Fin 2) * 2000 + 1 * p.val = t.val * 2000 + p.val; omega
    | ⟨1, _⟩ => show win7_9.index t (1 : Fin 2) * 16 + 1 * q.val = q.val; omega)
  refine Eq.trans ?_ (congrArg (result V c) hi).symm
  have h0 : (fun k => iblk7 V c 0 t (ix2 p k)) = Spec.un2 (V c main_v31) r := by
    funext k
    show V c main_v31 (((cfg7.win 0).blk t).view.emb (ix2 p k)) = V c main_v31 (ix2 r k)
    refine congrArg (V c main_v31) (funext fun a => Fin.ext ?_)
    match a with
    | ⟨0, _⟩ => show win7_0.index t (0 : Fin 2) * 2000 + 1 * p.val = t.val * 2000 + p.val; omega
    | ⟨1, _⟩ => show win7_0.index t (1 : Fin 2) * 32 + 1 * k.val = k.val; omega
  have h1 : (fun k => iblk7 V c 1 t (ix2 p k)) = Spec.un2 (V c main_v50) r := by
    funext k
    show V c main_v50 (((cfg7.win 1).blk t).view.emb (ix2 p k)) = V c main_v50 (ix2 r k)
    refine congrArg (V c main_v50) (funext fun a => Fin.ext ?_)
    match a with
    | ⟨0, _⟩ => show win7_1.index t (0 : Fin 2) * 2000 + 1 * p.val = t.val * 2000 + p.val; omega
    | ⟨1, _⟩ => show win7_1.index t (1 : Fin 2) * 32 + 1 * k.val = k.val; omega
  have h2 : (fun k => iblk7 V c 2 t (ix2 p k)) = Spec.un2 (V c main_v69) r := by
    funext k
    show V c main_v69 (((cfg7.win 2).blk t).view.emb (ix2 p k)) = V c main_v69 (ix2 r k)
    refine congrArg (V c main_v69) (funext fun a => Fin.ext ?_)
    match a with
    | ⟨0, _⟩ => show win7_2.index t (0 : Fin 2) * 2000 + 1 * p.val = t.val * 2000 + p.val; omega
    | ⟨1, _⟩ => show win7_2.index t (1 : Fin 2) * 32 + 1 * k.val = k.val; omega
  have h3 : (fun k => iblk7 V c 3 t (ix2 p k)) = Spec.un2 (V c main_v88) r := by
    funext k
    show V c main_v88 (((cfg7.win 3).blk t).view.emb (ix2 p k)) = V c main_v88 (ix2 r k)
    refine congrArg (V c main_v88) (funext fun a => Fin.ext ?_)
    match a with
    | ⟨0, _⟩ => show win7_3.index t (0 : Fin 2) * 2000 + 1 * p.val = t.val * 2000 + p.val; omega
    | ⟨1, _⟩ => show win7_3.index t (1 : Fin 2) * 32 + 1 * k.val = k.val; omega
  have h4 : (fun k => iblk7 V c 4 t (ix2 p k)) = Spec.un2 (V c main_v107) r := by
    funext k
    show V c main_v107 (((cfg7.win 4).blk t).view.emb (ix2 p k)) = V c main_v107 (ix2 r k)
    refine congrArg (V c main_v107) (funext fun a => Fin.ext ?_)
    match a with
    | ⟨0, _⟩ => show win7_4.index t (0 : Fin 2) * 2000 + 1 * p.val = t.val * 2000 + p.val; omega
    | ⟨1, _⟩ => show win7_4.index t (1 : Fin 2) * 32 + 1 * k.val = k.val; omega
  have h5 : (fun k => iblk7 V c 5 t (ix2 p k)) = Spec.un2 (V c main_v126) r := by
    funext k
    show V c main_v126 (((cfg7.win 5).blk t).view.emb (ix2 p k)) = V c main_v126 (ix2 r k)
    refine congrArg (V c main_v126) (funext fun a => Fin.ext ?_)
    match a with
    | ⟨0, _⟩ => show win7_5.index t (0 : Fin 2) * 2000 + 1 * p.val = t.val * 2000 + p.val; omega
    | ⟨1, _⟩ => show win7_5.index t (1 : Fin 2) * 32 + 1 * k.val = k.val; omega
  have h6 : (fun k => iblk7 V c 6 t (ix2 p k)) = Spec.un2 (V c main_v145) r := by
    funext k
    show V c main_v145 (((cfg7.win 6).blk t).view.emb (ix2 p k)) = V c main_v145 (ix2 r k)
    refine congrArg (V c main_v145) (funext fun a => Fin.ext ?_)
    match a with
    | ⟨0, _⟩ => show win7_6.index t (0 : Fin 2) * 2000 + 1 * p.val = t.val * 2000 + p.val; omega
    | ⟨1, _⟩ => show win7_6.index t (1 : Fin 2) * 32 + 1 * k.val = k.val; omega
  have h7 : (fun k j => iblk7 V c 7 t (ix2 k j)) = Spec.un2 (V c main_arg6) := by
    funext k j
    show V c main_arg6 (((cfg7.win 7).blk t).view.emb (ix2 k j)) = V c main_arg6 (ix2 k j)
    refine congrArg (V c main_arg6) (funext fun a => Fin.ext ?_)
    match a with
    | ⟨0, _⟩ => show win7_7.index t (0 : Fin 2) * 224 + 1 * k.val = k.val; omega
    | ⟨1, _⟩ => show win7_7.index t (1 : Fin 2) * 16 + 1 * j.val = j.val; omega
  have h8 : (fun j => iblk7 V c 8 t (ix2 (0 : Fin 1) j)) = Spec.unRow (V c main_v146) := by
    funext j
    show V c main_v146 (((cfg7.win 8).blk t).view.emb (ix2 (0 : Fin 1) j)) = V c main_v146 (ix2 (0 : Fin 1) j)
    refine congrArg (V c main_v146) (funext fun a => Fin.ext ?_)
    match a with
    | ⟨0, _⟩ => show win7_8.index t (0 : Fin 2) * 1 + 1 * 0 = 0; omega
    | ⟨1, _⟩ => show win7_8.index t (1 : Fin 2) * 16 + 1 * j.val = j.val; omega
  rw [h0, h1, h2, h3, h4, h5, h6, h7, h8]
  rfl

/-- An index of the array is in point `t`'s block iff each coordinate is in the block's range on its axis. -/
theorem mem_blk (t : Fin cfg7.N) (i : S100000x16.Idx) :
    i ∈ ((cfg7.win 9).blk t).view.set ↔ ∀ a : Fin 2, win7_9.index t a * S2000x16.size a ≤ (i a).val ∧ (i a).val < win7_9.index t a * S2000x16.size a + S2000x16.size a := by
  show i ∈ ((View.whole main_v147).slice (win7_9.rect t)).set ↔ _
  rw [View.set_slice_whole, Rect.mem_set_unit]
  exact Iff.rfl

/-- Every row is in the block of the point its row number over 2000 names. -/
theorem cover (i : S100000x16.Idx) : ∃ t : Fin cfg7.N, (cfg7.win 9).flush t = true ∧ i ∈ ((cfg7.win 9).blk t).view.set := by
  have hi0 : (i 0).val < 100000 := (i 0).isLt
  have hi1 : (i 1).val < 16 := (i 1).isLt
  have hlt : (i 0).val / 2000 < cfg7.N := lt_of_lt_of_eq (by omega : (i 0).val / 2000 < 50) N_7.symm
  obtain ⟨a9, b9⟩ := index_out ⟨(i 0).val / 2000, hlt⟩
  have a9' : win7_9.index ⟨(i 0).val / 2000, hlt⟩ (0 : Fin 2) = (i 0).val / 2000 := a9
  refine ⟨⟨(i 0).val / 2000, hlt⟩, flush7_9 _, ?_⟩
  rw [mem_blk]
  intro a
  match a with
  | ⟨0, _⟩ =>
    show win7_9.index ⟨(i 0).val / 2000, hlt⟩ (0 : Fin 2) * 2000 ≤ (i 0).val ∧ (i 0).val < win7_9.index ⟨(i 0).val / 2000, hlt⟩ (0 : Fin 2) * 2000 + 2000
    omega
  | ⟨1, _⟩ =>
    show win7_9.index ⟨(i 0).val / 2000, hlt⟩ (1 : Fin 2) * 16 ≤ (i 1).val ∧ (i 1).val < win7_9.index ⟨(i 0).val / 2000, hlt⟩ (1 : Fin 2) * 16 + 16
    omega

/-- THE ARRAY after the region: the last layer of the feature maps, the weight and the bias row as the region finds them. -/
theorem final (c : Dev nD) :
    (dat7 (F := Ideal) V c).arrAt 9 cfg7.N = Spec.of2 (Spec.final (Spec.un2 (V c main_v31)) (Spec.un2 (V c main_v50)) (Spec.un2 (V c main_v69)) (Spec.un2 (V c main_v88)) (Spec.un2 (V c main_v107)) (Spec.un2 (V c main_v126)) (Spec.un2 (V c main_v145)) (Spec.un2 (V c main_arg6)) (Spec.unRow (V c main_v146))) :=
  (dat7 (F := Ideal) V c).arrAt_eq_of_cover 9 (result V c) (fun t _ => flushed_eq V c t) cover

end Cert.KernelIdeal.KFinal

end
-- ==== Proof.KChain.lean ====
/-
  The chain through the kernel program: each region's output array is the network's feature map of that layer, as one
  function of the argument arrays and of the three arrays computed from the edge list.

  A region's output is the layer's function of the three arrays it reads as it finds them; the stretch before it
  computed those from the feature map before and from the kept arguments; the feature map before is the previous
  equation. Seven feature maps, then the last layer over all seven.
-/
import proofs.«148936_j3496103379547_2_alg».proof.Proof.Gen.KernelIdeal.Frame
import proofs.«148936_j3496103379547_2_alg».proof.Proof.Net
import proofs.«148936_j3496103379547_2_alg».proof.Proof.KKeep
import proofs.«148936_j3496103379547_2_alg».proof.Proof.KChainKeep
import proofs.«148936_j3496103379547_2_alg».proof.Proof.KChainReads
import proofs.«148936_j3496103379547_2_alg».proof.Proof.KDense0
import proofs.«148936_j3496103379547_2_alg».proof.Proof.KLayer1
import proofs.«148936_j3496103379547_2_alg».proof.Proof.KLayer2
import proofs.«148936_j3496103379547_2_alg».proof.Proof.KLayer3
import proofs.«148936_j3496103379547_2_alg».proof.Proof.KLayer4
import proofs.«148936_j3496103379547_2_alg».proof.Proof.KLayer5
import proofs.«148936_j3496103379547_2_alg».proof.Proof.KLayer6
import proofs.«148936_j3496103379547_2_alg».proof.Proof.KFinal
import Idealize.ShloMosaic.Lib.StableHlo.Run

set_option maxRecDepth 16384

noncomputable section

namespace Cert.KernelIdeal.KChain

open Cert.KernelIdeal Cert.KernelIdeal.Gen Cert.KernelIdeal.KKeep
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first layer -/

theorem arg3_at2 (c : Dev nD) : W2 m ρ c (Proc.devRef .tc main_arg3) = A3 m c :=
  (keep_h0_1 m ρ c main_arg3 (by decide)).trans (keep_h0 m ρ c main_arg3 (by decide))

/-- The first layer's region leaves the first feature map of the arguments. -/
theorem x0_eq (c : Dev nD) : W4 m ρ c (Proc.devRef .tc main_v31) = Cert.Net.x0T (A0 m c) (A2 m c) (A3 m c) := by
  refine (W4_arr m ρ c 3).trans ?_
  refine (Cert.KernelIdeal.KDense0.final (V3 m ρ) c).trans ?_
  unfold V3
  rw [arg0_at3, arg2_at3, v30_at3, arg3_at2, Cert.Net.unRow_shapeCast]
  rfl

/-! ## The six middle layers -/

/-- Middle layer 1's region leaves feature map 1. -/
theorem x1_eq (c : Dev nD) : W6 m ρ c (Proc.devRef .tc main_v50) = Cert.Net.x1T (G5 m ρ c) (G6 m ρ c) (G29 m ρ c) (A0 m c) (A2 m c) (A3 m c) (A4 m c) (A5 m c) := by
  refine (W6_arr m ρ c 3).trans ?_
  refine (Cert.KernelIdeal.KLayer1.final (V5 m ρ) c).trans ?_
  unfold V5
  rw [agg_1, wgt_1, bias_1, v5_at4, v6_at4, v29_at4, arg4_at4, arg5_at4, x0_eq, Cert.Net.unRow_shapeCast]
  rfl

/-- Middle layer 2's region leaves feature map 2. -/
theorem x2_eq (c : Dev nD) : W8 m ρ c (Proc.devRef .tc main_v69) = Cert.Net.x2T (G5 m ρ c) (G6 m ρ c) (G29 m ρ c) (A0 m c) (A2 m c) (A3 m c) (A4 m c) (A5 m c) := by
  refine (W8_arr m ρ c 3).trans ?_
  refine (Cert.KernelIdeal.KLayer2.final (V7 m ρ) c).trans ?_
  unfold V7
  rw [agg_2, wgt_2, bias_2, v5_at6, v6_at6, v29_at6, arg4_at6, arg5_at6, x1_eq, Cert.Net.unRow_shapeCast]
  rfl

/-- Middle layer 3's region leaves feature map 3. -/
theorem x3_eq (c : Dev nD) : W10 m ρ c (Proc.devRef .tc main_v88) = Cert.Net.x3T (G5 m ρ c) (G6 m ρ c) (G29 m ρ c) (A0 m c) (A2 m c) (A3 m c) (A4 m c) (A5 m c) := by
  refine (W10_arr m ρ c 3).trans ?_
  refine (Cert.KernelIdeal.KLayer3.final (V9 m ρ) c).trans ?_
  unfold V9
  rw [agg_3, wgt_3, bias_3, v5_at8, v6_at8, v29_at8, arg4_at8, arg5_at8, x2_eq, Cert.Net.unRow_shapeCast]
  rfl

/-- Middle layer 4's region leaves feature map 4. -/
theorem x4_eq (c : Dev nD) : W12 m ρ c (Proc.devRef .tc main_v107) = Cert.Net.x4T (G5 m ρ c) (G6 m ρ c) (G29 m ρ c) (A0 m c) (A2 m c) (A3 m c) (A4 m c) (A5 m c) := by
  refine (W12_arr m ρ c 3).trans ?_
  refine (Cert.KernelIdeal.KLayer4.final (V11 m ρ) c).trans ?_
  unfold V11
  rw [agg_4, wgt_4, bias_4, v5_at10, v6_at10, v29_at10, arg4_at10, arg5_at10, x3_eq, Cert.Net.unRow_shapeCast]
  rfl

/-- Middle layer 5's region leaves feature map 5. -/
theorem x5_eq (c : Dev nD) : W14 m ρ c (Proc.devRef .tc main_v126) = Cert.Net.x5T (G5 m ρ c) (G6 m ρ c) (G29 m ρ c) (A0 m c) (A2 m c) (A3 m c) (A4 m c) (A5 m c) := by
  refine (W14_arr m ρ c 3).trans ?_
  refine (Cert.KernelIdeal.KLayer5.final (V13 m ρ) c).trans ?_
  unfold V13
  rw [agg_5, wgt_5, bias_5, v5_at12, v6_at12, v29_at12, arg4_at12, arg5_at12, x4_eq, Cert.Net.unRow_shapeCast]
  rfl

/-- Middle layer 6's region leaves feature map 6. -/
theorem x6_eq (c : Dev nD) : W16 m ρ c (Proc.devRef .tc main_v145) = Cert.Net.x6T (G5 m ρ c) (G6 m ρ c) (G29 m ρ c) (A0 m c) (A2 m c) (A3 m c) (A4 m c) (A5 m c) := by
  refine (W16_arr m ρ c 3).trans ?_
  refine (Cert.KernelIdeal.KLayer6.final (V15 m ρ) c).trans ?_
  unfold V15
  rw [agg_6, wgt_6, bias_6, v5_at14, v6_at14, v29_at14, arg4_at14, arg5_at14, x5_eq, Cert.Net.unRow_shapeCast]
  rfl

/-! ## The last layer -/

/-- The last region leaves the network's result. -/
theorem result_eq (c : Dev nD) : W18 m ρ c (Proc.devRef .tc main_v147)
    = Cert.Net.net (G5 m ρ c) (G6 m ρ c) (G29 m ρ c) (A0 m c) (A2 m c) (A3 m c) (A4 m c) (A5 m c) (A6 m c) (A7 m c) := by
  refine (W18_arr m ρ c 9).trans ?_
  refine (Cert.KernelIdeal.KFinal.final (V17 m ρ) c).trans ?_
  unfold V17
  rw [v31_at17, v50_at17, v69_at17, v88_at17, v107_at17, v126_at17, v145_at17, arg6_at17, v146_at17, arg7_at16,
    x0_eq, x1_eq, x2_eq, x3_eq, x4_eq, x5_eq, x6_eq, Cert.Net.unRow_shapeCast]
  rfl

end Cert.KernelIdeal.KChain

end
-- ==== Proof.RLayer.lean ====
/-
  The reference's spelling of a middle layer — a product of the aggregate with the layer's weight, plus the bias
  broadcast first to one row and then over all rows — is, entry by entry, the dense layer of the specification.
-/
import proofs.«148936_j3496103379547_2_alg».proof.Proof.Spec
import proofs.«148936_j3496103379547_2_alg».proof.Proof.Gen.ReferenceIdeal
import Idealize.ShloMosaic.Lib.Pipeline.Value
import Idealize.ShloMosaic.Lib.ValueIdx
import Idealize.ShloMosaic.PureOps.Ideal.Laws

noncomputable section

open scoped BigOperators

namespace Cert.ReferenceIdeal.RLayer

open Cert.ReferenceIdeal Cert.ReferenceIdeal.Gen Idealize.ShloMosaic Idealize.ShloMosaic.ValueIdx Idealize.SL.Sem

/-- The product's entry (r, j) is the sum over the 32 input features k of a(r, k) · w(k, j). -/
theorem dot_apply (a : FVec Ideal S100000x32 .f32) (w : FVec Ideal S32x32 .f32) (r : Fin 100000) (j : Fin 32) :
    Host.dotGeneral (F := Ideal) dot_S100000x32_S32x32_S100000x32_1_0_0_1_n_n none a w (ix2 r j)
      = ∑ k : Fin 32, a (ix2 r k) * w (ix2 k j) := by
  simp only [Host.dotGeneral]
  rw [Ideal.dotGeneral_apply, ← Equiv.sum_comp (ValueIdx.contrEquiv1 dot_S100000x32_S32x32_S100000x32_1_0_0_1_n_n 32 rfl rfl).symm]
  refine Finset.sum_congr rfl fun k _ => ?_
  have hk := ValueIdx.contrEquiv1_symm_val dot_S100000x32_S32x32_S100000x32_1_0_0_1_n_n 32 rfl rfl k
  have el : dot_S100000x32_S32x32_S100000x32_1_0_0_1_n_n.lhsIdx (ix2 r j) ((ValueIdx.contrEquiv1 dot_S100000x32_S32x32_S100000x32_1_0_0_1_n_n 32 rfl rfl).symm k) = ix2 r k := funext fun ax => Fin.ext (by
    match ax with
    | ⟨0, _⟩ =>
      show (dot_S100000x32_S32x32_S100000x32_1_0_0_1_n_n.lhsIdx (ix2 r j) _ 0).val = r.val
      unfold DotDims.lhsIdx
      rw [dif_neg (show ¬(0 : Fin S100000x32.rank) ∈ dot_S100000x32_S32x32_S100000x32_1_0_0_1_n_n.lhsBatch by decide), dif_pos (show (0 : Fin S100000x32.rank) ∈ dot_S100000x32_S32x32_S100000x32_1_0_0_1_n_n.lhsNonContracting by decide)]
      rfl
    | ⟨1, _⟩ => exact (dot_S100000x32_S32x32_S100000x32_1_0_0_1_n_n.lhsIdx_val_of_single rfl (ix2 r j) _).trans hk)
  have er : dot_S100000x32_S32x32_S100000x32_1_0_0_1_n_n.rhsIdx (ix2 r j) ((ValueIdx.contrEquiv1 dot_S100000x32_S32x32_S100000x32_1_0_0_1_n_n 32 rfl rfl).symm k) = ix2 k j := funext fun ax => Fin.ext (by
    match ax with
    | ⟨0, _⟩ => exact (dot_S100000x32_S32x32_S100000x32_1_0_0_1_n_n.rhsIdx_val_of_single rfl (ix2 r j) _).trans hk
    | ⟨1, _⟩ =>
      show (dot_S100000x32_S32x32_S100000x32_1_0_0_1_n_n.rhsIdx (ix2 r j) _ 1).val = j.val
      unfold DotDims.rhsIdx
      rw [dif_neg (show ¬(1 : Fin S32x32.rank) ∈ dot_S100000x32_S32x32_S100000x32_1_0_0_1_n_n.rhsBatch by decide), dif_pos (show (1 : Fin S32x32.rank) ∈ dot_S100000x32_S32x32_S100000x32_1_0_0_1_n_n.rhsNonContracting by decide)]
      rfl)
  rw [el, er]

/-- The bias, made a row and repeated over the rows, reads at (r, j) the bias at j. -/
theorem bias_apply (b : FVec Ideal S32 .f32) (r : Fin 100000) (j : Fin 32) :
    broadcastInDim S100000x32 ![0, 1] bcast_S1x32_S100000x32_0_1 (broadcastInDim S1x32 ![1] bcast_S32_S1x32_1 b) (ix2 r j)
      = b (ix1 j) := by
  rw [broadcastInDim_apply _ bcast_S1x32_S100000x32_0_1 _ (ix2 r j) (ix2 (0 : Fin 1) j) (fun ax => match ax with
    | ⟨0, _⟩ => by show 0 = if (1 : Nat) = 1 then 0 else r.val; rw [if_pos rfl]
    | ⟨1, _⟩ => by show j.val = if (32 : Nat) = 1 then 0 else j.val; rw [if_neg (by decide)])]
  exact broadcastInDim_apply _ bcast_S32_S1x32_1 b (ix2 (0 : Fin 1) j) (ix1 j) (fun ax => match ax with
    | ⟨0, _⟩ => by show j.val = if (32 : Nat) = 1 then 0 else j.val; rw [if_neg (by decide)])

/-- The reference's middle layer is the specification's dense layer of its three operands. -/
theorem hostLayer_eq (a : FVec Ideal S100000x32 .f32) (w : FVec Ideal S32x32 .f32) (b : FVec Ideal S32 .f32) :
    addf (Host.dotGeneral (F := Ideal) dot_S100000x32_S32x32_S100000x32_1_0_0_1_n_n none a w)
        (broadcastInDim S100000x32 ![0, 1] bcast_S1x32_S100000x32_0_1 (broadcastInDim S1x32 ![1] bcast_S32_S1x32_1 b))
      = Spec.of2 (Spec.layer (Spec.un2 a) (Spec.un2 w) (Spec.un1 b)) := by
  funext i
  obtain ⟨r, j, rfl⟩ : ∃ (r : Fin 100000) (j : Fin 32), i = ix2 r j := ⟨i 0, i 1, eq_ix2 i⟩
  rw [addf_apply, dot_apply, bias_apply]
  rfl

end Cert.ReferenceIdeal.RLayer

end
-- ==== Proof.RChainDefs.lean ====
/-
  The reference's line of operations, cut at the network's stages: the buffer contents at each stage's boundary,
  from the launch contents through the edge arrays, the first layer, the six middle layers and the last layer.
  The whole line's fold is the last boundary.
-/
import proofs.«148936_j3496103379547_2_alg».proof.Proof.RefOps
import proofs.«148936_j3496103379547_2_alg».proof.Proof.Net
import proofs.«148936_j3496103379547_2_alg».proof.Proof.RLayer

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-! ## The contents at the stages' boundaries -/

/-- The contents at launch. -/
def R0 (d : Dev nD) : Valuation τ sig (Elt Ideal) := launchContents m d
/-- After the edge arrays are computed. -/
def R1 (d : Dev nD) : Valuation τ sig (Elt Ideal) := after seg0 (R0 m d)
/-- After the first layer. -/
def R2 (d : Dev nD) : Valuation τ sig (Elt Ideal) := after (seg1 ++ seg2) (R1 m d)
/-- After middle layer 1. -/
def R3 (d : Dev nD) : Valuation τ sig (Elt Ideal) := after seg3 (R2 m d)
/-- After middle layer 2. -/
def R4 (d : Dev nD) : Valuation τ sig (Elt Ideal) := after seg4 (R3 m d)
/-- After middle layer 3. -/
def R5 (d : Dev nD) : Valuation τ sig (Elt Ideal) := after (seg5 ++ seg6) (R4 m d)
/-- After middle layer 4. -/
def R6 (d : Dev nD) : Valuation τ sig (Elt Ideal) := after seg7 (R5 m d)
/-- After middle layer 5. -/
def R7 (d : Dev nD) : Valuation τ sig (Elt Ideal) := after (seg8 ++ seg9) (R6 m d)
/-- After middle layer 6. -/
def R8 (d : Dev nD) : Valuation τ sig (Elt Ideal) := after seg10 (R7 m d)
/-- After the last layer. -/
def R9 (d : Dev nD) : Valuation τ sig (Elt Ideal) := after (seg11 ++ (seg12 ++ (seg13 ++ seg14))) (R8 m d)

/-- The whole line's fold is the last boundary. -/
theorem fold_eq (d : Dev nD) : after ops (launchContents m d) = R9 m d := by
  unfold R9 R8 R7 R6 R5 R4 R3 R2 R1 R0
  simp only [ops, Cert.Ssa.after_append]

/-! ## The arguments and the edge arrays -/

abbrev A0 (d : Dev nD) := m ((d.tc : Thread nD τ).loc main_arg0)
abbrev A1 (d : Dev nD) := m ((d.tc : Thread nD τ).loc main_arg1)
abbrev A2 (d : Dev nD) := m ((d.tc : Thread nD τ).loc main_arg2)
abbrev A3 (d : Dev nD) := m ((d.tc : Thread nD τ).loc main_arg3)
abbrev A4 (d : Dev nD) := m ((d.tc : Thread nD τ).loc main_arg4)
abbrev A5 (d : Dev nD) := m ((d.tc : Thread nD τ).loc main_arg5)
abbrev A6 (d : Dev nD) := m ((d.tc : Thread nD τ).loc main_arg6)
abbrev A7 (d : Dev nD) := m ((d.tc : Thread nD τ).loc main_arg7)

/-- The three arrays computed from the edge list. -/
def G5 (d : Dev nD) := R1 m d (Proc.devRef .tc main_v5)
def G6 (d : Dev nD) := R1 m d (Proc.devRef .tc main_v6)
def G29 (d : Dev nD) := R1 m d (Proc.devRef .tc main_v29)

theorem R0_read (d : Dev nD) (b : Ref sig .tc) : R0 m d (Proc.devRef .tc b) = m ((d.tc : Thread nD τ).loc b) := rfl

end Cert.ReferenceIdeal.RChain

end
-- ==== Proof.RChainKeep.lean ====
/-
  Buffers a stage does not write keep their contents through it: the arguments through the whole line, the three
  edge arrays from the first boundary on, and each feature map from the boundary after its layer on.
-/
import proofs.«148936_j3496103379547_2_alg».proof.Proof.RChainDefs

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-! ## One stage -/

theorem keep1 (d : Dev nD) {b : Ref sig .tc} (hb : b ∉ wr0) :
    R1 m d (Proc.devRef .tc b) = R0 m d (Proc.devRef .tc b) :=
  seg0_writes.keep hb _

theorem keep2 (d : Dev nD) {b : Ref sig .tc} (hb : b ∉ wr1 ++ wr2) :
    R2 m d (Proc.devRef .tc b) = R1 m d (Proc.devRef .tc b) :=
  (seg1_writes.append seg2_writes).keep hb _

theorem keep3 (d : Dev nD) {b : Ref sig .tc} (hb : b ∉ wr3) :
    R3 m d (Proc.devRef .tc b) = R2 m d (Proc.devRef .tc b) :=
  seg3_writes.keep hb _

theorem keep4 (d : Dev nD) {b : Ref sig .tc} (hb : b ∉ wr4) :
    R4 m d (Proc.devRef .tc b) = R3 m d (Proc.devRef .tc b) :=
  seg4_writes.keep hb _

theorem keep5 (d : Dev nD) {b : Ref sig .tc} (hb : b ∉ wr5 ++ wr6) :
    R5 m d (Proc.devRef .tc b) = R4 m d (Proc.devRef .tc b) :=
  (seg5_writes.append seg6_writes).keep hb _

theorem keep6 (d : Dev nD) {b : Ref sig .tc} (hb : b ∉ wr7) :
    R6 m d (Proc.devRef .tc b) = R5 m d (Proc.devRef .tc b) :=
  seg7_writes.keep hb _

theorem keep7 (d : Dev nD) {b : Ref sig .tc} (hb : b ∉ wr8 ++ wr9) :
    R7 m d (Proc.devRef .tc b) = R6 m d (Proc.devRef .tc b) :=
  (seg8_writes.append seg9_writes).keep hb _

theorem keep8 (d : Dev nD) {b : Ref sig .tc} (hb : b ∉ wr10) :
    R8 m d (Proc.devRef .tc b) = R7 m d (Proc.devRef .tc b) :=
  seg10_writes.keep hb _

theorem keep9 (d : Dev nD) {b : Ref sig .tc} (hb : b ∉ wr11 ++ (wr12 ++ (wr13 ++ wr14))) :
    R9 m d (Proc.devRef .tc b) = R8 m d (Proc.devRef .tc b) :=
  (seg11_writes.append (seg12_writes.append (seg13_writes.append seg14_writes))).keep hb _

/-! ## The arguments -/
theorem arg0_at1 (d : Dev nD) : R1 m d (Proc.devRef .tc main_arg0) = A0 m d := (keep1 m d (by decide)).trans (R0_read m d main_arg0)
theorem arg0_at2 (d : Dev nD) : R2 m d (Proc.devRef .tc main_arg0) = A0 m d := (keep2 m d (by decide)).trans (arg0_at1 m d)
theorem arg0_at3 (d : Dev nD) : R3 m d (Proc.devRef .tc main_arg0) = A0 m d := (keep3 m d (by decide)).trans (arg0_at2 m d)
theorem arg0_at4 (d : Dev nD) : R4 m d (Proc.devRef .tc main_arg0) = A0 m d := (keep4 m d (by decide)).trans (arg0_at3 m d)
theorem arg0_at5 (d : Dev nD) : R5 m d (Proc.devRef .tc main_arg0) = A0 m d := (keep5 m d (by decide)).trans (arg0_at4 m d)
theorem arg0_at6 (d : Dev nD) : R6 m d (Proc.devRef .tc main_arg0) = A0 m d := (keep6 m d (by decide)).trans (arg0_at5 m d)
theorem arg0_at7 (d : Dev nD) : R7 m d (Proc.devRef .tc main_arg0) = A0 m d := (keep7 m d (by decide)).trans (arg0_at6 m d)
theorem arg0_at8 (d : Dev nD) : R8 m d (Proc.devRef .tc main_arg0) = A0 m d := (keep8 m d (by decide)).trans (arg0_at7 m d)
theorem arg0_at9 (d : Dev nD) : R9 m d (Proc.devRef .tc main_arg0) = A0 m d := (keep9 m d (by decide)).trans (arg0_at8 m d)
theorem arg1_at1 (d : Dev nD) : R1 m d (Proc.devRef .tc main_arg1) = A1 m d := (keep1 m d (by decide)).trans (R0_read m d main_arg1)
theorem arg1_at2 (d : Dev nD) : R2 m d (Proc.devRef .tc main_arg1) = A1 m d := (keep2 m d (by decide)).trans (arg1_at1 m d)
theorem arg1_at3 (d : Dev nD) : R3 m d (Proc.devRef .tc main_arg1) = A1 m d := (keep3 m d (by decide)).trans (arg1_at2 m d)
theorem arg1_at4 (d : Dev nD) : R4 m d (Proc.devRef .tc main_arg1) = A1 m d := (keep4 m d (by decide)).trans (arg1_at3 m d)
theorem arg1_at5 (d : Dev nD) : R5 m d (Proc.devRef .tc main_arg1) = A1 m d := (keep5 m d (by decide)).trans (arg1_at4 m d)
theorem arg1_at6 (d : Dev nD) : R6 m d (Proc.devRef .tc main_arg1) = A1 m d := (keep6 m d (by decide)).trans (arg1_at5 m d)
theorem arg1_at7 (d : Dev nD) : R7 m d (Proc.devRef .tc main_arg1) = A1 m d := (keep7 m d (by decide)).trans (arg1_at6 m d)
theorem arg1_at8 (d : Dev nD) : R8 m d (Proc.devRef .tc main_arg1) = A1 m d := (keep8 m d (by decide)).trans (arg1_at7 m d)
theorem arg1_at9 (d : Dev nD) : R9 m d (Proc.devRef .tc main_arg1) = A1 m d := (keep9 m d (by decide)).trans (arg1_at8 m d)
theorem arg2_at1 (d : Dev nD) : R1 m d (Proc.devRef .tc main_arg2) = A2 m d := (keep1 m d (by decide)).trans (R0_read m d main_arg2)
theorem arg2_at2 (d : Dev nD) : R2 m d (Proc.devRef .tc main_arg2) = A2 m d := (keep2 m d (by decide)).trans (arg2_at1 m d)
theorem arg2_at3 (d : Dev nD) : R3 m d (Proc.devRef .tc main_arg2) = A2 m d := (keep3 m d (by decide)).trans (arg2_at2 m d)
theorem arg2_at4 (d : Dev nD) : R4 m d (Proc.devRef .tc main_arg2) = A2 m d := (keep4 m d (by decide)).trans (arg2_at3 m d)
theorem arg2_at5 (d : Dev nD) : R5 m d (Proc.devRef .tc main_arg2) = A2 m d := (keep5 m d (by decide)).trans (arg2_at4 m d)
theorem arg2_at6 (d : Dev nD) : R6 m d (Proc.devRef .tc main_arg2) = A2 m d := (keep6 m d (by decide)).trans (arg2_at5 m d)
theorem arg2_at7 (d : Dev nD) : R7 m d (Proc.devRef .tc main_arg2) = A2 m d := (keep7 m d (by decide)).trans (arg2_at6 m d)
theorem arg2_at8 (d : Dev nD) : R8 m d (Proc.devRef .tc main_arg2) = A2 m d := (keep8 m d (by decide)).trans (arg2_at7 m d)
theorem arg2_at9 (d : Dev nD) : R9 m d (Proc.devRef .tc main_arg2) = A2 m d := (keep9 m d (by decide)).trans (arg2_at8 m d)
theorem arg3_at1 (d : Dev nD) : R1 m d (Proc.devRef .tc main_arg3) = A3 m d := (keep1 m d (by decide)).trans (R0_read m d main_arg3)
theorem arg3_at2 (d : Dev nD) : R2 m d (Proc.devRef .tc main_arg3) = A3 m d := (keep2 m d (by decide)).trans (arg3_at1 m d)
theorem arg3_at3 (d : Dev nD) : R3 m d (Proc.devRef .tc main_arg3) = A3 m d := (keep3 m d (by decide)).trans (arg3_at2 m d)
theorem arg3_at4 (d : Dev nD) : R4 m d (Proc.devRef .tc main_arg3) = A3 m d := (keep4 m d (by decide)).trans (arg3_at3 m d)
theorem arg3_at5 (d : Dev nD) : R5 m d (Proc.devRef .tc main_arg3) = A3 m d := (keep5 m d (by decide)).trans (arg3_at4 m d)
theorem arg3_at6 (d : Dev nD) : R6 m d (Proc.devRef .tc main_arg3) = A3 m d := (keep6 m d (by decide)).trans (arg3_at5 m d)
theorem arg3_at7 (d : Dev nD) : R7 m d (Proc.devRef .tc main_arg3) = A3 m d := (keep7 m d (by decide)).trans (arg3_at6 m d)
theorem arg3_at8 (d : Dev nD) : R8 m d (Proc.devRef .tc main_arg3) = A3 m d := (keep8 m d (by decide)).trans (arg3_at7 m d)
theorem arg3_at9 (d : Dev nD) : R9 m d (Proc.devRef .tc main_arg3) = A3 m d := (keep9 m d (by decide)).trans (arg3_at8 m d)
theorem arg4_at1 (d : Dev nD) : R1 m d (Proc.devRef .tc main_arg4) = A4 m d := (keep1 m d (by decide)).trans (R0_read m d main_arg4)
theorem arg4_at2 (d : Dev nD) : R2 m d (Proc.devRef .tc main_arg4) = A4 m d := (keep2 m d (by decide)).trans (arg4_at1 m d)
theorem arg4_at3 (d : Dev nD) : R3 m d (Proc.devRef .tc main_arg4) = A4 m d := (keep3 m d (by decide)).trans (arg4_at2 m d)
theorem arg4_at4 (d : Dev nD) : R4 m d (Proc.devRef .tc main_arg4) = A4 m d := (keep4 m d (by decide)).trans (arg4_at3 m d)
theorem arg4_at5 (d : Dev nD) : R5 m d (Proc.devRef .tc main_arg4) = A4 m d := (keep5 m d (by decide)).trans (arg4_at4 m d)
theorem arg4_at6 (d : Dev nD) : R6 m d (Proc.devRef .tc main_arg4) = A4 m d := (keep6 m d (by decide)).trans (arg4_at5 m d)
theorem arg4_at7 (d : Dev nD) : R7 m d (Proc.devRef .tc main_arg4) = A4 m d := (keep7 m d (by decide)).trans (arg4_at6 m d)
theorem arg4_at8 (d : Dev nD) : R8 m d (Proc.devRef .tc main_arg4) = A4 m d := (keep8 m d (by decide)).trans (arg4_at7 m d)
theorem arg4_at9 (d : Dev nD) : R9 m d (Proc.devRef .tc main_arg4) = A4 m d := (keep9 m d (by decide)).trans (arg4_at8 m d)
theorem arg5_at1 (d : Dev nD) : R1 m d (Proc.devRef .tc main_arg5) = A5 m d := (keep1 m d (by decide)).trans (R0_read m d main_arg5)
theorem arg5_at2 (d : Dev nD) : R2 m d (Proc.devRef .tc main_arg5) = A5 m d := (keep2 m d (by decide)).trans (arg5_at1 m d)
theorem arg5_at3 (d : Dev nD) : R3 m d (Proc.devRef .tc main_arg5) = A5 m d := (keep3 m d (by decide)).trans (arg5_at2 m d)
theorem arg5_at4 (d : Dev nD) : R4 m d (Proc.devRef .tc main_arg5) = A5 m d := (keep4 m d (by decide)).trans (arg5_at3 m d)
theorem arg5_at5 (d : Dev nD) : R5 m d (Proc.devRef .tc main_arg5) = A5 m d := (keep5 m d (by decide)).trans (arg5_at4 m d)
theorem arg5_at6 (d : Dev nD) : R6 m d (Proc.devRef .tc main_arg5) = A5 m d := (keep6 m d (by decide)).trans (arg5_at5 m d)
theorem arg5_at7 (d : Dev nD) : R7 m d (Proc.devRef .tc main_arg5) = A5 m d := (keep7 m d (by decide)).trans (arg5_at6 m d)
theorem arg5_at8 (d : Dev nD) : R8 m d (Proc.devRef .tc main_arg5) = A5 m d := (keep8 m d (by decide)).trans (arg5_at7 m d)
theorem arg5_at9 (d : Dev nD) : R9 m d (Proc.devRef .tc main_arg5) = A5 m d := (keep9 m d (by decide)).trans (arg5_at8 m d)
theorem arg6_at1 (d : Dev nD) : R1 m d (Proc.devRef .tc main_arg6) = A6 m d := (keep1 m d (by decide)).trans (R0_read m d main_arg6)
theorem arg6_at2 (d : Dev nD) : R2 m d (Proc.devRef .tc main_arg6) = A6 m d := (keep2 m d (by decide)).trans (arg6_at1 m d)
theorem arg6_at3 (d : Dev nD) : R3 m d (Proc.devRef .tc main_arg6) = A6 m d := (keep3 m d (by decide)).trans (arg6_at2 m d)
theorem arg6_at4 (d : Dev nD) : R4 m d (Proc.devRef .tc main_arg6) = A6 m d := (keep4 m d (by decide)).trans (arg6_at3 m d)
theorem arg6_at5 (d : Dev nD) : R5 m d (Proc.devRef .tc main_arg6) = A6 m d := (keep5 m d (by decide)).trans (arg6_at4 m d)
theorem arg6_at6 (d : Dev nD) : R6 m d (Proc.devRef .tc main_arg6) = A6 m d := (keep6 m d (by decide)).trans (arg6_at5 m d)
theorem arg6_at7 (d : Dev nD) : R7 m d (Proc.devRef .tc main_arg6) = A6 m d := (keep7 m d (by decide)).trans (arg6_at6 m d)
theorem arg6_at8 (d : Dev nD) : R8 m d (Proc.devRef .tc main_arg6) = A6 m d := (keep8 m d (by decide)).trans (arg6_at7 m d)
theorem arg6_at9 (d : Dev nD) : R9 m d (Proc.devRef .tc main_arg6) = A6 m d := (keep9 m d (by decide)).trans (arg6_at8 m d)
theorem arg7_at1 (d : Dev nD) : R1 m d (Proc.devRef .tc main_arg7) = A7 m d := (keep1 m d (by decide)).trans (R0_read m d main_arg7)
theorem arg7_at2 (d : Dev nD) : R2 m d (Proc.devRef .tc main_arg7) = A7 m d := (keep2 m d (by decide)).trans (arg7_at1 m d)
theorem arg7_at3 (d : Dev nD) : R3 m d (Proc.devRef .tc main_arg7) = A7 m d := (keep3 m d (by decide)).trans (arg7_at2 m d)
theorem arg7_at4 (d : Dev nD) : R4 m d (Proc.devRef .tc main_arg7) = A7 m d := (keep4 m d (by decide)).trans (arg7_at3 m d)
theorem arg7_at5 (d : Dev nD) : R5 m d (Proc.devRef .tc main_arg7) = A7 m d := (keep5 m d (by decide)).trans (arg7_at4 m d)
theorem arg7_at6 (d : Dev nD) : R6 m d (Proc.devRef .tc main_arg7) = A7 m d := (keep6 m d (by decide)).trans (arg7_at5 m d)
theorem arg7_at7 (d : Dev nD) : R7 m d (Proc.devRef .tc main_arg7) = A7 m d := (keep7 m d (by decide)).trans (arg7_at6 m d)
theorem arg7_at8 (d : Dev nD) : R8 m d (Proc.devRef .tc main_arg7) = A7 m d := (keep8 m d (by decide)).trans (arg7_at7 m d)
theorem arg7_at9 (d : Dev nD) : R9 m d (Proc.devRef .tc main_arg7) = A7 m d := (keep9 m d (by decide)).trans (arg7_at8 m d)

/-! ## The edge arrays -/
theorem v5_at2 (d : Dev nD) : R2 m d (Proc.devRef .tc main_v5) = G5 m d := (keep2 m d (by decide)).trans (rfl)
theorem v5_at3 (d : Dev nD) : R3 m d (Proc.devRef .tc main_v5) = G5 m d := (keep3 m d (by decide)).trans (v5_at2 m d)
theorem v5_at4 (d : Dev nD) : R4 m d (Proc.devRef .tc main_v5) = G5 m d := (keep4 m d (by decide)).trans (v5_at3 m d)
theorem v5_at5 (d : Dev nD) : R5 m d (Proc.devRef .tc main_v5) = G5 m d := (keep5 m d (by decide)).trans (v5_at4 m d)
theorem v5_at6 (d : Dev nD) : R6 m d (Proc.devRef .tc main_v5) = G5 m d := (keep6 m d (by decide)).trans (v5_at5 m d)
theorem v5_at7 (d : Dev nD) : R7 m d (Proc.devRef .tc main_v5) = G5 m d := (keep7 m d (by decide)).trans (v5_at6 m d)
theorem v5_at8 (d : Dev nD) : R8 m d (Proc.devRef .tc main_v5) = G5 m d := (keep8 m d (by decide)).trans (v5_at7 m d)
theorem v6_at2 (d : Dev nD) : R2 m d (Proc.devRef .tc main_v6) = G6 m d := (keep2 m d (by decide)).trans (rfl)
theorem v6_at3 (d : Dev nD) : R3 m d (Proc.devRef .tc main_v6) = G6 m d := (keep3 m d (by decide)).trans (v6_at2 m d)
theorem v6_at4 (d : Dev nD) : R4 m d (Proc.devRef .tc main_v6) = G6 m d := (keep4 m d (by decide)).trans (v6_at3 m d)
theorem v6_at5 (d : Dev nD) : R5 m d (Proc.devRef .tc main_v6) = G6 m d := (keep5 m d (by decide)).trans (v6_at4 m d)
theorem v6_at6 (d : Dev nD) : R6 m d (Proc.devRef .tc main_v6) = G6 m d := (keep6 m d (by decide)).trans (v6_at5 m d)
theorem v6_at7 (d : Dev nD) : R7 m d (Proc.devRef .tc main_v6) = G6 m d := (keep7 m d (by decide)).trans (v6_at6 m d)
theorem v6_at8 (d : Dev nD) : R8 m d (Proc.devRef .tc main_v6) = G6 m d := (keep8 m d (by decide)).trans (v6_at7 m d)
theorem v29_at2 (d : Dev nD) : R2 m d (Proc.devRef .tc main_v29) = G29 m d := (keep2 m d (by decide)).trans (rfl)
theorem v29_at3 (d : Dev nD) : R3 m d (Proc.devRef .tc main_v29) = G29 m d := (keep3 m d (by decide)).trans (v29_at2 m d)
theorem v29_at4 (d : Dev nD) : R4 m d (Proc.devRef .tc main_v29) = G29 m d := (keep4 m d (by decide)).trans (v29_at3 m d)
theorem v29_at5 (d : Dev nD) : R5 m d (Proc.devRef .tc main_v29) = G29 m d := (keep5 m d (by decide)).trans (v29_at4 m d)
theorem v29_at6 (d : Dev nD) : R6 m d (Proc.devRef .tc main_v29) = G29 m d := (keep6 m d (by decide)).trans (v29_at5 m d)
theorem v29_at7 (d : Dev nD) : R7 m d (Proc.devRef .tc main_v29) = G29 m d := (keep7 m d (by decide)).trans (v29_at6 m d)
theorem v29_at8 (d : Dev nD) : R8 m d (Proc.devRef .tc main_v29) = G29 m d := (keep8 m d (by decide)).trans (v29_at7 m d)

/-! ## The feature maps, up to the last layer's boundary -/
theorem v49_at3 (d : Dev nD) : R3 m d (Proc.devRef .tc main_v49) = R2 m d (Proc.devRef .tc main_v49) := (keep3 m d (by decide))
theorem v49_at4 (d : Dev nD) : R4 m d (Proc.devRef .tc main_v49) = R2 m d (Proc.devRef .tc main_v49) := (keep4 m d (by decide)).trans (v49_at3 m d)
theorem v49_at5 (d : Dev nD) : R5 m d (Proc.devRef .tc main_v49) = R2 m d (Proc.devRef .tc main_v49) := (keep5 m d (by decide)).trans (v49_at4 m d)
theorem v49_at6 (d : Dev nD) : R6 m d (Proc.devRef .tc main_v49) = R2 m d (Proc.devRef .tc main_v49) := (keep6 m d (by decide)).trans (v49_at5 m d)
theorem v49_at7 (d : Dev nD) : R7 m d (Proc.devRef .tc main_v49) = R2 m d (Proc.devRef .tc main_v49) := (keep7 m d (by decide)).trans (v49_at6 m d)
theorem v49_at8 (d : Dev nD) : R8 m d (Proc.devRef .tc main_v49) = R2 m d (Proc.devRef .tc main_v49) := (keep8 m d (by decide)).trans (v49_at7 m d)
theorem v70_at4 (d : Dev nD) : R4 m d (Proc.devRef .tc main_v70) = R3 m d (Proc.devRef .tc main_v70) := (keep4 m d (by decide))
theorem v70_at5 (d : Dev nD) : R5 m d (Proc.devRef .tc main_v70) = R3 m d (Proc.devRef .tc main_v70) := (keep5 m d (by decide)).trans (v70_at4 m d)
theorem v70_at6 (d : Dev nD) : R6 m d (Proc.devRef .tc main_v70) = R3 m d (Proc.devRef .tc main_v70) := (keep6 m d (by decide)).trans (v70_at5 m d)
theorem v70_at7 (d : Dev nD) : R7 m d (Proc.devRef .tc main_v70) = R3 m d (Proc.devRef .tc main_v70) := (keep7 m d (by decide)).trans (v70_at6 m d)
theorem v70_at8 (d : Dev nD) : R8 m d (Proc.devRef .tc main_v70) = R3 m d (Proc.devRef .tc main_v70) := (keep8 m d (by decide)).trans (v70_at7 m d)
theorem v91_at5 (d : Dev nD) : R5 m d (Proc.devRef .tc main_v91) = R4 m d (Proc.devRef .tc main_v91) := (keep5 m d (by decide))
theorem v91_at6 (d : Dev nD) : R6 m d (Proc.devRef .tc main_v91) = R4 m d (Proc.devRef .tc main_v91) := (keep6 m d (by decide)).trans (v91_at5 m d)
theorem v91_at7 (d : Dev nD) : R7 m d (Proc.devRef .tc main_v91) = R4 m d (Proc.devRef .tc main_v91) := (keep7 m d (by decide)).trans (v91_at6 m d)
theorem v91_at8 (d : Dev nD) : R8 m d (Proc.devRef .tc main_v91) = R4 m d (Proc.devRef .tc main_v91) := (keep8 m d (by decide)).trans (v91_at7 m d)
theorem v112_at6 (d : Dev nD) : R6 m d (Proc.devRef .tc main_v112) = R5 m d (Proc.devRef .tc main_v112) := (keep6 m d (by decide))
theorem v112_at7 (d : Dev nD) : R7 m d (Proc.devRef .tc main_v112) = R5 m d (Proc.devRef .tc main_v112) := (keep7 m d (by decide)).trans (v112_at6 m d)
theorem v112_at8 (d : Dev nD) : R8 m d (Proc.devRef .tc main_v112) = R5 m d (Proc.devRef .tc main_v112) := (keep8 m d (by decide)).trans (v112_at7 m d)
theorem v133_at7 (d : Dev nD) : R7 m d (Proc.devRef .tc main_v133) = R6 m d (Proc.devRef .tc main_v133) := (keep7 m d (by decide))
theorem v133_at8 (d : Dev nD) : R8 m d (Proc.devRef .tc main_v133) = R6 m d (Proc.devRef .tc main_v133) := (keep8 m d (by decide)).trans (v133_at7 m d)
theorem v154_at8 (d : Dev nD) : R8 m d (Proc.devRef .tc main_v154) = R7 m d (Proc.devRef .tc main_v154) := (keep8 m d (by decide))

end Cert.ReferenceIdeal.RChain

end
-- ==== Proof.RNorm.lean ====
/-
  The host's row normalisation, as one function of a [100000, 32] array, read at an index.

  The host takes each row's minimum and maximum by a reduce over the feature axis (from +∞ and −∞), broadcasts them back
  over the row, and forms 2 (t − min) / (max − min + ε) − 1. Read at (r, j) this is the specification's `mynorm` of
  row r at j: the two reduces are the folds of min and max over the row's 32 entries, and every other operation acts
  entry by entry.
-/
import proofs.«148936_j3496103379547_2_alg».proof.Proof.Spec
import proofs.«148936_j3496103379547_2_alg».proof.ReferenceIdeal
import Idealize.ShloMosaic.Lib.Pipeline.Value
import Idealize.ShloMosaic.Lib.ValueIdx
import Idealize.ShloMosaic.PureOps.Ideal.Laws
import Idealize.ShloMosaic.PureOps.Reduce

noncomputable section

namespace Cert.ReferenceIdeal.RStage

open Cert.ReferenceIdeal Idealize.ShloMosaic Idealize.ShloMosaic.ValueIdx Idealize.ShloMosaic.StableHlo

variable [Facts₀]
open Facts₀

/-- The host's normalisation of each row of `t` by the row's own minimum and maximum. -/
def hostMynorm (t : FVec Ideal S100000x32 .f32) : FVec Ideal S100000x32 .f32 :=
  subf
    (Host.divf
      (mulf (broadcastInDim S100000x32 ![] bcast_S_S100000x32 (constant (F := Ideal) S_ .f32 0x40000000#32))
        (subf t
          (broadcastInDim S100000x32 ![0, 1] bcast_S100000x1_S100000x32_0_1
            (broadcastInDim S100000x1 ![0] bcast_S100000_S100000x1_0
              (Host.reduce FloatOps.minimumf t (constant (F := Ideal) S_ .f32 0x7F800000#32) reducesTo_S100000x32_S100000_d1 h_S_)))))
      (broadcastInDim S100000x32 ![0, 1] bcast_S100000x1_S100000x32_0_1
        (addf
          (subf
            (broadcastInDim S100000x1 ![0] bcast_S100000_S100000x1_0
              (Host.reduce FloatOps.maximumf t (constant (F := Ideal) S_ .f32 0xFF800000#32) reducesTo_S100000x32_S100000_d1 h_S_))
            (broadcastInDim S100000x1 ![0] bcast_S100000_S100000x1_0
              (Host.reduce FloatOps.minimumf t (constant (F := Ideal) S_ .f32 0x7F800000#32) reducesTo_S100000x32_S100000_d1 h_S_)))
          (broadcastInDim S100000x1 ![] bcast_S_S100000x1 (constant (F := Ideal) S_ .f32 0x322BCC77#32)))))
    (broadcastInDim S100000x32 ![] bcast_S_S100000x32 (constant (F := Ideal) S_ .f32 0x3F800000#32))

/-! ## Layout operations read at an index -/

/-- A scalar broadcast to any shape, read anywhere, is the scalar. -/
theorem bcastScalar_apply {s : Shape} (h : S_.BroadcastsInDim s (![] : Fin 0 → Fin s.rank)) (y : FVec Ideal S_ .f32) (i : s.Idx) :
    broadcastInDim s ![] h y i = y ix0 :=
  broadcastInDim_apply _ h y i ix0 (fun a => a.elim0)

/-- A vector of 100000 entries laid out as a column, read at (r, 0), is entry r. -/
theorem bcastCol_apply (h : S100000.BroadcastsInDim S100000x1 (![0] : Fin 1 → Fin S100000x1.rank)) (y : FVec Ideal S100000 .f32)
    (r : Fin 100000) (c : Fin 1) :
    broadcastInDim S100000x1 ![0] h y (ix2 r c) = y (ix1 r) :=
  broadcastInDim_apply _ h y (ix2 r c) (ix1 r) (fun a => match a with
    | ⟨0, _⟩ => by show r.val = if (100000 : Nat) = 1 then 0 else r.val; rw [if_neg (by decide)])

/-- A column broadcast along the rows, read at (r, j), is the column's entry r. -/
theorem bcastRow_apply (h : S100000x1.BroadcastsInDim S100000x32 (![0, 1] : Fin 2 → Fin S100000x32.rank)) (y : FVec Ideal S100000x1 .f32)
    (r : Fin 100000) (j : Fin 32) :
    broadcastInDim S100000x32 ![0, 1] h y (ix2 r j) = y (ix2 r (0 : Fin 1)) :=
  broadcastInDim_apply _ h y (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])

/-! ## The reduce over the feature axis -/

/-- The reduced index r with feature k put back is (r, k). -/
theorem lift_row (h : S100000x32.Reduces [1] S100000) (r : Fin 100000) (k : Fin (S100000x32.size 1)) :
    h.lift (ix1 r) k = ix2 r (⟨k.val, k.isLt⟩ : Fin 32) := by
  funext c; apply Fin.ext
  fin_cases c <;> rfl

/-- The host's reduce with a minimum body over the feature axis, at row r, is the fold of min over the row. -/
theorem hostReduce_min_row (t : FVec Ideal S100000x32 .f32) (b : BitVec 32) (h' : S100000x32.ReducesTo [1] S100000)
    (hu : 0 < S_.numel) (r : Fin 100000) :
    Host.reduce FloatOps.minimumf t (constant (F := Ideal) S_ .f32 b) h' hu (ix1 r)
      = (Finset.univ : Finset (Fin 32)).fold min (Ideal.ofBits .f32 b) (fun k => t (ix2 r k)) := by
  have h : S100000x32.Reduces [1] S100000 := ⟨h'.1, Nat.one_pos, h'.2⟩
  rw [Host.reduce_eq_fold_single FloatOps.minimumf t _ h' h hu]
  have hf : (t ∘ h.lift (ix1 r)) = fun k : Fin 32 => t (ix2 r k) := funext fun k => congrArg t (lift_row h r k)
  exact congrArg (fun f => Finset.fold min (Ideal.ofBits .f32 b) f (Finset.univ : Finset (Fin 32))) hf

/-- The host's reduce with a maximum body over the feature axis, at row r, is the fold of max over the row. -/
theorem hostReduce_max_row (t : FVec Ideal S100000x32 .f32) (b : BitVec 32) (h' : S100000x32.ReducesTo [1] S100000)
    (hu : 0 < S_.numel) (r : Fin 100000) :
    Host.reduce FloatOps.maximumf t (constant (F := Ideal) S_ .f32 b) h' hu (ix1 r)
      = (Finset.univ : Finset (Fin 32)).fold max (Ideal.ofBits .f32 b) (fun k => t (ix2 r k)) := by
  have h : S100000x32.Reduces [1] S100000 := ⟨h'.1, Nat.one_pos, h'.2⟩
  rw [Host.reduce_eq_fold_single FloatOps.maximumf t _ h' h hu]
  have hf : (t ∘ h.lift (ix1 r)) = fun k : Fin 32 => t (ix2 r k) := funext fun k => congrArg t (lift_row h r k)
  exact congrArg (fun f => Finset.fold max (Ideal.ofBits .f32 b) f (Finset.univ : Finset (Fin 32))) hf

/-! ## The normalisation at an index -/

/-- The host's division, entry by entry. -/
theorem hostDivf_apply {s : Shape} {φ : FTy} (a b : FVec Ideal s φ) (i : s.Idx) : Host.divf a b i = Ideal.div (a i) (b i) := rfl

/-- The normalisation's pointwise operations, entry by entry. -/
theorem normForm_apply {s : Shape} (t A B C D : FVec Ideal s .f32) (i : s.Idx) :
    subf (Host.divf (mulf A (subf t B)) C) D i = Ideal.div (A i * (t i - B i)) (C i) - D i := rfl

/-- The row's minimum, as the host lays it out in a column, read at (r, 0). -/
theorem hostMinCol_apply (t : FVec Ideal S100000x32 .f32) (r : Fin 100000) :
    broadcastInDim S100000x1 ![0] bcast_S100000_S100000x1_0
        (Host.reduce FloatOps.minimumf t (constant (F := Ideal) S_ .f32 0x7F800000#32) reducesTo_S100000x32_S100000_d1 h_S_) (ix2 r (0 : Fin 1))
      = Spec.rowMin (fun k => t (ix2 r k)) :=
  (bcastCol_apply _ _ r 0).trans (hostReduce_min_row t _ _ _ r)

/-- The row's maximum, as the host lays it out in a column, read at (r, 0). -/
theorem hostMaxCol_apply (t : FVec Ideal S100000x32 .f32) (r : Fin 100000) :
    broadcastInDim S100000x1 ![0] bcast_S100000_S100000x1_0
        (Host.reduce FloatOps.maximumf t (constant (F := Ideal) S_ .f32 0xFF800000#32) reducesTo_S100000x32_S100000_d1 h_S_) (ix2 r (0 : Fin 1))
      = Spec.rowMax (fun k => t (ix2 r k)) :=
  (bcastCol_apply _ _ r 0).trans (hostReduce_max_row t _ _ _ r)

/-- The range plus ε, entry by entry on a column. -/
theorem rangeForm_apply (MX MN E : FVec Ideal S100000x1 .f32) (i : S100000x1.Idx) :
    addf (subf MX MN) E i = (MX i - MN i) + E i := rfl

/-- The host's normalisation read at (r, j) is the specification's, of row r, at j. -/
theorem hostMynorm_apply (t : FVec Ideal S100000x32 .f32) (r : Fin 100000) (j : Fin 32) :
    hostMynorm t (ix2 r j) = Spec.mynorm (fun k => t (ix2 r k)) j := by
  unfold hostMynorm
  refine (normForm_apply t _ _ _ _ (ix2 r j)).trans ?_
  rw [bcastScalar_apply, bcastScalar_apply, bcastRow_apply, bcastRow_apply, rangeForm_apply, bcastScalar_apply,
    hostMinCol_apply, hostMaxCol_apply]
  rfl

end Cert.ReferenceIdeal.RStage

end
-- ==== Proof.RDense0.lean ====
/-
  The host's first layer, as one function of the argument arrays.

  The host multiplies the [100000, 128] input by the [128, 32] weights, adds the bias broadcast down the rows, takes the
  positive part (the maximum with a broadcast zero) and normalises each row. At (r, j) the product is the sum over the
  128 input features, the bias is its entry j, and the normalisation is the specification's of the row.
-/
import proofs.«148936_j3496103379547_2_alg».proof.Proof.Spec
import proofs.«148936_j3496103379547_2_alg».proof.ReferenceIdeal
import proofs.«148936_j3496103379547_2_alg».proof.Proof.RNorm
import Idealize.ShloMosaic.Lib.Pipeline.Value
import Idealize.ShloMosaic.Lib.ValueIdx
import Idealize.ShloMosaic.PureOps.Ideal.Laws

noncomputable section

open scoped BigOperators

namespace Cert.ReferenceIdeal.RStage

open Cert.ReferenceIdeal Idealize.ShloMosaic Idealize.ShloMosaic.ValueIdx Idealize.ShloMosaic.StableHlo

variable [Facts₀]
open Facts₀

/-! ## The product, the bias and the positive part at an index -/

theorem hostDot0_lhs0 (i : S100000x32.Idx) (q : dot_S100000x128_S128x32_S100000x32_1_0_0_1_n_n.contr.Idx) :
    (dot_S100000x128_S128x32_S100000x32_1_0_0_1_n_n.lhsIdx i q 0).val = (i 0).val := by
  unfold DotDims.lhsIdx
  rw [dif_neg (show ¬(0 : Fin S100000x128.rank) ∈ dot_S100000x128_S128x32_S100000x32_1_0_0_1_n_n.lhsBatch from List.not_mem_nil),
    dif_pos (show (0 : Fin S100000x128.rank) ∈ dot_S100000x128_S128x32_S100000x32_1_0_0_1_n_n.lhsNonContracting from List.mem_singleton.mpr rfl)]
  rfl
theorem hostDot0_lhs1 (i : S100000x32.Idx) (q : dot_S100000x128_S128x32_S100000x32_1_0_0_1_n_n.contr.Idx) :
    (dot_S100000x128_S128x32_S100000x32_1_0_0_1_n_n.lhsIdx i q 1).val = (q ⟨0, (Nat.one_pos : 0 < 1)⟩).val :=
  dot_S100000x128_S128x32_S100000x32_1_0_0_1_n_n.lhsIdx_val_of_single rfl i q
theorem hostDot0_rhs0 (i : S100000x32.Idx) (q : dot_S100000x128_S128x32_S100000x32_1_0_0_1_n_n.contr.Idx) :
    (dot_S100000x128_S128x32_S100000x32_1_0_0_1_n_n.rhsIdx i q 0).val = (q ⟨0, (Nat.one_pos : 0 < 1)⟩).val :=
  dot_S100000x128_S128x32_S100000x32_1_0_0_1_n_n.rhsIdx_val_of_single rfl i q
theorem hostDot0_rhs1 (i : S100000x32.Idx) (q : dot_S100000x128_S128x32_S100000x32_1_0_0_1_n_n.contr.Idx) :
    (dot_S100000x128_S128x32_S100000x32_1_0_0_1_n_n.rhsIdx i q 1).val = (i 1).val := by
  unfold DotDims.rhsIdx
  rw [dif_neg (show ¬(1 : Fin S128x32.rank) ∈ dot_S100000x128_S128x32_S100000x32_1_0_0_1_n_n.rhsBatch from List.not_mem_nil),
    dif_pos (show (1 : Fin S128x32.rank) ∈ dot_S100000x128_S128x32_S100000x32_1_0_0_1_n_n.rhsNonContracting from List.mem_singleton.mpr rfl)]
  rfl

/-- The first layer's product at (r, j): the sum over the 128 input features. -/
theorem hostDot0_apply (x : FVec Ideal S100000x128 .f32) (w : FVec Ideal S128x32 .f32) (r : Fin 100000) (j : Fin 32) :
    Host.dotGeneral (F := Ideal) dot_S100000x128_S128x32_S100000x32_1_0_0_1_n_n none x w (ix2 r j)
      = ∑ k : Fin 128, x (ix2 r k) * w (ix2 k j) := by
  simp only [Host.dotGeneral]
  rw [Ideal.dotGeneral_apply, ← Equiv.sum_comp (ValueIdx.contrEquiv1 dot_S100000x128_S128x32_S100000x32_1_0_0_1_n_n 128 rfl rfl).symm]
  refine Finset.sum_congr rfl fun k _ => ?_
  have hk := ValueIdx.contrEquiv1_symm_val dot_S100000x128_S128x32_S100000x32_1_0_0_1_n_n 128 rfl rfl k
  have el : dot_S100000x128_S128x32_S100000x32_1_0_0_1_n_n.lhsIdx (ix2 r j) ((ValueIdx.contrEquiv1 dot_S100000x128_S128x32_S100000x32_1_0_0_1_n_n 128 rfl rfl).symm k) = ix2 r k := funext fun a => Fin.ext (by
    match a with
    | ⟨0, _⟩ => exact hostDot0_lhs0 _ _
    | ⟨1, _⟩ => exact (hostDot0_lhs1 _ _).trans hk)
  have er : dot_S100000x128_S128x32_S100000x32_1_0_0_1_n_n.rhsIdx (ix2 r j) ((ValueIdx.contrEquiv1 dot_S100000x128_S128x32_S100000x32_1_0_0_1_n_n 128 rfl rfl).symm k) = ix2 k j := funext fun a => Fin.ext (by
    match a with
    | ⟨0, _⟩ => exact (hostDot0_rhs0 _ _).trans hk
    | ⟨1, _⟩ => exact hostDot0_rhs1 _ _)
  rw [el, er]

/-- The bias laid out as one row and broadcast down the rows, read at (r, j), is its entry j. -/
theorem bcastBias32_apply (b : FVec Ideal S32 .f32) (r : Fin 100000) (j : Fin 32) :
    broadcastInDim S100000x32 ![0, 1] bcast_S1x32_S100000x32_0_1 (broadcastInDim S1x32 ![1] bcast_S32_S1x32_1 b) (ix2 r j) = b (ix1 j) :=
  (broadcastInDim_apply _ bcast_S1x32_S100000x32_0_1 _ (ix2 r j) (ix2 (0 : Fin 1) j) (fun a => match a with
    | ⟨0, _⟩ => by show 0 = if (1 : Nat) = 1 then 0 else r.val; rw [if_pos rfl]
    | ⟨1, _⟩ => by show j.val = if (32 : Nat) = 1 then 0 else j.val; rw [if_neg (by decide)])).trans
  (broadcastInDim_apply _ bcast_S32_S1x32_1 b (ix2 (0 : Fin 1) j) (ix1 j) (fun a => match a with
    | ⟨0, _⟩ => by show j.val = if (32 : Nat) = 1 then 0 else j.val; rw [if_neg (by decide)]))

/-- The layer's pointwise operations, entry by entry. -/
theorem reluForm_apply {s : Shape} (P B Z : FVec Ideal s .f32) (i : s.Idx) :
    maximumf (addf P B) Z i = max (P i + B i) (Z i) := rfl

/-! ## The first layer -/

/-- The host's first layer is the specification's, as arrays. -/
theorem hostDense0_eq (x : FVec Ideal S100000x128 .f32) (w : FVec Ideal S128x32 .f32) (b : FVec Ideal S32 .f32) :
    hostMynorm
        (maximumf
          (addf (Host.dotGeneral (F := Ideal) dot_S100000x128_S128x32_S100000x32_1_0_0_1_n_n none x w)
            (broadcastInDim S100000x32 ![0, 1] bcast_S1x32_S100000x32_0_1 (broadcastInDim S1x32 ![1] bcast_S32_S1x32_1 b)))
          (broadcastInDim S100000x32 ![] bcast_S_S100000x32 (constant (F := Ideal) S_ .f32 0x00000000#32)))
      = Spec.of2 (Spec.dense0 (Spec.un2 x) (Spec.un2 w) (Spec.un1 b)) := by
  funext i
  obtain ⟨r, j, rfl⟩ : ∃ (r : Fin 100000) (j : Fin 32), i = ix2 r j := ⟨i 0, i 1, eq_ix2 i⟩
  rw [hostMynorm_apply, Spec.of2_ix2]
  unfold Spec.dense0
  refine congrArg (fun g => Spec.mynorm g j) (funext fun k => ?_)
  refine (reluForm_apply _ _ _ (ix2 r k)).trans ?_
  rw [hostDot0_apply, bcastBias32_apply, bcastScalar_apply]
  rfl

end Cert.ReferenceIdeal.RStage

end
-- ==== Proof.RChainFirst.lean ====
/-
  The first layer of the reference: its stage's operations, read from the boundary before them, leave the host's
  normalisation of the positive part of the first dense layer of the arguments.
-/
import proofs.«148936_j3496103379547_2_alg».proof.Proof.RChainDefs
import proofs.«148936_j3496103379547_2_alg».proof.Proof.RNorm
import proofs.«148936_j3496103379547_2_alg».proof.Proof.RDense0

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-- The host's first layer: the normalisation of the positive part of the product plus the bias. -/
def dense0T (x : FVec Ideal S100000x128 .f32) (w : FVec Ideal S128x32 .f32) (b : FVec Ideal S32 .f32) : FVec Ideal S100000x32 .f32 :=
  Cert.ReferenceIdeal.RStage.hostMynorm
    (maximumf
      (addf (Host.dotGeneral (F := Ideal) dot_S100000x128_S128x32_S100000x32_1_0_0_1_n_n none x w)
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32)))

/-- It is the specification's first layer. -/
theorem dense0T_eq (x : FVec Ideal S100000x128 .f32) (w : FVec Ideal S128x32 .f32) (b : FVec Ideal S32 .f32) :
    dense0T x w b = Spec.of2 (Spec.dense0 (Spec.un2 x) (Spec.un2 w) (Spec.un1 b)) :=
  Cert.ReferenceIdeal.RStage.hostDense0_eq x w b

set_option maxHeartbeats 4000000 in
/-- The first layer's stage leaves the host's first layer of the contents it finds. -/
theorem dense0_read (d : Dev nD) :
    R2 m d (Proc.devRef .tc main_v49)
      = dense0T (R1 m d (Proc.devRef .tc main_arg0)) (R1 m d (Proc.devRef .tc main_arg2)) (R1 m d (Proc.devRef .tc main_arg3)) := by
  show after (seg1 ++ seg2) (R1 m d) (Proc.devRef .tc main_v49) = _
  generalize R1 m d = V
  simp only [seg1, seg2, List.cons_append, List.nil_append]
  after_results_simp
  unfold dense0T Cert.ReferenceIdeal.RStage.hostMynorm
  rfl

end Cert.ReferenceIdeal.RChain

end
-- ==== Proof.RChainLayerT.lean ====
/-
  The host's spelling of a middle layer over the aggregate of a feature map, as one function of the three edge
  arrays, the map, the weight and the bias; it is the specification's dense layer of the aggregate.
-/
import proofs.«148936_j3496103379547_2_alg».proof.Proof.RChainDefs
import proofs.«148936_j3496103379547_2_alg».proof.Proof.RLayer
import proofs.«148936_j3496103379547_2_alg».proof.Proof.Net

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-- The host's middle layer over the aggregate of a feature map: the product with the weight plus the bias
    repeated over the rows. -/
def layerT (g5 g6 : Cert.Net.IE) (g29 : Cert.Net.FE) (x : Cert.Net.FX) (w : FVec Ideal S32x32 .f32) (b : FVec Ideal S32 .f32) : Cert.Net.FX :=
  addf (Host.dotGeneral (F := Ideal) dot_S100000x32_S32x32_S100000x32_1_0_0_1_n_n none (Cert.Net.aggT g5 g6 g29 x) w)
    (broadcastInDim S100000x32 ![0, 1] bcast_S1x32_S100000x32_0_1 (broadcastInDim S1x32 ![1] bcast_S32_S1x32_1 b))

/-- It is the specification's dense layer of the aggregate. -/
theorem layerT_eq (g5 g6 : Cert.Net.IE) (g29 : Cert.Net.FE) (x : Cert.Net.FX) (w : FVec Ideal S32x32 .f32) (b : FVec Ideal S32 .f32) :
    layerT g5 g6 g29 x w b = Spec.of2 (Spec.layer (Spec.un2 (Cert.Net.aggT g5 g6 g29 x)) (Spec.un2 w) (Spec.un1 b)) :=
  Cert.ReferenceIdeal.RLayer.hostLayer_eq _ _ _

end Cert.ReferenceIdeal.RChain

end
-- ==== Proof.RChainLayersA.lean ====
/-
  Middle layers 1, 2, 3 of the reference: each stage's operations, read from the boundary before them, leave
  the host's layer of the aggregate of the feature map before.
-/
import proofs.«148936_j3496103379547_2_alg».proof.Proof.RChainDefs
import proofs.«148936_j3496103379547_2_alg».proof.Proof.RChainLayerT

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
/-- Middle layer 1's stage leaves the host's layer of the contents it finds. -/
theorem layer1_read (d : Dev nD) :
    R3 m d (Proc.devRef .tc main_v70)
      = layerT (R2 m d (Proc.devRef .tc main_v5)) (R2 m d (Proc.devRef .tc main_v6)) (R2 m d (Proc.devRef .tc main_v29)) (R2 m d (Proc.devRef .tc main_v49))
          (shapeCast S32x32 (extractStridedSlice S1x32x32 ![0, 0, 0] (R2 m d (Proc.devRef .tc main_arg4)) slices_S6x32x32_S1x32x32_0_0_0) shapeCasts_S1x32x32_S32x32)
          (shapeCast S32 (extractStridedSlice S1x32 ![0, 0] (R2 m d (Proc.devRef .tc main_arg5)) slices_S6x32_S1x32_0_0) shapeCasts_S1x32_S32) := by
  show after (seg3) (R2 m d) (Proc.devRef .tc main_v70) = _
  generalize R2 m d = V
  after_results_simp
  rfl

set_option maxHeartbeats 4000000 in
/-- Middle layer 2's stage leaves the host's layer of the contents it finds. -/
theorem layer2_read (d : Dev nD) :
    R4 m d (Proc.devRef .tc main_v91)
      = layerT (R3 m d (Proc.devRef .tc main_v5)) (R3 m d (Proc.devRef .tc main_v6)) (R3 m d (Proc.devRef .tc main_v29)) (R3 m d (Proc.devRef .tc main_v70))
          (shapeCast S32x32 (extractStridedSlice S1x32x32 ![1, 0, 0] (R3 m d (Proc.devRef .tc main_arg4)) slices_S6x32x32_S1x32x32_1_0_0) shapeCasts_S1x32x32_S32x32)
          (shapeCast S32 (extractStridedSlice S1x32 ![1, 0] (R3 m d (Proc.devRef .tc main_arg5)) slices_S6x32_S1x32_1_0) shapeCasts_S1x32_S32) := by
  show after (seg4) (R3 m d) (Proc.devRef .tc main_v91) = _
  generalize R3 m d = V
  after_results_simp
  rfl

set_option maxHeartbeats 4000000 in
/-- Middle layer 3's stage leaves the host's layer of the contents it finds. -/
theorem layer3_read (d : Dev nD) :
    R5 m d (Proc.devRef .tc main_v112)
      = layerT (R4 m d (Proc.devRef .tc main_v5)) (R4 m d (Proc.devRef .tc main_v6)) (R4 m d (Proc.devRef .tc main_v29)) (R4 m d (Proc.devRef .tc main_v91))
          (shapeCast S32x32 (extractStridedSlice S1x32x32 ![2, 0, 0] (R4 m d (Proc.devRef .tc main_arg4)) slices_S6x32x32_S1x32x32_2_0_0) shapeCasts_S1x32x32_S32x32)
          (shapeCast S32 (extractStridedSlice S1x32 ![2, 0] (R4 m d (Proc.devRef .tc main_arg5)) slices_S6x32_S1x32_2_0) shapeCasts_S1x32_S32) := by
  show after (seg5 ++ seg6) (R4 m d) (Proc.devRef .tc main_v112) = _
  generalize R4 m d = V
  simp only [seg5, seg6, List.cons_append, List.nil_append]
  after_results_simp
  rfl

end Cert.ReferenceIdeal.RChain

end
-- ==== Proof.RChainLayersB.lean ====
/-
  Middle layers 4, 5, 6 of the reference: each stage's operations, read from the boundary before them, leave
  the host's layer of the aggregate of the feature map before.
-/
import proofs.«148936_j3496103379547_2_alg».proof.Proof.RChainDefs
import proofs.«148936_j3496103379547_2_alg».proof.Proof.RChainLayerT

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
/-- Middle layer 4's stage leaves the host's layer of the contents it finds. -/
theorem layer4_read (d : Dev nD) :
    R6 m d (Proc.devRef .tc main_v133)
      = layerT (R5 m d (Proc.devRef .tc main_v5)) (R5 m d (Proc.devRef .tc main_v6)) (R5 m d (Proc.devRef .tc main_v29)) (R5 m d (Proc.devRef .tc main_v112))
          (shapeCast S32x32 (extractStridedSlice S1x32x32 ![3, 0, 0] (R5 m d (Proc.devRef .tc main_arg4)) slices_S6x32x32_S1x32x32_3_0_0) shapeCasts_S1x32x32_S32x32)
          (shapeCast S32 (extractStridedSlice S1x32 ![3, 0] (R5 m d (Proc.devRef .tc main_arg5)) slices_S6x32_S1x32_3_0) shapeCasts_S1x32_S32) := by
  show after (seg7) (R5 m d) (Proc.devRef .tc main_v133) = _
  generalize R5 m d = V
  after_results_simp
  rfl

set_option maxHeartbeats 4000000 in
/-- Middle layer 5's stage leaves the host's layer of the contents it finds. -/
theorem layer5_read (d : Dev nD) :
    R7 m d (Proc.devRef .tc main_v154)
      = layerT (R6 m d (Proc.devRef .tc main_v5)) (R6 m d (Proc.devRef .tc main_v6)) (R6 m d (Proc.devRef .tc main_v29)) (R6 m d (Proc.devRef .tc main_v133))
          (shapeCast S32x32 (extractStridedSlice S1x32x32 ![4, 0, 0] (R6 m d (Proc.devRef .tc main_arg4)) slices_S6x32x32_S1x32x32_4_0_0) shapeCasts_S1x32x32_S32x32)
          (shapeCast S32 (extractStridedSlice S1x32 ![4, 0] (R6 m d (Proc.devRef .tc main_arg5)) slices_S6x32_S1x32_4_0) shapeCasts_S1x32_S32) := by
  show after (seg8 ++ seg9) (R6 m d) (Proc.devRef .tc main_v154) = _
  generalize R6 m d = V
  simp only [seg8, seg9, List.cons_append, List.nil_append]
  after_results_simp
  rfl

set_option maxHeartbeats 4000000 in
/-- Middle layer 6's stage leaves the host's layer of the contents it finds. -/
theorem layer6_read (d : Dev nD) :
    R8 m d (Proc.devRef .tc main_v175)
      = layerT (R7 m d (Proc.devRef .tc main_v5)) (R7 m d (Proc.devRef .tc main_v6)) (R7 m d (Proc.devRef .tc main_v29)) (R7 m d (Proc.devRef .tc main_v154))
          (shapeCast S32x32 (extractStridedSlice S1x32x32 ![5, 0, 0] (R7 m d (Proc.devRef .tc main_arg4)) slices_S6x32x32_S1x32x32_5_0_0) shapeCasts_S1x32x32_S32x32)
          (shapeCast S32 (extractStridedSlice S1x32 ![5, 0] (R7 m d (Proc.devRef .tc main_arg5)) slices_S6x32_S1x32_5_0) shapeCasts_S1x32_S32) := by
  show after (seg10) (R7 m d) (Proc.devRef .tc main_v175) = _
  generalize R7 m d = V
  after_results_simp
  rfl

end Cert.ReferenceIdeal.RChain

end
-- ==== Proof.RChainLastDefs.lean ====
/-
  The last layer's stage of the reference, cut into six consecutive parts: five times two row normalisations and
  their difference (41 operations each), then the seven pieces laid side by side, the product and the bias. The
  contents after each part; buffers a part does not write keep their contents through it.
-/
import proofs.«148936_j3496103379547_2_alg».proof.Proof.RChainDefs
import proofs.«148936_j3496103379547_2_alg».proof.Proof.RNorm

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-- The difference of the host's row normalisations of two feature maps. -/
def diffT (a b : FVec Ideal S100000x32 .f32) : FVec Ideal S100000x32 .f32 :=
  subf (Cert.ReferenceIdeal.RStage.hostMynorm a) (Cert.ReferenceIdeal.RStage.hostMynorm b)

/-- The last stage's operations. -/
abbrev L9 : List (HloOp τ sig (Elt Ideal)) := seg11 ++ (seg12 ++ (seg13 ++ seg14))
/-- The buffer each of them writes. -/
abbrev W9 : List (Ref sig .tc) := wr11 ++ (wr12 ++ (wr13 ++ wr14))
theorem W9_writes : Cert.Ssa.Writes L9 W9 :=
  seg11_writes.append (seg12_writes.append (seg13_writes.append seg14_writes))

/-- A line's fold is the fold of its end over the fold of its beginning. -/
theorem after_split (l : List (HloOp τ sig (Elt Ideal))) (n : Nat) (V : Valuation τ sig (Elt Ideal)) :
    after l V = after (l.drop n) (after (l.take n) V) := by
  rw [← Cert.Ssa.after_append, List.take_append_drop]

/-- The beginning of a line writes the beginning of the line's list of written buffers. -/
theorem writes_take {ops : List (HloOp τ sig (Elt Ideal))} {W : List (Ref sig .tc)} (h : Cert.Ssa.Writes ops W) (n : Nat) :
    Cert.Ssa.Writes (ops.take n) (W.take n) := by
  induction n generalizing ops W with
  | zero => exact trivial
  | succ n ih =>
    cases ops with
    | nil =>
      cases W with
      | nil => exact h
      | cons w W => exact False.elim h
    | cons op l =>
      cases W with
      | nil => exact False.elim h
      | cons w W => exact ⟨h.1, ih h.2⟩

/-! ## The contents after each part -/

def T1 (d : Dev nD) : Valuation τ sig (Elt Ideal) := after (L9.take 41) (R8 m d)
def T2 (d : Dev nD) : Valuation τ sig (Elt Ideal) := after ((L9.drop 41).take 41) (T1 m d)
def T3 (d : Dev nD) : Valuation τ sig (Elt Ideal) := after (((L9.drop 41).drop 41).take 41) (T2 m d)
def T4 (d : Dev nD) : Valuation τ sig (Elt Ideal) := after ((((L9.drop 41).drop 41).drop 41).take 41) (T3 m d)
def T5 (d : Dev nD) : Valuation τ sig (Elt Ideal) := after (((((L9.drop 41).drop 41).drop 41).drop 41).take 41) (T4 m d)

/-- The last boundary is the last part's fold over the fifth part's contents. -/
theorem R9_eq (d : Dev nD) : R9 m d = after (((((L9.drop 41).drop 41).drop 41).drop 41).drop 41) (T5 m d) := by
  show after L9 (R8 m d) = _
  rw [after_split L9 41, after_split (L9.drop 41) 41, after_split ((L9.drop 41).drop 41) 41, after_split (((L9.drop 41).drop 41).drop 41) 41, after_split ((((L9.drop 41).drop 41).drop 41).drop 41) 41]
  rfl

/-! ## What each part keeps -/

theorem keepT1 (d : Dev nD) {b : Ref sig .tc} (hb : b ∉ W9.take 41) :
    T1 m d (Proc.devRef .tc b) = R8 m d (Proc.devRef .tc b) :=
  (writes_take W9_writes 41).keep hb _

theorem keepT2 (d : Dev nD) {b : Ref sig .tc} (hb : b ∉ (W9.drop 41).take 41) :
    T2 m d (Proc.devRef .tc b) = T1 m d (Proc.devRef .tc b) :=
  (writes_take (W9_writes.drop 41) 41).keep hb _

theorem keepT3 (d : Dev nD) {b : Ref sig .tc} (hb : b ∉ ((W9.drop 41).drop 41).take 41) :
    T3 m d (Proc.devRef .tc b) = T2 m d (Proc.devRef .tc b) :=
  (writes_take ((W9_writes.drop 41).drop 41) 41).keep hb _

theorem keepT4 (d : Dev nD) {b : Ref sig .tc} (hb : b ∉ (((W9.drop 41).drop 41).drop 41).take 41) :
    T4 m d (Proc.devRef .tc b) = T3 m d (Proc.devRef .tc b) :=
  (writes_take (((W9_writes.drop 41).drop 41).drop 41) 41).keep hb _

theorem keepT5 (d : Dev nD) {b : Ref sig .tc} (hb : b ∉ ((((W9.drop 41).drop 41).drop 41).drop 41).take 41) :
    T5 m d (Proc.devRef .tc b) = T4 m d (Proc.devRef .tc b) :=
  (writes_take ((((W9_writes.drop 41).drop 41).drop 41).drop 41) 41).keep hb _

theorem keepTail (d : Dev nD) {b : Ref sig .tc} (hb : b ∉ (((((W9.drop 41).drop 41).drop 41).drop 41).drop 41)) :
    R9 m d (Proc.devRef .tc b) = T5 m d (Proc.devRef .tc b) := by
  rw [R9_eq]; exact (((((W9_writes.drop 41).drop 41).drop 41).drop 41).drop 41).keep hb _

/-! ## The buffers the parts read, at each part's entry -/
theorem v49_atT1 (d : Dev nD) : T1 m d (Proc.devRef .tc main_v49) = R8 m d (Proc.devRef .tc main_v49) := (keepT1 m d (by decide))
theorem v49_atT2 (d : Dev nD) : T2 m d (Proc.devRef .tc main_v49) = R8 m d (Proc.devRef .tc main_v49) := (keepT2 m d (by decide)).trans (v49_atT1 m d)
theorem v49_atT3 (d : Dev nD) : T3 m d (Proc.devRef .tc main_v49) = R8 m d (Proc.devRef .tc main_v49) := (keepT3 m d (by decide)).trans (v49_atT2 m d)
theorem v49_atT4 (d : Dev nD) : T4 m d (Proc.devRef .tc main_v49) = R8 m d (Proc.devRef .tc main_v49) := (keepT4 m d (by decide)).trans (v49_atT3 m d)
theorem v49_atT5 (d : Dev nD) : T5 m d (Proc.devRef .tc main_v49) = R8 m d (Proc.devRef .tc main_v49) := (keepT5 m d (by decide)).trans (v49_atT4 m d)
theorem v70_atT1 (d : Dev nD) : T1 m d (Proc.devRef .tc main_v70) = R8 m d (Proc.devRef .tc main_v70) := (keepT1 m d (by decide))
theorem v70_atT2 (d : Dev nD) : T2 m d (Proc.devRef .tc main_v70) = R8 m d (Proc.devRef .tc main_v70) := (keepT2 m d (by decide)).trans (v70_atT1 m d)
theorem v70_atT3 (d : Dev nD) : T3 m d (Proc.devRef .tc main_v70) = R8 m d (Proc.devRef .tc main_v70) := (keepT3 m d (by decide)).trans (v70_atT2 m d)
theorem v70_atT4 (d : Dev nD) : T4 m d (Proc.devRef .tc main_v70) = R8 m d (Proc.devRef .tc main_v70) := (keepT4 m d (by decide)).trans (v70_atT3 m d)
theorem v70_atT5 (d : Dev nD) : T5 m d (Proc.devRef .tc main_v70) = R8 m d (Proc.devRef .tc main_v70) := (keepT5 m d (by decide)).trans (v70_atT4 m d)
theorem v91_atT1 (d : Dev nD) : T1 m d (Proc.devRef .tc main_v91) = R8 m d (Proc.devRef .tc main_v91) := (keepT1 m d (by decide))
theorem v91_atT2 (d : Dev nD) : T2 m d (Proc.devRef .tc main_v91) = R8 m d (Proc.devRef .tc main_v91) := (keepT2 m d (by decide)).trans (v91_atT1 m d)
theorem v91_atT3 (d : Dev nD) : T3 m d (Proc.devRef .tc main_v91) = R8 m d (Proc.devRef .tc main_v91) := (keepT3 m d (by decide)).trans (v91_atT2 m d)
theorem v91_atT4 (d : Dev nD) : T4 m d (Proc.devRef .tc main_v91) = R8 m d (Proc.devRef .tc main_v91) := (keepT4 m d (by decide)).trans (v91_atT3 m d)
theorem v91_atT5 (d : Dev nD) : T5 m d (Proc.devRef .tc main_v91) = R8 m d (Proc.devRef .tc main_v91) := (keepT5 m d (by decide)).trans (v91_atT4 m d)
theorem v112_atT1 (d : Dev nD) : T1 m d (Proc.devRef .tc main_v112) = R8 m d (Proc.devRef .tc main_v112) := (keepT1 m d (by decide))
theorem v112_atT2 (d : Dev nD) : T2 m d (Proc.devRef .tc main_v112) = R8 m d (Proc.devRef .tc main_v112) := (keepT2 m d (by decide)).trans (v112_atT1 m d)
theorem v112_atT3 (d : Dev nD) : T3 m d (Proc.devRef .tc main_v112) = R8 m d (Proc.devRef .tc main_v112) := (keepT3 m d (by decide)).trans (v112_atT2 m d)
theorem v112_atT4 (d : Dev nD) : T4 m d (Proc.devRef .tc main_v112) = R8 m d (Proc.devRef .tc main_v112) := (keepT4 m d (by decide)).trans (v112_atT3 m d)
theorem v112_atT5 (d : Dev nD) : T5 m d (Proc.devRef .tc main_v112) = R8 m d (Proc.devRef .tc main_v112) := (keepT5 m d (by decide)).trans (v112_atT4 m d)
theorem v133_atT1 (d : Dev nD) : T1 m d (Proc.devRef .tc main_v133) = R8 m d (Proc.devRef .tc main_v133) := (keepT1 m d (by decide))
theorem v133_atT2 (d : Dev nD) : T2 m d (Proc.devRef .tc main_v133) = R8 m d (Proc.devRef .tc main_v133) := (keepT2 m d (by decide)).trans (v133_atT1 m d)
theorem v133_atT3 (d : Dev nD) : T3 m d (Proc.devRef .tc main_v133) = R8 m d (Proc.devRef .tc main_v133) := (keepT3 m d (by decide)).trans (v133_atT2 m d)
theorem v133_atT4 (d : Dev nD) : T4 m d (Proc.devRef .tc main_v133) = R8 m d (Proc.devRef .tc main_v133) := (keepT4 m d (by decide)).trans (v133_atT3 m d)
theorem v133_atT5 (d : Dev nD) : T5 m d (Proc.devRef .tc main_v133) = R8 m d (Proc.devRef .tc main_v133) := (keepT5 m d (by decide)).trans (v133_atT4 m d)
theorem v154_atT1 (d : Dev nD) : T1 m d (Proc.devRef .tc main_v154) = R8 m d (Proc.devRef .tc main_v154) := (keepT1 m d (by decide))
theorem v154_atT2 (d : Dev nD) : T2 m d (Proc.devRef .tc main_v154) = R8 m d (Proc.devRef .tc main_v154) := (keepT2 m d (by decide)).trans (v154_atT1 m d)
theorem v154_atT3 (d : Dev nD) : T3 m d (Proc.devRef .tc main_v154) = R8 m d (Proc.devRef .tc main_v154) := (keepT3 m d (by decide)).trans (v154_atT2 m d)
theorem v154_atT4 (d : Dev nD) : T4 m d (Proc.devRef .tc main_v154) = R8 m d (Proc.devRef .tc main_v154) := (keepT4 m d (by decide)).trans (v154_atT3 m d)
theorem v154_atT5 (d : Dev nD) : T5 m d (Proc.devRef .tc main_v154) = R8 m d (Proc.devRef .tc main_v154) := (keepT5 m d (by decide)).trans (v154_atT4 m d)
theorem v175_atT1 (d : Dev nD) : T1 m d (Proc.devRef .tc main_v175) = R8 m d (Proc.devRef .tc main_v175) := (keepT1 m d (by decide))
theorem v175_atT2 (d : Dev nD) : T2 m d (Proc.devRef .tc main_v175) = R8 m d (Proc.devRef .tc main_v175) := (keepT2 m d (by decide)).trans (v175_atT1 m d)
theorem v175_atT3 (d : Dev nD) : T3 m d (Proc.devRef .tc main_v175) = R8 m d (Proc.devRef .tc main_v175) := (keepT3 m d (by decide)).trans (v175_atT2 m d)
theorem v175_atT4 (d : Dev nD) : T4 m d (Proc.devRef .tc main_v175) = R8 m d (Proc.devRef .tc main_v175) := (keepT4 m d (by decide)).trans (v175_atT3 m d)
theorem v175_atT5 (d : Dev nD) : T5 m d (Proc.devRef .tc main_v175) = R8 m d (Proc.devRef .tc main_v175) := (keepT5 m d (by decide)).trans (v175_atT4 m d)
theorem arg6_atT1 (d : Dev nD) : T1 m d (Proc.devRef .tc main_arg6) = R8 m d (Proc.devRef .tc main_arg6) := (keepT1 m d (by decide))
theorem arg6_atT2 (d : Dev nD) : T2 m d (Proc.devRef .tc main_arg6) = R8 m d (Proc.devRef .tc main_arg6) := (keepT2 m d (by decide)).trans (arg6_atT1 m d)
theorem arg6_atT3 (d : Dev nD) : T3 m d (Proc.devRef .tc main_arg6) = R8 m d (Proc.devRef .tc main_arg6) := (keepT3 m d (by decide)).trans (arg6_atT2 m d)
theorem arg6_atT4 (d : Dev nD) : T4 m d (Proc.devRef .tc main_arg6) = R8 m d (Proc.devRef .tc main_arg6) := (keepT4 m d (by decide)).trans (arg6_atT3 m d)
theorem arg6_atT5 (d : Dev nD) : T5 m d (Proc.devRef .tc main_arg6) = R8 m d (Proc.devRef .tc main_arg6) := (keepT5 m d (by decide)).trans (arg6_atT4 m d)
theorem arg7_atT1 (d : Dev nD) : T1 m d (Proc.devRef .tc main_arg7) = R8 m d (Proc.devRef .tc main_arg7) := (keepT1 m d (by decide))
theorem arg7_atT2 (d : Dev nD) : T2 m d (Proc.devRef .tc main_arg7) = R8 m d (Proc.devRef .tc main_arg7) := (keepT2 m d (by decide)).trans (arg7_atT1 m d)
theorem arg7_atT3 (d : Dev nD) : T3 m d (Proc.devRef .tc main_arg7) = R8 m d (Proc.devRef .tc main_arg7) := (keepT3 m d (by decide)).trans (arg7_atT2 m d)
theorem arg7_atT4 (d : Dev nD) : T4 m d (Proc.devRef .tc main_arg7) = R8 m d (Proc.devRef .tc main_arg7) := (keepT4 m d (by decide)).trans (arg7_atT3 m d)
theorem arg7_atT5 (d : Dev nD) : T5 m d (Proc.devRef .tc main_arg7) = R8 m d (Proc.devRef .tc main_arg7) := (keepT5 m d (by decide)).trans (arg7_atT4 m d)
theorem v206_atT2 (d : Dev nD) : T2 m d (Proc.devRef .tc main_v206) = T1 m d (Proc.devRef .tc main_v206) := (keepT2 m d (by decide))
theorem v206_atT3 (d : Dev nD) : T3 m d (Proc.devRef .tc main_v206) = T1 m d (Proc.devRef .tc main_v206) := (keepT3 m d (by decide)).trans (v206_atT2 m d)
theorem v206_atT4 (d : Dev nD) : T4 m d (Proc.devRef .tc main_v206) = T1 m d (Proc.devRef .tc main_v206) := (keepT4 m d (by decide)).trans (v206_atT3 m d)
theorem v206_atT5 (d : Dev nD) : T5 m d (Proc.devRef .tc main_v206) = T1 m d (Proc.devRef .tc main_v206) := (keepT5 m d (by decide)).trans (v206_atT4 m d)
theorem v237_atT3 (d : Dev nD) : T3 m d (Proc.devRef .tc main_v237) = T2 m d (Proc.devRef .tc main_v237) := (keepT3 m d (by decide))
theorem v237_atT4 (d : Dev nD) : T4 m d (Proc.devRef .tc main_v237) = T2 m d (Proc.devRef .tc main_v237) := (keepT4 m d (by decide)).trans (v237_atT3 m d)
theorem v237_atT5 (d : Dev nD) : T5 m d (Proc.devRef .tc main_v237) = T2 m d (Proc.devRef .tc main_v237) := (keepT5 m d (by decide)).trans (v237_atT4 m d)
theorem v268_atT4 (d : Dev nD) : T4 m d (Proc.devRef .tc main_v268) = T3 m d (Proc.devRef .tc main_v268) := (keepT4 m d (by decide))
theorem v268_atT5 (d : Dev nD) : T5 m d (Proc.devRef .tc main_v268) = T3 m d (Proc.devRef .tc main_v268) := (keepT5 m d (by decide)).trans (v268_atT4 m d)
theorem v299_atT5 (d : Dev nD) : T5 m d (Proc.devRef .tc main_v299) = T4 m d (Proc.devRef .tc main_v299) := (keepT5 m d (by decide))

end Cert.ReferenceIdeal.RChain

end
-- ==== Proof.RChainLastD1.lean ====
/-
  Part 1 of the last stage: two row normalisations and their difference, read from the contents before the part.
-/
import proofs.«148936_j3496103379547_2_alg».proof.Proof.RChainLastDefs

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 8192 in
/-- Part 1 leaves the difference of the normalisations of the two feature maps it reads. -/
theorem diff1_read (d : Dev nD) :
    T1 m d (Proc.devRef .tc main_v206)
      = diffT (R8 m d (Proc.devRef .tc main_v91)) (R8 m d (Proc.devRef .tc main_v49)) := by
  show after (L9.take 41) (R8 m d) (Proc.devRef .tc main_v206) = _
  generalize R8 m d = V
  simp only [L9, seg11, seg12, seg13, seg14, List.cons_append, List.nil_append, List.take_succ_cons, List.take_zero, List.drop_succ_cons, List.drop_zero]
  after_results_simp
  unfold diffT Cert.ReferenceIdeal.RStage.hostMynorm
  rfl

end Cert.ReferenceIdeal.RChain

end
-- ==== Proof.RChainLastD2.lean ====
/-
  Part 2 of the last stage: two row normalisations and their difference, read from the contents before the part.
-/
import proofs.«148936_j3496103379547_2_alg».proof.Proof.RChainLastDefs

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 8192 in
/-- Part 2 leaves the difference of the normalisations of the two feature maps it reads. -/
theorem diff2_read (d : Dev nD) :
    T2 m d (Proc.devRef .tc main_v237)
      = diffT (T1 m d (Proc.devRef .tc main_v112)) (T1 m d (Proc.devRef .tc main_v70)) := by
  show after ((L9.drop 41).take 41) (T1 m d) (Proc.devRef .tc main_v237) = _
  generalize T1 m d = V
  simp only [L9, seg11, seg12, seg13, seg14, List.cons_append, List.nil_append, List.take_succ_cons, List.take_zero, List.drop_succ_cons, List.drop_zero]
  after_results_simp
  unfold diffT Cert.ReferenceIdeal.RStage.hostMynorm
  rfl

end Cert.ReferenceIdeal.RChain

end
-- ==== Proof.RChainLastD3.lean ====
/-
  Part 3 of the last stage: two row normalisations and their difference, read from the contents before the part.
-/
import proofs.«148936_j3496103379547_2_alg».proof.Proof.RChainLastDefs

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 8192 in
/-- Part 3 leaves the difference of the normalisations of the two feature maps it reads. -/
theorem diff3_read (d : Dev nD) :
    T3 m d (Proc.devRef .tc main_v268)
      = diffT (T2 m d (Proc.devRef .tc main_v133)) (T2 m d (Proc.devRef .tc main_v91)) := by
  show after (((L9.drop 41).drop 41).take 41) (T2 m d) (Proc.devRef .tc main_v268) = _
  generalize T2 m d = V
  simp only [L9, seg11, seg12, seg13, seg14, List.cons_append, List.nil_append, List.take_succ_cons, List.take_zero, List.drop_succ_cons, List.drop_zero]
  after_results_simp
  unfold diffT Cert.ReferenceIdeal.RStage.hostMynorm
  rfl

end Cert.ReferenceIdeal.RChain

end
-- ==== Proof.RChainLastD4.lean ====
/-
  Part 4 of the last stage: two row normalisations and their difference, read from the contents before the part.
-/
import proofs.«148936_j3496103379547_2_alg».proof.Proof.RChainLastDefs

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 8192 in
/-- Part 4 leaves the difference of the normalisations of the two feature maps it reads. -/
theorem diff4_read (d : Dev nD) :
    T4 m d (Proc.devRef .tc main_v299)
      = diffT (T3 m d (Proc.devRef .tc main_v154)) (T3 m d (Proc.devRef .tc main_v112)) := by
  show after ((((L9.drop 41).drop 41).drop 41).take 41) (T3 m d) (Proc.devRef .tc main_v299) = _
  generalize T3 m d = V
  simp only [L9, seg11, seg12, seg13, seg14, List.cons_append, List.nil_append, List.take_succ_cons, List.take_zero, List.drop_succ_cons, List.drop_zero]
  after_results_simp
  unfold diffT Cert.ReferenceIdeal.RStage.hostMynorm
  rfl

end Cert.ReferenceIdeal.RChain

end
-- ==== Proof.RChainLastD5.lean ====
/-
  Part 5 of the last stage: two row normalisations and their difference, read from the contents before the part.
-/
import proofs.«148936_j3496103379547_2_alg».proof.Proof.RChainLastDefs

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

set_option maxHeartbeats 4000000 in
set_option maxRecDepth 8192 in
/-- Part 5 leaves the difference of the normalisations of the two feature maps it reads. -/
theorem diff5_read (d : Dev nD) :
    T5 m d (Proc.devRef .tc main_v330)
      = diffT (T4 m d (Proc.devRef .tc main_v175)) (T4 m d (Proc.devRef .tc main_v133)) := by
  show after (((((L9.drop 41).drop 41).drop 41).drop 41).take 41) (T4 m d) (Proc.devRef .tc main_v330) = _
  generalize T4 m d = V
  simp only [L9, seg11, seg12, seg13, seg14, List.cons_append, List.nil_append, List.take_succ_cons, List.take_zero, List.drop_succ_cons, List.drop_zero]
  after_results_simp
  unfold diffT Cert.ReferenceIdeal.RStage.hostMynorm
  rfl

end Cert.ReferenceIdeal.RChain

end
-- ==== Proof.RFinal.lean ====
/-
  The host's last layer, as one function of the seven feature maps, the weights and the bias.

  The host lays seven [100000, 32] arrays side by side — the first two feature maps, then five differences of normalised
  maps — into a [100000, 224] array, multiplies by the [224, 16] weights and adds the bias broadcast down the rows. Read
  at (r, k) the concatenation is piece k / 32 at lane k % 32; each difference read at an index is the difference of the
  specification's normalisations of the two rows; the product at (r, j) is the sum over the 224 lanes.
-/
import proofs.«148936_j3496103379547_2_alg».proof.Proof.Spec
import proofs.«148936_j3496103379547_2_alg».proof.ReferenceIdeal
import proofs.«148936_j3496103379547_2_alg».proof.Proof.RNorm
import Idealize.ShloMosaic.Lib.Pipeline.Value
import Idealize.ShloMosaic.Lib.ValueIdx
import Idealize.ShloMosaic.PureOps.Ideal.Laws

noncomputable section

open scoped BigOperators

namespace Cert.ReferenceIdeal.RStage

open Cert.ReferenceIdeal Idealize.ShloMosaic Idealize.ShloMosaic.ValueIdx Idealize.ShloMosaic.StableHlo

variable [Facts₀]
open Facts₀

/-- The host's last layer: the seven pieces side by side, times the weights, plus the bias. -/
def hostFinal (x0 x1 x2 x3 x4 x5 x6 : FVec Ideal S100000x32 .f32) (w : FVec Ideal S224x16 .f32) (b : FVec Ideal S16 .f32) :
    FVec Ideal S100000x16 .f32 :=
  addf
    (Host.dotGeneral (F := Ideal) dot_S100000x224_S224x16_S100000x16_1_0_0_1_n_n none
      (concatenate S100000x224 1
        [⟨S100000x32, x0⟩, ⟨S100000x32, x1⟩,
          ⟨S100000x32, subf (hostMynorm x2) (hostMynorm x0)⟩, ⟨S100000x32, subf (hostMynorm x3) (hostMynorm x1)⟩,
          ⟨S100000x32, subf (hostMynorm x4) (hostMynorm x2)⟩, ⟨S100000x32, subf (hostMynorm x5) (hostMynorm x3)⟩,
          ⟨S100000x32, subf (hostMynorm x6) (hostMynorm x4)⟩]
        concatenates_S100000x32_S100000x32_S100000x32_S100000x32_S100000x32_S100000x32_S100000x32_S100000x224_d1)
      w)
    (broadcastInDim S100000x16 ![0, 1] bcast_S1x16_S100000x16_0_1 (broadcastInDim S1x16 ![1] bcast_S16_S1x16_1 b))

/-! ## The product and the bias at an index -/

theorem hostDot7_lhs0 (i : S100000x16.Idx) (q : dot_S100000x224_S224x16_S100000x16_1_0_0_1_n_n.contr.Idx) :
    (dot_S100000x224_S224x16_S100000x16_1_0_0_1_n_n.lhsIdx i q 0).val = (i 0).val := by
  unfold DotDims.lhsIdx
  rw [dif_neg (show ¬(0 : Fin S100000x224.rank) ∈ dot_S100000x224_S224x16_S100000x16_1_0_0_1_n_n.lhsBatch from List.not_mem_nil),
    dif_pos (show (0 : Fin S100000x224.rank) ∈ dot_S100000x224_S224x16_S100000x16_1_0_0_1_n_n.lhsNonContracting from List.mem_singleton.mpr rfl)]
  rfl
theorem hostDot7_lhs1 (i : S100000x16.Idx) (q : dot_S100000x224_S224x16_S100000x16_1_0_0_1_n_n.contr.Idx) :
    (dot_S100000x224_S224x16_S100000x16_1_0_0_1_n_n.lhsIdx i q 1).val = (q ⟨0, (Nat.one_pos : 0 < 1)⟩).val :=
  dot_S100000x224_S224x16_S100000x16_1_0_0_1_n_n.lhsIdx_val_of_single rfl i q
theorem hostDot7_rhs0 (i : S100000x16.Idx) (q : dot_S100000x224_S224x16_S100000x16_1_0_0_1_n_n.contr.Idx) :
    (dot_S100000x224_S224x16_S100000x16_1_0_0_1_n_n.rhsIdx i q 0).val = (q ⟨0, (Nat.one_pos : 0 < 1)⟩).val :=
  dot_S100000x224_S224x16_S100000x16_1_0_0_1_n_n.rhsIdx_val_of_single rfl i q
theorem hostDot7_rhs1 (i : S100000x16.Idx) (q : dot_S100000x224_S224x16_S100000x16_1_0_0_1_n_n.contr.Idx) :
    (dot_S100000x224_S224x16_S100000x16_1_0_0_1_n_n.rhsIdx i q 1).val = (i 1).val := by
  unfold DotDims.rhsIdx
  rw [dif_neg (show ¬(1 : Fin S224x16.rank) ∈ dot_S100000x224_S224x16_S100000x16_1_0_0_1_n_n.rhsBatch from List.not_mem_nil),
    dif_pos (show (1 : Fin S224x16.rank) ∈ dot_S100000x224_S224x16_S100000x16_1_0_0_1_n_n.rhsNonContracting from List.mem_singleton.mpr rfl)]
  rfl

/-- The last layer's product at (r, j): the sum over the 224 lanes. -/
theorem hostDot7_apply (x : FVec Ideal S100000x224 .f32) (w : FVec Ideal S224x16 .f32) (r : Fin 100000) (j : Fin 16) :
    Host.dotGeneral (F := Ideal) dot_S100000x224_S224x16_S100000x16_1_0_0_1_n_n none x w (ix2 r j)
      = ∑ k : Fin 224, x (ix2 r k) * w (ix2 k j) := by
  simp only [Host.dotGeneral]
  rw [Ideal.dotGeneral_apply, ← Equiv.sum_comp (ValueIdx.contrEquiv1 dot_S100000x224_S224x16_S100000x16_1_0_0_1_n_n 224 rfl rfl).symm]
  refine Finset.sum_congr rfl fun k _ => ?_
  have hk := ValueIdx.contrEquiv1_symm_val dot_S100000x224_S224x16_S100000x16_1_0_0_1_n_n 224 rfl rfl k
  have el : dot_S100000x224_S224x16_S100000x16_1_0_0_1_n_n.lhsIdx (ix2 r j) ((ValueIdx.contrEquiv1 dot_S100000x224_S224x16_S100000x16_1_0_0_1_n_n 224 rfl rfl).symm k) = ix2 r k := funext fun a => Fin.ext (by
    match a with
    | ⟨0, _⟩ => exact hostDot7_lhs0 _ _
    | ⟨1, _⟩ => exact (hostDot7_lhs1 _ _).trans hk)
  have er : dot_S100000x224_S224x16_S100000x16_1_0_0_1_n_n.rhsIdx (ix2 r j) ((ValueIdx.contrEquiv1 dot_S100000x224_S224x16_S100000x16_1_0_0_1_n_n 224 rfl rfl).symm k) = ix2 k j := funext fun a => Fin.ext (by
    match a with
    | ⟨0, _⟩ => exact (hostDot7_rhs0 _ _).trans hk
    | ⟨1, _⟩ => exact hostDot7_rhs1 _ _)
  rw [el, er]

/-- The bias laid out as one row and broadcast down the rows, read at (r, j), is its entry j. -/
theorem bcastBias16_apply (b : FVec Ideal S16 .f32) (r : Fin 100000) (j : Fin 16) :
    broadcastInDim S100000x16 ![0, 1] bcast_S1x16_S100000x16_0_1 (broadcastInDim S1x16 ![1] bcast_S16_S1x16_1 b) (ix2 r j) = b (ix1 j) :=
  (broadcastInDim_apply _ bcast_S1x16_S100000x16_0_1 _ (ix2 r j) (ix2 (0 : Fin 1) j) (fun a => match a with
    | ⟨0, _⟩ => by show 0 = if (1 : Nat) = 1 then 0 else r.val; rw [if_pos rfl]
    | ⟨1, _⟩ => by show j.val = if (16 : Nat) = 1 then 0 else j.val; rw [if_neg (by decide)])).trans
  (broadcastInDim_apply _ bcast_S16_S1x16_1 b (ix2 (0 : Fin 1) j) (ix1 j) (fun a => match a with
    | ⟨0, _⟩ => by show j.val = if (16 : Nat) = 1 then 0 else j.val; rw [if_neg (by decide)]))

/-! ## The seven pieces side by side -/

/-- Seven [100000, 32] arrays side by side, read at (r, k): piece k / 32 at lane k % 32. -/
theorem cat7_apply (p : Fin 7 → FVec Ideal S100000x32 .f32)
    (h : Shape.Concatenates [S100000x32, S100000x32, S100000x32, S100000x32, S100000x32, S100000x32, S100000x32] S100000x224 1)
    (r : Fin 100000) (k : Fin 224) :
    concatenate S100000x224 1
        [⟨S100000x32, p 0⟩, ⟨S100000x32, p 1⟩, ⟨S100000x32, p 2⟩, ⟨S100000x32, p 3⟩, ⟨S100000x32, p 4⟩, ⟨S100000x32, p 5⟩,
          ⟨S100000x32, p 6⟩] h (ix2 r k)
      = p ⟨k.val / 32, by have := k.isLt; omega⟩ (ix2 r (⟨k.val % 32, Nat.mod_lt _ (by decide)⟩ : Fin 32)) :=
  concatenate_ofFn_apply (t := S100000x224) (s₁ := S100000x32) 1 p h rfl 32 rfl (ix2 r k)
    ⟨k.val / 32, by have := k.isLt; omega⟩ rfl (ix2 r (⟨k.val % 32, Nat.mod_lt _ (by decide)⟩ : Fin 32)) rfl
    (fun b hb => match b with
      | ⟨0, _⟩ => rfl
      | ⟨1, _⟩ => absurd rfl hb)

/-- The same, with the seven arrays named one by one: the specification's `cat7` of the seven rows at node r. -/
theorem cat7_rows_apply (p0 p1 p2 p3 p4 p5 p6 : FVec Ideal S100000x32 .f32)
    (h : Shape.Concatenates [S100000x32, S100000x32, S100000x32, S100000x32, S100000x32, S100000x32, S100000x32] S100000x224 1)
    (r : Fin 100000) (k : Fin 224) :
    concatenate S100000x224 1
        [⟨S100000x32, p0⟩, ⟨S100000x32, p1⟩, ⟨S100000x32, p2⟩, ⟨S100000x32, p3⟩, ⟨S100000x32, p4⟩, ⟨S100000x32, p5⟩,
          ⟨S100000x32, p6⟩] h (ix2 r k)
      = Spec.cat7 ![fun l => p0 (ix2 r l), fun l => p1 (ix2 r l), fun l => p2 (ix2 r l), fun l => p3 (ix2 r l),
          fun l => p4 (ix2 r l), fun l => p5 (ix2 r l), fun l => p6 (ix2 r l)] k := by
  refine (cat7_apply ![p0, p1, p2, p3, p4, p5, p6] h r k).trans ?_
  unfold Spec.cat7
  generalize (⟨k.val / 32, _⟩ : Fin 7) = c
  generalize (⟨k.val % 32, _⟩ : Fin 32) = l
  fin_cases c <;> rfl

/-- Two lists of seven are equal when their entries are. -/
theorem vec7_congr {α : Type} (a0 a1 a2 a3 a4 a5 a6 b0 b1 b2 b3 b4 b5 b6 : α) (h0 : a0 = b0) (h1 : a1 = b1) (h2 : a2 = b2)
    (h3 : a3 = b3) (h4 : a4 = b4) (h5 : a5 = b5) (h6 : a6 = b6) :
    (![a0, a1, a2, a3, a4, a5, a6] : Fin 7 → α) = ![b0, b1, b2, b3, b4, b5, b6] := by
  subst h0 h1 h2 h3 h4 h5 h6; rfl

/-- A difference of two arrays at an index, from what each is there. -/
theorem subf_apply_of {s : Shape} (A B : FVec Ideal s .f32) (i : s.Idx) (u v : EReal) (hu : A i = u) (hv : B i = v) :
    subf A B i = u - v := by
  subst hu hv; rfl

/-- The host's seven pieces at node r are the specification's pieces of the node's seven rows. -/
theorem piecesVec_eq (x0 x1 x2 x3 x4 x5 x6 : FVec Ideal S100000x32 .f32) (r : Fin 100000) :
    (![fun l => x0 (ix2 r l), fun l => x1 (ix2 r l), fun l => subf (hostMynorm x2) (hostMynorm x0) (ix2 r l),
        fun l => subf (hostMynorm x3) (hostMynorm x1) (ix2 r l), fun l => subf (hostMynorm x4) (hostMynorm x2) (ix2 r l),
        fun l => subf (hostMynorm x5) (hostMynorm x3) (ix2 r l), fun l => subf (hostMynorm x6) (hostMynorm x4) (ix2 r l)]
        : Fin 7 → Fin 32 → EReal)
      = Spec.pieces (Spec.un2 x0 r) (Spec.un2 x1 r) (Spec.un2 x2 r) (Spec.un2 x3 r) (Spec.un2 x4 r) (Spec.un2 x5 r) (Spec.un2 x6 r) := by
  have d : ∀ (a b : FVec Ideal S100000x32 .f32) (l : Fin 32),
      subf (hostMynorm a) (hostMynorm b) (ix2 r l) = Spec.mynorm (Spec.un2 a r) l - Spec.mynorm (Spec.un2 b r) l := fun a b l =>
    subf_apply_of _ _ _ _ _ (hostMynorm_apply a r l) (hostMynorm_apply b r l)
  unfold Spec.pieces
  exact vec7_congr _ _ _ _ _ _ _ _ _ _ _ _ _ _ rfl rfl (funext fun l => d x2 x0 l) (funext fun l => d x3 x1 l)
    (funext fun l => d x4 x2 l) (funext fun l => d x5 x3 l) (funext fun l => d x6 x4 l)

/-! ## The last layer -/

/-- The dense layer over any [100000, 224] array whose row r is known. -/
theorem finalForm_apply (C : FVec Ideal S100000x224 .f32) (w : FVec Ideal S224x16 .f32) (b : FVec Ideal S16 .f32)
    (r : Fin 100000) (j : Fin 16) (a : Fin 224 → EReal) (hC : ∀ k : Fin 224, C (ix2 r k) = a k) :
    addf (Host.dotGeneral (F := Ideal) dot_S100000x224_S224x16_S100000x16_1_0_0_1_n_n none C w)
        (broadcastInDim S100000x16 ![0, 1] bcast_S1x16_S100000x16_0_1 (broadcastInDim S1x16 ![1] bcast_S16_S1x16_1 b)) (ix2 r j)
      = Spec.lin a (Spec.un2 w) (Spec.un1 b) j := by
  refine (addf_apply _ _ (ix2 r j)).trans ?_
  rw [hostDot7_apply, bcastBias16_apply, Finset.sum_congr rfl (fun k _ => congrArg (· * w (ix2 k j)) (hC k))]
  rfl

/-- The host's last layer is the specification's, as arrays. -/
theorem hostFinal_eq (x0 x1 x2 x3 x4 x5 x6 : FVec Ideal S100000x32 .f32) (w : FVec Ideal S224x16 .f32) (b : FVec Ideal S16 .f32) :
    hostFinal x0 x1 x2 x3 x4 x5 x6 w b
      = Spec.of2 (Spec.final (Spec.un2 x0) (Spec.un2 x1) (Spec.un2 x2) (Spec.un2 x3) (Spec.un2 x4) (Spec.un2 x5) (Spec.un2 x6)
          (Spec.un2 w) (Spec.un1 b)) := by
  funext i
  obtain ⟨r, j, rfl⟩ : ∃ (r : Fin 100000) (j : Fin 16), i = ix2 r j := ⟨i 0, i 1, eq_ix2 i⟩
  rw [Spec.of2_ix2]
  unfold hostFinal Spec.final
  exact finalForm_apply _ w b r j _ (fun k =>
    (cat7_rows_apply _ _ _ _ _ _ _ _ r k).trans (congrArg (fun p => Spec.cat7 p k) (piecesVec_eq x0 x1 x2 x3 x4 x5 x6 r)))

end Cert.ReferenceIdeal.RStage

end
-- ==== Proof.RChainLastTail.lean ====
/-
  The last part of the last stage: the seven pieces laid side by side, the product with the weights and the bias,
  read from the contents after the fifth part.
-/
import proofs.«148936_j3496103379547_2_alg».proof.Proof.RChainLastDefs
import proofs.«148936_j3496103379547_2_alg».proof.Proof.RFinal

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-- The host's last dense layer over seven given pieces. -/
def tailT (p0 p1 p2 p3 p4 p5 p6 : FVec Ideal S100000x32 .f32) (w : FVec Ideal S224x16 .f32) (b : FVec Ideal S16 .f32) :
    FVec Ideal S100000x16 .f32 :=
  addf
    (Host.dotGeneral (F := Ideal) dot_S100000x224_S224x16_S100000x16_1_0_0_1_n_n none
      (concatenate S100000x224 1
        [⟨S100000x32, p0⟩, ⟨S100000x32, p1⟩, ⟨S100000x32, p2⟩, ⟨S100000x32, p3⟩, ⟨S100000x32, p4⟩, ⟨S100000x32, p5⟩, ⟨S100000x32, p6⟩]
        concatenates_S100000x32_S100000x32_S100000x32_S100000x32_S100000x32_S100000x32_S100000x32_S100000x224_d1)
      w)
    (broadcastInDim S100000x16 ![0, 1] bcast_S1x16_S100000x16_0_1 (broadcastInDim S1x16 ![1] bcast_S16_S1x16_1 b))

/-- Over the two first maps and the five differences it is the host's last layer of the seven maps. -/
theorem tailT_diff (x0 x1 x2 x3 x4 x5 x6 : FVec Ideal S100000x32 .f32) (w : FVec Ideal S224x16 .f32) (b : FVec Ideal S16 .f32) :
    tailT x0 x1 (diffT x2 x0) (diffT x3 x1) (diffT x4 x2) (diffT x5 x3) (diffT x6 x4) w b
      = Cert.ReferenceIdeal.RStage.hostFinal x0 x1 x2 x3 x4 x5 x6 w b := rfl

set_option maxHeartbeats 4000000 in
set_option maxRecDepth 8192 in
/-- The last part leaves the last dense layer of the seven pieces it reads. -/
theorem tail_read (d : Dev nD) :
    R9 m d (Proc.devRef .tc main_v335)
      = tailT (T5 m d (Proc.devRef .tc main_v49)) (T5 m d (Proc.devRef .tc main_v70)) (T5 m d (Proc.devRef .tc main_v206))
          (T5 m d (Proc.devRef .tc main_v237)) (T5 m d (Proc.devRef .tc main_v268)) (T5 m d (Proc.devRef .tc main_v299))
          (T5 m d (Proc.devRef .tc main_v330)) (T5 m d (Proc.devRef .tc main_arg6)) (T5 m d (Proc.devRef .tc main_arg7)) := by
  rw [R9_eq]
  generalize T5 m d = V
  simp only [L9, seg11, seg12, seg13, seg14, List.cons_append, List.nil_append, List.take_succ_cons, List.take_zero, List.drop_succ_cons, List.drop_zero]
  after_results_simp
  rfl

end Cert.ReferenceIdeal.RChain

end
-- ==== Proof.RChain.lean ====
/-
  The chain through the reference: the buffer each stage leaves is the network's feature map of that layer, as one
  function of the argument arrays and of the three arrays computed from the edge list; the last stage leaves the
  network's result; no operation writes an argument.

  A stage's operations leave the host's layer of what the stage reads at its entry; the buffers it reads are kept
  from the stages that wrote them; the feature map before is the previous equation.
-/
import proofs.«148936_j3496103379547_2_alg».proof.Proof.RChainDefs
import proofs.«148936_j3496103379547_2_alg».proof.Proof.RChainKeep
import proofs.«148936_j3496103379547_2_alg».proof.Proof.RChainFirst
import proofs.«148936_j3496103379547_2_alg».proof.Proof.RChainLayerT
import proofs.«148936_j3496103379547_2_alg».proof.Proof.RChainLayersA
import proofs.«148936_j3496103379547_2_alg».proof.Proof.RChainLayersB
import proofs.«148936_j3496103379547_2_alg».proof.Proof.RChainLastDefs
import proofs.«148936_j3496103379547_2_alg».proof.Proof.RChainLastD1
import proofs.«148936_j3496103379547_2_alg».proof.Proof.RChainLastD2
import proofs.«148936_j3496103379547_2_alg».proof.Proof.RChainLastD3
import proofs.«148936_j3496103379547_2_alg».proof.Proof.RChainLastD4
import proofs.«148936_j3496103379547_2_alg».proof.Proof.RChainLastD5
import proofs.«148936_j3496103379547_2_alg».proof.Proof.RChainLastTail
import proofs.«148936_j3496103379547_2_alg».proof.Proof.Net
import proofs.«148936_j3496103379547_2_alg».proof.Proof.RFinal

noncomputable section

namespace Cert.ReferenceIdeal.RChain

open Cert.ReferenceIdeal Cert.ReferenceIdeal.Gen Cert.ReferenceIdeal.RunP
open Idealize.ShloMosaic Idealize.ShloMosaic.TcCoe Idealize.SL.Sem Idealize.ShloMosaic.StableHlo

variable (m : (ℓ : Loc nD τ sig) → Buf (Elt Ideal) ℓ)

/-! ## The first layer -/

/-- The first layer's stage leaves the first feature map of the arguments. -/
theorem x0_eq (d : Dev nD) : R2 m d (Proc.devRef .tc main_v49) = Cert.Net.x0T (A0 m d) (A2 m d) (A3 m d) := by
  rw [dense0_read, arg0_at1, arg2_at1, arg3_at1, dense0T_eq]
  rfl

/-! ## The six middle layers -/

/-- Middle layer 1's stage leaves feature map 1. -/
theorem x1_eq (d : Dev nD) : R3 m d (Proc.devRef .tc main_v70)
    = Cert.Net.x1T (G5 m d) (G6 m d) (G29 m d) (A0 m d) (A2 m d) (A3 m d) (A4 m d) (A5 m d) := by
  rw [layer1_read, v5_at2, v6_at2, v29_at2, arg4_at2, arg5_at2, x0_eq, layerT_eq]
  rfl

/-- Middle layer 2's stage leaves feature map 2. -/
theorem x2_eq (d : Dev nD) : R4 m d (Proc.devRef .tc main_v91)
    = Cert.Net.x2T (G5 m d) (G6 m d) (G29 m d) (A0 m d) (A2 m d) (A3 m d) (A4 m d) (A5 m d) := by
  rw [layer2_read, v5_at3, v6_at3, v29_at3, arg4_at3, arg5_at3, x1_eq, layerT_eq]
  rfl

/-- Middle layer 3's stage leaves feature map 3. -/
theorem x3_eq (d : Dev nD) : R5 m d (Proc.devRef .tc main_v112)
    = Cert.Net.x3T (G5 m d) (G6 m d) (G29 m d) (A0 m d) (A2 m d) (A3 m d) (A4 m d) (A5 m d) := by
  rw [layer3_read, v5_at4, v6_at4, v29_at4, arg4_at4, arg5_at4, x2_eq, layerT_eq]
  rfl

/-- Middle layer 4's stage leaves feature map 4. -/
theorem x4_eq (d : Dev nD) : R6 m d (Proc.devRef .tc main_v133)
    = Cert.Net.x4T (G5 m d) (G6 m d) (G29 m d) (A0 m d) (A2 m d) (A3 m d) (A4 m d) (A5 m d) := by
  rw [layer4_read, v5_at5, v6_at5, v29_at5, arg4_at5, arg5_at5, x3_eq, layerT_eq]
  rfl

/-- Middle layer 5's stage leaves feature map 5. -/
theorem x5_eq (d : Dev nD) : R7 m d (Proc.devRef .tc main_v154)
    = Cert.Net.x5T (G5 m d) (G6 m d) (G29 m d) (A0 m d) (A2 m d) (A3 m d) (A4 m d) (A5 m d) := by
  rw [layer5_read, v5_at6, v6_at6, v29_at6, arg4_at6, arg5_at6, x4_eq, layerT_eq]
  rfl

/-- Middle layer 6's stage leaves feature map 6. -/
theorem x6_eq (d : Dev nD) : R8 m d (Proc.devRef .tc main_v175)
    = Cert.Net.x6T (G5 m d) (G6 m d) (G29 m d) (A0 m d) (A2 m d) (A3 m d) (A4 m d) (A5 m d) := by
  rw [layer6_read, v5_at7, v6_at7, v29_at7, arg4_at7, arg5_at7, x5_eq, layerT_eq]
  rfl

/-! ## The last layer -/

/-- The last stage leaves the host's last layer of the seven feature maps as their stages left them. -/
theorem result_read (d : Dev nD) :
    R9 m d (Proc.devRef .tc main_v335)
      = Cert.ReferenceIdeal.RStage.hostFinal (R2 m d (Proc.devRef .tc main_v49)) (R3 m d (Proc.devRef .tc main_v70))
          (R4 m d (Proc.devRef .tc main_v91)) (R5 m d (Proc.devRef .tc main_v112)) (R6 m d (Proc.devRef .tc main_v133))
          (R7 m d (Proc.devRef .tc main_v154)) (R8 m d (Proc.devRef .tc main_v175)) (A6 m d) (A7 m d) := by
  rw [tail_read,
    v206_atT5, diff1_read,
    v237_atT5, diff2_read, v112_atT1, v70_atT1,
    v268_atT5, diff3_read, v133_atT2, v91_atT2,
    v299_atT5, diff4_read, v154_atT3, v112_atT3,
    diff5_read, v175_atT4, v133_atT4,
    v49_atT5, v70_atT5, arg6_atT5, arg7_atT5, arg6_at8, arg7_at8,
    v49_at8, v70_at8, v91_at8, v112_at8, v133_at8, v154_at8,
    tailT_diff]

/-- The reference's result buffer ends holding the network's result. -/
theorem result_eq (d : Dev nD) : after ops (launchContents m d) (Proc.devRef .tc main_v335)
    = Cert.Net.net (G5 m d) (G6 m d) (G29 m d) (A0 m d) (A2 m d) (A3 m d) (A4 m d) (A5 m d) (A6 m d) (A7 m d) := by
  rw [fold_eq, result_read, x0_eq, x1_eq, x2_eq, x3_eq, x4_eq, x5_eq, x6_eq, Cert.ReferenceIdeal.RStage.hostFinal_eq]
  rfl

/-! ## The arguments -/

/-- No operation writes an argument. -/
theorem args_kept (d : Dev nD) :
    after ops (launchContents m d) (Proc.devRef .tc main_arg0) = m ((d.tc : Thread nD τ).loc main_arg0)
    ∧ after ops (launchContents m d) (Proc.devRef .tc main_arg1) = m ((d.tc : Thread nD τ).loc main_arg1)
    ∧ after ops (launchContents m d) (Proc.devRef .tc main_arg2) = m ((d.tc : Thread nD τ).loc main_arg2)
    ∧ after ops (launchContents m d) (Proc.devRef .tc main_arg3) = m ((d.tc : Thread nD τ).loc main_arg3)
    ∧ after ops (launchContents m d) (Proc.devRef .tc main_arg4) = m ((d.tc : Thread nD τ).loc main_arg4)
    ∧ after ops (launchContents m d) (Proc.devRef .tc main_arg5) = m ((d.tc : Thread nD τ).loc main_arg5)
    ∧ after ops (launchContents m d) (Proc.devRef .tc main_arg6) = m ((d.tc : Thread nD τ).loc main_arg6)
    ∧ after ops (launchContents m d) (Proc.devRef .tc main_arg7) = m ((d.tc : Thread nD τ).loc main_arg7) := by
  rw [fold_eq]
  exact ⟨arg0_at9 m d, arg1_at9 m d, arg2_at9 m d, arg3_at9 m d, arg4_at9 m d, arg5_at9 m d, arg6_at9 m d, arg7_at9 m d⟩

end Cert.ReferenceIdeal.RChain

end
-- ==== Proof.Glue.lean ====
/-
  The edge arrays agree: the three arrays computed from the edge list before the first layer — every edge's source
  and destination with the self-loops appended, and every edge's symmetric degree normalisation — are the same
  functions of the edge-list argument in the two programs.

  Each side is read down to clean terms of the edge-list argument: the rows of the edge list with the node
  numbers appended; the in-degrees (ones added into the destinations); their inverse square roots where positive;
  the product of the two endpoints' values. The two programs run the same operations, so the clean terms coincide.
-/
import proofs.«148936_j3496103379547_2_alg».proof.Proof.KChainKeep
import proofs.«148936_j3496103379547_2_alg».proof.Proof.RefOps
import Idealize.ShloMosaic.Lib.StableHlo.Run

set_option maxRecDepth 16384

noncomputable section

namespace Cert.Glue

open Idealize.ShloMosaic Idealize.ShloMosaic.TcCoe Idealize.SL.Sem Idealize.ShloMosaic.StableHlo

/-! ## The kernel program's side -/

section KSide
open Cert.KernelIdeal Cert.KernelIdeal.Gen Cert.KernelIdeal.KChain

/-- The edges' endpoints on one row of the edge list, with the self-loops appended. -/
def rowK (r : Nat) (sl : S2x3200000.Slices ![r, 0] S1x3200000) (e : IVec S2x3200000 32) : IVec S3300000 32 :=
  concatenate S3300000 0
    [⟨S3200000, shapeCast S3200000 (extractStridedSlice S1x3200000 ![r, 0] e sl) shapeCasts_S1x3200000_S3200000⟩,
      ⟨S100000, iotaInDim S100000 32 0⟩]
    concatenates_S3200000_S100000_S3300000_d0

/-- The sources and the destinations. -/
def srcK (e : IVec S2x3200000 32) : IVec S3300000 32 := rowK 0 slices_S2x3200000_S1x3200000_0_0 e
def dstK (e : IVec S2x3200000 32) : IVec S3300000 32 := rowK 1 slices_S2x3200000_S1x3200000_1_0 e

/-- Every node's in-degree: ones added into the destinations. -/
def degK (e : IVec S2x3200000 32) : FVec Ideal S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dstK e))
    (broadcastInDim S3300000 ![] bcast_S_S3300000 (constant S_ .f32 0x3F800000#32))

/-- Its inverse square root where positive, zero elsewhere. -/
def disK (e : IVec S2x3200000 32) : FVec Ideal S100000 .f32 :=
  select (cmpf .ogt (degK e) (broadcastInDim S100000 ![] bcast_S_S100000 (constant S_ .f32 0x00000000#32)))
    (Host.rsqrt (degK e))
    (broadcastInDim S100000 ![] bcast_S_S100000 (constant S_ .f32 0x00000000#32))

/-- An index array with negative entries read from the end, as a column of start indices. -/
def wrapK (g : IVec S3300000 32) : IVec S3300000x1 32 :=
  broadcastInDim S3300000x1 ![0] bcast_S3300000_S3300000x1_0
    (select (cmpi .slt g (broadcastInDim S3300000 ![] bcast_S_S3300000 (constantI S_ 32 0#32)))
      (addi g (broadcastInDim S3300000 ![] bcast_S_S3300000 (constantI S_ 32 100000#32))) g)

/-- Every edge's normalisation: the product of its endpoints' inverse square root degrees. -/
def normK (e : IVec S2x3200000 32) : FVec Ideal S3300000 .f32 :=
  mulf (Host.gather gather_S100000_S3300000x1_S3300000_n_0_n_n_0_1_1 (disK e) (wrapK (srcK e)))
    (Host.gather gather_S100000_S3300000x1_S3300000_n_0_n_n_0_1_1 (disK e) (wrapK (dstK e)))

variable (m : (ℓ : Loc nD τ sig) → Buf (Elt Ideal) ℓ) (ρ : Dev nD → PrngReg)

/-! The three stretches before the first layer, one at a time, over any contents found. -/

set_option maxHeartbeats 4000000 in
theorem k_src (X : Valuation τ sig (Elt Ideal)) :
    StableHlo.after hostOps0 X (Proc.devRef .tc main_v5) = srcK (X (Proc.devRef .tc main_arg1)) := by
  after_results_simp
  rfl
set_option maxHeartbeats 4000000 in
theorem k_dst (X : Valuation τ sig (Elt Ideal)) :
    StableHlo.after hostOps0 X (Proc.devRef .tc main_v6) = dstK (X (Proc.devRef .tc main_arg1)) := by
  after_results_simp
  rfl
set_option maxHeartbeats 4000000 in
theorem k_pos (X : Valuation τ sig (Elt Ideal)) :
    StableHlo.after hostOps0 X (Proc.devRef .tc main_v12)
      = cmpf .ogt (degK (X (Proc.devRef .tc main_arg1))) (broadcastInDim S100000 ![] bcast_S_S100000 (constant S_ .f32 0x00000000#32)) := by
  after_results_simp
  rfl
set_option maxHeartbeats 4000000 in
theorem k_rsq (X : Valuation τ sig (Elt Ideal)) :
    StableHlo.after hostOps0 X (Proc.devRef .tc main_v13) = Host.rsqrt (degK (X (Proc.devRef .tc main_arg1))) := by
  after_results_simp
  rfl
set_option maxHeartbeats 4000000 in
theorem k_zero (X : Valuation τ sig (Elt Ideal)) :
    StableHlo.after hostOps0 X (Proc.devRef .tc main_cst_2) = constant (F := Ideal) S_ .f32 0x00000000#32 := by
  after_results_simp
set_option maxHeartbeats 4000000 in
theorem k_where (Y : Valuation τ sig (Elt Ideal)) :
    StableHlo.after hostOps0_1 Y (Proc.devRef .tc main_v14)
      = select (Y (Proc.devRef .tc main_v12) : IVec S100000 1) (Y (Proc.devRef .tc main_v13) : FVec Ideal S100000 .f32)
          (broadcastInDim S100000 ![] bcast_S_S100000 (Y (Proc.devRef .tc main_cst_2) : FVec Ideal S_ .f32)) := by
  after_results_simp
  rfl
set_option maxHeartbeats 4000000 in
theorem k_prod (Z : Valuation τ sig (Elt Ideal)) :
    StableHlo.after hostOps0_2 Z (Proc.devRef .tc main_v29)
      = (mulf (Host.gather gather_S100000_S3300000x1_S3300000_n_0_n_n_0_1_1 (Z (Proc.devRef .tc main_v14) : FVec Ideal S100000 .f32) (wrapK (Z (Proc.devRef .tc main_v5))))
          (Host.gather gather_S100000_S3300000x1_S3300000_n_0_n_n_0_1_1 (Z (Proc.devRef .tc main_v14) : FVec Ideal S100000 .f32) (wrapK (Z (Proc.devRef .tc main_v6)))) : FVec Ideal S3300000 .f32) := by
  after_results_simp
  rfl

theorem k5 (c : Dev nD) : G5 m ρ c = srcK (m ((c : Thread nD τ).loc main_arg1)) := k_src (W0 m ρ c)
theorem k6 (c : Dev nD) : G6 m ρ c = dstK (m ((c : Thread nD τ).loc main_arg1)) := k_dst (W0 m ρ c)
theorem k29 (c : Dev nD) : G29 m ρ c = normK (m ((c : Thread nD τ).loc main_arg1)) := by
  refine (k_prod (W2 m ρ c)).trans ?_
  rw [Cert.KernelIdeal.KKeep.keep_h0_1 m ρ c main_v5 (by decide), Cert.KernelIdeal.KKeep.keep_h0_1 m ρ c main_v6 (by decide),
    show W2 m ρ c (Proc.devRef .tc main_v14) = _ from k_where (W1 m ρ c),
    show W1 m ρ c (Proc.devRef .tc main_v12) = _ from k_pos (W0 m ρ c),
    show W1 m ρ c (Proc.devRef .tc main_v13) = _ from k_rsq (W0 m ρ c),
    show W1 m ρ c (Proc.devRef .tc main_cst_2) = _ from k_zero (W0 m ρ c),
    show W1 m ρ c (Proc.devRef .tc main_v5) = _ from k_src (W0 m ρ c),
    show W1 m ρ c (Proc.devRef .tc main_v6) = _ from k_dst (W0 m ρ c)]
  rfl

end KSide

/-! ## The reference program's side -/

section RSide
open Cert.ReferenceIdeal Cert.ReferenceIdeal.Gen Cert.ReferenceIdeal.RunP

/-- The edges' endpoints on one row of the edge list, with the self-loops appended. -/
def rowR (r : Nat) (sl : S2x3200000.Slices ![r, 0] S1x3200000) (e : IVec S2x3200000 32) : IVec S3300000 32 :=
  concatenate S3300000 0
    [⟨S3200000, shapeCast S3200000 (extractStridedSlice S1x3200000 ![r, 0] e sl) shapeCasts_S1x3200000_S3200000⟩,
      ⟨S100000, iotaInDim S100000 32 0⟩]
    concatenates_S3200000_S100000_S3300000_d0

/-- The sources and the destinations. -/
def srcR (e : IVec S2x3200000 32) : IVec S3300000 32 := rowR 0 slices_S2x3200000_S1x3200000_0_0 e
def dstR (e : IVec S2x3200000 32) : IVec S3300000 32 := rowR 1 slices_S2x3200000_S1x3200000_1_0 e

/-- Every node's in-degree: ones added into the destinations. -/
def degR (e : IVec S2x3200000 32) : FVec Ideal S100000 .f32 :=
  Host.scatterAdd scatter_S100000_S3300000x1_S3300000_n_0_0_1
    (broadcastInDim S100000 ![] bcast_S_S100000 (constant S_ .f32 0x00000000#32))
    (broadcastInDim S3300000x1 ![0] bcast_S3300000_S3300000x1_0 (dstR e))
    (broadcastInDim S3300000 ![] bcast_S_S3300000 (constant S_ .f32 0x3F800000#32))

/-- Its inverse square root where positive, zero elsewhere. -/
def disR (e : IVec S2x3200000 32) : FVec Ideal S100000 .f32 :=
  select (cmpf .ogt (degR e) (broadcastInDim S100000 ![] bcast_S_S100000 (constant S_ .f32 0x00000000#32)))
    (Host.rsqrt (degR e))
    (broadcastInDim S100000 ![] bcast_S_S100000 (constant S_ .f32 0x00000000#32))

/-- An index array with negative entries read from the end, as a column of start indices. -/
def wrapR (g : IVec S3300000 32) : IVec S3300000x1 32 :=
  broadcastInDim S3300000x1 ![0] bcast_S3300000_S3300000x1_0
    (select (cmpi .slt g (broadcastInDim S3300000 ![] bcast_S_S3300000 (constantI S_ 32 0#32)))
      (addi g (broadcastInDim S3300000 ![] bcast_S_S3300000 (constantI S_ 32 100000#32))) g)

/-- Every edge's normalisation: the product of its endpoints' inverse square root degrees. -/
def normR (e : IVec S2x3200000 32) : FVec Ideal S3300000 .f32 :=
  mulf (Host.gather gather_S100000_S3300000x1_S3300000_n_0_n_n_0_1_1 (disR e) (wrapR (srcR e)))
    (Host.gather gather_S100000_S3300000x1_S3300000_n_0_n_n_0_1_1 (disR e) (wrapR (dstR e)))

/-- A list of operations run after another is the concatenation run as one. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The first forty operations in three parts: the edge rows and the degrees (18 operations), the guarded inverse
    square root (3), the two gathers and their product (19). -/
theorem after_cut (X : Valuation τ sig (Elt Ideal)) :
    StableHlo.after (seg0 (F := Ideal)) X
      = StableHlo.after (List.drop 3 (List.drop 18 (seg0 (F := Ideal))))
          (StableHlo.after (List.take 3 (List.drop 18 (seg0 (F := Ideal)))) (StableHlo.after (List.take 18 (seg0 (F := Ideal))) X)) := by
  rw [← after_append, ← after_append, List.take_append_drop, List.take_append_drop]

set_option maxHeartbeats 4000000 in
theorem r_src (X : Valuation τ sig (Elt Ideal)) :
    StableHlo.after (List.take 18 (seg0 (F := Ideal))) X (Proc.devRef .tc main_v5) = srcR (X (Proc.devRef .tc main_arg1)) := by
  simp only [seg0, List.take_succ_cons, List.take_zero]
  after_results_simp
  rfl
set_option maxHeartbeats 4000000 in
theorem r_dst (X : Valuation τ sig (Elt Ideal)) :
    StableHlo.after (List.take 18 (seg0 (F := Ideal))) X (Proc.devRef .tc main_v6) = dstR (X (Proc.devRef .tc main_arg1)) := by
  simp only [seg0, List.take_succ_cons, List.take_zero]
  after_results_simp
  rfl
set_option maxHeartbeats 4000000 in
theorem r_pos (X : Valuation τ sig (Elt Ideal)) :
    StableHlo.after (List.take 18 (seg0 (F := Ideal))) X (Proc.devRef .tc main_v12)
      = cmpf .ogt (degR (X (Proc.devRef .tc main_arg1))) (broadcastInDim S100000 ![] bcast_S_S100000 (constant S_ .f32 0x00000000#32)) := by
  simp only [seg0, List.take_succ_cons, List.take_zero]
  after_results_simp
  rfl
set_option maxHeartbeats 4000000 in
theorem r_rsq (X : Valuation τ sig (Elt Ideal)) :
    StableHlo.after (List.take 18 (seg0 (F := Ideal))) X (Proc.devRef .tc main_v13) = Host.rsqrt (degR (X (Proc.devRef .tc main_arg1))) := by
  simp only [seg0, List.take_succ_cons, List.take_zero]
  after_results_simp
  rfl
set_option maxHeartbeats 4000000 in
theorem r_zero (X : Valuation τ sig (Elt Ideal)) :
    StableHlo.after (List.take 18 (seg0 (F := Ideal))) X (Proc.devRef .tc main_cst_2) = constant (F := Ideal) S_ .f32 0x00000000#32 := by
  simp only [seg0, List.take_succ_cons, List.take_zero]
  after_results_simp
set_option maxHeartbeats 4000000 in
theorem r_where (Y : Valuation τ sig (Elt Ideal)) :
    StableHlo.after (List.take 3 (List.drop 18 (seg0 (F := Ideal)))) Y (Proc.devRef .tc main_v14)
      = select (Y (Proc.devRef .tc main_v12) : IVec S100000 1) (Y (Proc.devRef .tc main_v13) : FVec Ideal S100000 .f32)
          (broadcastInDim S100000 ![] bcast_S_S100000 (Y (Proc.devRef .tc main_cst_2) : FVec Ideal S_ .f32)) := by
  simp only [seg0, List.drop_succ_cons, List.drop_zero, List.take_succ_cons, List.take_zero]
  after_results_simp
  rfl
set_option maxHeartbeats 4000000 in
theorem r_where5 (Y : Valuation τ sig (Elt Ideal)) :
    StableHlo.after (List.take 3 (List.drop 18 (seg0 (F := Ideal)))) Y (Proc.devRef .tc main_v5) = Y (Proc.devRef .tc main_v5) := by
  simp only [seg0, List.drop_succ_cons, List.drop_zero, List.take_succ_cons, List.take_zero]
  after_results_simp
set_option maxHeartbeats 4000000 in
theorem r_where6 (Y : Valuation τ sig (Elt Ideal)) :
    StableHlo.after (List.take 3 (List.drop 18 (seg0 (F := Ideal)))) Y (Proc.devRef .tc main_v6) = Y (Proc.devRef .tc main_v6) := by
  simp only [seg0, List.drop_succ_cons, List.drop_zero, List.take_succ_cons, List.take_zero]
  after_results_simp
set_option maxHeartbeats 4000000 in
theorem r_prod (Z : Valuation τ sig (Elt Ideal)) :
    StableHlo.after (List.drop 3 (List.drop 18 (seg0 (F := Ideal)))) Z (Proc.devRef .tc main_v29)
      = (mulf (Host.gather gather_S100000_S3300000x1_S3300000_n_0_n_n_0_1_1 (Z (Proc.devRef .tc main_v14) : FVec Ideal S100000 .f32) (wrapR (Z (Proc.devRef .tc main_v5))))
          (Host.gather gather_S100000_S3300000x1_S3300000_n_0_n_n_0_1_1 (Z (Proc.devRef .tc main_v14) : FVec Ideal S100000 .f32) (wrapR (Z (Proc.devRef .tc main_v6)))) : FVec Ideal S3300000 .f32) := by
  simp only [seg0, List.drop_succ_cons, List.drop_zero]
  after_results_simp
  rfl
set_option maxHeartbeats 4000000 in
theorem r_prod5 (Z : Valuation τ sig (Elt Ideal)) :
    StableHlo.after (List.drop 3 (List.drop 18 (seg0 (F := Ideal)))) Z (Proc.devRef .tc main_v5) = Z (Proc.devRef .tc main_v5) := by
  simp only [seg0, List.drop_succ_cons, List.drop_zero]
  after_results_simp
set_option maxHeartbeats 4000000 in
theorem r_prod6 (Z : Valuation τ sig (Elt Ideal)) :
    StableHlo.after (List.drop 3 (List.drop 18 (seg0 (F := Ideal)))) Z (Proc.devRef .tc main_v6) = Z (Proc.devRef .tc main_v6) := by
  simp only [seg0, List.drop_succ_cons, List.drop_zero]
  after_results_simp

theorem r5 (X : Valuation τ sig (Elt Ideal)) :
    StableHlo.after (seg0 (F := Ideal)) X (Proc.devRef .tc main_v5) = srcR (X (Proc.devRef .tc main_arg1)) := by
  rw [after_cut, r_prod5, r_where5, r_src]
theorem r6 (X : Valuation τ sig (Elt Ideal)) :
    StableHlo.after (seg0 (F := Ideal)) X (Proc.devRef .tc main_v6) = dstR (X (Proc.devRef .tc main_arg1)) := by
  rw [after_cut, r_prod6, r_where6, r_dst]
theorem r29 (X : Valuation τ sig (Elt Ideal)) :
    StableHlo.after (seg0 (F := Ideal)) X (Proc.devRef .tc main_v29) = normR (X (Proc.devRef .tc main_arg1)) := by
  rw [after_cut, r_prod, r_where, r_where5, r_where6, r_pos, r_rsq, r_zero, r_src, r_dst]
  rfl

end RSide

/-! ## The two sides agree

The clean terms of the two programs are spelt with each program's own constants for the same literals. -/

theorem src_eq (e : IVec Cert.KernelIdeal.S2x3200000 32) : srcR e = srcK e := rfl
theorem dst_eq (e : IVec Cert.KernelIdeal.S2x3200000 32) : dstR e = dstK e := rfl
theorem norm_eq (e : IVec Cert.KernelIdeal.S2x3200000 32) : normR e = normK e := rfl

section Glue
variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)
  (h1 : m' ((c.tc : Thread Cert.ReferenceIdeal.nD Cert.ReferenceIdeal.τ).loc Cert.ReferenceIdeal.main_arg1)
    = m ((c.tc : Thread Cert.KernelIdeal.nD Cert.KernelIdeal.τ).loc Cert.KernelIdeal.main_arg1))

include h1

/-- The sources with the self-loops appended: the same array in the two programs. -/
theorem glue5 :
    (StableHlo.after (Cert.ReferenceIdeal.RunP.seg0 (F := Ideal)) (StableHlo.launchContents m' c) (Proc.devRef .tc Cert.ReferenceIdeal.main_v5) : Cert.Net.IE)
      = Cert.KernelIdeal.KChain.G5 m ρ c :=
  (r5 (StableHlo.launchContents m' c)).trans ((congrArg srcR h1).trans ((src_eq _).trans (k5 m ρ c).symm))

/-- The destinations with the self-loops appended. -/
theorem glue6 :
    (StableHlo.after (Cert.ReferenceIdeal.RunP.seg0 (F := Ideal)) (StableHlo.launchContents m' c) (Proc.devRef .tc Cert.ReferenceIdeal.main_v6) : Cert.Net.IE)
      = Cert.KernelIdeal.KChain.G6 m ρ c :=
  (r6 (StableHlo.launchContents m' c)).trans ((congrArg dstR h1).trans ((dst_eq _).trans (k6 m ρ c).symm))

/-- Every edge's normalisation. -/
theorem glue29 :
    (StableHlo.after (Cert.ReferenceIdeal.RunP.seg0 (F := Ideal)) (StableHlo.launchContents m' c) (Proc.devRef .tc Cert.ReferenceIdeal.main_v29) : Cert.Net.FE)
      = Cert.KernelIdeal.KChain.G29 m ρ c :=
  (r29 (StableHlo.launchContents m' c)).trans ((congrArg normR h1).trans ((norm_eq _).trans (k29 m ρ c).symm))

end Glue

end Cert.Glue

end
-- ==== Proof.lean ====
/-
  The certificate of a seven-layer graph network against its reference.

  Both programs compute one function of the argument arrays (`Cert.Net.net`): a first dense layer with the
  positive part and a row-wise min-max normalisation; six times a neighbourhood aggregation (gather the source
  rows, scale by the edge's symmetric degree normalisation, add into the destination rows) followed by a dense
  layer; and a last dense layer on the seven feature maps laid side by side, the later five replaced by
  differences of normalised maps. The kernel program does the dense layers in eight tiled regions and the
  aggregations on the host between them; the reference does everything on the host. At the extended reals a
  change of float format is the identity and a sum does not depend on its order or tiling, so block by block each
  region writes the rows of the same whole-array function the reference's dot_general computes; the aggregations
  are the same operations on both sides and are carried as one function that is never opened; the three arrays
  computed from the edge list are the same operations of the same argument. No law of arithmetic beyond that is
  used, and the precondition is never opened.

  The three frames: the two kernel programs' are the generated frame certificates; the reference's is its run with the
  result dropped. The idealization rewrote nothing, so `preserves` asks nothing.
-/
import proofs.«148936_j3496103379547_2_alg».proof.Defs
import proofs.«148936_j3496103379547_2_alg».proof.Proof.Gen.Kernel
import proofs.«148936_j3496103379547_2_alg».proof.Proof.Gen.Kernel.Skeleton
import proofs.«148936_j3496103379547_2_alg».proof.Proof.Gen.Kernel.Launch
import proofs.«148936_j3496103379547_2_alg».proof.Proof.Gen.Kernel.Points
import proofs.«148936_j3496103379547_2_alg».proof.Proof.Gen.Kernel.Frame
import proofs.«148936_j3496103379547_2_alg».proof.Proof.Gen.KernelIdeal
import proofs.«148936_j3496103379547_2_alg».proof.Proof.Gen.KernelIdeal.Skeleton
import proofs.«148936_j3496103379547_2_alg».proof.Proof.Gen.KernelIdeal.Launch
import proofs.«148936_j3496103379547_2_alg».proof.Proof.Gen.KernelIdeal.Points
import proofs.«148936_j3496103379547_2_alg».proof.Proof.Gen.KernelIdeal.Frame
import proofs.«148936_j3496103379547_2_alg».proof.Proof.Gen.ReferenceIdeal
import proofs.«148936_j3496103379547_2_alg».proof.Proof.Gen.Pre_finite_inputs
import proofs.«148936_j3496103379547_2_alg».proof.Proof.KRun
import proofs.«148936_j3496103379547_2_alg».proof.Proof.KChain
import proofs.«148936_j3496103379547_2_alg».proof.Proof.RefRunP
import proofs.«148936_j3496103379547_2_alg».proof.Proof.RChain
import proofs.«148936_j3496103379547_2_alg».proof.Proof.Glue
import proofs.«148936_j3496103379547_2_alg».proof.Proof.Net
import Idealize.ShloMosaic.Adequacy
import Idealize.ShloMosaic.Init

noncomputable section

namespace Cert.Proof

open Idealize.ShloMosaic Idealize.SL.Sem

/-- The word-level kernel program's frame: generated whole. -/
theorem frame_k : Cert.frame_Kernel (hKernel := Cert.Kernel.Gen.facts) (hPre_finite_inputs := Cert.Pre_finite_inputs.Gen.facts) :=
  fun m ρ _ => Cert.Kernel.Gen.frame m ρ

/-- The idealized kernel program's frame: generated whole. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The kernel program ends with the network's value of its arguments (the three arrays of the edge list as its own host
    operations leave them), the arguments as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v147)
        = Cert.Net.net (Cert.KernelIdeal.KChain.G5 m ρ c) (Cert.KernelIdeal.KChain.G6 m ρ c) (Cert.KernelIdeal.KChain.G29 m ρ c)
            (Cert.KernelIdeal.KChain.A0 m c) (Cert.KernelIdeal.KChain.A2 m c) (Cert.KernelIdeal.KChain.A3 m c) (Cert.KernelIdeal.KChain.A4 m c)
            (Cert.KernelIdeal.KChain.A5 m c) (Cert.KernelIdeal.KChain.A6 m c) (Cert.KernelIdeal.KChain.A7 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.KernelIdeal.KChain.result_eq m ρ c), (h c).2⟩)
    (Cert.KernelIdeal.KRun.run_named (F := Ideal) m ρ)

/-- The reference ends with the network's value of its arguments (the three arrays of the edge list as its own first
    operations leave them), the arguments as launched. -/
theorem reference_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v335)
        = Cert.Net.net (Cert.ReferenceIdeal.RChain.G5 m c) (Cert.ReferenceIdeal.RChain.G6 m c) (Cert.ReferenceIdeal.RChain.G29 m c)
            (Cert.ReferenceIdeal.RChain.A0 m c) (Cert.ReferenceIdeal.RChain.A2 m c) (Cert.ReferenceIdeal.RChain.A3 m c) (Cert.ReferenceIdeal.RChain.A4 m c)
            (Cert.ReferenceIdeal.RChain.A5 m c) (Cert.ReferenceIdeal.RChain.A6 m c) (Cert.ReferenceIdeal.RChain.A7 m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run Cert.ReferenceIdeal.defs _ _).mono (fun r h c =>
      have k := Cert.ReferenceIdeal.RChain.args_kept m c
      ⟨(h c Cert.ReferenceIdeal.main_v335).trans (Cert.ReferenceIdeal.RChain.result_eq m c),
       (h c Cert.ReferenceIdeal.main_arg0).trans k.1, (h c Cert.ReferenceIdeal.main_arg1).trans k.2.1, (h c Cert.ReferenceIdeal.main_arg2).trans k.2.2.1,
       (h c Cert.ReferenceIdeal.main_arg3).trans k.2.2.2.1, (h c Cert.ReferenceIdeal.main_arg4).trans k.2.2.2.2.1, (h c Cert.ReferenceIdeal.main_arg5).trans k.2.2.2.2.2.1,
       (h c Cert.ReferenceIdeal.main_arg6).trans k.2.2.2.2.2.2.1, (h c Cert.ReferenceIdeal.main_arg7).trans k.2.2.2.2.2.2.2⟩)
    (Cert.ReferenceIdeal.RunP.run_fold (F := Ideal) m ρ)

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (reference_run m ρ)

/-- The idealization rewrote no operation. -/
theorem preserves : Cert.preserves_Kernel_KernelIdeal := trivial

/-- From memories agreeing on the arguments both programs end at the network's value: the three arrays computed from
    the edge list agree because they are the same operations of the same argument, the other nine arrays are the
    arguments themselves. -/
theorem algebraic : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨fun c => Cert.Net.net (Cert.KernelIdeal.KChain.G5 m ρ c) (Cert.KernelIdeal.KChain.G6 m ρ c) (Cert.KernelIdeal.KChain.G29 m ρ c)
      (Cert.KernelIdeal.KChain.A0 m c) (Cert.KernelIdeal.KChain.A2 m c) (Cert.KernelIdeal.KChain.A3 m c) (Cert.KernelIdeal.KChain.A4 m c)
      (Cert.KernelIdeal.KChain.A5 m c) (Cert.KernelIdeal.KChain.A6 m c) (Cert.KernelIdeal.KChain.A7 m c), kernel_run m ρ, ?_⟩
  refine (θ_run Cert.ReferenceIdeal.defs _ _).mono (fun r h c => ⟨(h c).1.trans ?_, (h c).2⟩) (reference_run m' ρ')
  obtain ⟨h0, h1, h2, h3, h4, h5, h6, h7⟩ := hagree c
  exact Cert.Net.net_congr (Cert.Glue.glue5 m ρ m' c h1) (Cert.Glue.glue6 m ρ m' c h1) (Cert.Glue.glue29 m ρ m' c h1) h0 h2 h3 h4 h5 h6 h7

theorem claim : Cert.Claim :=
  ⟨Cert.Kernel.Gen.facts, Cert.KernelIdeal.Gen.facts, Cert.ReferenceIdeal.Gen.facts, Cert.Pre_finite_inputs.Gen.facts, frame_k, frame_ki, frame_ri, preserves, algebraic⟩

end Cert.Proof

end
